-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S8192 : Shape := ⟨1, ![8192]⟩
abbrev S512x256 : Shape := ⟨2, ![512, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S256 .f32) (main_arg8 : FVec F S256x40 .f32) (main_arg9 : FVec F S40 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x40 .f32 := Host.absf main_arg8
  let main_cst_14 : FVec F S_ .f32 := constant S_ .f32 0x7F800000#32
  let main_v40 : FVec F S256x40 .f32 := broadcastInDim S256x40 ![] bcast_S_S256x40 main_cst_14
  let main_v41 : IVec S256x40 1 := cmpf .olt main_v39 main_v40
  let main_c_15 : IVec S_ 1 := constantI S_ 1 1#1
  let main_v42 : IVec S_ 1 := (fun x v => Host.reduce IntOp.andi x v reducesTo_S256x40_S_d0_1 h_S_) main_v41 main_c_15
  let main_v43 : IVec S_ 1 := andi main_v38 main_v42
  let main_v44 : FVec F S40 .f32 := Host.absf main_arg9
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg4 : FVec F S512x256 .f32) (main_arg5 : FVec F S256 .f32) (main_arg6 : FVec F S256x256 .f32) (main_arg7 : FVec F S256 .f32) (main_arg8 : FVec F S256x40 .f32) (main_arg9 : FVec F S40 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x512 .f32) (main_arg1 : FVec F S8192x8192 .f32) (main_arg2 : FVec F S8192x8192 .f32) (main_arg3 : FVec F S8192 .f32) (main_arg4 : FVec F S512x256 .f32) (main_arg5 : FVec F S256 .f32) (main_arg6 : FVec F S256x256 .f32) (main_arg7 : FVec F S256 .f32) (main_arg8 : FVec F S256x40 .f32) (main_arg9 : FVec F S40 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_arg5 main_arg6 main_arg7 main_arg8 main_arg9 main_v13 main_v16
-- ==== Kernel.lean ====
abbrev S8192x512 : Shape := ⟨2, ![8192, 512]⟩
abbrev S8192x8192 : Shape := ⟨2, ![8192, 8192]⟩
abbrev S8192 : Shape := ⟨1, ![8192]⟩
abbrev S512x256 : Shape := ⟨2, ![512, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S1x8192 : Shape := ⟨2, ![1, 8192]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S8192x1 : Shape := ⟨2, ![8192, 1]⟩
abbrev S8192x256 : Shape := ⟨2, ![8192, 256]⟩
abbrev S1x256 : Shape := ⟨2, ![1, 256]⟩
abbrev S1024x2048 : Shape := ⟨2, ![1024, 2048]⟩
abbrev S2048x256 : Shape := ⟨2, ![2048, 256]⟩
abbrev S1024x256 : Shape := ⟨2, ![1024, 256]⟩
abbrev S1024x1 : Shape := ⟨2, ![1024, 1]⟩
abbrev S8192x40 : Shape := ⟨2, ![8192, 40]⟩
abbrev S8192x128 : Shape := ⟨2, ![8192, 128]⟩
abbrev S128 : Shape := ⟨1, ![128]⟩
abbrev S1x128 : Shape := ⟨2, ![1, 128]⟩
abbrev S2048x128 : Shape := ⟨2, ![2048, 128]⟩
abbrev S1024x128 : Shape := ⟨2, ![1024, 128]⟩

abbrev nBuf : Space → Nat
  | .hbm => 65
  | .vmem => 45
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x8192, .f32⟩
  | .hbm, ⟨3, _⟩ => ⟨S8192, .f32⟩
  | .hbm, ⟨4, _⟩ => ⟨S512x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x40, .f32⟩
  | .hbm, ⟨9, _⟩ => ⟨S40, .f32⟩
  | .hbm, ⟨10, _⟩ => ⟨S8192x8192, .bf16⟩
  | .hbm, ⟨11, _⟩ => ⟨S8192x8192, .bf16⟩
  | .hbm, ⟨12, _⟩ => ⟨S1x8192, .f32⟩
  | .hbm, ⟨13, _⟩ => ⟨S8192x8192, .bf16⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1, .f32⟩
  | .hbm, ⟨25, _⟩ => ⟨S8192x256, .f32⟩
  | .hbm, ⟨26, _⟩ => ⟨S1x256, .f32⟩
  | .hbm, ⟨27, _⟩ => ⟨S8192x256, .f32⟩
  | .hbm, ⟨28, _⟩ => ⟨S8192x256, .f32⟩
  | .hbm, ⟨29, _⟩ => ⟨S8192x256, .bf16⟩
  | .hbm, ⟨30, _⟩ => ⟨S8192x256, .f32⟩
  | .hbm, ⟨31, _⟩ => ⟨S8192x256, .f32⟩
  | .hbm, ⟨32, _⟩ => ⟨S1x256, .f32⟩
  | .hbm, ⟨33, _⟩ => ⟨S8192x256, .f32⟩
  | .hbm, ⟨34, _⟩ => ⟨S8192x256, .f32⟩
  | .hbm, ⟨35, _⟩ => ⟨S8192x256, .bf16⟩
  | .hbm, ⟨36, _⟩ => ⟨S8192x256, .f32⟩
  | .hbm, ⟨37, _⟩ => ⟨S8192x40, .f32⟩
  | .hbm, ⟨38, _⟩ => ⟨S_, .i32⟩
  | .hbm, ⟨39, _⟩ => ⟨S_, .f32⟩
  | .hbm, ⟨40, _⟩ => ⟨S8192x128, .f32⟩
  | .hbm, ⟨41, _⟩ => ⟨S_, .i32⟩
  | .hbm, ⟨42, _⟩ => ⟨S_, .f32⟩
  | .hbm, ⟨43, _⟩ => ⟨S128, .f32⟩
  | .hbm, ⟨44, _⟩ => ⟨S1x128, .f32⟩
  | .hbm, ⟨45, _⟩ => ⟨S8192x128, .f32⟩
  | .hbm, ⟨46, _⟩ => ⟨S8192x128, .f32⟩
  | .hbm, ⟨47, _⟩ => ⟨S8192x128, .bf16⟩
  | .hbm, ⟨48, _⟩ => ⟨S8192x128, .f32⟩
  | .hbm, ⟨49, _⟩ => ⟨S8192x40, .f32⟩
  | .hbm, ⟨50, _⟩ => ⟨S_, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192x1, .f32⟩
  | .hbm, ⟨56, _⟩ => ⟨S8192x40, .f32⟩
  | .hbm, ⟨57, _⟩ => ⟨S8192x40, .f32⟩
  | .hbm, ⟨58, _⟩ => ⟨S8192x40, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1, .f32⟩
  | .hbm, ⟨63, _⟩ => ⟨S8192x40, .f32⟩
  | .hbm, ⟨64, _⟩ => ⟨S8192x40, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x2048, .bf16⟩
  | .local _ .vmem, ⟨10, _⟩ => ⟨S1024x2048, .bf16⟩
  | .local _ .vmem, ⟨11, _⟩ => ⟨S2048x256, .bf16⟩
  | .local _ .vmem, ⟨12, _⟩ => ⟨S2048x256, .bf16⟩
  | .local _ .vmem, ⟨13, _⟩ => ⟨S1024x256, .f32⟩
  | .local _ .vmem, ⟨14, _⟩ => ⟨S1024x256, .f32⟩
  | .local _ .vmem, ⟨15, _⟩ => ⟨S1024x1, .f32⟩
  | .local _ .vmem, ⟨16, _⟩ => ⟨S1024x1, .f32⟩
  | .local _ .vmem, ⟨17, _⟩ => ⟨S1x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x2048, .bf16⟩
  | .local _ .vmem, ⟨22, _⟩ => ⟨S1024x2048, .bf16⟩
  | .local _ .vmem, ⟨23, _⟩ => ⟨S2048x256, .bf16⟩
  | .local _ .vmem, ⟨24, _⟩ => ⟨S2048x256, .bf16⟩
  | .local _ .vmem, ⟨25, _⟩ => ⟨S1024x256, .f32⟩
  | .local _ .vmem, ⟨26, _⟩ => ⟨S1024x256, .f32⟩
  | .local _ .vmem, ⟨27, _⟩ => ⟨S1024x1, .f32⟩
  | .local _ .vmem, ⟨28, _⟩ => ⟨S1024x1, .f32⟩
  | .local _ .vmem, ⟨29, _⟩ => ⟨S1x256, .f32⟩
  | .local _ .vmem, ⟨30, _⟩ => ⟨S1024x256, .f32⟩
  | .local _ .vmem, ⟨31, _⟩ => ⟨S1024x256, .f32⟩
  | .local _ .vmem, ⟨32, _⟩ => ⟨S1024x256, .f32⟩
  | .local _ .vmem, ⟨33, _⟩ => ⟨S1024x2048, .bf16⟩
  | .local _ .vmem, ⟨34, _⟩ => ⟨S1024x2048, .bf16⟩
  | .local _ .vmem, ⟨35, _⟩ => ⟨S2048x128, .bf16⟩
  | .local _ .vmem, ⟨36, _⟩ => ⟨S2048x128, .bf16⟩
  | .local _ .vmem, ⟨37, _⟩ => ⟨S1024x128, .f32⟩
  | .local _ .vmem, ⟨38, _⟩ => ⟨S1024x128, .f32⟩
  | .local _ .vmem, ⟨39, _⟩ => ⟨S1024x1, .f32⟩
  | .local _ .vmem, ⟨40, _⟩ => ⟨S1024x1, .f32⟩
  | .local _ .vmem, ⟨41, _⟩ => ⟨S1x128, .f32⟩
  | .local _ .vmem, ⟨42, _⟩ => ⟨S1024x128, .f32⟩
  | .local _ .vmem, ⟨43, _⟩ => ⟨S1024x128, .f32⟩
  | .local _ .vmem, ⟨44, _⟩ => ⟨S1024x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_call0_v0 : Ref sig .tc := ⟨.hbm, 39, rfl⟩
abbrev main_v25 : Ref sig .tc := ⟨.hbm, 40, rfl⟩
abbrev main_c_2 : Ref sig .tc := ⟨.hbm, 41, rfl⟩
abbrev main_call1_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call2_cst : Ref sig .tc := ⟨.hbm, 50, rfl⟩
abbrev main_call2_v0 : Ref sig .tc := ⟨.hbm, 51, rfl⟩
abbrev main_call2_cst_0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_cst_1 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_v33 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_scratch0 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc3_scratch0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem5_0 : DmaSem sig := 39
abbrev cc3_sem5_1 : DmaSem sig := 40

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![8, 4], ![false, false]⟩

def k2_cond2 (i : grid2.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1024x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨2, ![8, 4], ![false, false]⟩

def k3_cond2 (i : grid3.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1024x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1024x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

class Facts₀ : Prop where
  bitsLt_bf16_f32 : FTy.bits .bf16 < FTy.bits .f32
  shapeCasts_S8192_S1x8192 : S8192.ShapeCasts S1x8192
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  reducesTo_S8192x8192_S8192_d1 : S8192x8192.ReducesTo [1] S8192
  h_S_ : 0 < S_.numel
  bcast_S_S8192 : S_.BroadcastsInDim S8192 (![] : Fin 0 → Fin S8192.rank)
  shapeCasts_S8192_S8192x1 : S8192.ShapeCasts S8192x1
  shapeCasts_S256_S1x256 : S256.ShapeCasts S1x256
  bcast_S8192x1_S8192x256_0_1 : S8192x1.BroadcastsInDim S8192x256 (![0, 1] : Fin 2 → Fin S8192x256.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  pads_S8192x40_S8192x128_000_0880 : S8192x40.Pads (![0, 0] : Fin 2 → Nat) ![0, 88] ![0, 0] S8192x128
  pads_S40_S128_0880 : S40.Pads (![0] : Fin 1 → Nat) ![88] ![0] S128
  shapeCasts_S128_S1x128 : S128.ShapeCasts S1x128
  bcast_S8192x1_S8192x128_0_1 : S8192x1.BroadcastsInDim S8192x128 (![0, 1] : Fin 2 → Fin S8192x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S1024x1_S1024x128 : S1024x1.Broadcasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  slices_S8192x128_S8192x40_0_0 : S8192x128.Slices ![0, 0] S8192x40
  reducesTo_S8192x40_S8192_d1 : S8192x40.ReducesTo [1] S8192
  bcast_S8192_S8192x1_0 : S8192.BroadcastsInDim S8192x1 (![0] : Fin 1 → Fin S8192x1.rank)
  bcast_S8192x1_S8192x40_0_1 : S8192x1.BroadcastsInDim S8192x40 (![0, 1] : Fin 2 → Fin S8192x40.rank)
  dot_S1024x4096_S4096x1024_S1024x1024_1_0_0_1_n_n_wf : DotDims.WF S1024x4096 S4096x1024 S1024x1024 [1] [0] [0] [1] [] []
  dot_S8192x512_S512x256_S8192x256_1_0_0_1_n_n_wf : DotDims.WF S8192x512 S512x256 S8192x256 [1] [0] [0] [1] [] []
  dot_S1024x2048_S2048x256_S1024x256_1_0_0_1_n_n_wf : DotDims.WF S1024x2048 S2048x256 S1024x256 [1] [0] [0] [1] [] []
  dot_S8192x256_S256x256_S8192x256_1_0_0_1_n_n_wf : DotDims.WF S8192x256 S256x256 S8192x256 [1] [0] [0] [1] [] []
  dot_S8192x256_S256x40_S8192x40_1_0_0_1_n_n_wf : DotDims.WF S8192x256 S256x40 S8192x40 [1] [0] [0] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x8192.size a
  hwx0_0 : ∀ i : grid0.Coords, EltTy.bits .bf16 = 32 ∨ (Rect.block (s := S8192x8192) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S8192x8192.size a
  hwx0_1 : ∀ i : grid0.Coords, EltTy.bits .bf16 = 32 ∨ (Rect.block (s := S8192x8192) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .bf16 = 32 ∨ (Rect.block (s := S8192x8192) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .bf16 = 32 ∨ (Rect.block (s := S8192x8192) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .bf16 = 32 ∨ (Rect.block (s := S8192x256) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S8192x256.size a
  hwx1_5 : ∀ i : grid1.Coords, EltTy.bits .f32 = 32 ∨ (Rect.block (s := S8192x256) S1024x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .bf16 = 32 ∨ (Rect.block (s := S8192x8192) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S8192x256.size a
  hwx2_1 : ∀ i : grid2.Coords, EltTy.bits .bf16 = 32 ∨ (Rect.block (s := S8192x256) S2048x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S8192x256.size a
  hwx2_2 : ∀ i : grid2.Coords, EltTy.bits .f32 = 32 ∨ (Rect.block (s := S8192x256) S1024x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S8192x1.size a
  hwx2_3 : ∀ i : grid2.Coords, EltTy.bits .f32 = 32 ∨ (Rect.block (s := S8192x1) S1024x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x256.size a ≤ S8192x256.size a
  hwx2_5 : ∀ i : grid2.Coords, EltTy.bits .f32 = 32 ∨ (Rect.block (s := S8192x256) S1024x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S8192x8192.size a
  hwx3_0 : ∀ i : grid3.Coords, EltTy.bits .bf16 = 32 ∨ (Rect.block (s := S8192x8192) S1024x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S8192x128.size a
  hwx3_1 : ∀ i : grid3.Coords, EltTy.bits .bf16 = 32 ∨ (Rect.block (s := S8192x128) S2048x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x128.size a ≤ S8192x128.size a
  hwx3_2 : ∀ i : grid3.Coords, EltTy.bits .f32 = 32 ∨ (Rect.block (s := S8192x128) S1024x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1.size a ≤ S8192x1.size a
  hwx3_3 : ∀ i : grid3.Coords, EltTy.bits .f32 = 32 ∨ (Rect.block (s := S8192x1) S1024x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x128.size a ≤ S8192x128.size a
  hwx3_5 : ∀ i : grid3.Coords, EltTy.bits .f32 = 32 ∨ (Rect.block (s := S8192x128) S1024x128.size (cc3_transform_5 i) (hinb3_5 i)).WholeWords (EltTy.packing .f32)

variable [Facts₀]

def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x40_S8192x40_1_0_0_1_n_n : DotDims S8192x256 S256x40 S8192x40 where
  lhsContracting := [1]
  rhsContracting := [0]
  lhsNonContracting := [0]
  rhsNonContracting := [1]
  lhsBatch := []
  rhsBatch := []
  wf := dot_S8192x256_S256x40_S8192x40_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v3) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1024x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v3) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1024x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1024x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v19) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v23) S1024x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v3) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S1024x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v11) S1024x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v27) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v31) S1024x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S8192 : Shape := ⟨1, ![8192]⟩
abbrev S512x256 : Shape := ⟨2, ![512, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S1x8192 : Shape := ⟨2, ![1, 8192]⟩
abbrev S_ : Shape := ⟨0, ![]⟩
abbrev S8192x1 : Shape := ⟨2, ![8192, 1]⟩
abbrev S8192x256 : Shape := ⟨2, ![8192, 256]⟩
abbrev S1x256 : Shape := ⟨2, ![1, 256]⟩
abbrev S8192x40 : Shape := ⟨2, ![8192, 40]⟩
abbrev S1x40 : Shape := ⟨2, ![1, 40]⟩

abbrev nBuf : Space → Nat
  | .hbm => 73
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x8192, .f32⟩
  | .hbm, ⟨3, _⟩ => ⟨S8192, .f32⟩
  | .hbm, ⟨4, _⟩ => ⟨S512x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x40, .f32⟩
  | .hbm, ⟨9, _⟩ => ⟨S40, .f32⟩
  | .hbm, ⟨10, _⟩ => ⟨S8192x8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .i32⟩
  | .hbm, ⟨18, _⟩ => ⟨S8192x8192, .i32⟩
  | .hbm, ⟨19, _⟩ => ⟨S_, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S8192x8192, .f32⟩
  | .hbm, ⟨33, _⟩ => ⟨S8192x8192, .f32⟩
  | .hbm, ⟨34, _⟩ => ⟨S1x8192, .f32⟩
  | .hbm, ⟨35, _⟩ => ⟨S8192x8192, .f32⟩
  | .hbm, ⟨36, _⟩ => ⟨S8192x8192, .f32⟩
  | .hbm, ⟨37, _⟩ => ⟨S8192x256, .f32⟩
  | .hbm, ⟨38, _⟩ => ⟨S8192x256, .f32⟩
  | .hbm, ⟨39, _⟩ => ⟨S1x256, .f32⟩
  | .hbm, ⟨40, _⟩ => ⟨S8192x256, .f32⟩
  | .hbm, ⟨41, _⟩ => ⟨S8192x256, .f32⟩
  | .hbm, ⟨42, _⟩ => ⟨S_, .f32⟩
  | .hbm, ⟨43, _⟩ => ⟨S8192x256, .f32⟩
  | .hbm, ⟨44, _⟩ => ⟨S8192x256, .f32⟩
  | .hbm, ⟨45, _⟩ => ⟨S8192x256, .f32⟩
  | .hbm, ⟨46, _⟩ => ⟨S8192x256, .f32⟩
  | .hbm, ⟨47, _⟩ => ⟨S1x256, .f32⟩
  | .hbm, ⟨48, _⟩ => ⟨S8192x256, .f32⟩
  | .hbm, ⟨49, _⟩ => ⟨S8192x256, .f32⟩
  | .hbm, ⟨50, _⟩ => ⟨S_, .f32⟩
  | .hbm, ⟨51, _⟩ => ⟨S8192x256, .f32⟩
  | .hbm, ⟨52, _⟩ => ⟨S8192x256, .f32⟩
  | .hbm, ⟨53, _⟩ => ⟨S8192x40, .f32⟩
  | .hbm, ⟨54, _⟩ => ⟨S8192x40, .f32⟩
  | .hbm, ⟨55, _⟩ => ⟨S1x40, .f32⟩
  | .hbm, ⟨56, _⟩ => ⟨S8192x40, .f32⟩
  | .hbm, ⟨57, _⟩ => ⟨S8192x40, .f32⟩
  | .hbm, ⟨58, _⟩ => ⟨S_, .f32⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S8192x1, .f32⟩
  | .hbm, ⟨64, _⟩ => ⟨S8192x40, .f32⟩
  | .hbm, ⟨65, _⟩ => ⟨S8192x40, .f32⟩
  | .hbm, ⟨66, _⟩ => ⟨S8192x40, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S8192x1, .f32⟩
  | .hbm, ⟨71, _⟩ => ⟨S8192x40, .f32⟩
  | .hbm, ⟨72, _⟩ => ⟨S8192x40, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call1_cst : Ref sig .tc := ⟨.hbm, 42, rfl⟩
abbrev main_call1_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call2_cst : Ref sig .tc := ⟨.hbm, 50, rfl⟩
abbrev main_call2_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call3_cst : Ref sig .tc := ⟨.hbm, 58, rfl⟩
abbrev main_call3_v0 : Ref sig .tc := ⟨.hbm, 59, rfl⟩
abbrev main_call3_cst_0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_call3_v6 : Ref sig .tc := ⟨.hbm, 66, rfl⟩
abbrev main_call3_cst_1 : Ref sig .tc := ⟨.hbm, 67, rfl⟩
abbrev main_call3_v7 : Ref sig .tc := ⟨.hbm, 68, rfl⟩
abbrev main_call3_v8 : Ref sig .tc := ⟨.hbm, 69, rfl⟩
abbrev main_call3_v9 : Ref sig .tc := ⟨.hbm, 70, rfl⟩
abbrev main_call3_v10 : Ref sig .tc := ⟨.hbm, 71, rfl⟩
abbrev main_v39 : Ref sig .tc := ⟨.hbm, 72, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S40_S1x40_1 : S40.BroadcastsInDim S1x40 (![1] : Fin 1 → Fin S1x40.rank)
  bcast_S1x40_S8192x40_0_1 : S1x40.BroadcastsInDim S8192x40 (![0, 1] : Fin 2 → Fin S8192x40.rank)
  reducesTo_S8192x40_S8192_d1 : S8192x40.ReducesTo [1] S8192
  bcast_S8192x1_S8192x40_0_1 : S8192x1.BroadcastsInDim S8192x40 (![0, 1] : Fin 2 → Fin S8192x40.rank)
  dot_S8192x8192_S8192x8192_S8192x8192_1_0_0_1_n_n_wf : DotDims.WF S8192x8192 S8192x8192 S8192x8192 [1] [0] [0] [1] [] []
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []
  dot_S8192x256_S256x40_S8192x40_1_0_0_1_n_n_wf : DotDims.WF S8192x256 S256x40 S8192x40 [1] [0] [0] [1] [] []
  dot_S8192x8192_S8192x40_S8192x40_1_0_0_1_n_n_wf : DotDims.WF S8192x8192 S8192x40 S8192x40 [1] [0] [0] [1] [] []

variable [Facts₀]

def dot_S8192x8192_S8192x8192_S8192x8192_1_0_0_1_n_n : DotDims S8192x8192 S8192x8192 S8192x8192 where
  lhsContracting := [1]
  rhsContracting := [0]
  lhsNonContracting := [0]
  rhsNonContracting := [1]
  lhsBatch := []
  rhsBatch := []
  wf := dot_S8192x8192_S8192x8192_S8192x8192_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x40_S8192x40_1_0_0_1_n_n : DotDims S8192x256 S256x40 S8192x40 where
  lhsContracting := [1]
  rhsContracting := [0]
  lhsNonContracting := [0]
  rhsNonContracting := [1]
  lhsBatch := []
  rhsBatch := []
  wf := dot_S8192x256_S256x40_S8192x40_1_0_0_1_n_n_wf
def dot_S8192x8192_S8192x40_S8192x40_1_0_0_1_n_n : DotDims S8192x8192 S8192x40 S8192x40 where
  lhsContracting := [1]
  rhsContracting := [0]
  lhsNonContracting := [0]
  rhsNonContracting := [1]
  lhsBatch := []
  rhsBatch := []
  wf := dot_S8192x8192_S8192x40_S8192x40_1_0_0_1_n_n_wf

class Facts : Prop extends Facts₀ where

variable [Facts]
-- ==== Proof.K.Asm1.lean ====
/-
  The program's run assembled from its four kernel regions.

  Between two items of the program every core holds each unscoped buffer whole. The contents are followed through
  the program: the launch memory, then each stretch of host operations applied, then at each region the output
  array replaced by what the region's write-backs leave, the folded write-backs of that region's proof data.
  Each region enters with its windows' arrays read off the contents before it, runs its grid with the accumulator
  scratch carried in the region's invariant, and leaves every buffer but its output array as it found it.
  A region's own module supplies its proof data, the body obligation at every grid point, and the two entailments
  that open and close the invariant; this module is stated over such data for the four regions, whatever they are.
-/
import proofs.«102678_j21827023798522_2_alg».proof.Proof.Gen.Kernel.Regions
import proofs.«102678_j21827023798522_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Every core's buffer contents when a region is entered, read at the TensorCore's references. -/
abbrev Entry (F : FTy → Type) [FloatOps F] : Type :=
  (c : Dev nD) → (b : Ref sig .tc) → Buf (Elt F) ((c : Thread nD τ).loc b)

/-- What one region contributes, at any entry contents `V`: proof data whose arrays are `V`'s, held whole, owing
    nothing; the body's obligation at every grid point; the invariant before the first point from the scoped
    buffers no window stages and the generator register, and those back from the invariant after the last. -/
structure RegionData (cfg : Pipeline.Cfg sig Λ₀) where
  dat : Entry F → (c : Dev nD) → Dat τ (Elt F) Unit ℕ (UR sig nD τ) ℕ cfg c
  A_eq : ∀ V c w, (dat V c).A w = V c (Pipeline.arrRef cfg.spec w)
  q_eq : ∀ V c w, (dat V c).q w = fullShare
  owed_eq : ∀ V c t, (dat V c).owed t = 0
  rec_eq : ∀ V c t, (dat V c).recorded t = Set.univ
  body : ∀ V c, BodyObligation (dat V c) (defs₀ (F := F)) Variants.none () Set.univ
  hin : ∀ V c, (Pipeline.ΦA cfg.spec c : sProp 𝕄) ⊢ (dat V c).Φ 0
  hout : ∀ V c, (dat V c).Φ (Fin.last cfg.N) ⊢ (Pipeline.ΦA cfg.spec c : sProp 𝕄)

variable (m : (ℓ : Loc nD τ sig) → Buf (Elt F) ℓ)
variable (I0 : RegionData (F := F) cfg0) (I1 : RegionData (F := F) cfg1) (I2 : RegionData (F := F) cfg2) (I3 : RegionData (F := F) cfg3)

/-! ## The contents between items, with each region's output named -/

/-- Before region 0: the launch memory after the first host stretch. -/
abbrev U1 (c : Dev nD) : Valuation τ sig (Elt F) := V1 m c
/-- What region 0 leaves in its output array: its proof data's write-backs folded over the whole grid. -/
def x0 (c : Dev nD) : Buf (Elt F) ((c : Thread nD τ).loc main_v3) := (I0.dat (fun c b => U1 m c b) c).arrAt 3 cfg0.N
abbrev U2 (c : Dev nD) : Valuation τ sig (Elt F) := Function.update (U1 m c) main_v3 (x0 m I0 c)
abbrev U3 (c : Dev nD) : Valuation τ sig (Elt F) := StableHlo.after hostOps1 (U2 m I0 c)
/-- What region 1 leaves in its output array. -/
def x1 (c : Dev nD) : Buf (Elt F) ((c : Thread nD τ).loc main_v17) := (I1.dat (fun c b => U3 m I0 c b) c).arrAt 5 cfg1.N
abbrev U4 (c : Dev nD) : Valuation τ sig (Elt F) := Function.update (U3 m I0 c) main_v17 (x1 m I0 I1 c)
abbrev U5 (c : Dev nD) : Valuation τ sig (Elt F) := StableHlo.after hostOps2 (U4 m I0 I1 c)
/-- What region 2 leaves in its output array. -/
def x2 (c : Dev nD) : Buf (Elt F) ((c : Thread nD τ).loc main_v23) := (I2.dat (fun c b => U5 m I0 I1 c b) c).arrAt 5 cfg2.N
abbrev U6 (c : Dev nD) : Valuation τ sig (Elt F) := Function.update (U5 m I0 I1 c) main_v23 (x2 m I0 I1 I2 c)
abbrev U7 (c : Dev nD) : Valuation τ sig (Elt F) := StableHlo.after hostOps3 (U6 m I0 I1 I2 c)
abbrev U8 (c : Dev nD) : Valuation τ sig (Elt F) := StableHlo.after hostOps3_1 (U7 m I0 I1 I2 c)
abbrev U9 (c : Dev nD) : Valuation τ sig (Elt F) := StableHlo.after hostOps3_2 (U8 m I0 I1 I2 c)
abbrev U10 (c : Dev nD) : Valuation τ sig (Elt F) := StableHlo.after hostOps3_3 (U9 m I0 I1 I2 c)
abbrev U11 (c : Dev nD) : Valuation τ sig (Elt F) := StableHlo.after hostOps3_4 (U10 m I0 I1 I2 c)
/-- What region 3 leaves in its output array. -/
def x3 (c : Dev nD) : Buf (Elt F) ((c : Thread nD τ).loc main_v31) := (I3.dat (fun c b => U11 m I0 I1 I2 c b) c).arrAt 5 cfg3.N
abbrev U12 (c : Dev nD) : Valuation τ sig (Elt F) := Function.update (U11 m I0 I1 I2 c) main_v31 (x3 m I0 I1 I2 I3 c)
abbrev U13 (c : Dev nD) : Valuation τ sig (Elt F) := StableHlo.after hostOps4 (U12 m I0 I1 I2 I3 c)
abbrev U14 (c : Dev nD) : Valuation τ sig (Elt F) := StableHlo.after hostOps4_1 (U13 m I0 I1 I2 I3 c)

/-- The contents the regions leave, as the family the host side is stated over: each region's output array at what
    its write-backs leave, any other buffer (never read) at its launch contents. -/
def outs : Outs (F := F) := fun _ r c =>
  if h : r = main_v3 then h ▸ x0 m I0 c
  else if h : r = main_v17 then h ▸ x1 m I0 I1 c
  else if h : r = main_v23 then h ▸ x2 m I0 I1 I2 c
  else if h : r = main_v31 then h ▸ x3 m I0 I1 I2 I3 c
  else m ((c : Thread nD τ).loc r)

theorem outs_v3 (J : ℕ) (c : Dev nD) : outs m I0 I1 I2 I3 J main_v3 c = x0 m I0 c := dif_pos rfl
theorem outs_v17 (J : ℕ) (c : Dev nD) : outs m I0 I1 I2 I3 J main_v17 c = x1 m I0 I1 c :=
  (dif_neg (by decide)).trans (dif_pos rfl)
theorem outs_v23 (J : ℕ) (c : Dev nD) : outs m I0 I1 I2 I3 J main_v23 c = x2 m I0 I1 I2 c :=
  (dif_neg (by decide)).trans ((dif_neg (by decide)).trans (dif_pos rfl))
theorem outs_v31 (J : ℕ) (c : Dev nD) : outs m I0 I1 I2 I3 J main_v31 c = x3 m I0 I1 I2 I3 c :=
  (dif_neg (by decide)).trans ((dif_neg (by decide)).trans ((dif_neg (by decide)).trans (dif_pos rfl)))

/-! The host side's contents at that family are the contents above. -/
theorem V2_eq (c : Dev nD) : V2 m (outs m I0 I1 I2 I3) c = U2 m I0 c := by
  show Function.update (V1 m c) _ (outs m I0 I1 I2 I3 2 main_v3 c) = Function.update (V1 m c) _ (x0 m I0 c)
  rw [outs_v3]
theorem V3_eq (c : Dev nD) : V3 m (outs m I0 I1 I2 I3) c = U3 m I0 c := by
  show StableHlo.after hostOps1 (V2 m (outs m I0 I1 I2 I3) c) = _
  rw [V2_eq]
theorem V4_eq (c : Dev nD) : V4 m (outs m I0 I1 I2 I3) c = U4 m I0 I1 c := by
  show Function.update (V3 m (outs m I0 I1 I2 I3) c) _ (outs m I0 I1 I2 I3 4 main_v17 c) = _
  rw [outs_v17, V3_eq]
theorem V5_eq (c : Dev nD) : V5 m (outs m I0 I1 I2 I3) c = U5 m I0 I1 c := by
  show StableHlo.after hostOps2 (V4 m (outs m I0 I1 I2 I3) c) = _
  rw [V4_eq]
theorem V6_eq (c : Dev nD) : V6 m (outs m I0 I1 I2 I3) c = U6 m I0 I1 I2 c := by
  show Function.update (V5 m (outs m I0 I1 I2 I3) c) _ (outs m I0 I1 I2 I3 6 main_v23 c) = _
  rw [outs_v23, V5_eq]
theorem V11_eq (c : Dev nD) : V11 m (outs m I0 I1 I2 I3) c = U11 m I0 I1 I2 c := by
  show StableHlo.after hostOps3_4 (StableHlo.after hostOps3_3 (StableHlo.after hostOps3_2 (StableHlo.after hostOps3_1 (StableHlo.after hostOps3 (V6 m (outs m I0 I1 I2 I3) c))))) = _
  rw [V6_eq]
theorem V12_eq (c : Dev nD) : V12 m (outs m I0 I1 I2 I3) c = U12 m I0 I1 I2 I3 c := by
  show Function.update (V11 m (outs m I0 I1 I2 I3) c) _ (outs m I0 I1 I2 I3 12 main_v31 c) = _
  rw [outs_v31, V11_eq]
theorem V14_eq (c : Dev nD) : V14 m (outs m I0 I1 I2 I3) c = U14 m I0 I1 I2 I3 c := by
  show StableHlo.after hostOps4_1 (StableHlo.after hostOps4 (V12 m (outs m I0 I1 I2 I3) c)) = _
  rw [V12_eq]

/-! ## The proof data family and what rides beside the buffers -/

/-- Every pipeline's proof data, each at the contents its region is entered from. -/
def pdats : (p : Fin 4) → (c : Dev nD) → Dat τ (Elt F) Unit ℕ (UR sig nD τ) ℕ (cfgs p) c
  | ⟨0, _⟩ => fun c => I0.dat (fun c b => U1 m c b) c
  | ⟨1, _⟩ => fun c => I1.dat (fun c b => U3 m I0 c b) c
  | ⟨2, _⟩ => fun c => I2.dat (fun c b => U5 m I0 I1 c b) c
  | ⟨3, _⟩ => fun c => I3.dat (fun c b => U11 m I0 I1 I2 c b) c

/-- No core owes another anything: no level is assigned. -/
abbrev L : GSem nD τ sig → Finset Unit := fun _ => ∅
abbrev lv : GSem nD τ sig → Unit → ℕ := fun _ _ => 0
/-- Beside the buffers, through every item: the core's generator register at some state, and the core owing nothing. -/
abbrev R (c : Dev nD) : sProp 𝕄 := iprop((∃ r, prngReg c r) ∗ ∃ W, owes (c : Thread nD τ) (0 : CellTallies nD τ sig Unit) W)

/-- Each region's proof data have their arrays at the contents the region is entered from. -/
theorem hA0 (c : Dev nD) (w : Fin cfg0.W) : (pdats m I0 I1 I2 I3 0 c).A w = (fun b => V1 m c b) (Pipeline.arrRef spec0 w) := I0.A_eq _ c w
theorem hA1 (c : Dev nD) (w : Fin cfg1.W) : (pdats m I0 I1 I2 I3 1 c).A w = (fun b => V3 m (outs m I0 I1 I2 I3) c b) (Pipeline.arrRef spec1 w) := by
  rw [V3_eq]; exact I1.A_eq _ c w
theorem hA2 (c : Dev nD) (w : Fin cfg2.W) : (pdats m I0 I1 I2 I3 2 c).A w = (fun b => V5 m (outs m I0 I1 I2 I3) c b) (Pipeline.arrRef spec2 w) := by
  rw [V5_eq]; exact I2.A_eq _ c w
theorem hA3 (c : Dev nD) (w : Fin cfg3.W) : (pdats m I0 I1 I2 I3 3 c).A w = (fun b => V11 m (outs m I0 I1 I2 I3) c b) (Pipeline.arrRef spec3 w) := by
  rw [V11_eq]; exact I3.A_eq _ c w

/-! ## Region 0 -/

set_option maxHeartbeats 1000000 in
/-- At region 0's exit each of its arrays holds what the pipeline leaves: an input as entered, the output its folded write-backs. -/
theorem hF0 (c : Dev nD) (w : Fin cfg0.W) :
    (pdats m I0 I1 I2 I3 0 c).arrAt w cfg0.N = (fun b => V2 m (outs m I0 I1 I2 I3) c b) (Pipeline.arrRef spec0 w) := by
  match w with
  | ⟨0, _⟩ => exact ((pdats m I0 I1 I2 I3 0 c).arrAt_in 0 rfl _).trans ((hA0 m I0 I1 I2 I3 c 0).trans (V2_of m _ c main_v0 (by decide)).symm)
  | ⟨1, _⟩ => exact ((pdats m I0 I1 I2 I3 0 c).arrAt_in 1 rfl _).trans ((hA0 m I0 I1 I2 I3 c 1).trans (V2_of m _ c main_v1 (by decide)).symm)
  | ⟨2, _⟩ => exact ((pdats m I0 I1 I2 I3 0 c).arrAt_in 2 rfl _).trans ((hA0 m I0 I1 I2 I3 c 2).trans (V2_of m _ c main_v2 (by decide)).symm)
  | ⟨3, _⟩ =>
    have e : V2 m (outs m I0 I1 I2 I3) c (Proc.devRef .tc main_v3) = x0 m I0 c := by
      show Function.update (V1 m c) (Proc.devRef .tc main_v3) (outs m I0 I1 I2 I3 2 main_v3 c) (Proc.devRef .tc main_v3) = _
      rw [Function.update_self, outs_v3]
    exact e.symm
/-- Every other buffer holds what it held at entry. -/
theorem hrest0 (c : Dev nD) : ∀ b, b ∉ Finset.univ.image (Pipeline.arrRef spec0) →
    (fun b => V2 m (outs m I0 I1 I2 I3) c b) b = (fun b => V1 m c b) b :=
  fun b hb => V2_of m _ c b fun hmem => hb (Finset.mem_image.mpr ⟨3, Finset.mem_univ _, (List.mem_singleton.mp hmem).symm⟩)

/-- The region's invariant before its first point, from the generator register and the scoped buffers no window stages. -/
theorem hin0 (c : Dev nD) : (iprop((∃ r, prngReg c r) ∗ Pipeline.prefHeld (pcfgs (F := F) 0).pre c (fun _ => fullShare) (adm (F := F) 0).1
      ∗ Pipeline.scopedRest (Ix := Unit) (Name := ℕ) (U := UR sig nD τ) (Lvl := ℕ) (Val := Elt F) spec0 c) : sProp 𝕄) ⊢ (pdats m I0 I1 I2 I3 0 c).Φ 0 := by
  have h : (iprop((∃ r, prngReg c r) ∗ Pipeline.prefHeld (pcfgs (F := F) 0).pre c (fun _ => fullShare) (adm (F := F) 0).1
      ∗ Pipeline.scopedRest (Ix := Unit) (Name := ℕ) (U := UR sig nD τ) (Lvl := ℕ) (Val := Elt F) spec0 c) : sProp 𝕄) ⊢ (Pipeline.ΦA spec0 c : sProp 𝕄) := by
    unfold Pipeline.ΦA
    iintro ⟨Hp, -, Hr⟩
    isplitl [Hr]; · iexact Hr
    iexact Hp
  exact h.trans (I0.hin _ c)
/-- After its last point the invariant gives them back. -/
theorem hout0 (c : Dev nD) : (pdats m I0 I1 I2 I3 0 c).Φ (Fin.last cfg0.N) ⊢ (iprop((∃ r, prngReg c r) ∗ BI.emp
      ∗ Pipeline.scopedRest (Ix := Unit) (Name := ℕ) (U := UR sig nD τ) (Lvl := ℕ) (Val := Elt F) spec0 c) : sProp 𝕄) := by
  have h : (Pipeline.ΦA spec0 c : sProp 𝕄) ⊢ (iprop((∃ r, prngReg c r) ∗ BI.emp
      ∗ Pipeline.scopedRest (Ix := Unit) (Name := ℕ) (U := UR sig nD τ) (Lvl := ℕ) (Val := Elt F) spec0 c) : sProp 𝕄) := by
    unfold Pipeline.ΦA
    iintro ⟨Hr, Hp⟩
    isplitl [Hp]; · iexact Hp
    isplitr; · iempintro
    iexact Hr
  exact (I0.hout _ c).trans h

set_option backward.isDefEq.respectTransparency.types false in
/-- REGION 0 over the thread state "every unscoped buffer at the contents before it, the generator register at some
    state, nothing owed": its arrays split out of the unscoped buffers at entry and put back at the exit contents, the
    generator register and the scoped buffers no window stages into the region's invariant and out of it, no semaphore
    of the kernel's own. -/
def reg0 : Pipeline.RegionSeg (pcfgs (F := F)) adm (pdats m I0 I1 I2 I3) () defs₀ Variants.none L lv 0 where
  win := launch0.win.to₀
  block_pos := launch0.block_pos
  stage_whole := launch0.stage_whole
  K := PEmpty
  osem k := k.elim
  ho := Pipeline.OwnSemFacts.none _
  hbody c := (I0.body _ c).loose
  hwaits := Pipeline.hwaits_of_owed_zero _ _ _ _ L lv 0 fun c t => I0.owed_eq _ c t
  pre c := iprop(StableHlo.held (c : Thread nD τ) (Pipeline.ucRefs τ sig) (V1 m c) ∗ R c)
  post c := iprop(StableHlo.held (c : Thread nD τ) (Pipeline.ucRefs τ sig) (V2 m (outs m I0 I1 I2 I3) c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m I0 I1 I2 I3) launch0.win launch0.arr_whole c
      ((pdats m I0 I1 I2 I3 0 c).share_full fun w => I0.q_eq _ c w) (fun b => V1 m c b) (hA0 m I0 I1 I2 I3 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m I0 I1 I2 I3 0 c).owed 0 = 0 from I0.owed_eq _ c 0]
      icases HO with ⟨%W, HO⟩; iexists W; isplitr
      · ipureintro; exact fun x _ => Or.inl (by rw [show (pdats m I0 I1 I2 I3 0 c).recorded 0 = Set.univ from I0.rec_eq _ c 0]; trivial)
      iexact HO
    isplitl [Hp]; · iexact Hp
    iexact Hrest
  hin c := hin0 m I0 I1 I2 I3 c
  hout c := by rw [Pipeline.ownSems0_none]; exact hout0 m I0 I1 I2 I3 c
  hexit c := by
    have hjoin := Pipeline.unscopedBufs_of_arrays (p := 0) (pcfgs (F := F)) adm (Ix := Unit) (Name := ℕ) (U := UR sig nD τ) (Lvl := ℕ)
      launch0.win launch0.arr_whole c (pdats m I0 I1 I2 I3) ((pdats m I0 I1 I2 I3 0 c).share_full fun w => I0.q_eq _ c w)
      (fun b => V1 m c b) (fun b => V2 m (outs m I0 I1 I2 I3) c b) ((pdats m I0 I1 I2 I3 0 c).arrAt · cfg0.N) (hF0 m I0 I1 I2 I3 c) (hrest0 m I0 I1 I2 I3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    have ho : ∀ t, (pdats m I0 I1 I2 I3 0 c).owed t = 0 := fun t => I0.owed_eq _ c t
    rw [ho]
    icases HO with ⟨%W, -, HO⟩; iexists W; iexact HO

/-! ## Region 1 -/

set_option maxHeartbeats 1000000 in
/-- At region 1's exit each of its arrays holds what the pipeline leaves: an input as entered, the output its folded write-backs. -/
theorem hF1 (c : Dev nD) (w : Fin cfg1.W) :
    (pdats m I0 I1 I2 I3 1 c).arrAt w cfg1.N = (fun b => V4 m (outs m I0 I1 I2 I3) c b) (Pipeline.arrRef spec1 w) := by
  match w with
  | ⟨0, _⟩ => exact ((pdats m I0 I1 I2 I3 1 c).arrAt_in 0 rfl _).trans ((hA1 m I0 I1 I2 I3 c 0).trans (V4_of m _ c main_v3 (by decide)).symm)
  | ⟨1, _⟩ => exact ((pdats m I0 I1 I2 I3 1 c).arrAt_in 1 rfl _).trans ((hA1 m I0 I1 I2 I3 c 1).trans (V4_of m _ c main_v16 (by decide)).symm)
  | ⟨2, _⟩ => exact ((pdats m I0 I1 I2 I3 1 c).arrAt_in 2 rfl _).trans ((hA1 m I0 I1 I2 I3 c 2).trans (V4_of m _ c main_v12 (by decide)).symm)
  | ⟨3, _⟩ => exact ((pdats m I0 I1 I2 I3 1 c).arrAt_in 3 rfl _).trans ((hA1 m I0 I1 I2 I3 c 3).trans (V4_of m _ c main_v11 (by decide)).symm)
  | ⟨4, _⟩ => exact ((pdats m I0 I1 I2 I3 1 c).arrAt_in 4 rfl _).trans ((hA1 m I0 I1 I2 I3 c 4).trans (V4_of m _ c main_v13 (by decide)).symm)
  | ⟨5, _⟩ =>
    have e : V4 m (outs m I0 I1 I2 I3) c (Proc.devRef .tc main_v17) = x1 m I0 I1 c := by
      show Function.update (V3 m (outs m I0 I1 I2 I3) c) (Proc.devRef .tc main_v17) (outs m I0 I1 I2 I3 4 main_v17 c) (Proc.devRef .tc main_v17) = _
      rw [Function.update_self, outs_v17]
    exact e.symm
/-- Every other buffer holds what it held at entry. -/
theorem hrest1 (c : Dev nD) : ∀ b, b ∉ Finset.univ.image (Pipeline.arrRef spec1) →
    (fun b => V4 m (outs m I0 I1 I2 I3) c b) b = (fun b => V3 m (outs m I0 I1 I2 I3) c b) b :=
  fun b hb => V4_of m _ c b fun hmem => hb (Finset.mem_image.mpr ⟨5, Finset.mem_univ _, (List.mem_singleton.mp hmem).symm⟩)

/-- The region's invariant before its first point, from the generator register and the scoped buffers no window stages. -/
theorem hin1 (c : Dev nD) : (iprop((∃ r, prngReg c r) ∗ Pipeline.prefHeld (pcfgs (F := F) 1).pre c (fun _ => fullShare) (adm (F := F) 1).1
      ∗ Pipeline.scopedRest (Ix := Unit) (Name := ℕ) (U := UR sig nD τ) (Lvl := ℕ) (Val := Elt F) spec1 c) : sProp 𝕄) ⊢ (pdats m I0 I1 I2 I3 1 c).Φ 0 := by
  have h : (iprop((∃ r, prngReg c r) ∗ Pipeline.prefHeld (pcfgs (F := F) 1).pre c (fun _ => fullShare) (adm (F := F) 1).1
      ∗ Pipeline.scopedRest (Ix := Unit) (Name := ℕ) (U := UR sig nD τ) (Lvl := ℕ) (Val := Elt F) spec1 c) : sProp 𝕄) ⊢ (Pipeline.ΦA spec1 c : sProp 𝕄) := by
    unfold Pipeline.ΦA
    iintro ⟨Hp, -, Hr⟩
    isplitl [Hr]; · iexact Hr
    iexact Hp
  exact h.trans (I1.hin _ c)
/-- After its last point the invariant gives them back. -/
theorem hout1 (c : Dev nD) : (pdats m I0 I1 I2 I3 1 c).Φ (Fin.last cfg1.N) ⊢ (iprop((∃ r, prngReg c r) ∗ BI.emp
      ∗ Pipeline.scopedRest (Ix := Unit) (Name := ℕ) (U := UR sig nD τ) (Lvl := ℕ) (Val := Elt F) spec1 c) : sProp 𝕄) := by
  have h : (Pipeline.ΦA spec1 c : sProp 𝕄) ⊢ (iprop((∃ r, prngReg c r) ∗ BI.emp
      ∗ Pipeline.scopedRest (Ix := Unit) (Name := ℕ) (U := UR sig nD τ) (Lvl := ℕ) (Val := Elt F) spec1 c) : sProp 𝕄) := by
    unfold Pipeline.ΦA
    iintro ⟨Hr, Hp⟩
    isplitl [Hp]; · iexact Hp
    isplitr; · iempintro
    iexact Hr
  exact (I1.hout _ c).trans h

set_option backward.isDefEq.respectTransparency.types false in
/-- REGION 1 over the thread state "every unscoped buffer at the contents before it, the generator register at some
    state, nothing owed": its arrays split out of the unscoped buffers at entry and put back at the exit contents, the
    generator register and the scoped buffers no window stages into the region's invariant and out of it, no semaphore
    of the kernel's own. -/
def reg1 : Pipeline.RegionSeg (pcfgs (F := F)) adm (pdats m I0 I1 I2 I3) () defs₀ Variants.none L lv 1 where
  win := launch1.win.to₀
  block_pos := launch1.block_pos
  stage_whole := launch1.stage_whole
  K := PEmpty
  osem k := k.elim
  ho := Pipeline.OwnSemFacts.none _
  hbody c := (I1.body _ c).loose
  hwaits := Pipeline.hwaits_of_owed_zero _ _ _ _ L lv 1 fun c t => I1.owed_eq _ c t
  pre c := iprop(StableHlo.held (c : Thread nD τ) (Pipeline.ucRefs τ sig) (V3 m (outs m I0 I1 I2 I3) c) ∗ R c)
  post c := iprop(StableHlo.held (c : Thread nD τ) (Pipeline.ucRefs τ sig) (V4 m (outs m I0 I1 I2 I3) c) ∗ R c)
  X c := iprop(∃ r, prngReg c r)
  Y c := iprop(∃ r, prngReg c r)
  Z c := Pipeline.unscopedRest (Ix := Unit) (Name := ℕ) (U := UR sig nD τ) (Lvl := ℕ) spec1 c (fun b => V3 m (outs m I0 I1 I2 I3) c b)
  hentry c := by
    rw [Pipeline.ownSems0_none]
    have hsplit := Pipeline.arrays_of_unscopedBufs (p := 1) (pcfgs (F := F)) adm (pdats m I0 I1 I2 I3) launch1.win launch1.arr_whole c
      ((pdats m I0 I1 I2 I3 1 c).share_full fun w => I1.q_eq _ c w) (fun b => V3 m (outs m I0 I1 I2 I3) c b) (hA1 m I0 I1 I2 I3 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m I0 I1 I2 I3 1 c).owed 0 = 0 from I1.owed_eq _ c 0]
      icases HO with ⟨%W, HO⟩; iexists W; isplitr
      · ipureintro; exact fun x _ => Or.inl (by rw [show (pdats m I0 I1 I2 I3 1 c).recorded 0 = Set.univ from I1.rec_eq _ c 0]; trivial)
      iexact HO
    isplitl [Hp]; · iexact Hp
    iexact Hrest
  hin c := hin1 m I0 I1 I2 I3 c
  hout c := by rw [Pipeline.ownSems0_none]; exact hout1 m I0 I1 I2 I3 c
  hexit c := by
    have hjoin := Pipeline.unscopedBufs_of_arrays (p := 1) (pcfgs (F := F)) adm (Ix := Unit) (Name := ℕ) (U := UR sig nD τ) (Lvl := ℕ)
      launch1.win launch1.arr_whole c (pdats m I0 I1 I2 I3) ((pdats m I0 I1 I2 I3 1 c).share_full fun w => I1.q_eq _ c w)
      (fun b => V3 m (outs m I0 I1 I2 I3) c b) (fun b => V4 m (outs m I0 I1 I2 I3) c b) ((pdats m I0 I1 I2 I3 1 c).arrAt · cfg1.N) (hF1 m I0 I1 I2 I3 c) (hrest1 m I0 I1 I2 I3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    have ho : ∀ t, (pdats m I0 I1 I2 I3 1 c).owed t = 0 := fun t => I1.owed_eq _ c t
    rw [ho]
    icases HO with ⟨%W, -, HO⟩; iexists W; iexact HO

/-! ## Region 2 -/

set_option maxHeartbeats 1000000 in
/-- At region 2's exit each of its arrays holds what the pipeline leaves: an input as entered, the output its folded write-backs. -/
theorem hF2 (c : Dev nD) (w : Fin cfg2.W) :
    (pdats m I0 I1 I2 I3 2 c).arrAt w cfg2.N = (fun b => V6 m (outs m I0 I1 I2 I3) c b) (Pipeline.arrRef spec2 w) := by
  match w with
  | ⟨0, _⟩ => exact ((pdats m I0 I1 I2 I3 2 c).arrAt_in 0 rfl _).trans ((hA2 m I0 I1 I2 I3 c 0).trans (V6_of m _ c main_v3 (by decide)).symm)
  | ⟨1, _⟩ => exact ((pdats m I0 I1 I2 I3 2 c).arrAt_in 1 rfl _).trans ((hA2 m I0 I1 I2 I3 c 1).trans (V6_of m _ c main_v22 (by decide)).symm)
  | ⟨2, _⟩ => exact ((pdats m I0 I1 I2 I3 2 c).arrAt_in 2 rfl _).trans ((hA2 m I0 I1 I2 I3 c 2).trans (V6_of m _ c main_v18 (by decide)).symm)
  | ⟨3, _⟩ => exact ((pdats m I0 I1 I2 I3 2 c).arrAt_in 3 rfl _).trans ((hA2 m I0 I1 I2 I3 c 3).trans (V6_of m _ c main_v11 (by decide)).symm)
  | ⟨4, _⟩ => exact ((pdats m I0 I1 I2 I3 2 c).arrAt_in 4 rfl _).trans ((hA2 m I0 I1 I2 I3 c 4).trans (V6_of m _ c main_v19 (by decide)).symm)
  | ⟨5, _⟩ =>
    have e : V6 m (outs m I0 I1 I2 I3) c (Proc.devRef .tc main_v23) = x2 m I0 I1 I2 c := by
      show Function.update (V5 m (outs m I0 I1 I2 I3) c) (Proc.devRef .tc main_v23) (outs m I0 I1 I2 I3 6 main_v23 c) (Proc.devRef .tc main_v23) = _
      rw [Function.update_self, outs_v23]
    exact e.symm
/-- Every other buffer holds what it held at entry. -/
theorem hrest2 (c : Dev nD) : ∀ b, b ∉ Finset.univ.image (Pipeline.arrRef spec2) →
    (fun b => V6 m (outs m I0 I1 I2 I3) c b) b = (fun b => V5 m (outs m I0 I1 I2 I3) c b) b :=
  fun b hb => V6_of m _ c b fun hmem => hb (Finset.mem_image.mpr ⟨5, Finset.mem_univ _, (List.mem_singleton.mp hmem).symm⟩)

/-- The region's invariant before its first point, from the generator register and the scoped buffers no window stages. -/
theorem hin2 (c : Dev nD) : (iprop((∃ r, prngReg c r) ∗ Pipeline.prefHeld (pcfgs (F := F) 2).pre c (fun _ => fullShare) (adm (F := F) 2).1
      ∗ Pipeline.scopedRest (Ix := Unit) (Name := ℕ) (U := UR sig nD τ) (Lvl := ℕ) (Val := Elt F) spec2 c) : sProp 𝕄) ⊢ (pdats m I0 I1 I2 I3 2 c).Φ 0 := by
  have h : (iprop((∃ r, prngReg c r) ∗ Pipeline.prefHeld (pcfgs (F := F) 2).pre c (fun _ => fullShare) (adm (F := F) 2).1
      ∗ Pipeline.scopedRest (Ix := Unit) (Name := ℕ) (U := UR sig nD τ) (Lvl := ℕ) (Val := Elt F) spec2 c) : sProp 𝕄) ⊢ (Pipeline.ΦA spec2 c : sProp 𝕄) := by
    unfold Pipeline.ΦA
    iintro ⟨Hp, -, Hr⟩
    isplitl [Hr]; · iexact Hr
    iexact Hp
  exact h.trans (I2.hin _ c)
/-- After its last point the invariant gives them back. -/
theorem hout2 (c : Dev nD) : (pdats m I0 I1 I2 I3 2 c).Φ (Fin.last cfg2.N) ⊢ (iprop((∃ r, prngReg c r) ∗ BI.emp
      ∗ Pipeline.scopedRest (Ix := Unit) (Name := ℕ) (U := UR sig nD τ) (Lvl := ℕ) (Val := Elt F) spec2 c) : sProp 𝕄) := by
  have h : (Pipeline.ΦA spec2 c : sProp 𝕄) ⊢ (iprop((∃ r, prngReg c r) ∗ BI.emp
      ∗ Pipeline.scopedRest (Ix := Unit) (Name := ℕ) (U := UR sig nD τ) (Lvl := ℕ) (Val := Elt F) spec2 c) : sProp 𝕄) := by
    unfold Pipeline.ΦA
    iintro ⟨Hr, Hp⟩
    isplitl [Hp]; · iexact Hp
    isplitr; · iempintro
    iexact Hr
  exact (I2.hout _ c).trans h

set_option backward.isDefEq.respectTransparency.types false in
/-- REGION 2 over the thread state "every unscoped buffer at the contents before it, the generator register at some
    state, nothing owed": its arrays split out of the unscoped buffers at entry and put back at the exit contents, the
    generator register and the scoped buffers no window stages into the region's invariant and out of it, no semaphore
    of the kernel's own. -/
def reg2 : Pipeline.RegionSeg (pcfgs (F := F)) adm (pdats m I0 I1 I2 I3) () defs₀ Variants.none L lv 2 where
  win := launch2.win.to₀
  block_pos := launch2.block_pos
  stage_whole := launch2.stage_whole
  K := PEmpty
  osem k := k.elim
  ho := Pipeline.OwnSemFacts.none _
  hbody c := (I2.body _ c).loose
  hwaits := Pipeline.hwaits_of_owed_zero _ _ _ _ L lv 2 fun c t => I2.owed_eq _ c t
  pre c := iprop(StableHlo.held (c : Thread nD τ) (Pipeline.ucRefs τ sig) (V5 m (outs m I0 I1 I2 I3) c) ∗ R c)
  post c := iprop(StableHlo.held (c : Thread nD τ) (Pipeline.ucRefs τ sig) (V6 m (outs m I0 I1 I2 I3) c) ∗ R c)
  X c := iprop(∃ r, prngReg c r)
  Y c := iprop(∃ r, prngReg c r)
  Z c := Pipeline.unscopedRest (Ix := Unit) (Name := ℕ) (U := UR sig nD τ) (Lvl := ℕ) spec2 c (fun b => V5 m (outs m I0 I1 I2 I3) c b)
  hentry c := by
    rw [Pipeline.ownSems0_none]
    have hsplit := Pipeline.arrays_of_unscopedBufs (p := 2) (pcfgs (F := F)) adm (pdats m I0 I1 I2 I3) launch2.win launch2.arr_whole c
      ((pdats m I0 I1 I2 I3 2 c).share_full fun w => I2.q_eq _ c w) (fun b => V5 m (outs m I0 I1 I2 I3) c b) (hA2 m I0 I1 I2 I3 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m I0 I1 I2 I3 2 c).owed 0 = 0 from I2.owed_eq _ c 0]
      icases HO with ⟨%W, HO⟩; iexists W; isplitr
      · ipureintro; exact fun x _ => Or.inl (by rw [show (pdats m I0 I1 I2 I3 2 c).recorded 0 = Set.univ from I2.rec_eq _ c 0]; trivial)
      iexact HO
    isplitl [Hp]; · iexact Hp
    iexact Hrest
  hin c := hin2 m I0 I1 I2 I3 c
  hout c := by rw [Pipeline.ownSems0_none]; exact hout2 m I0 I1 I2 I3 c
  hexit c := by
    have hjoin := Pipeline.unscopedBufs_of_arrays (p := 2) (pcfgs (F := F)) adm (Ix := Unit) (Name := ℕ) (U := UR sig nD τ) (Lvl := ℕ)
      launch2.win launch2.arr_whole c (pdats m I0 I1 I2 I3) ((pdats m I0 I1 I2 I3 2 c).share_full fun w => I2.q_eq _ c w)
      (fun b => V5 m (outs m I0 I1 I2 I3) c b) (fun b => V6 m (outs m I0 I1 I2 I3) c b) ((pdats m I0 I1 I2 I3 2 c).arrAt · cfg2.N) (hF2 m I0 I1 I2 I3 c) (hrest2 m I0 I1 I2 I3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    have ho : ∀ t, (pdats m I0 I1 I2 I3 2 c).owed t = 0 := fun t => I2.owed_eq _ c t
    rw [ho]
    icases HO with ⟨%W, -, HO⟩; iexists W; iexact HO

/-! ## Region 3 -/

set_option maxHeartbeats 1000000 in
/-- At region 3's exit each of its arrays holds what the pipeline leaves: an input as entered, the output its folded write-backs. -/
theorem hF3 (c : Dev nD) (w : Fin cfg3.W) :
    (pdats m I0 I1 I2 I3 3 c).arrAt w cfg3.N = (fun b => V12 m (outs m I0 I1 I2 I3) c b) (Pipeline.arrRef spec3 w) := by
  match w with
  | ⟨0, _⟩ => exact ((pdats m I0 I1 I2 I3 3 c).arrAt_in 0 rfl _).trans ((hA3 m I0 I1 I2 I3 c 0).trans (V12_of m _ c main_v3 (by decide)).symm)
  | ⟨1, _⟩ => exact ((pdats m I0 I1 I2 I3 3 c).arrAt_in 1 rfl _).trans ((hA3 m I0 I1 I2 I3 c 1).trans (V12_of m _ c main_v30 (by decide)).symm)
  | ⟨2, _⟩ => exact ((pdats m I0 I1 I2 I3 3 c).arrAt_in 2 rfl _).trans ((hA3 m I0 I1 I2 I3 c 2).trans (V12_of m _ c main_v25 (by decide)).symm)
  | ⟨3, _⟩ => exact ((pdats m I0 I1 I2 I3 3 c).arrAt_in 3 rfl _).trans ((hA3 m I0 I1 I2 I3 c 3).trans (V12_of m _ c main_v11 (by decide)).symm)
  | ⟨4, _⟩ => exact ((pdats m I0 I1 I2 I3 3 c).arrAt_in 4 rfl _).trans ((hA3 m I0 I1 I2 I3 c 4).trans (V12_of m _ c main_v27 (by decide)).symm)
  | ⟨5, _⟩ =>
    have e : V12 m (outs m I0 I1 I2 I3) c (Proc.devRef .tc main_v31) = x3 m I0 I1 I2 I3 c := by
      show Function.update (V11 m (outs m I0 I1 I2 I3) c) (Proc.devRef .tc main_v31) (outs m I0 I1 I2 I3 12 main_v31 c) (Proc.devRef .tc main_v31) = _
      rw [Function.update_self, outs_v31]
    exact e.symm
/-- Every other buffer holds what it held at entry. -/
theorem hrest3 (c : Dev nD) : ∀ b, b ∉ Finset.univ.image (Pipeline.arrRef spec3) →
    (fun b => V12 m (outs m I0 I1 I2 I3) c b) b = (fun b => V11 m (outs m I0 I1 I2 I3) c b) b :=
  fun b hb => V12_of m _ c b fun hmem => hb (Finset.mem_image.mpr ⟨5, Finset.mem_univ _, (List.mem_singleton.mp hmem).symm⟩)

/-- The region's invariant before its first point, from the generator register and the scoped buffers no window stages. -/
theorem hin3 (c : Dev nD) : (iprop((∃ r, prngReg c r) ∗ Pipeline.prefHeld (pcfgs (F := F) 3).pre c (fun _ => fullShare) (adm (F := F) 3).1
      ∗ Pipeline.scopedRest (Ix := Unit) (Name := ℕ) (U := UR sig nD τ) (Lvl := ℕ) (Val := Elt F) spec3 c) : sProp 𝕄) ⊢ (pdats m I0 I1 I2 I3 3 c).Φ 0 := by
  have h : (iprop((∃ r, prngReg c r) ∗ Pipeline.prefHeld (pcfgs (F := F) 3).pre c (fun _ => fullShare) (adm (F := F) 3).1
      ∗ Pipeline.scopedRest (Ix := Unit) (Name := ℕ) (U := UR sig nD τ) (Lvl := ℕ) (Val := Elt F) spec3 c) : sProp 𝕄) ⊢ (Pipeline.ΦA spec3 c : sProp 𝕄) := by
    unfold Pipeline.ΦA
    iintro ⟨Hp, -, Hr⟩
    isplitl [Hr]; · iexact Hr
    iexact Hp
  exact h.trans (I3.hin _ c)
/-- After its last point the invariant gives them back. -/
theorem hout3 (c : Dev nD) : (pdats m I0 I1 I2 I3 3 c).Φ (Fin.last cfg3.N) ⊢ (iprop((∃ r, prngReg c r) ∗ BI.emp
      ∗ Pipeline.scopedRest (Ix := Unit) (Name := ℕ) (U := UR sig nD τ) (Lvl := ℕ) (Val := Elt F) spec3 c) : sProp 𝕄) := by
  have h : (Pipeline.ΦA spec3 c : sProp 𝕄) ⊢ (iprop((∃ r, prngReg c r) ∗ BI.emp
      ∗ Pipeline.scopedRest (Ix := Unit) (Name := ℕ) (U := UR sig nD τ) (Lvl := ℕ) (Val := Elt F) spec3 c) : sProp 𝕄) := by
    unfold Pipeline.ΦA
    iintro ⟨Hr, Hp⟩
    isplitl [Hp]; · iexact Hp
    isplitr; · iempintro
    iexact Hr
  exact (I3.hout _ c).trans h

set_option backward.isDefEq.respectTransparency.types false in
/-- REGION 3 over the thread state "every unscoped buffer at the contents before it, the generator register at some
    state, nothing owed": its arrays split out of the unscoped buffers at entry and put back at the exit contents, the
    generator register and the scoped buffers no window stages into the region's invariant and out of it, no semaphore
    of the kernel's own. -/
def reg3 : Pipeline.RegionSeg (pcfgs (F := F)) adm (pdats m I0 I1 I2 I3) () defs₀ Variants.none L lv 3 where
  win := launch3.win.to₀
  block_pos := launch3.block_pos
  stage_whole := launch3.stage_whole
  K := PEmpty
  osem k := k.elim
  ho := Pipeline.OwnSemFacts.none _
  hbody c := (I3.body _ c).loose
  hwaits := Pipeline.hwaits_of_owed_zero _ _ _ _ L lv 3 fun c t => I3.owed_eq _ c t
  pre c := iprop(StableHlo.held (c : Thread nD τ) (Pipeline.ucRefs τ sig) (V11 m (outs m I0 I1 I2 I3) c) ∗ R c)
  post c := iprop(StableHlo.held (c : Thread nD τ) (Pipeline.ucRefs τ sig) (V12 m (outs m I0 I1 I2 I3) c) ∗ R c)
  X c := iprop(∃ r, prngReg c r)
  Y c := iprop(∃ r, prngReg c r)
  Z c := Pipeline.unscopedRest (Ix := Unit) (Name := ℕ) (U := UR sig nD τ) (Lvl := ℕ) spec3 c (fun b => V11 m (outs m I0 I1 I2 I3) c b)
  hentry c := by
    rw [Pipeline.ownSems0_none]
    have hsplit := Pipeline.arrays_of_unscopedBufs (p := 3) (pcfgs (F := F)) adm (pdats m I0 I1 I2 I3) launch3.win launch3.arr_whole c
      ((pdats m I0 I1 I2 I3 3 c).share_full fun w => I3.q_eq _ c w) (fun b => V11 m (outs m I0 I1 I2 I3) c b) (hA3 m I0 I1 I2 I3 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m I0 I1 I2 I3 3 c).owed 0 = 0 from I3.owed_eq _ c 0]
      icases HO with ⟨%W, HO⟩; iexists W; isplitr
      · ipureintro; exact fun x _ => Or.inl (by rw [show (pdats m I0 I1 I2 I3 3 c).recorded 0 = Set.univ from I3.rec_eq _ c 0]; trivial)
      iexact HO
    isplitl [Hp]; · iexact Hp
    iexact Hrest
  hin c := hin3 m I0 I1 I2 I3 c
  hout c := by rw [Pipeline.ownSems0_none]; exact hout3 m I0 I1 I2 I3 c
  hexit c := by
    have hjoin := Pipeline.unscopedBufs_of_arrays (p := 3) (pcfgs (F := F)) adm (Ix := Unit) (Name := ℕ) (U := UR sig nD τ) (Lvl := ℕ)
      launch3.win launch3.arr_whole c (pdats m I0 I1 I2 I3) ((pdats m I0 I1 I2 I3 3 c).share_full fun w => I3.q_eq _ c w)
      (fun b => V11 m (outs m I0 I1 I2 I3) c b) (fun b => V12 m (outs m I0 I1 I2 I3) c b) ((pdats m I0 I1 I2 I3 3 c).arrAt · cfg3.N) (hF3 m I0 I1 I2 I3 c) (hrest3 m I0 I1 I2 I3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    have ho : ∀ t, (pdats m I0 I1 I2 I3 3 c).owed t = 0 := fun t => I3.owed_eq _ c t
    rw [ho]
    icases HO with ⟨%W, -, HO⟩; iexists W; iexact HO

/-! ## The run -/

/-- @main's items as segments: a host segment per stretch of host operations, the four regions' records. -/
abbrev theSegs (c : Dev nD) : List (Pipeline.Seg (pcfgs (F := F)) adm (pdats m I0 I1 I2 I3) () defs₀ Variants.none L lv) :=
  segs m (outs m I0 I1 I2 I3) Variants.none L lv (fun _ c => R c) () (pdats m I0 I1 I2 I3) (reg0 m I0 I1 I2 I3) (reg1 m I0 I1 I2 I3) (reg2 m I0 I1 I2 I3) (reg3 m I0 I1 I2 I3) c

-- the launch theorem's implicit arguments are found by unifying its conclusion with this one, which takes unfolding
-- plain definitions in a metavariable's type
set_option backward.isDefEq.respectTransparency.types false in
/-- THE RUN. From any memory with zero counters every weakly fair execution of @main terminates, nothing faulting, and
    every final memory holds the result buffer at the last contents of the chain above and each argument as launched:
    the launch theorem for a list of segments over the four regions' records, the last thread state read against the
    final memory, an argument's buffer walked back to the launch (no item writes one). -/
theorem run_main (ρ : Dev nD → PrngReg) :
    θ_run defs (onTc (τ := τ) (main (F := F))) ⟨m, fun _ => 0, ρ⟩ (fun r => ∀ c : Dev nD,
      r.2.mem ((c.tc : Thread nD τ).loc main_v33) = U14 m I0 I1 I2 I3 c main_v33
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm (pdats m I0 I1 I2 I3) () cellOf_inj emb₁ defs₀ Variants.none L lv m ρ main
    (theSegs m I0 I1 I2 I3)
    (fun c Q => by
      rewrite [main_chain c, Pipeline.Seg.run_eq_chain,
        show (theSegs m I0 I1 I2 I3 c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()),
          StableHlo.seq hostOps4,
          StableHlo.seq hostOps4_1 ] from rfl]
      exact .rfl)
    (fun c => by simp only [theSegs, segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V14 m (outs m I0 I1 I2 I3) c))
    (hch := fun c => ⟨.rfl, .rfl, .rfl, .rfl, .rfl, .rfl, .rfl, .rfl, .rfl, .rfl, .rfl, .rfl, .rfl, .rfl,
      (show (iprop(StableHlo.held (c : Thread nD τ) (Pipeline.ucRefs τ sig) (V14 m (outs m I0 I1 I2 I3) c) ∗ R c) : sProp 𝕄)
          ⊢ iprop(StableHlo.held (c : Thread nD τ) (Pipeline.ucRefs τ sig) (V14 m (outs m I0 I1 I2 I3) c) ∗ ∃ W, owes (c : Thread nD τ) (0 : CellTallies nD τ sig Unit) W) from by
        iintro ⟨Hh, -, HO⟩
        isplitl [Hh]; · iexact Hh
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V14 m (outs m I0 I1 I2 I3) c b)
    (hfin := fun c s' => by
      iintro ⟨Hh, HSI⟩
      unfold StableHlo.held
      imodintro
      iapply (pointsTo_read_all (Pipeline.ucRefs τ sig) (fun b => (((c : Thread nD τ)).1, b)) (V14 m (outs m I0 I1 I2 I3) c) s')
      isplitl [Hh] <;> iassumption)
    (hQ := fun s h c => ?_)
  have hmem : ∀ b : Ref sig .tc, ¬ (Proc.devRef .tc b : DevRef τ sig).isScoped → Proc.devRef .tc b ∈ Pipeline.ucRefs τ sig :=
    fun b hb => Finset.mem_filter.mpr ⟨StableHlo.devRef_mem_tcRefs b, hb⟩
  exact ⟨(h c _ (hmem main_v33 (by decide))).trans (congrFun (V14_eq m I0 I1 I2 I3 c) _),
    (h c _ (hmem main_arg0 (by decide))).trans (V14_main_arg0 m (outs m I0 I1 I2 I3) c),
    (h c _ (hmem main_arg1 (by decide))).trans (V14_main_arg1 m (outs m I0 I1 I2 I3) c),
    (h c _ (hmem main_arg2 (by decide))).trans (V14_main_arg2 m (outs m I0 I1 I2 I3) c),
    (h c _ (hmem main_arg3 (by decide))).trans (V14_main_arg3 m (outs m I0 I1 I2 I3) c),
    (h c _ (hmem main_arg4 (by decide))).trans (V14_main_arg4 m (outs m I0 I1 I2 I3) c),
    (h c _ (hmem main_arg5 (by decide))).trans (V14_main_arg5 m (outs m I0 I1 I2 I3) c),
    (h c _ (hmem main_arg6 (by decide))).trans (V14_main_arg6 m (outs m I0 I1 I2 I3) c),
    (h c _ (hmem main_arg7 (by decide))).trans (V14_main_arg7 m (outs m I0 I1 I2 I3) c),
    (h c _ (hmem main_arg8 (by decide))).trans (V14_main_arg8 m (outs m I0 I1 I2 I3) c),
    (h c _ (hmem main_arg9 (by decide))).trans (V14_main_arg9 m (outs m I0 I1 I2 I3) c)⟩

include I0 I1 I2 I3 in
/-- THE FRAME: the run with the result dropped. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_main m I0 I1 I2 I3 ρ)

end Cert.Kernel.Asm

end
-- ==== Proof.K.R0.Base.lean ====
import proofs.«102678_j21827023798522_2_alg».proof.Proof.Gen.Kernel.Launch
import proofs.«102678_j21827023798522_2_alg».proof.Proof.Gen.Kernel.Skeleton
import proofs.«102678_j21827023798522_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0: the tiled matrix product with bias and rectifier

The grid is (i, j, k) with k fastest; the accumulator scratch is zeroed at k = 0, a block product is added at
every k, and at the last k the bias is added, the rectifier taken and the result rounded into the output block. -/

/-! ## The body's two conditionals over the grid -/

/-- The first conditional's guard (k = 0), from the grid coordinates. -/
abbrev condZ (i : grid0.Coords) : Prop :=
  (Scalar.cmpi .ne (Scalar.extui (Scalar.cmpi .eq (BitVec.ofNat 32 (i 2).val) 0#32)) 0#32) = 1#1

/-- It holds at the even points. -/
theorem hcondZ : ∀ t : Fin cfg0.N, condZ (grid0.coords t) ↔ t.val % 2 = 0 :=
  (by decide +kernel : ∀ t : Fin grid0.N, condZ (grid0.coords t) ↔ t.val % 2 = 0)

/-- The second conditional's guard (k is the last). -/
abbrev condL (i : grid0.Coords) : Prop := k0_cond2 i = 1#1

/-- It holds at the odd points. -/
theorem hcondL : ∀ t : Fin cfg0.N, condL (grid0.coords t) ↔ t.val % 2 = 1 :=
  (by decide +kernel : ∀ t : Fin grid0.N, condL (grid0.coords t) ↔ t.val % 2 = 1)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- At the even points the output window is idle, -/
theorem idle3_even : ∀ t : Fin cfg0.N, t.val % 2 = 0 → cfg0.idle 3 (grid0.coords t) = true := by decide +kernel
/-- and is not written back; -/
theorem noFlush3_even : ∀ t : Fin cfg0.N, t.val % 2 = 0 → (cfg0.win 3).flush t = false := by decide +kernel
/-- at the odd points it is live. -/
theorem live3_odd : ∀ t : Fin cfg0.N, t.val % 2 = 1 → cfg0.idle 3 (grid0.coords t) = false := by decide +kernel

/-! ## The staging memrefs and the scratch -/

abbrev ms0 (t : Fin cfg0.N) : Memref sig .tc .vmem S1024x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .bf16 := win0_3.stage (cfg0.slots t 3)
abbrev hs3 (t : Fin cfg0.N) : (ms3 t).IsWhole := hstage0_3 ((cfg0.slots t 3).cast nbuf0_3)
/-- The accumulator: a whole scoped buffer of the kernel's own. -/
abbrev acc : Memref sig .tc .vmem S1024x1024 .f32 := Memref.whole cc0_scratch0

/-- The class invariant with the accumulator as a memref owned at some contents, the other scoped buffers unopened. -/
theorem PhiA_eq (c : Dev nD) :
    (Pipeline.ΦA spec0 c : sProp 𝕄)
      = iprop(iprop((∃ d, owns (c : Thread nD τ) acc fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [acc, owns_whole]; rfl

end Cert.Kernel.R0

end
-- ==== Proof.K.R0.Data.lean ====
import proofs.«102678_j21827023798522_2_alg».proof.Proof.K.R0.Base

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is the region-entry contents and whose body leaves the block in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the accumulator and the output buffer hold after each point -/

/-- The point before (the first point's is itself). -/
def prev (t : Fin cfg0.N) : Fin cfg0.N := ⟨t.val - 1, Nat.lt_of_le_of_lt (Nat.sub_le _ _) t.isLt⟩

/-- The first partial product: the zero block plus the product of the point's two input blocks. -/
def acc0 (c : Dev nD) (t : Fin cfg0.N) : Vec F S1024x1024 .f32 :=
  k0_pay2 (k0_pay1 (F := F)) (iblk V c 0 t) (iblk V c 1 t)

/-- The accumulator after the body at point t: at an even point (k = 0) the first partial product; at an odd point
    (k = 1) the point's product added to what the even point before left. -/
def accAt (c : Dev nD) (t : Fin cfg0.N) : Vec F S1024x1024 .f32 :=
  if t.val % 2 = 0 then acc0 V c t else k0_pay2 (acc0 V c (prev t)) (iblk V c 0 t) (iblk V c 1 t)

theorem accAt_even (c : Dev nD) (t : Fin cfg0.N) (h : t.val % 2 = 0) : accAt V c t = acc0 V c t := if_pos h
theorem accAt_odd (c : Dev nD) (t : Fin cfg0.N) (h : ¬t.val % 2 = 0) :
    accAt V c t = k0_pay2 (acc0 V c (prev t)) (iblk V c 0 t) (iblk V c 1 t) := if_neg h

/-- The output buffer after the body at an odd point: the epilogue of the accumulator and the bias block. -/
def outAt (c : Dev nD) (t : Fin cfg0.N) : Vec F S1024x1024 .bf16 := k0_pay3 (accAt V c t) (iblk V c 2 t)

/-- The region invariant before position n: before the first point the class's; afterwards the accumulator at what
    the point before left, the other scoped buffers unopened, the generator register at some state. -/
def Phi (c : Dev nD) : (n : ℕ) → n ≤ cfg0.N → sProp 𝕄
  | 0, _ => Pipeline.ΦA spec0 c
  | n + 1, hn => iprop(iprop(owns (c : Thread nD τ) acc fullShare (accAt V c ⟨n, hn⟩)
      ∗ Pipeline.scopedRestBut (Ix := Unit) (Name := ℕ) (U := UR sig nD τ) (Lvl := ℕ) (Val := Elt F) spec0 c [cc0_scratch0])
      ∗ (∃ r, prngReg c r))

theorem Phi_zero (c : Dev nD) (n : ℕ) (h : n ≤ cfg0.N) (hz : n = 0) : Phi V c n h = Pipeline.ΦA spec0 c := by
  subst hz; rfl

theorem Phi_succ (c : Dev nD) (n : ℕ) (hn : n < cfg0.N) :
    Phi V c (n + 1) hn = iprop(iprop(owns (c : Thread nD τ) acc fullShare (accAt V c ⟨n, hn⟩)
      ∗ Pipeline.scopedRestBut (Ix := Unit) (Name := ℕ) (U := UR sig nD τ) (Lvl := ℕ) (Val := Elt F) spec0 c [cc0_scratch0])
      ∗ (∃ r, prngReg c r)) := rfl

theorem Phi_pos (c : Dev nD) (n : ℕ) (h : n ≤ cfg0.N) (hz : n ≠ 0) :
    Phi V c n h = iprop(iprop(owns (c : Thread nD τ) acc fullShare (accAt V c ⟨n - 1, by omega⟩)
      ∗ Pipeline.scopedRestBut (Ix := Unit) (Name := ℕ) (U := UR sig nD τ) (Lvl := ℕ) (Val := Elt F) spec0 c [cc0_scratch0])
      ∗ (∃ r, prngReg c r)) := by
  cases n with
  | zero => exact absurd rfl hz
  | succ n => rfl

/-- After point t (before the next): the accumulator at that point's contents. -/
theorem Phi_after (c : Dev nD) (t : Fin cfg0.N) :
    Phi V c (t.val + 1) t.isLt = iprop(iprop(owns (c : Thread nD τ) acc fullShare (accAt V c t)
      ∗ Pipeline.scopedRestBut (Ix := Unit) (Name := ℕ) (U := UR sig nD τ) (Lvl := ℕ) (Val := Elt F) spec0 c [cc0_scratch0])
      ∗ (∃ r, prngReg c r)) := rfl

/-- Before a point that is not the first: the accumulator at what the point before left. -/
theorem Phi_before (c : Dev nD) (t : Fin cfg0.N) (hz : t.val ≠ 0) :
    Phi V c t.val (Nat.le_of_lt t.isLt) = iprop(iprop(owns (c : Thread nD τ) acc fullShare (accAt V c (prev t))
      ∗ Pipeline.scopedRestBut (Ix := Unit) (Name := ℕ) (U := UR sig nD τ) (Lvl := ℕ) (Val := Elt F) spec0 c [cc0_scratch0])
      ∗ (∃ r, prngReg c r)) := by
  obtain ⟨n, hn⟩ := t
  cases n with
  | zero => exact absurd rfl hz
  | succ n => rfl

/-! ## The pipeline's proof data -/

/-- The proof data of region 0 on core c: the arrays as the region finds them; after the body each input's buffer at
    its block, the output's at the epilogue block; the invariant carrying the accumulator; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outAt V c t
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = Phi V c t.val (Nat.le_of_lt t.isLt) := by
  dsimp only [dat]; simp only [Fin.coe_castSucc]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = outAt V c t := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d

end Cert.Kernel.R0

end
-- ==== Proof.K.R0.RunZ.lean ====
import proofs.«102678_j21827023798522_2_alg».proof.Proof.K.R0.Base
import Idealize.ShloMosaic.Lib.Pipeline.Value

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body at a first point of the reduction (k = 0) -/

/-- The zero offsets of a whole-block access, however spelt. -/
theorem hz2 : (![0, 0] : Fin 2 → Nat) = fun _ => 0 := funext fun a => by fin_cases a <;> rfl

/-- After a last store through the whole-shape rectangle a buffer reads that store's payload, whatever was stored
    before and whatever it held. -/
theorem read_writes_whole {sig : RefSig} {κ : Kind} {sp : Space} {S : Shape} {e : EltTy} {Val : EltTy → Type}
    [∀ e, Nonempty (Val e)] (v : View sig κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- A load through the whole-shape rectangle of a whole memref held at the contents that read X reads X. -/
theorem readAt_whole {sig : RefSig} {κ : Kind} {sp : Space} {S : Shape} {e : EltTy} {Val : EltTy → Type}
    (m : Memref sig κ sp S e) (hm : m.IsWhole) {off : Fin S.rank → Nat} (h : off = fun _ => 0)
    (inb : ∀ a, off a + S.size a ≤ S.size a) (X : S.Idx → Val e) :
    m.view.readAt Val (Rect.unit off S.size inb).toLoadRect (hm.unread X) = X := by
  rw [View.readAt_eq_ld, hm.read_unread, View.ld_unit_zero h]

set_option maxHeartbeats 1000000 in
/-- At k = 0 the body zeroes the accumulator and adds the block product: on whole memrefs, the inputs at their
    contents, the output buffer at contents handed back untouched, the accumulator at anything, it runs to the
    continuation holding the accumulator at the first partial product. -/
theorem runZ (c : Dev nD) (i : grid0.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : condZ i) (hc1 : ¬condL i)
    (x0 : Vec F S1024x4096 .bf16) (x1 : Vec F S4096x1024 .bf16) (x2 : Vec F S1x1024 .f32) (xi3 : Vec F S1024x1024 .bf16)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k0_pay2 (k0_pay1 (F := F)) x0 x1)) -∗ K ⟨⟩))
      ⊢ wp frame (wpE (defs₀ (F := F)) Variants.none c none) E (cc0_kernel i arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact hf3
    iexact H3
  iexists _; isplitr
  swap; · iexact HS
  ipureintro
  rw [read_writes_whole _ _ hz2]
  unfold runZ.sl.v3 runZ.sl.HS_1
  rw [View.readCov_unit_zero _ hz2, readAt_whole _ harg3 hz2, readAt_whole _ harg4 hz2]

end Cert.Kernel.R0

end
-- ==== Proof.K.R0.RunL.lean ====
import proofs.«102678_j21827023798522_2_alg».proof.Proof.K.R0.RunZ

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body at the last point of the reduction (k = 1) -/

set_option maxHeartbeats 1000000 in
/-- At the last k the body adds the block product to the accumulator, then adds the bias, takes the rectifier and
    rounds the result into the output buffer: on whole memrefs, the inputs at their contents, the output buffer at
    anything, the accumulator at what the point before left, it runs to the continuation holding the accumulator at
    the full product and the output buffer at the epilogue of it. -/
theorem runL (c : Dev nD) (i : grid0.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬condZ i) (hc1 : condL i)
    (x0 : Vec F S1024x4096 .bf16) (x1 : Vec F S4096x1024 .bf16) (x2 : Vec F S1x1024 .f32) (xs : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (k0_pay2 xs x0 x1) x2) ∗ owns (c : Thread nD τ) arg7 fullShare (k0_pay2 xs x0 x1)) -∗ K ⟨⟩))
      ⊢ wp frame (wpE (defs₀ (F := F)) Variants.none c none) E (cc0_kernel i arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2
  obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [read_writes_whole _ _ hz2]
    unfold runL.sl.v16 runL.sl.HS_1
    rw [View.readCov_unit_zero _ hz2, readAt_whole _ harg7 hz2, readAt_whole _ harg3 hz2, readAt_whole _ harg4 hz2,
      readAt_whole _ harg5 hz2]
  iexists _; isplitr
  swap; · iexact HS
  ipureintro
  unfold runL.sl.HS_1
  rw [read_writes_whole _ _ hz2, readAt_whole _ harg7 hz2, readAt_whole _ harg3 hz2, readAt_whole _ harg4 hz2]

end Cert.Kernel.R0

end
-- ==== Proof.K.R0.Oblig.lean ====
import proofs.«102678_j21827023798522_2_alg».proof.Proof.K.R0.Data
import proofs.«102678_j21827023798522_2_alg».proof.Proof.K.R0.RunL

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation, at a generic point -/

/-- What the body is called with at point t, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the inputs' memrefs hold their blocks; an even point is a first point of the reduction,
    where the accumulator may hold anything and the output buffer is handed back untouched; an odd point is a last
    one, where the accumulator holds what the even point before left and the output buffer is filled. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).owesAt () t.succ = (dat V c).owesAt () t.castSucc from rfl]
  rw [show (dat V c).Φ t.succ = Phi V c (t.val + 1) t.isLt from rfl, Phi_after]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  have hN : t.val < 128 := lt_of_lt_of_eq t.isLt (show cfg0.N = 128 from N_0)
  by_cases h0 : t.val % 2 = 0
  · rw [Dat.leavesExact_idle (dat V c) 3 t (idle3_even t h0) (noFlush3_even t h0)]
    rw [accAt_even V c t h0]
    unfold acc0
    by_cases hz : t.val = 0
    · rw [Phi_castSucc V c t, Phi_zero V c _ _ hz, PhiA_eq]
      iintro ⟨⟨⟨HS, Hr⟩, Hg⟩, Ho, ⟨%d0, H0⟩, ⟨%d1, H1⟩, ⟨%d2, H2⟩, ⟨%d3, H3⟩⟩
      iapply (runZ c (grid0.coords t) _ _ _ _ _ _ _ _ _ _ ((hcondZ t).mpr h0) (fun h => by have := (hcondL t).mp h; omega)
        (iblk V c 0 t) (iblk V c 1 t) (iblk V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [Phi_castSucc V c t, Phi_before V c t hz]
      iintro ⟨⟨⟨HS, Hr⟩, Hg⟩, Ho, ⟨%d0, H0⟩, ⟨%d1, H1⟩, ⟨%d2, H2⟩, ⟨%d3, H3⟩⟩
      iapply (runZ c (grid0.coords t) _ _ _ _ _ _ _ _ _ _ ((hcondZ t).mpr h0) (fun h => by have := (hcondL t).mp h; omega)
        (iblk V c 0 t) (iblk V c 1 t) (iblk V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
  · have h1 : t.val % 2 = 1 := by omega
    have hz : t.val ≠ 0 := by omega
    rw [show (dat V c).leavesExact 3 t = owns (c : Thread nD τ) (ms3 t) fullShare ((dat V c).after 3 t) from by
      unfold Dat.leavesExact; rw [live3_odd t h1], after3]
    unfold outAt
    rw [accAt_odd V c t h0]
    rw [Phi_castSucc V c t, Phi_before V c t hz, accAt_even V c (prev t) (by show (t.val - 1) % 2 = 0; omega)]
    iintro ⟨⟨⟨HS, Hr⟩, Hg⟩, Ho, ⟨%d0, H0⟩, ⟨%d1, H1⟩, ⟨%d2, H2⟩, ⟨%d3, H3⟩⟩
    iapply (runL c (grid0.coords t) _ _ _ _ _ _ _ _ _ _ (fun h => h0 ((hcondZ t).mp h)) ((hcondL t).mpr h1)
      (iblk V c 0 t) (iblk V c 1 t) (iblk V c 2 t) (acc0 V c (prev t)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = Phi V c 0 (Nat.zero_le _) from rfl, Phi_zero V c 0 _ rfl]

/-- After the last point the invariant gives the class's back: the accumulator's named contents are forgotten. -/
theorem hout (c : Dev nD) : (dat V c).Φ (Fin.last cfg0.N) ⊢ Pipeline.ΦA spec0 c := by
  rw [show (dat V c).Φ (Fin.last cfg0.N) = Phi V c (Fin.last cfg0.N).val (Nat.le_of_lt_succ (Fin.last cfg0.N).isLt) from rfl,
    Phi_pos V c _ _ (by rw [Fin.val_last]; have : cfg0.N = 128 := N_0; omega), PhiA_eq]
  iintro ⟨⟨HS, Hr⟩, Hg⟩
  isplitl [HS Hr]
  · isplitl [HS]; · iexists _; iexact HS
    iexact Hr
  iexact Hg

end Cert.Kernel.R0

end
-- ==== Proof.K.R0.lean ====
import proofs.«102678_j21827023798522_2_alg».proof.Proof.K.R0.Oblig

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! Region 0's frame data: the proof data, its arrays, the body obligation and the invariant's two ends are in the
    modules imported here. -/

end Cert.Kernel.R0

end
-- ==== Proof.K.R1Runs.lean ====
import proofs.«102678_j21827023798522_2_alg».proof.Proof.Gen.Kernel.Launch
import proofs.«102678_j21827023798522_2_alg».proof.Proof.Gen.Kernel.Skeleton
import proofs.«102678_j21827023798522_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1: what the three control cases of the body share

The body has two conditionals on the inner grid coordinate `k`: "first `k`" (the accumulator is zeroed) and
"last `k`" (the epilogue is stored into the output window). -/

/-- The body's first conditional, from the grid coordinates: `k = 0`. -/
abbrev condFirst (i : grid1.Coords) : Prop :=
  (Scalar.cmpi .ne (Scalar.extui (Scalar.cmpi .eq (BitVec.ofNat 32 (i 1).val) 0#32)) 0#32) = 1#1
/-- It holds at the points ≡ 0 (mod 4). -/
theorem condFirst_iff : ∀ t : Fin cfg1.N, condFirst (grid1.coords t) ↔ t.val % 4 = 0 :=
  (by decide +kernel : ∀ t : Fin grid1.N, condFirst (grid1.coords t) ↔ t.val % 4 = 0)

/-- The body's second conditional: `k = 3`, the last. -/
abbrev condLast (i : grid1.Coords) : Prop := k1_cond2 i = 1#1
/-- It holds at the points ≡ 3 (mod 4). -/
theorem condLast_iff : ∀ t : Fin cfg1.N, condLast (grid1.coords t) ↔ t.val % 4 = 3 :=
  (by decide +kernel : ∀ t : Fin grid1.N, condLast (grid1.coords t) ↔ t.val % 4 = 3)

/-! ## Where the windows are idle -/

/-- The input windows are never idle. -/
theorem live_in : ∀ (w : Fin cfg1.W), w.val < 5 → ∀ t : Fin cfg1.N, cfg1.idle w (grid1.coords t) = false := by decide +kernel
/-- Off the last `k` the output window is idle: nothing is stored into it, -/
theorem idle_out : ∀ t : Fin cfg1.N, ¬condLast (grid1.coords t) → cfg1.idle 5 (grid1.coords t) = true := by decide +kernel
/-- and it is not written back there. -/
theorem noFlush_out : ∀ t : Fin cfg1.N, ¬condLast (grid1.coords t) → (cfg1.win 5).flush t = false := by decide +kernel
/-- At the last `k` the output window is live. -/
theorem live_out : ∀ t : Fin cfg1.N, condLast (grid1.coords t) → cfg1.idle 5 (grid1.coords t) = false := by decide +kernel

/-! ## The staging memrefs the body is called with -/

abbrev ms0 (t : Fin cfg1.N) : Memref sig .tc .vmem S1024x2048 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S2048x256 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x256 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x1 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x256 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1024x256 .f32 := win1_5.stage (cfg1.slots t 5)
abbrev hs5 (t : Fin cfg1.N) : (ms5 t).IsWhole := hstage1_5 ((cfg1.slots t 5).cast nbuf1_5)

/-- The accumulator: a whole scoped buffer of the kernel's own, passed beside the windows. -/
abbrev scM : Memref sig .tc .vmem S1024x256 .f32 := Memref.whole cc1_scratch0
/-- The accumulator as a view, and one staging buffer of the output window as a view: contents are stated through them. -/
abbrev VS : View sig .tc .vmem S1024x256 .f32 := scM.view
abbrev VO : View sig .tc .vmem S1024x256 .f32 := (Memref.whole cc1_stg5_0 : Memref sig .tc .vmem S1024x256 .f32).view

/-- What the launch hands the region, with the accumulator as a memref owned at some contents and the other scoped
    buffers unopened. -/
theorem PhiA_eq (c : Dev nD) :
    (Pipeline.ΦA spec1 c : sProp 𝕄)
      = iprop(iprop(iprop((∃ d, owns (c : Thread nD τ) scM fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM, owns_whole]; try rfl

end Cert.Kernel.R1

end
-- ==== Proof.K.R1RunLast.lean ====
import proofs.«102678_j21827023798522_2_alg».proof.Proof.K.R1Runs

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at the last `k`: on whole staging memrefs, the inputs' at their contents, the output window's at anything and the
    accumulator at what the point before left, the body runs to the continuation holding the inputs' as they were, the
    output's buffer with the epilogue written and the accumulator with this point's sum written. The pieces written are the
    witness the run finds. -/
noncomputable def runLast (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : condLast i)
    (x0 : Vec F S1024x2048 .bf16) (x1 : Vec F S2048x256 .bf16) (x2 : Vec F S1024x256 .f32) (x3 : Vec F S1024x1 .f32) (x4 : Vec F S1x256 .f32) (xs : Vec F S1024x256 .f32) :
    Σ' (L5 : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.R1

end
-- ==== Proof.K.R1RunMid.lean ====
import proofs.«102678_j21827023798522_2_alg».proof.Proof.K.R1RunLast

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a middle `k`: on whole staging memrefs, the inputs' at their contents, the output window's (idle here) at
    contents `xi` handed back untouched and the accumulator at what the point before left, the body runs to the
    continuation holding all of them as they were but the accumulator, which has this point's sum written. The pieces
    written are the witness the run finds. -/
noncomputable def runMid (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : ¬condLast i)
    (x0 : Vec F S1024x2048 .bf16) (x1 : Vec F S2048x256 .bf16) (x2 : Vec F S1024x256 .f32) (x3 : Vec F S1024x1 .f32) (x4 : Vec F S1x256 .f32) (xs : Vec F S1024x256 .f32) :
    Σ' (L5 : List (View.Piece (Elt F) S1024x256 .f32)), { LS : List (View.Piece (Elt F) S1024x256 .f32) //
      ∀ (xi : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, fun xi E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.R1

end
-- ==== Proof.K.R1RunFirst.lean ====
import proofs.«102678_j21827023798522_2_alg».proof.Proof.K.R1RunMid

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at the first `k`: on whole staging memrefs, the inputs' at their contents, the output window's (idle here) at
    contents `xi` handed back untouched and the accumulator at anything, the body runs to the continuation holding all of
    them as they were but the accumulator, which has the zero block and then this point's sum written. The pieces written
    are the witness the run finds. -/
noncomputable def runFirst (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : condFirst i) (hc1 : ¬condLast i)
    (x0 : Vec F S1024x2048 .bf16) (x1 : Vec F S2048x256 .bf16) (x2 : Vec F S1024x256 .f32) (x3 : Vec F S1024x1 .f32) (x4 : Vec F S1x256 .f32) :
    Σ' (L5 : List (View.Piece (Elt F) S1024x256 .f32)), { LS : List (View.Piece (Elt F) S1024x256 .f32) //
      ∀ (xi : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, fun xi E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.R1

end
-- ==== Proof.K.R1Dat.lean ====
import proofs.«102678_j21827023798522_2_alg».proof.Proof.K.R1RunFirst

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 at the entry contents `V`: the proof data and the body obligation -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is `V`'s and whose body leaves the block in place. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is `V`'s and whose body leaves the block in place. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is `V`'s and whose body leaves the block in place. -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is `V`'s and whose body leaves the block in place. -/
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The pieces the first-`k` case writes into the accumulator tile it, so they cover it. -/
theorem accCoverFirst (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : condFirst i) (hc1 : ¬condLast i)
    (x0 : Vec F S1024x2048 .bf16) (x1 : Vec F S2048x256 .bf16) (x2 : Vec F S1024x256 .f32) (x3 : Vec F S1024x1 .f32) (x4 : Vec F S1x256 .f32) (y : S1024x256.Idx) :
    ∃ pc ∈ (runFirst c i arg2 harg2 arg3 harg3 arg4 harg4 arg5 harg5 arg6 harg6 arg7 harg7 arg8 harg8 hc0 hc1 x0 x1 x2 x3 x4).2.1, y ∈ pc.1.set :=
  View.cover_of_tiledL (runFirst c i arg2 harg2 arg3 harg3 arg4 harg4 arg5 harg5 arg6 harg6 arg7 harg7 arg8 harg8 hc0 hc1 x0 x1 x2 x3 x4).2.1 S1024x256.size (by sl_kernel_rfl) y

/-- What the first-`k` case leaves in the accumulator: its pieces read back over junk. -/
def accFirst (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : condFirst i) (hc1 : ¬condLast i)
    (x0 : Vec F S1024x2048 .bf16) (x1 : Vec F S2048x256 .bf16) (x2 : Vec F S1024x256 .f32) (x3 : Vec F S1024x1 .f32) (x4 : Vec F S1x256 .f32) : Vec F S1024x256 .f32 :=
  VS.read (Elt F) (VS.writes (Elt F) VS.junk (runFirst c i arg2 harg2 arg3 harg3 arg4 harg4 arg5 harg5 arg6 harg6 arg7 harg7 arg8 harg8 hc0 hc1 x0 x1 x2 x3 x4).2.1)

/-- The pieces the mid-`k` case writes into the accumulator tile it, so they cover it. -/
theorem accCoverMid (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : ¬condLast i)
    (x0 : Vec F S1024x2048 .bf16) (x1 : Vec F S2048x256 .bf16) (x2 : Vec F S1024x256 .f32) (x3 : Vec F S1024x1 .f32) (x4 : Vec F S1x256 .f32) (xs : Vec F S1024x256 .f32) (y : S1024x256.Idx) :
    ∃ pc ∈ (runMid c i arg2 harg2 arg3 harg3 arg4 harg4 arg5 harg5 arg6 harg6 arg7 harg7 arg8 harg8 hc0 hc1 x0 x1 x2 x3 x4 xs).2.1, y ∈ pc.1.set :=
  View.cover_of_tiledL (runMid c i arg2 harg2 arg3 harg3 arg4 harg4 arg5 harg5 arg6 harg6 arg7 harg7 arg8 harg8 hc0 hc1 x0 x1 x2 x3 x4 xs).2.1 S1024x256.size (by sl_kernel_rfl) y

/-- What the mid-`k` case leaves in the accumulator: its pieces read back over junk. -/
def accMid (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : ¬condLast i)
    (x0 : Vec F S1024x2048 .bf16) (x1 : Vec F S2048x256 .bf16) (x2 : Vec F S1024x256 .f32) (x3 : Vec F S1024x1 .f32) (x4 : Vec F S1x256 .f32) (xs : Vec F S1024x256 .f32) : Vec F S1024x256 .f32 :=
  VS.read (Elt F) (VS.writes (Elt F) VS.junk (runMid c i arg2 harg2 arg3 harg3 arg4 harg4 arg5 harg5 arg6 harg6 arg7 harg7 arg8 harg8 hc0 hc1 x0 x1 x2 x3 x4 xs).2.1)

/-- The pieces the last-`k` case writes into the accumulator tile it, so they cover it. -/
theorem accCoverLast (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : condLast i)
    (x0 : Vec F S1024x2048 .bf16) (x1 : Vec F S2048x256 .bf16) (x2 : Vec F S1024x256 .f32) (x3 : Vec F S1024x1 .f32) (x4 : Vec F S1x256 .f32) (xs : Vec F S1024x256 .f32) (y : S1024x256.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S1024x256.size (by sl_kernel_rfl) y

/-- What the last-`k` case leaves in the accumulator: its pieces read back over junk. -/
def accLast (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : condLast i)
    (x0 : Vec F S1024x2048 .bf16) (x1 : Vec F S2048x256 .bf16) (x2 : Vec F S1024x256 .f32) (x3 : Vec F S1024x1 .f32) (x4 : Vec F S1x256 .f32) (xs : Vec F S1024x256 .f32) : Vec F S1024x256 .f32 :=
  VS.read (Elt F) (VS.writes (Elt F) VS.junk (runLast c i arg2 harg2 arg3 harg3 arg4 harg4 arg5 harg5 arg6 harg6 arg7 harg7 arg8 harg8 hc0 hc1 x0 x1 x2 x3 x4 xs).2.1)

/-- The one store of the last-`k` case into the output window tiles its block, so it covers it. -/
theorem outCoverLast (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : condLast i)
    (x0 : Vec F S1024x2048 .bf16) (x1 : Vec F S2048x256 .bf16) (x2 : Vec F S1024x256 .f32) (x3 : Vec F S1024x1 .f32) (x4 : Vec F S1x256 .f32) (xs : Vec F S1024x256 .f32) (y : S1024x256.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S1024x256.size (by sl_kernel_rfl) y

/-- What the last-`k` case leaves in the output window's staging buffer: the epilogue, read back over junk. -/
def outLast (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : condLast i)
    (x0 : Vec F S1024x2048 .bf16) (x1 : Vec F S2048x256 .bf16) (x2 : Vec F S1024x256 .f32) (x3 : Vec F S1024x1 .f32) (x4 : Vec F S1x256 .f32) (xs : Vec F S1024x256 .f32) : Vec F S1024x256 .f32 :=
  VO.read (Elt F) (VO.writes (Elt F) VO.junk (runLast c i arg2 harg2 arg3 harg3 arg4 harg4 arg5 harg5 arg6 harg6 arg7 harg7 arg8 harg8 hc0 hc1 x0 x1 x2 x3 x4 xs).1)

/-! ## The accumulator point by point -/

/-- THE ACCUMULATION. What the accumulator holds after the body at position `n`: the case the closed forms select at `n`,
    run at the point's memrefs and input blocks, over what the point before left (at a first `k` over nothing: the
    accumulator is zeroed there). -/
def accAt (c : Dev nD) : (n : ℕ) → n < cfg1.N → Vec F S1024x256 .f32
  | 0, hn => accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) ((condFirst_iff ⟨0, hn⟩).mpr (Nat.zero_mod _)) (fun h => (fun h => by (try dsimp only at h); omega) ((condLast_iff ⟨0, hn⟩).mp h)) (iblk V c 0 ⟨0, hn⟩) (iblk V c 1 ⟨0, hn⟩) (iblk V c 2 ⟨0, hn⟩) (iblk V c 3 ⟨0, hn⟩) (iblk V c 4 ⟨0, hn⟩)
  | n + 1, hn =>
    if h0 : (n + 1) % 4 = 0 then
      if h1 : (n + 1) % 4 = 3 then
        False.elim (by omega)
      else
        accFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) ((condFirst_iff ⟨n + 1, hn⟩).mpr h0) (fun h => h1 ((condLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩)
    else
      if h1 : (n + 1) % 4 = 3 then
        accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h0 ((condFirst_iff ⟨n + 1, hn⟩).mp h)) ((condLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (accAt c n (Nat.lt_of_succ_lt hn))
      else
        accMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h0 ((condFirst_iff ⟨n + 1, hn⟩).mp h)) (fun h => h1 ((condLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (accAt c n (Nat.lt_of_succ_lt hn))

/-- `accAt` at a first `k`. -/
theorem accAt_first (c : Dev nD) (t : Fin cfg1.N) (h0 : t.val % 4 = 0) (h1 : ¬t.val % 4 = 3) :
    accAt V c t.val t.isLt = accFirst c (grid1.coords t) (ms0 t) (hs0 t) (ms1 t) (hs1 t) (ms2 t) (hs2 t) (ms3 t) (hs3 t) (ms4 t) (hs4 t) (ms5 t) (hs5 t) scM (Memref.isWhole_whole _) ((condFirst_iff t).mpr h0) (fun h => h1 ((condLast_iff t).mp h)) (iblk V c 0 t) (iblk V c 1 t) (iblk V c 2 t) (iblk V c 3 t) (iblk V c 4 t) := by
  obtain ⟨n, hn⟩ := t
  cases n with
  | zero => exact rfl
  | succ n => exact (dif_pos h0).trans ((dif_neg h1).trans rfl)

/-- `accAt` at a middle `k`: over what the point before left. -/
theorem accAt_mid (c : Dev nD) (t : Fin cfg1.N) (h0 : ¬t.val % 4 = 0) (h1 : ¬t.val % 4 = 3) :
    accAt V c t.val t.isLt = accMid c (grid1.coords t) (ms0 t) (hs0 t) (ms1 t) (hs1 t) (ms2 t) (hs2 t) (ms3 t) (hs3 t) (ms4 t) (hs4 t) (ms5 t) (hs5 t) scM (Memref.isWhole_whole _) (fun h => h0 ((condFirst_iff t).mp h)) (fun h => h1 ((condLast_iff t).mp h)) (iblk V c 0 t) (iblk V c 1 t) (iblk V c 2 t) (iblk V c 3 t) (iblk V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `accAt` at a last `k`: over what the point before left. -/
theorem accAt_last (c : Dev nD) (t : Fin cfg1.N) (h0 : ¬t.val % 4 = 0) (h1 : t.val % 4 = 3) :
    accAt V c t.val t.isLt = accLast c (grid1.coords t) (ms0 t) (hs0 t) (ms1 t) (hs1 t) (ms2 t) (hs2 t) (ms3 t) (hs3 t) (ms4 t) (hs4 t) (ms5 t) (hs5 t) scM (Memref.isWhole_whole _) (fun h => h0 ((condFirst_iff t).mp h)) ((condLast_iff t).mpr h1) (iblk V c 0 t) (iblk V c 1 t) (iblk V c 2 t) (iblk V c 3 t) (iblk V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after the body at point `t`: at a last `k` the epilogue over what the
    point before left in the accumulator; elsewhere the window is idle and nothing consults this (a placeholder). -/
def outAt (c : Dev nD) (t : Fin cfg1.N) : Vec F S1024x256 .f32 :=
  if h1 : t.val % 4 = 3 then
    outLast c (grid1.coords t) (ms0 t) (hs0 t) (ms1 t) (hs1 t) (ms2 t) (hs2 t) (ms3 t) (hs3 t) (ms4 t) (hs4 t) (ms5 t) (hs5 t) scM (Memref.isWhole_whole _) (fun h => (fun h => by omega) ((condFirst_iff t).mp h)) ((condLast_iff t).mpr h1) (iblk V c 0 t) (iblk V c 1 t) (iblk V c 2 t) (iblk V c 3 t) (iblk V c 4 t) (accAt V c (t.val - 1) (Nat.lt_of_le_of_lt (Nat.sub_le _ _) t.isLt))
  else VO.read (Elt F) VO.junk

theorem outAt_last (c : Dev nD) (t : Fin cfg1.N) (h0 : ¬t.val % 4 = 0) (h1 : t.val % 4 = 3) :
    outAt V c t = outLast c (grid1.coords t) (ms0 t) (hs0 t) (ms1 t) (hs1 t) (ms2 t) (hs2 t) (ms3 t) (hs3 t) (ms4 t) (hs4 t) (ms5 t) (hs5 t) scM (Memref.isWhole_whole _) (fun h => h0 ((condFirst_iff t).mp h)) ((condLast_iff t).mpr h1) (iblk V c 0 t) (iblk V c 1 t) (iblk V c 2 t) (iblk V c 3 t) (iblk V c 4 t) (accAt V c (t.val - 1) (Nat.lt_of_le_of_lt (Nat.sub_le _ _) t.isLt)) :=
  dif_pos h1

/-! ## The invariant -/

/-- The scoped buffers of the program that are not this call's: carried unopened. -/
abbrev restBut (c : Dev nD) : sProp 𝕄 :=
  Pipeline.scopedRestBut (Ix := Unit) (Name := ℕ) (U := UR sig nD τ) (Lvl := ℕ) (Val := Elt F) spec1 c [cc1_scratch0]

/-- The region invariant before position `n`: before the first point what the launch hands over (the accumulator at
    anything); afterwards the accumulator at what the point before left, the other scoped buffers unopened and the
    generator register at some state. -/
def PhiS (c : Dev nD) : (n : ℕ) → n ≤ cfg1.N → sProp 𝕄
  | 0, _ => Pipeline.ΦA spec1 c
  | n + 1, hn => iprop(iprop(iprop(owns (c : Thread nD τ) scM fullShare (accAt V c n hn)) ∗ restBut c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM fullShare (accAt V c n hn)) ∗ restBut c) ∗ (∃ r, prngReg c r)) := rfl

theorem PhiS_pos (c : Dev nD) (n : ℕ) (h : n ≤ cfg1.N) (hz : n ≠ 0) :
    PhiS V c n h = iprop(iprop(iprop(owns (c : Thread nD τ) scM fullShare (accAt V c (n - 1) (by omega))) ∗ restBut c) ∗ (∃ r, prngReg c r)) := by
  cases n with
  | zero => exact absurd rfl hz
  | succ n => rfl

/-! ## The proof data -/

/-- The proof data of the pipeline on core `c`: the arrays as the region finds them; after the body at point `t` each
    input's buffer at its block and the output's at `outAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t
  Φ t := PhiS V c t.val (Nat.le_of_lt_succ t.isLt)
  q _ := fullShare
  owed _ := 0

/-- The proof data's arrays are the region-entry contents. -/
theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = outAt V c t := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d

theorem live0 : ∀ t : Fin cfg1.N, cfg1.idle 0 (grid1.coords t) = false := fun _ => rfl
theorem live1 : ∀ t : Fin cfg1.N, cfg1.idle 1 (grid1.coords t) = false := fun _ => rfl
theorem live2 : ∀ t : Fin cfg1.N, cfg1.idle 2 (grid1.coords t) = false := fun _ => rfl
theorem live3 : ∀ t : Fin cfg1.N, cfg1.idle 3 (grid1.coords t) = false := fun _ => rfl
theorem live4 : ∀ t : Fin cfg1.N, cfg1.idle 4 (grid1.coords t) = false := fun _ => rfl

end Cert.Kernel.R1

end
-- ==== Proof.K.R1.lean ====
import proofs.«102678_j21827023798522_2_alg».proof.Proof.K.R1Dat

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the body obligation at a generic point, and the invariant's ends -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the inputs' memrefs hold their blocks; the closed forms say which case the point is in; the
    invariant hands the body the accumulator at what the point before left (at anything at the first point) and takes it
    back at this point's contents; off the last `k` the output window's buffer is handed back untouched; the other scoped
    buffers, the generator register and what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg1.N = 32 from N_1)
  by_cases h0 : t.val % 4 = 0
  · by_cases h1 : t.val % 4 = 3
    · exfalso; omega
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [Dat.leavesExact_idle (dat V c) 5 t (idle_out t (fun h => h1 ((condLast_iff t).mp h))) (noFlush_out t (fun h => h1 ((condLast_iff t).mp h)))]
      rw [accAt_first V c t h0 h1]
      unfold accFirst; (try dsimp only)
      by_cases hz : t.val = 0
      · rw [PhiS_castSucc V c t, PhiS_zero V c _ _ hz, PhiA_eq]
        iintro ⟨⟨⟨HS, HR⟩, Hg⟩, Ho, ⟨%d0, H0⟩, ⟨%d1, H1⟩, ⟨%d2, H2⟩, ⟨%d3, H3⟩, ⟨%d4, H4⟩, ⟨%d5, H5⟩⟩
        iapply ((runFirst c (grid1.coords t) _ _ _ _ _ _ _ _ _ _ _ _ _ _ ((condFirst_iff t).mpr h0) (fun h => h1 ((condLast_iff t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [HS HR Hg]
        · isplitl [HS HR]
          · isplitl [HS]
            · unfold owns; iexists _; isplitr
              swap; · iexact HS
              ipureintro; exact View.read_writes_of_cover _ _ _ _ _ (accCoverFirst c _ _ _ _ _ _ _ _ _ _ _ _ _ _ _ _ _ _ _ _ _ _ )
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨HS, HR⟩, Hg⟩, Ho, ⟨%d0, H0⟩, ⟨%d1, H1⟩, ⟨%d2, H2⟩, ⟨%d3, H3⟩, ⟨%d4, H4⟩, ⟨%d5, H5⟩⟩
        iapply ((runFirst c (grid1.coords t) _ _ _ _ _ _ _ _ _ _ _ _ _ _ ((condFirst_iff t).mpr h0) (fun h => h1 ((condLast_iff t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, ⟨%es, HS⟩⟩
        isplitl [HS HR Hg]
        · isplitl [HS HR]
          · isplitl [HS]
            · unfold owns; iexists _; isplitr
              swap; · iexact HS
              ipureintro; exact View.read_writes_of_cover _ _ _ _ _ (accCoverFirst c _ _ _ _ _ _ _ _ _ _ _ _ _ _ _ _ _ _ _ _ _ _ )
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [show (dat V c).leavesExact 5 t = owns (c : Thread nD τ) (ms5 t) fullShare ((dat V c).after 5 t) from by
        unfold Dat.leavesExact; rw [live_out t ((condLast_iff t).mpr h1)], after5]
      rw [accAt_last V c t h0 h1, outAt_last V c t h0 h1]
      unfold accLast outLast; (try dsimp only)
      have hz : t.val ≠ 0 := by omega
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((runLast c (grid1.coords t) _ _ _ _ _ _ _ _ _ _ _ _ _ _ (fun h => h0 ((condFirst_iff t).mp h)) ((condLast_iff t).mpr h1) (iblk V c 0 t) (iblk V c 1 t) (iblk V c 2 t) (iblk V c 3 t) (iblk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS HR Hg]
      · isplitl [HS HR]
        · isplitl [HS]
          · unfold owns; iexists _; isplitr
            swap; · iexact HS
            ipureintro; exact View.read_writes_of_cover _ _ _ _ _ (accCoverLast c _ _ _ _ _ _ _ _ _ _ _ _ _ _ _ _ _ _ _ _ _ _ _ )
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (outCoverLast c _ _ _ _ _ _ _ _ _ _ _ _ _ _ _ _ _ _ _ _ _ _ _ )
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [Dat.leavesExact_idle (dat V c) 5 t (idle_out t (fun h => h1 ((condLast_iff t).mp h))) (noFlush_out t (fun h => h1 ((condLast_iff t).mp h)))]
      rw [accAt_mid V c t h0 h1]
      unfold accMid; (try dsimp only)
      have hz : t.val ≠ 0 := by omega
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((runMid c (grid1.coords t) _ _ _ _ _ _ _ _ _ _ _ _ _ _ (fun h => h0 ((condFirst_iff t).mp h)) (fun h => h1 ((condLast_iff t).mp h)) (iblk V c 0 t) (iblk V c 1 t) (iblk V c 2 t) (iblk V c 3 t) (iblk V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (accCoverMid c _ _ _ _ _ _ _ _ _ _ _ _ _ _ _ _ _ _ _ _ _ _ _ )
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives back what the launch handed over: the accumulator's named contents
    are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

/-- The same after the last point. -/
theorem hout (c : Dev nD) : (dat V c).Φ (Fin.last cfg1.N) ⊢ Pipeline.ΦA spec1 c :=
  Phi_out V c _ (by rw [Fin.val_last]; have : cfg1.N = 32 := N_1; omega)

end Cert.Kernel.R1

end
-- ==== Proof.K.R2Runs.lean ====
import proofs.«102678_j21827023798522_2_alg».proof.Proof.Gen.Kernel.Launch
import proofs.«102678_j21827023798522_2_alg».proof.Proof.Gen.Kernel.Skeleton
import proofs.«102678_j21827023798522_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 2: what the three control cases of the body share

The body has two conditionals on the inner grid coordinate `k`: "first `k`" (the accumulator is zeroed) and
"last `k`" (the epilogue is stored into the output window). -/

/-- The body's first conditional, from the grid coordinates: `k = 0`. -/
abbrev condFirst (i : grid2.Coords) : Prop :=
  (Scalar.cmpi .ne (Scalar.extui (Scalar.cmpi .eq (BitVec.ofNat 32 (i 1).val) 0#32)) 0#32) = 1#1
/-- It holds at the points ≡ 0 (mod 4). -/
theorem condFirst_iff : ∀ t : Fin cfg2.N, condFirst (grid2.coords t) ↔ t.val % 4 = 0 :=
  (by decide +kernel : ∀ t : Fin grid2.N, condFirst (grid2.coords t) ↔ t.val % 4 = 0)

/-- The body's second conditional: `k = 3`, the last. -/
abbrev condLast (i : grid2.Coords) : Prop := k2_cond2 i = 1#1
/-- It holds at the points ≡ 3 (mod 4). -/
theorem condLast_iff : ∀ t : Fin cfg2.N, condLast (grid2.coords t) ↔ t.val % 4 = 3 :=
  (by decide +kernel : ∀ t : Fin grid2.N, condLast (grid2.coords t) ↔ t.val % 4 = 3)

/-! ## Where the windows are idle -/

/-- The input windows are never idle. -/
theorem live_in : ∀ (w : Fin cfg2.W), w.val < 5 → ∀ t : Fin cfg2.N, cfg2.idle w (grid2.coords t) = false := by decide +kernel
/-- Off the last `k` the output window is idle: nothing is stored into it, -/
theorem idle_out : ∀ t : Fin cfg2.N, ¬condLast (grid2.coords t) → cfg2.idle 5 (grid2.coords t) = true := by decide +kernel
/-- and it is not written back there. -/
theorem noFlush_out : ∀ t : Fin cfg2.N, ¬condLast (grid2.coords t) → (cfg2.win 5).flush t = false := by decide +kernel
/-- At the last `k` the output window is live. -/
theorem live_out : ∀ t : Fin cfg2.N, condLast (grid2.coords t) → cfg2.idle 5 (grid2.coords t) = false := by decide +kernel

/-! ## The staging memrefs the body is called with -/

abbrev ms0 (t : Fin cfg2.N) : Memref sig .tc .vmem S1024x2048 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S2048x256 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S1024x256 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1024x1 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1x256 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S1024x256 .f32 := win2_5.stage (cfg2.slots t 5)
abbrev hs5 (t : Fin cfg2.N) : (ms5 t).IsWhole := hstage2_5 ((cfg2.slots t 5).cast nbuf2_5)

/-- The accumulator: a whole scoped buffer of the kernel's own, passed beside the windows. -/
abbrev scM : Memref sig .tc .vmem S1024x256 .f32 := Memref.whole cc2_scratch0
/-- The accumulator as a view, and one staging buffer of the output window as a view: contents are stated through them. -/
abbrev VS : View sig .tc .vmem S1024x256 .f32 := scM.view
abbrev VO : View sig .tc .vmem S1024x256 .f32 := (Memref.whole cc2_stg5_0 : Memref sig .tc .vmem S1024x256 .f32).view

/-- What the launch hands the region, with the accumulator as a memref owned at some contents and the other scoped
    buffers unopened. -/
theorem PhiA_eq (c : Dev nD) :
    (Pipeline.ΦA spec2 c : sProp 𝕄)
      = iprop(iprop(iprop((∃ d, owns (c : Thread nD τ) scM fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM, owns_whole]; try rfl

end Cert.Kernel.R2

end
-- ==== Proof.K.R2RunLast.lean ====
import proofs.«102678_j21827023798522_2_alg».proof.Proof.K.R2Runs

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at the last `k`: on whole staging memrefs, the inputs' at their contents, the output window's at anything and the
    accumulator at what the point before left, the body runs to the continuation holding the inputs' as they were, the
    output's buffer with the epilogue written and the accumulator with this point's sum written. The pieces written are the
    witness the run finds. -/
noncomputable def runLast (c : Dev nD) (i : grid2.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : condLast i)
    (x0 : Vec F S1024x2048 .bf16) (x1 : Vec F S2048x256 .bf16) (x2 : Vec F S1024x256 .f32) (x3 : Vec F S1024x1 .f32) (x4 : Vec F S1x256 .f32) (xs : Vec F S1024x256 .f32) :
    Σ' (L5 : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc2_kernel i arg2 harg2 arg3 harg3 arg4 harg4 arg5 harg5 arg6 harg6 arg7 harg7 arg8 harg8) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.R2

end
-- ==== Proof.K.R2RunMid.lean ====
import proofs.«102678_j21827023798522_2_alg».proof.Proof.K.R2RunLast

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a middle `k`: on whole staging memrefs, the inputs' at their contents, the output window's (idle here) at
    contents `xi` handed back untouched and the accumulator at what the point before left, the body runs to the
    continuation holding all of them as they were but the accumulator, which has this point's sum written. The pieces
    written are the witness the run finds. -/
noncomputable def runMid (c : Dev nD) (i : grid2.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : ¬condLast i)
    (x0 : Vec F S1024x2048 .bf16) (x1 : Vec F S2048x256 .bf16) (x2 : Vec F S1024x256 .f32) (x3 : Vec F S1024x1 .f32) (x4 : Vec F S1x256 .f32) (xs : Vec F S1024x256 .f32) :
    Σ' (L5 : List (View.Piece (Elt F) S1024x256 .f32)), { LS : List (View.Piece (Elt F) S1024x256 .f32) //
      ∀ (xi : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc2_kernel i arg2 harg2 arg3 harg3 arg4 harg4 arg5 harg5 arg6 harg6 arg7 harg7 arg8 harg8) K } := by
  refine ⟨[], ?_, fun xi E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.R2

end
-- ==== Proof.K.R2RunFirst.lean ====
import proofs.«102678_j21827023798522_2_alg».proof.Proof.K.R2RunMid

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at the first `k`: on whole staging memrefs, the inputs' at their contents, the output window's (idle here) at
    contents `xi` handed back untouched and the accumulator at anything, the body runs to the continuation holding all of
    them as they were but the accumulator, which has the zero block and then this point's sum written. The pieces written
    are the witness the run finds. -/
noncomputable def runFirst (c : Dev nD) (i : grid2.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : condFirst i) (hc1 : ¬condLast i)
    (x0 : Vec F S1024x2048 .bf16) (x1 : Vec F S2048x256 .bf16) (x2 : Vec F S1024x256 .f32) (x3 : Vec F S1024x1 .f32) (x4 : Vec F S1x256 .f32) :
    Σ' (L5 : List (View.Piece (Elt F) S1024x256 .f32)), { LS : List (View.Piece (Elt F) S1024x256 .f32) //
      ∀ (xi : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc2_kernel i arg2 harg2 arg3 harg3 arg4 harg4 arg5 harg5 arg6 harg6 arg7 harg7 arg8 harg8) K } := by
  refine ⟨[], ?_, fun xi E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.R2

end
-- ==== Proof.K.R2Dat.lean ====
import proofs.«102678_j21827023798522_2_alg».proof.Proof.K.R2RunFirst

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2 at the entry contents `V`: the proof data and the body obligation -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place. -/
theorem before0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is `V`'s and whose body leaves the block in place. -/
theorem before1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is `V`'s and whose body leaves the block in place. -/
theorem before2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is `V`'s and whose body leaves the block in place. -/
theorem before3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is `V`'s and whose body leaves the block in place. -/
theorem before4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The pieces the first-`k` case writes into the accumulator tile it, so they cover it. -/
theorem accCoverFirst (c : Dev nD) (i : grid2.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : condFirst i) (hc1 : ¬condLast i)
    (x0 : Vec F S1024x2048 .bf16) (x1 : Vec F S2048x256 .bf16) (x2 : Vec F S1024x256 .f32) (x3 : Vec F S1024x1 .f32) (x4 : Vec F S1x256 .f32) (y : S1024x256.Idx) :
    ∃ pc ∈ (runFirst c i arg2 harg2 arg3 harg3 arg4 harg4 arg5 harg5 arg6 harg6 arg7 harg7 arg8 harg8 hc0 hc1 x0 x1 x2 x3 x4).2.1, y ∈ pc.1.set :=
  View.cover_of_tiledL (runFirst c i arg2 harg2 arg3 harg3 arg4 harg4 arg5 harg5 arg6 harg6 arg7 harg7 arg8 harg8 hc0 hc1 x0 x1 x2 x3 x4).2.1 S1024x256.size (by sl_kernel_rfl) y

/-- What the first-`k` case leaves in the accumulator: its pieces read back over junk. -/
def accFirst (c : Dev nD) (i : grid2.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : condFirst i) (hc1 : ¬condLast i)
    (x0 : Vec F S1024x2048 .bf16) (x1 : Vec F S2048x256 .bf16) (x2 : Vec F S1024x256 .f32) (x3 : Vec F S1024x1 .f32) (x4 : Vec F S1x256 .f32) : Vec F S1024x256 .f32 :=
  VS.read (Elt F) (VS.writes (Elt F) VS.junk (runFirst c i arg2 harg2 arg3 harg3 arg4 harg4 arg5 harg5 arg6 harg6 arg7 harg7 arg8 harg8 hc0 hc1 x0 x1 x2 x3 x4).2.1)

/-- The pieces the mid-`k` case writes into the accumulator tile it, so they cover it. -/
theorem accCoverMid (c : Dev nD) (i : grid2.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : ¬condLast i)
    (x0 : Vec F S1024x2048 .bf16) (x1 : Vec F S2048x256 .bf16) (x2 : Vec F S1024x256 .f32) (x3 : Vec F S1024x1 .f32) (x4 : Vec F S1x256 .f32) (xs : Vec F S1024x256 .f32) (y : S1024x256.Idx) :
    ∃ pc ∈ (runMid c i arg2 harg2 arg3 harg3 arg4 harg4 arg5 harg5 arg6 harg6 arg7 harg7 arg8 harg8 hc0 hc1 x0 x1 x2 x3 x4 xs).2.1, y ∈ pc.1.set :=
  View.cover_of_tiledL (runMid c i arg2 harg2 arg3 harg3 arg4 harg4 arg5 harg5 arg6 harg6 arg7 harg7 arg8 harg8 hc0 hc1 x0 x1 x2 x3 x4 xs).2.1 S1024x256.size (by sl_kernel_rfl) y

/-- What the mid-`k` case leaves in the accumulator: its pieces read back over junk. -/
def accMid (c : Dev nD) (i : grid2.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : ¬condLast i)
    (x0 : Vec F S1024x2048 .bf16) (x1 : Vec F S2048x256 .bf16) (x2 : Vec F S1024x256 .f32) (x3 : Vec F S1024x1 .f32) (x4 : Vec F S1x256 .f32) (xs : Vec F S1024x256 .f32) : Vec F S1024x256 .f32 :=
  VS.read (Elt F) (VS.writes (Elt F) VS.junk (runMid c i arg2 harg2 arg3 harg3 arg4 harg4 arg5 harg5 arg6 harg6 arg7 harg7 arg8 harg8 hc0 hc1 x0 x1 x2 x3 x4 xs).2.1)

/-- The pieces the last-`k` case writes into the accumulator tile it, so they cover it. -/
theorem accCoverLast (c : Dev nD) (i : grid2.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : condLast i)
    (x0 : Vec F S1024x2048 .bf16) (x1 : Vec F S2048x256 .bf16) (x2 : Vec F S1024x256 .f32) (x3 : Vec F S1024x1 .f32) (x4 : Vec F S1x256 .f32) (xs : Vec F S1024x256 .f32) (y : S1024x256.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S1024x256.size (by sl_kernel_rfl) y

/-- What the last-`k` case leaves in the accumulator: its pieces read back over junk. -/
def accLast (c : Dev nD) (i : grid2.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : condLast i)
    (x0 : Vec F S1024x2048 .bf16) (x1 : Vec F S2048x256 .bf16) (x2 : Vec F S1024x256 .f32) (x3 : Vec F S1024x1 .f32) (x4 : Vec F S1x256 .f32) (xs : Vec F S1024x256 .f32) : Vec F S1024x256 .f32 :=
  VS.read (Elt F) (VS.writes (Elt F) VS.junk (runLast c i arg2 harg2 arg3 harg3 arg4 harg4 arg5 harg5 arg6 harg6 arg7 harg7 arg8 harg8 hc0 hc1 x0 x1 x2 x3 x4 xs).2.1)

/-- The one store of the last-`k` case into the output window tiles its block, so it covers it. -/
theorem outCoverLast (c : Dev nD) (i : grid2.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : condLast i)
    (x0 : Vec F S1024x2048 .bf16) (x1 : Vec F S2048x256 .bf16) (x2 : Vec F S1024x256 .f32) (x3 : Vec F S1024x1 .f32) (x4 : Vec F S1x256 .f32) (xs : Vec F S1024x256 .f32) (y : S1024x256.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S1024x256.size (by sl_kernel_rfl) y

/-- What the last-`k` case leaves in the output window's staging buffer: the epilogue, read back over junk. -/
def outLast (c : Dev nD) (i : grid2.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : condLast i)
    (x0 : Vec F S1024x2048 .bf16) (x1 : Vec F S2048x256 .bf16) (x2 : Vec F S1024x256 .f32) (x3 : Vec F S1024x1 .f32) (x4 : Vec F S1x256 .f32) (xs : Vec F S1024x256 .f32) : Vec F S1024x256 .f32 :=
  VO.read (Elt F) (VO.writes (Elt F) VO.junk (runLast c i arg2 harg2 arg3 harg3 arg4 harg4 arg5 harg5 arg6 harg6 arg7 harg7 arg8 harg8 hc0 hc1 x0 x1 x2 x3 x4 xs).1)

/-! ## The accumulator point by point -/

/-- THE ACCUMULATION. What the accumulator holds after the body at position `n`: the case the closed forms select at `n`,
    run at the point's memrefs and input blocks, over what the point before left (at a first `k` over nothing: the
    accumulator is zeroed there). -/
def accAt (c : Dev nD) : (n : ℕ) → n < cfg2.N → Vec F S1024x256 .f32
  | 0, hn => accFirst c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) ((condFirst_iff ⟨0, hn⟩).mpr (Nat.zero_mod _)) (fun h => (fun h => by (try dsimp only at h); omega) ((condLast_iff ⟨0, hn⟩).mp h)) (iblk V c 0 ⟨0, hn⟩) (iblk V c 1 ⟨0, hn⟩) (iblk V c 2 ⟨0, hn⟩) (iblk V c 3 ⟨0, hn⟩) (iblk V c 4 ⟨0, hn⟩)
  | n + 1, hn =>
    if h0 : (n + 1) % 4 = 0 then
      if h1 : (n + 1) % 4 = 3 then
        False.elim (by omega)
      else
        accFirst c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) ((condFirst_iff ⟨n + 1, hn⟩).mpr h0) (fun h => h1 ((condLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩)
    else
      if h1 : (n + 1) % 4 = 3 then
        accLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h0 ((condFirst_iff ⟨n + 1, hn⟩).mp h)) ((condLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (accAt c n (Nat.lt_of_succ_lt hn))
      else
        accMid c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h0 ((condFirst_iff ⟨n + 1, hn⟩).mp h)) (fun h => h1 ((condLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (accAt c n (Nat.lt_of_succ_lt hn))

/-- `accAt` at a first `k`. -/
theorem accAt_first (c : Dev nD) (t : Fin cfg2.N) (h0 : t.val % 4 = 0) (h1 : ¬t.val % 4 = 3) :
    accAt V c t.val t.isLt = accFirst c (grid2.coords t) (ms0 t) (hs0 t) (ms1 t) (hs1 t) (ms2 t) (hs2 t) (ms3 t) (hs3 t) (ms4 t) (hs4 t) (ms5 t) (hs5 t) scM (Memref.isWhole_whole _) ((condFirst_iff t).mpr h0) (fun h => h1 ((condLast_iff t).mp h)) (iblk V c 0 t) (iblk V c 1 t) (iblk V c 2 t) (iblk V c 3 t) (iblk V c 4 t) := by
  obtain ⟨n, hn⟩ := t
  cases n with
  | zero => exact rfl
  | succ n => exact (dif_pos h0).trans ((dif_neg h1).trans rfl)

/-- `accAt` at a middle `k`: over what the point before left. -/
theorem accAt_mid (c : Dev nD) (t : Fin cfg2.N) (h0 : ¬t.val % 4 = 0) (h1 : ¬t.val % 4 = 3) :
    accAt V c t.val t.isLt = accMid c (grid2.coords t) (ms0 t) (hs0 t) (ms1 t) (hs1 t) (ms2 t) (hs2 t) (ms3 t) (hs3 t) (ms4 t) (hs4 t) (ms5 t) (hs5 t) scM (Memref.isWhole_whole _) (fun h => h0 ((condFirst_iff t).mp h)) (fun h => h1 ((condLast_iff t).mp h)) (iblk V c 0 t) (iblk V c 1 t) (iblk V c 2 t) (iblk V c 3 t) (iblk V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `accAt` at a last `k`: over what the point before left. -/
theorem accAt_last (c : Dev nD) (t : Fin cfg2.N) (h0 : ¬t.val % 4 = 0) (h1 : t.val % 4 = 3) :
    accAt V c t.val t.isLt = accLast c (grid2.coords t) (ms0 t) (hs0 t) (ms1 t) (hs1 t) (ms2 t) (hs2 t) (ms3 t) (hs3 t) (ms4 t) (hs4 t) (ms5 t) (hs5 t) scM (Memref.isWhole_whole _) (fun h => h0 ((condFirst_iff t).mp h)) ((condLast_iff t).mpr h1) (iblk V c 0 t) (iblk V c 1 t) (iblk V c 2 t) (iblk V c 3 t) (iblk V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after the body at point `t`: at a last `k` the epilogue over what the
    point before left in the accumulator; elsewhere the window is idle and nothing consults this (a placeholder). -/
def outAt (c : Dev nD) (t : Fin cfg2.N) : Vec F S1024x256 .f32 :=
  if h1 : t.val % 4 = 3 then
    outLast c (grid2.coords t) (ms0 t) (hs0 t) (ms1 t) (hs1 t) (ms2 t) (hs2 t) (ms3 t) (hs3 t) (ms4 t) (hs4 t) (ms5 t) (hs5 t) scM (Memref.isWhole_whole _) (fun h => (fun h => by omega) ((condFirst_iff t).mp h)) ((condLast_iff t).mpr h1) (iblk V c 0 t) (iblk V c 1 t) (iblk V c 2 t) (iblk V c 3 t) (iblk V c 4 t) (accAt V c (t.val - 1) (Nat.lt_of_le_of_lt (Nat.sub_le _ _) t.isLt))
  else VO.read (Elt F) VO.junk

theorem outAt_last (c : Dev nD) (t : Fin cfg2.N) (h0 : ¬t.val % 4 = 0) (h1 : t.val % 4 = 3) :
    outAt V c t = outLast c (grid2.coords t) (ms0 t) (hs0 t) (ms1 t) (hs1 t) (ms2 t) (hs2 t) (ms3 t) (hs3 t) (ms4 t) (hs4 t) (ms5 t) (hs5 t) scM (Memref.isWhole_whole _) (fun h => h0 ((condFirst_iff t).mp h)) ((condLast_iff t).mpr h1) (iblk V c 0 t) (iblk V c 1 t) (iblk V c 2 t) (iblk V c 3 t) (iblk V c 4 t) (accAt V c (t.val - 1) (Nat.lt_of_le_of_lt (Nat.sub_le _ _) t.isLt)) :=
  dif_pos h1

/-! ## The invariant -/

/-- The scoped buffers of the program that are not this call's: carried unopened. -/
abbrev restBut (c : Dev nD) : sProp 𝕄 :=
  Pipeline.scopedRestBut (Ix := Unit) (Name := ℕ) (U := UR sig nD τ) (Lvl := ℕ) (Val := Elt F) spec2 c [cc2_scratch0]

/-- The region invariant before position `n`: before the first point what the launch hands over (the accumulator at
    anything); afterwards the accumulator at what the point before left, the other scoped buffers unopened and the
    generator register at some state. -/
def PhiS (c : Dev nD) : (n : ℕ) → n ≤ cfg2.N → sProp 𝕄
  | 0, _ => Pipeline.ΦA spec2 c
  | n + 1, hn => iprop(iprop(iprop(owns (c : Thread nD τ) scM fullShare (accAt V c n hn)) ∗ restBut c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(iprop(owns (c : Thread nD τ) scM fullShare (accAt V c n hn)) ∗ restBut c) ∗ (∃ r, prngReg c r)) := rfl

theorem PhiS_pos (c : Dev nD) (n : ℕ) (h : n ≤ cfg2.N) (hz : n ≠ 0) :
    PhiS V c n h = iprop(iprop(iprop(owns (c : Thread nD τ) scM fullShare (accAt V c (n - 1) (by omega))) ∗ restBut c) ∗ (∃ r, prngReg c r)) := by
  cases n with
  | zero => exact absurd rfl hz
  | succ n => rfl

/-! ## The proof data -/

/-- The proof data of the pipeline on core `c`: the arrays as the region finds them; after the body at point `t` each
    input's buffer at its block and the output's at `outAt`; the invariant `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t
  Φ t := PhiS V c t.val (Nat.le_of_lt_succ t.isLt)
  q _ := fullShare
  owed _ := 0

/-- The proof data's arrays are the region-entry contents. -/
theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = iblk V c 4 t := by dsimp only [dat]
theorem after5 (c : Dev nD) (t : Fin cfg2.N) : (dat V c).after 5 t = outAt V c t := by dsimp only [dat]

theorem before0 (c : Dev nD) (t : Fin cfg2.N) (d) : (dat V c).before 0 t d = iblk V c 0 t :=
  before0_of V (dat V c) (A_eq V c 0) (after0 V c) t d
theorem before1 (c : Dev nD) (t : Fin cfg2.N) (d) : (dat V c).before 1 t d = iblk V c 1 t :=
  before1_of V (dat V c) (A_eq V c 1) (after1 V c) t d
theorem before2 (c : Dev nD) (t : Fin cfg2.N) (d) : (dat V c).before 2 t d = iblk V c 2 t :=
  before2_of V (dat V c) (A_eq V c 2) (after2 V c) t d
theorem before3 (c : Dev nD) (t : Fin cfg2.N) (d) : (dat V c).before 3 t d = iblk V c 3 t :=
  before3_of V (dat V c) (A_eq V c 3) (after3 V c) t d
theorem before4 (c : Dev nD) (t : Fin cfg2.N) (d) : (dat V c).before 4 t d = iblk V c 4 t :=
  before4_of V (dat V c) (A_eq V c 4) (after4 V c) t d

theorem live0 : ∀ t : Fin cfg2.N, cfg2.idle 0 (grid2.coords t) = false := fun _ => rfl
theorem live1 : ∀ t : Fin cfg2.N, cfg2.idle 1 (grid2.coords t) = false := fun _ => rfl
theorem live2 : ∀ t : Fin cfg2.N, cfg2.idle 2 (grid2.coords t) = false := fun _ => rfl
theorem live3 : ∀ t : Fin cfg2.N, cfg2.idle 3 (grid2.coords t) = false := fun _ => rfl
theorem live4 : ∀ t : Fin cfg2.N, cfg2.idle 4 (grid2.coords t) = false := fun _ => rfl

end Cert.Kernel.R2

end
-- ==== Proof.K.R2.lean ====
import proofs.«102678_j21827023798522_2_alg».proof.Proof.K.R2Dat

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the body obligation at a generic point, and the invariant's ends -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the inputs' memrefs hold their blocks; the closed forms say which case the point is in; the
    invariant hands the body the accumulator at what the point before left (at anything at the first point) and takes it
    back at this point's contents; off the last `k` the output window's buffer is handed back untouched; the other scoped
    buffers, the generator register and what the core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3, before4]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg2.N = 32 from N_2)
  by_cases h0 : t.val % 4 = 0
  · by_cases h1 : t.val % 4 = 3
    · exfalso; omega
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [Dat.leavesExact_idle (dat V c) 5 t (idle_out t (fun h => h1 ((condLast_iff t).mp h))) (noFlush_out t (fun h => h1 ((condLast_iff t).mp h)))]
      rw [accAt_first V c t h0 h1]
      unfold accFirst; (try dsimp only)
      by_cases hz : t.val = 0
      · rw [PhiS_castSucc V c t, PhiS_zero V c _ _ hz, PhiA_eq]
        iintro ⟨⟨⟨HS, HR⟩, Hg⟩, Ho, ⟨%d0, H0⟩, ⟨%d1, H1⟩, ⟨%d2, H2⟩, ⟨%d3, H3⟩, ⟨%d4, H4⟩, ⟨%d5, H5⟩⟩
        iapply ((runFirst c (grid2.coords t) _ _ _ _ _ _ _ _ _ _ _ _ _ _ ((condFirst_iff t).mpr h0) (fun h => h1 ((condLast_iff t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [HS HR Hg]
        · isplitl [HS HR]
          · isplitl [HS]
            · unfold owns; iexists _; isplitr
              swap; · iexact HS
              ipureintro; exact View.read_writes_of_cover _ _ _ _ _ (accCoverFirst c _ _ _ _ _ _ _ _ _ _ _ _ _ _ _ _ _ _ _ _ _ _ )
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨HS, HR⟩, Hg⟩, Ho, ⟨%d0, H0⟩, ⟨%d1, H1⟩, ⟨%d2, H2⟩, ⟨%d3, H3⟩, ⟨%d4, H4⟩, ⟨%d5, H5⟩⟩
        iapply ((runFirst c (grid2.coords t) _ _ _ _ _ _ _ _ _ _ _ _ _ _ ((condFirst_iff t).mpr h0) (fun h => h1 ((condLast_iff t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, ⟨%es, HS⟩⟩
        isplitl [HS HR Hg]
        · isplitl [HS HR]
          · isplitl [HS]
            · unfold owns; iexists _; isplitr
              swap; · iexact HS
              ipureintro; exact View.read_writes_of_cover _ _ _ _ _ (accCoverFirst c _ _ _ _ _ _ _ _ _ _ _ _ _ _ _ _ _ _ _ _ _ _ )
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [show (dat V c).leavesExact 5 t = owns (c : Thread nD τ) (ms5 t) fullShare ((dat V c).after 5 t) from by
        unfold Dat.leavesExact; rw [live_out t ((condLast_iff t).mpr h1)], after5]
      rw [accAt_last V c t h0 h1, outAt_last V c t h0 h1]
      unfold accLast outLast; (try dsimp only)
      have hz : t.val ≠ 0 := by omega
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((runLast c (grid2.coords t) _ _ _ _ _ _ _ _ _ _ _ _ _ _ (fun h => h0 ((condFirst_iff t).mp h)) ((condLast_iff t).mpr h1) (iblk V c 0 t) (iblk V c 1 t) (iblk V c 2 t) (iblk V c 3 t) (iblk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS HR Hg]
      · isplitl [HS HR]
        · isplitl [HS]
          · unfold owns; iexists _; isplitr
            swap; · iexact HS
            ipureintro; exact View.read_writes_of_cover _ _ _ _ _ (accCoverLast c _ _ _ _ _ _ _ _ _ _ _ _ _ _ _ _ _ _ _ _ _ _ _ )
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (outCoverLast c _ _ _ _ _ _ _ _ _ _ _ _ _ _ _ _ _ _ _ _ _ _ _ )
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [Dat.leavesExact_idle (dat V c) 5 t (idle_out t (fun h => h1 ((condLast_iff t).mp h))) (noFlush_out t (fun h => h1 ((condLast_iff t).mp h)))]
      rw [accAt_mid V c t h0 h1]
      unfold accMid; (try dsimp only)
      have hz : t.val ≠ 0 := by omega
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((runMid c (grid2.coords t) _ _ _ _ _ _ _ _ _ _ _ _ _ _ (fun h => h0 ((condFirst_iff t).mp h)) (fun h => h1 ((condLast_iff t).mp h)) (iblk V c 0 t) (iblk V c 1 t) (iblk V c 2 t) (iblk V c 3 t) (iblk V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (accCoverMid c _ _ _ _ _ _ _ _ _ _ _ _ _ _ _ _ _ _ _ _ _ _ _ )
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives back what the launch handed over: the accumulator's named contents
    are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

/-- The same after the last point. -/
theorem hout (c : Dev nD) : (dat V c).Φ (Fin.last cfg2.N) ⊢ Pipeline.ΦA spec2 c :=
  Phi_out V c _ (by rw [Fin.val_last]; have : cfg2.N = 32 := N_2; omega)

end Cert.Kernel.R2

end
-- ==== Proof.K.R3Runs.lean ====
import proofs.«102678_j21827023798522_2_alg».proof.Proof.Gen.Kernel.Launch
import proofs.«102678_j21827023798522_2_alg».proof.Proof.Gen.Kernel.Skeleton
import proofs.«102678_j21827023798522_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 3: what the three control cases of the body share

The body has two conditionals on the inner grid coordinate `k`: "first `k`" (the accumulator is zeroed) and
"last `k`" (the epilogue is stored into the output window). -/

/-- The body's first conditional, from the grid coordinates: `k = 0`. -/
abbrev condFirst (i : grid3.Coords) : Prop :=
  (Scalar.cmpi .ne (Scalar.extui (Scalar.cmpi .eq (BitVec.ofNat 32 (i 1).val) 0#32)) 0#32) = 1#1
/-- It holds at the points ≡ 0 (mod 4). -/
theorem condFirst_iff : ∀ t : Fin cfg3.N, condFirst (grid3.coords t) ↔ t.val % 4 = 0 :=
  (by decide +kernel : ∀ t : Fin grid3.N, condFirst (grid3.coords t) ↔ t.val % 4 = 0)

/-- The body's second conditional: `k = 3`, the last. -/
abbrev condLast (i : grid3.Coords) : Prop := k3_cond2 i = 1#1
/-- It holds at the points ≡ 3 (mod 4). -/
theorem condLast_iff : ∀ t : Fin cfg3.N, condLast (grid3.coords t) ↔ t.val % 4 = 3 :=
  (by decide +kernel : ∀ t : Fin grid3.N, condLast (grid3.coords t) ↔ t.val % 4 = 3)

/-! ## Where the windows are idle -/

/-- The input windows are never idle. -/
theorem live_in : ∀ (w : Fin cfg3.W), w.val < 5 → ∀ t : Fin cfg3.N, cfg3.idle w (grid3.coords t) = false := by decide +kernel
/-- Off the last `k` the output window is idle: nothing is stored into it, -/
theorem idle_out : ∀ t : Fin cfg3.N, ¬condLast (grid3.coords t) → cfg3.idle 5 (grid3.coords t) = true := by decide +kernel
/-- and it is not written back there. -/
theorem noFlush_out : ∀ t : Fin cfg3.N, ¬condLast (grid3.coords t) → (cfg3.win 5).flush t = false := by decide +kernel
/-- At the last `k` the output window is live. -/
theorem live_out : ∀ t : Fin cfg3.N, condLast (grid3.coords t) → cfg3.idle 5 (grid3.coords t) = false := by decide +kernel

/-! ## The staging memrefs the body is called with -/

abbrev ms0 (t : Fin cfg3.N) : Memref sig .tc .vmem S1024x2048 .bf16 := win3_0.stage (cfg3.slots t 0)
abbrev hs0 (t : Fin cfg3.N) : (ms0 t).IsWhole := hstage3_0 ((cfg3.slots t 0).cast nbuf3_0)
abbrev ms1 (t : Fin cfg3.N) : Memref sig .tc .vmem S2048x128 .bf16 := win3_1.stage (cfg3.slots t 1)
abbrev hs1 (t : Fin cfg3.N) : (ms1 t).IsWhole := hstage3_1 ((cfg3.slots t 1).cast nbuf3_1)
abbrev ms2 (t : Fin cfg3.N) : Memref sig .tc .vmem S1024x128 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S1024x1 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S1x128 .f32 := win3_4.stage (cfg3.slots t 4)
abbrev hs4 (t : Fin cfg3.N) : (ms4 t).IsWhole := hstage3_4 ((cfg3.slots t 4).cast nbuf3_4)
abbrev ms5 (t : Fin cfg3.N) : Memref sig .tc .vmem S1024x128 .f32 := win3_5.stage (cfg3.slots t 5)
abbrev hs5 (t : Fin cfg3.N) : (ms5 t).IsWhole := hstage3_5 ((cfg3.slots t 5).cast nbuf3_5)

/-- The accumulator: a whole scoped buffer of the kernel's own, passed beside the windows. -/
abbrev scM : Memref sig .tc .vmem S1024x128 .f32 := Memref.whole cc3_scratch0
/-- The accumulator as a view, and one staging buffer of the output window as a view: contents are stated through them. -/
abbrev VS : View sig .tc .vmem S1024x128 .f32 := scM.view
abbrev VO : View sig .tc .vmem S1024x128 .f32 := (Memref.whole cc3_stg5_0 : Memref sig .tc .vmem S1024x128 .f32).view

/-- What the launch hands the region, with the accumulator as a memref owned at some contents and the other scoped
    buffers unopened. -/
theorem PhiA_eq (c : Dev nD) :
    (Pipeline.ΦA spec3 c : sProp 𝕄)
      = iprop(iprop(iprop((∃ d, owns (c : Thread nD τ) scM fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM, owns_whole]; try rfl

end Cert.Kernel.R3

end
-- ==== Proof.K.R3RunLast.lean ====
import proofs.«102678_j21827023798522_2_alg».proof.Proof.K.R3Runs

set_option maxRecDepth 16384

noncomputable section

namespace Cert.Kernel.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at the last `k`: on whole staging memrefs, the inputs' at their contents, the output window's at anything and the
    accumulator at what the point before left, the body runs to the continuation holding the inputs' as they were, the
    output's buffer with the epilogue written and the accumulator with this point's sum written. The pieces written are the
    witness the run finds. -/
noncomputable def runLast (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬condFirst i) (hc1 : condLast i)
    (x0 : Vec F S1024x2048 .bf16) (x1 : Vec F S2048x128 .bf16) (x2 : Vec F S1024x128 .f32) (x3 : Vec F S1024x1 .f32) (x4 : Vec F S1x128 .f32) (xs : Vec F S1024x128 .f32) :
    Σ' (L5 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc3_kernel i arg2 harg2 arg3 harg3 arg4 harg4 arg5 harg5 arg6 harg6 arg7 harg7 arg8 harg8) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.R3

end
-- ==== Proof.K.R3RunMid.lean ====
import proofs.«102678_j21827023798522_2_alg».proof.Proof.K.R3RunLast

set_option maxRecDepth 16384

noncomputable section

namespace Cert.Kernel.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a middle `k`: on whole staging memrefs, the inputs' at their contents, the output window's (idle here) at
    contents `xi` handed back untouched and the accumulator at what the point before left, the body runs to the
    continuation holding all of them as they were but the accumulator, which has this point's sum written. The pieces
    written are the witness the run finds. -/
noncomputable def runMid (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬condFirst i) (hc1 : ¬condLast i)
    (x0 : Vec F S1024x2048 .bf16) (x1 : Vec F S2048x128 .bf16) (x2 : Vec F S1024x128 .f32) (x3 : Vec F S1024x1 .f32) (x4 : Vec F S1x128 .f32) (xs : Vec F S1024x128 .f32) :
    Σ' (L5 : List (View.Piece (Elt F) S1024x128 .f32)), { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc3_kernel i arg2 harg2 arg3 harg3 arg4 harg4 arg5 harg5 arg6 harg6 arg7 harg7 arg8 harg8) K } := by
  refine ⟨[], ?_, fun xi E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.R3

end
-- ==== Proof.K.R3RunFirst.lean ====
import proofs.«102678_j21827023798522_2_alg».proof.Proof.K.R3RunMid

set_option maxRecDepth 16384

noncomputable section

namespace Cert.Kernel.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at the first `k`: on whole staging memrefs, the inputs' at their contents, the output window's (idle here) at
    contents `xi` handed back untouched and the accumulator at anything, the body runs to the continuation holding all of
    them as they were but the accumulator, which has the zero block and then this point's sum written. The pieces written
    are the witness the run finds. -/
noncomputable def runFirst (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : condFirst i) (hc1 : ¬condLast i)
    (x0 : Vec F S1024x2048 .bf16) (x1 : Vec F S2048x128 .bf16) (x2 : Vec F S1024x128 .f32) (x3 : Vec F S1024x1 .f32) (x4 : Vec F S1x128 .f32) :
    Σ' (L5 : List (View.Piece (Elt F) S1024x128 .f32)), { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc3_kernel i arg2 harg2 arg3 harg3 arg4 harg4 arg5 harg5 arg6 harg6 arg7 harg7 arg8 harg8) K } := by
  refine ⟨[], ?_, fun xi E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.R3

end
-- ==== Proof.K.R3Dat.lean ====
import proofs.«102678_j21827023798522_2_alg».proof.Proof.K.R3RunFirst

set_option maxRecDepth 16384

noncomputable section

namespace Cert.Kernel.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3 at the entry contents `V`: the proof data and the body obligation -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is `V`'s and whose body leaves the block in place. -/
theorem before0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is `V`'s and whose body leaves the block in place. -/
theorem before1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is `V`'s and whose body leaves the block in place. -/
theorem before2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is `V`'s and whose body leaves the block in place. -/
theorem before3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is `V`'s and whose body leaves the block in place. -/
theorem before4_of {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The pieces the first-`k` case writes into the accumulator tile it, so they cover it. -/
theorem accCoverFirst (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : condFirst i) (hc1 : ¬condLast i)
    (x0 : Vec F S1024x2048 .bf16) (x1 : Vec F S2048x128 .bf16) (x2 : Vec F S1024x128 .f32) (x3 : Vec F S1024x1 .f32) (x4 : Vec F S1x128 .f32) (y : S1024x128.Idx) :
    ∃ pc ∈ (runFirst c i arg2 harg2 arg3 harg3 arg4 harg4 arg5 harg5 arg6 harg6 arg7 harg7 arg8 harg8 hc0 hc1 x0 x1 x2 x3 x4).2.1, y ∈ pc.1.set :=
  View.cover_of_tiledL (runFirst c i arg2 harg2 arg3 harg3 arg4 harg4 arg5 harg5 arg6 harg6 arg7 harg7 arg8 harg8 hc0 hc1 x0 x1 x2 x3 x4).2.1 S1024x128.size (by sl_kernel_rfl) y

/-- What the first-`k` case leaves in the accumulator: its pieces read back over junk. -/
def accFirst (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : condFirst i) (hc1 : ¬condLast i)
    (x0 : Vec F S1024x2048 .bf16) (x1 : Vec F S2048x128 .bf16) (x2 : Vec F S1024x128 .f32) (x3 : Vec F S1024x1 .f32) (x4 : Vec F S1x128 .f32) : Vec F S1024x128 .f32 :=
  VS.read (Elt F) (VS.writes (Elt F) VS.junk (runFirst c i arg2 harg2 arg3 harg3 arg4 harg4 arg5 harg5 arg6 harg6 arg7 harg7 arg8 harg8 hc0 hc1 x0 x1 x2 x3 x4).2.1)

/-- The pieces the mid-`k` case writes into the accumulator tile it, so they cover it. -/
theorem accCoverMid (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬condFirst i) (hc1 : ¬condLast i)
    (x0 : Vec F S1024x2048 .bf16) (x1 : Vec F S2048x128 .bf16) (x2 : Vec F S1024x128 .f32) (x3 : Vec F S1024x1 .f32) (x4 : Vec F S1x128 .f32) (xs : Vec F S1024x128 .f32) (y : S1024x128.Idx) :
    ∃ pc ∈ (runMid c i arg2 harg2 arg3 harg3 arg4 harg4 arg5 harg5 arg6 harg6 arg7 harg7 arg8 harg8 hc0 hc1 x0 x1 x2 x3 x4 xs).2.1, y ∈ pc.1.set :=
  View.cover_of_tiledL (runMid c i arg2 harg2 arg3 harg3 arg4 harg4 arg5 harg5 arg6 harg6 arg7 harg7 arg8 harg8 hc0 hc1 x0 x1 x2 x3 x4 xs).2.1 S1024x128.size (by sl_kernel_rfl) y

/-- What the mid-`k` case leaves in the accumulator: its pieces read back over junk. -/
def accMid (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬condFirst i) (hc1 : ¬condLast i)
    (x0 : Vec F S1024x2048 .bf16) (x1 : Vec F S2048x128 .bf16) (x2 : Vec F S1024x128 .f32) (x3 : Vec F S1024x1 .f32) (x4 : Vec F S1x128 .f32) (xs : Vec F S1024x128 .f32) : Vec F S1024x128 .f32 :=
  VS.read (Elt F) (VS.writes (Elt F) VS.junk (runMid c i arg2 harg2 arg3 harg3 arg4 harg4 arg5 harg5 arg6 harg6 arg7 harg7 arg8 harg8 hc0 hc1 x0 x1 x2 x3 x4 xs).2.1)

/-- The pieces the last-`k` case writes into the accumulator tile it, so they cover it. -/
theorem accCoverLast (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬condFirst i) (hc1 : condLast i)
    (x0 : Vec F S1024x2048 .bf16) (x1 : Vec F S2048x128 .bf16) (x2 : Vec F S1024x128 .f32) (x3 : Vec F S1024x1 .f32) (x4 : Vec F S1x128 .f32) (xs : Vec F S1024x128 .f32) (y : S1024x128.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S1024x128.size (by sl_kernel_rfl) y

/-- What the last-`k` case leaves in the accumulator: its pieces read back over junk. -/
def accLast (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬condFirst i) (hc1 : condLast i)
    (x0 : Vec F S1024x2048 .bf16) (x1 : Vec F S2048x128 .bf16) (x2 : Vec F S1024x128 .f32) (x3 : Vec F S1024x1 .f32) (x4 : Vec F S1x128 .f32) (xs : Vec F S1024x128 .f32) : Vec F S1024x128 .f32 :=
  VS.read (Elt F) (VS.writes (Elt F) VS.junk (runLast c i arg2 harg2 arg3 harg3 arg4 harg4 arg5 harg5 arg6 harg6 arg7 harg7 arg8 harg8 hc0 hc1 x0 x1 x2 x3 x4 xs).2.1)

/-- The one store of the last-`k` case into the output window tiles its block, so it covers it. -/
theorem outCoverLast (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬condFirst i) (hc1 : condLast i)
    (x0 : Vec F S1024x2048 .bf16) (x1 : Vec F S2048x128 .bf16) (x2 : Vec F S1024x128 .f32) (x3 : Vec F S1024x1 .f32) (x4 : Vec F S1x128 .f32) (xs : Vec F S1024x128 .f32) (y : S1024x128.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S1024x128.size (by sl_kernel_rfl) y

/-- What the last-`k` case leaves in the output window's staging buffer: the epilogue, read back over junk. -/
def outLast (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬condFirst i) (hc1 : condLast i)
    (x0 : Vec F S1024x2048 .bf16) (x1 : Vec F S2048x128 .bf16) (x2 : Vec F S1024x128 .f32) (x3 : Vec F S1024x1 .f32) (x4 : Vec F S1x128 .f32) (xs : Vec F S1024x128 .f32) : Vec F S1024x128 .f32 :=
  VO.read (Elt F) (VO.writes (Elt F) VO.junk (runLast c i arg2 harg2 arg3 harg3 arg4 harg4 arg5 harg5 arg6 harg6 arg7 harg7 arg8 harg8 hc0 hc1 x0 x1 x2 x3 x4 xs).1)

/-! ## The accumulator point by point -/

/-- THE ACCUMULATION. What the accumulator holds after the body at position `n`: the case the closed forms select at `n`,
    run at the point's memrefs and input blocks, over what the point before left (at a first `k` over nothing: the
    accumulator is zeroed there). -/
def accAt (c : Dev nD) : (n : ℕ) → n < cfg3.N → Vec F S1024x128 .f32
  | 0, hn => accFirst c (grid3.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) ((condFirst_iff ⟨0, hn⟩).mpr (Nat.zero_mod _)) (fun h => (fun h => by (try dsimp only at h); omega) ((condLast_iff ⟨0, hn⟩).mp h)) (iblk V c 0 ⟨0, hn⟩) (iblk V c 1 ⟨0, hn⟩) (iblk V c 2 ⟨0, hn⟩) (iblk V c 3 ⟨0, hn⟩) (iblk V c 4 ⟨0, hn⟩)
  | n + 1, hn =>
    if h0 : (n + 1) % 4 = 0 then
      if h1 : (n + 1) % 4 = 3 then
        False.elim (by omega)
      else
        accFirst c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) ((condFirst_iff ⟨n + 1, hn⟩).mpr h0) (fun h => h1 ((condLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩)
    else
      if h1 : (n + 1) % 4 = 3 then
        accLast c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h0 ((condFirst_iff ⟨n + 1, hn⟩).mp h)) ((condLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (accAt c n (Nat.lt_of_succ_lt hn))
      else
        accMid c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h0 ((condFirst_iff ⟨n + 1, hn⟩).mp h)) (fun h => h1 ((condLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (accAt c n (Nat.lt_of_succ_lt hn))

/-- `accAt` at a first `k`. -/
theorem accAt_first (c : Dev nD) (t : Fin cfg3.N) (h0 : t.val % 4 = 0) (h1 : ¬t.val % 4 = 3) :
    accAt V c t.val t.isLt = accFirst c (grid3.coords t) (ms0 t) (hs0 t) (ms1 t) (hs1 t) (ms2 t) (hs2 t) (ms3 t) (hs3 t) (ms4 t) (hs4 t) (ms5 t) (hs5 t) scM (Memref.isWhole_whole _) ((condFirst_iff t).mpr h0) (fun h => h1 ((condLast_iff t).mp h)) (iblk V c 0 t) (iblk V c 1 t) (iblk V c 2 t) (iblk V c 3 t) (iblk V c 4 t) := by
  obtain ⟨n, hn⟩ := t
  cases n with
  | zero => exact rfl
  | succ n => exact (dif_pos h0).trans ((dif_neg h1).trans rfl)

/-- `accAt` at a middle `k`: over what the point before left. -/
theorem accAt_mid (c : Dev nD) (t : Fin cfg3.N) (h0 : ¬t.val % 4 = 0) (h1 : ¬t.val % 4 = 3) :
    accAt V c t.val t.isLt = accMid c (grid3.coords t) (ms0 t) (hs0 t) (ms1 t) (hs1 t) (ms2 t) (hs2 t) (ms3 t) (hs3 t) (ms4 t) (hs4 t) (ms5 t) (hs5 t) scM (Memref.isWhole_whole _) (fun h => h0 ((condFirst_iff t).mp h)) (fun h => h1 ((condLast_iff t).mp h)) (iblk V c 0 t) (iblk V c 1 t) (iblk V c 2 t) (iblk V c 3 t) (iblk V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `accAt` at a last `k`: over what the point before left. -/
theorem accAt_last (c : Dev nD) (t : Fin cfg3.N) (h0 : ¬t.val % 4 = 0) (h1 : t.val % 4 = 3) :
    accAt V c t.val t.isLt = accLast c (grid3.coords t) (ms0 t) (hs0 t) (ms1 t) (hs1 t) (ms2 t) (hs2 t) (ms3 t) (hs3 t) (ms4 t) (hs4 t) (ms5 t) (hs5 t) scM (Memref.isWhole_whole _) (fun h => h0 ((condFirst_iff t).mp h)) ((condLast_iff t).mpr h1) (iblk V c 0 t) (iblk V c 1 t) (iblk V c 2 t) (iblk V c 3 t) (iblk V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after the body at point `t`: at a last `k` the epilogue over what the
    point before left in the accumulator; elsewhere the window is idle and nothing consults this (a placeholder). -/
def outAt (c : Dev nD) (t : Fin cfg3.N) : Vec F S1024x128 .f32 :=
  if h1 : t.val % 4 = 3 then
    outLast c (grid3.coords t) (ms0 t) (hs0 t) (ms1 t) (hs1 t) (ms2 t) (hs2 t) (ms3 t) (hs3 t) (ms4 t) (hs4 t) (ms5 t) (hs5 t) scM (Memref.isWhole_whole _) (fun h => (fun h => by omega) ((condFirst_iff t).mp h)) ((condLast_iff t).mpr h1) (iblk V c 0 t) (iblk V c 1 t) (iblk V c 2 t) (iblk V c 3 t) (iblk V c 4 t) (accAt V c (t.val - 1) (Nat.lt_of_le_of_lt (Nat.sub_le _ _) t.isLt))
  else VO.read (Elt F) VO.junk

theorem outAt_last (c : Dev nD) (t : Fin cfg3.N) (h0 : ¬t.val % 4 = 0) (h1 : t.val % 4 = 3) :
    outAt V c t = outLast c (grid3.coords t) (ms0 t) (hs0 t) (ms1 t) (hs1 t) (ms2 t) (hs2 t) (ms3 t) (hs3 t) (ms4 t) (hs4 t) (ms5 t) (hs5 t) scM (Memref.isWhole_whole _) (fun h => h0 ((condFirst_iff t).mp h)) ((condLast_iff t).mpr h1) (iblk V c 0 t) (iblk V c 1 t) (iblk V c 2 t) (iblk V c 3 t) (iblk V c 4 t) (accAt V c (t.val - 1) (Nat.lt_of_le_of_lt (Nat.sub_le _ _) t.isLt)) :=
  dif_pos h1

/-! ## The invariant -/

/-- The scoped buffers of the program that are not this call's: carried unopened. -/
abbrev restBut (c : Dev nD) : sProp 𝕄 :=
  Pipeline.scopedRestBut (Ix := Unit) (Name := ℕ) (U := UR sig nD τ) (Lvl := ℕ) (Val := Elt F) spec3 c [cc3_scratch0]

/-- The region invariant before position `n`: before the first point what the launch hands over (the accumulator at
    anything); afterwards the accumulator at what the point before left, the other scoped buffers unopened and the
    generator register at some state. -/
def PhiS (c : Dev nD) : (n : ℕ) → n ≤ cfg3.N → sProp 𝕄
  | 0, _ => Pipeline.ΦA spec3 c
  | n + 1, hn => iprop(iprop(iprop(owns (c : Thread nD τ) scM fullShare (accAt V c n hn)) ∗ restBut c) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(iprop(owns (c : Thread nD τ) scM fullShare (accAt V c n hn)) ∗ restBut c) ∗ (∃ r, prngReg c r)) := rfl

theorem PhiS_pos (c : Dev nD) (n : ℕ) (h : n ≤ cfg3.N) (hz : n ≠ 0) :
    PhiS V c n h = iprop(iprop(iprop(owns (c : Thread nD τ) scM fullShare (accAt V c (n - 1) (by omega))) ∗ restBut c) ∗ (∃ r, prngReg c r)) := by
  cases n with
  | zero => exact absurd rfl hz
  | succ n => rfl

/-! ## The proof data -/

/-- The proof data of the pipeline on core `c`: the arrays as the region finds them; after the body at point `t` each
    input's buffer at its block and the output's at `outAt`; the invariant `PhiS`; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t
  Φ t := PhiS V c t.val (Nat.le_of_lt_succ t.isLt)
  q _ := fullShare
  owed _ := 0

/-- The proof data's arrays are the region-entry contents. -/
theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after0 (c : Dev nD) (t : Fin cfg3.N) : (dat V c).after 0 t = iblk V c 0 t := by dsimp only [dat]
theorem after1 (c : Dev nD) (t : Fin cfg3.N) : (dat V c).after 1 t = iblk V c 1 t := by dsimp only [dat]
theorem after2 (c : Dev nD) (t : Fin cfg3.N) : (dat V c).after 2 t = iblk V c 2 t := by dsimp only [dat]
theorem after3 (c : Dev nD) (t : Fin cfg3.N) : (dat V c).after 3 t = iblk V c 3 t := by dsimp only [dat]
theorem after4 (c : Dev nD) (t : Fin cfg3.N) : (dat V c).after 4 t = iblk V c 4 t := by dsimp only [dat]
theorem after5 (c : Dev nD) (t : Fin cfg3.N) : (dat V c).after 5 t = outAt V c t := by dsimp only [dat]

theorem before0 (c : Dev nD) (t : Fin cfg3.N) (d) : (dat V c).before 0 t d = iblk V c 0 t :=
  before0_of V (dat V c) (A_eq V c 0) (after0 V c) t d
theorem before1 (c : Dev nD) (t : Fin cfg3.N) (d) : (dat V c).before 1 t d = iblk V c 1 t :=
  before1_of V (dat V c) (A_eq V c 1) (after1 V c) t d
theorem before2 (c : Dev nD) (t : Fin cfg3.N) (d) : (dat V c).before 2 t d = iblk V c 2 t :=
  before2_of V (dat V c) (A_eq V c 2) (after2 V c) t d
theorem before3 (c : Dev nD) (t : Fin cfg3.N) (d) : (dat V c).before 3 t d = iblk V c 3 t :=
  before3_of V (dat V c) (A_eq V c 3) (after3 V c) t d
theorem before4 (c : Dev nD) (t : Fin cfg3.N) (d) : (dat V c).before 4 t d = iblk V c 4 t :=
  before4_of V (dat V c) (A_eq V c 4) (after4 V c) t d

theorem live0 : ∀ t : Fin cfg3.N, cfg3.idle 0 (grid3.coords t) = false := fun _ => rfl
theorem live1 : ∀ t : Fin cfg3.N, cfg3.idle 1 (grid3.coords t) = false := fun _ => rfl
theorem live2 : ∀ t : Fin cfg3.N, cfg3.idle 2 (grid3.coords t) = false := fun _ => rfl
theorem live3 : ∀ t : Fin cfg3.N, cfg3.idle 3 (grid3.coords t) = false := fun _ => rfl
theorem live4 : ∀ t : Fin cfg3.N, cfg3.idle 4 (grid3.coords t) = false := fun _ => rfl

end Cert.Kernel.R3

end
-- ==== Proof.K.R3.lean ====
import proofs.«102678_j21827023798522_2_alg».proof.Proof.K.R3Dat

set_option maxRecDepth 16384

noncomputable section

namespace Cert.Kernel.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the body obligation at a generic point, and the invariant's ends -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the inputs' memrefs hold their blocks; the closed forms say which case the point is in; the
    invariant hands the body the accumulator at what the point before left (at anything at the first point) and takes it
    back at this point's contents; off the last `k` the output window's buffer is handed back untouched; the other scoped
    buffers, the generator register and what the core owes pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2, before3, before4]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg3.N = 32 from N_3)
  by_cases h0 : t.val % 4 = 0
  · by_cases h1 : t.val % 4 = 3
    · exfalso; omega
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [Dat.leavesExact_idle (dat V c) 5 t (idle_out t (fun h => h1 ((condLast_iff t).mp h))) (noFlush_out t (fun h => h1 ((condLast_iff t).mp h)))]
      rw [accAt_first V c t h0 h1]
      unfold accFirst; (try dsimp only)
      by_cases hz : t.val = 0
      · rw [PhiS_castSucc V c t, PhiS_zero V c _ _ hz, PhiA_eq]
        iintro ⟨⟨⟨HS, HR⟩, Hg⟩, Ho, ⟨%d0, H0⟩, ⟨%d1, H1⟩, ⟨%d2, H2⟩, ⟨%d3, H3⟩, ⟨%d4, H4⟩, ⟨%d5, H5⟩⟩
        iapply ((runFirst c (grid3.coords t) _ _ _ _ _ _ _ _ _ _ _ _ _ _ ((condFirst_iff t).mpr h0) (fun h => h1 ((condLast_iff t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [HS HR Hg]
        · isplitl [HS HR]
          · isplitl [HS]
            · unfold owns; iexists _; isplitr
              swap; · iexact HS
              ipureintro; exact View.read_writes_of_cover _ _ _ _ _ (accCoverFirst c _ _ _ _ _ _ _ _ _ _ _ _ _ _ _ _ _ _ _ _ _ _ )
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨HS, HR⟩, Hg⟩, Ho, ⟨%d0, H0⟩, ⟨%d1, H1⟩, ⟨%d2, H2⟩, ⟨%d3, H3⟩, ⟨%d4, H4⟩, ⟨%d5, H5⟩⟩
        iapply ((runFirst c (grid3.coords t) _ _ _ _ _ _ _ _ _ _ _ _ _ _ ((condFirst_iff t).mpr h0) (fun h => h1 ((condLast_iff t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, ⟨%es, HS⟩⟩
        isplitl [HS HR Hg]
        · isplitl [HS HR]
          · isplitl [HS]
            · unfold owns; iexists _; isplitr
              swap; · iexact HS
              ipureintro; exact View.read_writes_of_cover _ _ _ _ _ (accCoverFirst c _ _ _ _ _ _ _ _ _ _ _ _ _ _ _ _ _ _ _ _ _ _ )
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [show (dat V c).leavesExact 5 t = owns (c : Thread nD τ) (ms5 t) fullShare ((dat V c).after 5 t) from by
        unfold Dat.leavesExact; rw [live_out t ((condLast_iff t).mpr h1)], after5]
      rw [accAt_last V c t h0 h1, outAt_last V c t h0 h1]
      unfold accLast outLast; (try dsimp only)
      have hz : t.val ≠ 0 := by omega
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((runLast c (grid3.coords t) _ _ _ _ _ _ _ _ _ _ _ _ _ _ (fun h => h0 ((condFirst_iff t).mp h)) ((condLast_iff t).mpr h1) (iblk V c 0 t) (iblk V c 1 t) (iblk V c 2 t) (iblk V c 3 t) (iblk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS HR Hg]
      · isplitl [HS HR]
        · isplitl [HS]
          · unfold owns; iexists _; isplitr
            swap; · iexact HS
            ipureintro; exact View.read_writes_of_cover _ _ _ _ _ (accCoverLast c _ _ _ _ _ _ _ _ _ _ _ _ _ _ _ _ _ _ _ _ _ _ _ )
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (outCoverLast c _ _ _ _ _ _ _ _ _ _ _ _ _ _ _ _ _ _ _ _ _ _ _ )
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [Dat.leavesExact_idle (dat V c) 5 t (idle_out t (fun h => h1 ((condLast_iff t).mp h))) (noFlush_out t (fun h => h1 ((condLast_iff t).mp h)))]
      rw [accAt_mid V c t h0 h1]
      unfold accMid; (try dsimp only)
      have hz : t.val ≠ 0 := by omega
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((runMid c (grid3.coords t) _ _ _ _ _ _ _ _ _ _ _ _ _ _ (fun h => h0 ((condFirst_iff t).mp h)) (fun h => h1 ((condLast_iff t).mp h)) (iblk V c 0 t) (iblk V c 1 t) (iblk V c 2 t) (iblk V c 3 t) (iblk V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (accCoverMid c _ _ _ _ _ _ _ _ _ _ _ _ _ _ _ _ _ _ _ _ _ _ _ )
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After any point but the first the invariant gives back what the launch handed over: the accumulator's named contents
    are forgotten. -/
theorem Phi_out (c : Dev nD) (t : Fin (cfg3.N + 1)) (ht : t.val ≠ 0) : (dat V c).Φ t ⊢ Pipeline.ΦA spec3 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

/-- The same after the last point. -/
theorem hout (c : Dev nD) : (dat V c).Φ (Fin.last cfg3.N) ⊢ Pipeline.ΦA spec3 c :=
  Phi_out V c _ (by rw [Fin.val_last]; have : cfg3.N = 32 := N_3; omega)

end Cert.Kernel.R3

end
-- ==== Proof.K.Regs.lean ====
/-
  The four regions' contributions, packed as the records the assembled run is stated over: each region's proof
  data at any entry contents, its arrays those contents', held whole and owing nothing, its body obligation, and the
  two entailments opening and closing its invariant.
-/
import proofs.«102678_j21827023798522_2_alg».proof.Proof.K.Asm1
import proofs.«102678_j21827023798522_2_alg».proof.Proof.K.R0
import proofs.«102678_j21827023798522_2_alg».proof.Proof.K.R1
import proofs.«102678_j21827023798522_2_alg».proof.Proof.K.R2
import proofs.«102678_j21827023798522_2_alg».proof.Proof.K.R3

noncomputable section

namespace Cert.Kernel.Asm

open Idealize.ShloMosaic Idealize.ShloMosaic.TcCoe Idealize.SL.Sem
open Cert.Kernel Cert.Kernel.Gen

variable {F : FTy → Type} [FloatOps F]

/-- Region 0's contribution. -/
def reg0Data : RegionData (F := F) cfg0 where
  dat := fun V c => R0.dat V c
  A_eq := fun V c w => R0.A_eq V c w
  q_eq := fun _ _ _ => rfl
  owed_eq := fun _ _ _ => rfl
  rec_eq := fun _ _ _ => rfl
  body := fun V c => R0.body_obligation V c
  hin := fun V c => R0.hin V c
  hout := fun V c => R0.hout V c

/-- Region 1's contribution. -/
def reg1Data : RegionData (F := F) cfg1 where
  dat := fun V c => R1.dat V c
  A_eq := fun V c w => R1.A_eq V c w
  q_eq := fun _ _ _ => rfl
  owed_eq := fun _ _ _ => rfl
  rec_eq := fun _ _ _ => rfl
  body := fun V c => R1.body_obligation V c
  hin := fun V c => R1.hin V c
  hout := fun V c => R1.hout V c

/-- Region 2's contribution. -/
def reg2Data : RegionData (F := F) cfg2 where
  dat := fun V c => R2.dat V c
  A_eq := fun V c w => R2.A_eq V c w
  q_eq := fun _ _ _ => rfl
  owed_eq := fun _ _ _ => rfl
  rec_eq := fun _ _ _ => rfl
  body := fun V c => R2.body_obligation V c
  hin := fun V c => R2.hin V c
  hout := fun V c => R2.hout V c

/-- Region 3's contribution. -/
def reg3Data : RegionData (F := F) cfg3 where
  dat := fun V c => R3.dat V c
  A_eq := fun V c w => R3.A_eq V c w
  q_eq := fun _ _ _ => rfl
  owed_eq := fun _ _ _ => rfl
  rec_eq := fun _ _ _ => rfl
  body := fun V c => R3.body_obligation V c
  hin := fun V c => R3.hin V c
  hout := fun V c => R3.hout V c

end Cert.Kernel.Asm

end
-- ==== Proof.KI.Asm1.lean ====
/-
  The program's run assembled from its four kernel regions.

  Between two items of the program every core holds each unscoped buffer whole. The contents are followed through
  the program: the launch memory, then each stretch of host operations applied, then at each region the output
  array replaced by what the region's write-backs leave, the folded write-backs of that region's proof data.
  Each region enters with its windows' arrays read off the contents before it, runs its grid with the accumulator
  scratch carried in the region's invariant, and leaves every buffer but its output array as it found it.
  A region's own module supplies its proof data, the body obligation at every grid point, and the two entailments
  that open and close the invariant; this module is stated over such data for the four regions, whatever they are.
-/
import proofs.«102678_j21827023798522_2_alg».proof.Proof.Gen.KernelIdeal.Regions
import proofs.«102678_j21827023798522_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Every core's buffer contents when a region is entered, read at the TensorCore's references. -/
abbrev Entry (F : FTy → Type) [FloatOps F] : Type :=
  (c : Dev nD) → (b : Ref sig .tc) → Buf (Elt F) ((c : Thread nD τ).loc b)

/-- What one region contributes, at any entry contents `V`: proof data whose arrays are `V`'s, held whole, owing
    nothing; the body's obligation at every grid point; the invariant before the first point from the scoped
    buffers no window stages and the generator register, and those back from the invariant after the last. -/
structure RegionData (cfg : Pipeline.Cfg sig Λ₀) where
  dat : Entry F → (c : Dev nD) → Dat τ (Elt F) Unit ℕ (UR sig nD τ) ℕ cfg c
  A_eq : ∀ V c w, (dat V c).A w = V c (Pipeline.arrRef cfg.spec w)
  q_eq : ∀ V c w, (dat V c).q w = fullShare
  owed_eq : ∀ V c t, (dat V c).owed t = 0
  rec_eq : ∀ V c t, (dat V c).recorded t = Set.univ
  body : ∀ V c, BodyObligation (dat V c) (defs₀ (F := F)) Variants.none () Set.univ
  hin : ∀ V c, (Pipeline.ΦA cfg.spec c : sProp 𝕄) ⊢ (dat V c).Φ 0
  hout : ∀ V c, (dat V c).Φ (Fin.last cfg.N) ⊢ (Pipeline.ΦA cfg.spec c : sProp 𝕄)

variable (m : (ℓ : Loc nD τ sig) → Buf (Elt F) ℓ)
variable (I0 : RegionData (F := F) cfg0) (I1 : RegionData (F := F) cfg1) (I2 : RegionData (F := F) cfg2) (I3 : RegionData (F := F) cfg3)

/-! ## The contents between items, with each region's output named -/

/-- Before region 0: the launch memory after the first host stretch. -/
abbrev U1 (c : Dev nD) : Valuation τ sig (Elt F) := V1 m c
/-- What region 0 leaves in its output array: its proof data's write-backs folded over the whole grid. -/
def x0 (c : Dev nD) : Buf (Elt F) ((c : Thread nD τ).loc main_v3) := (I0.dat (fun c b => U1 m c b) c).arrAt 3 cfg0.N
abbrev U2 (c : Dev nD) : Valuation τ sig (Elt F) := Function.update (U1 m c) main_v3 (x0 m I0 c)
abbrev U3 (c : Dev nD) : Valuation τ sig (Elt F) := StableHlo.after hostOps1 (U2 m I0 c)
/-- What region 1 leaves in its output array. -/
def x1 (c : Dev nD) : Buf (Elt F) ((c : Thread nD τ).loc main_v17) := (I1.dat (fun c b => U3 m I0 c b) c).arrAt 5 cfg1.N
abbrev U4 (c : Dev nD) : Valuation τ sig (Elt F) := Function.update (U3 m I0 c) main_v17 (x1 m I0 I1 c)
abbrev U5 (c : Dev nD) : Valuation τ sig (Elt F) := StableHlo.after hostOps2 (U4 m I0 I1 c)
/-- What region 2 leaves in its output array. -/
def x2 (c : Dev nD) : Buf (Elt F) ((c : Thread nD τ).loc main_v23) := (I2.dat (fun c b => U5 m I0 I1 c b) c).arrAt 5 cfg2.N
abbrev U6 (c : Dev nD) : Valuation τ sig (Elt F) := Function.update (U5 m I0 I1 c) main_v23 (x2 m I0 I1 I2 c)
abbrev U7 (c : Dev nD) : Valuation τ sig (Elt F) := StableHlo.after hostOps3 (U6 m I0 I1 I2 c)
abbrev U8 (c : Dev nD) : Valuation τ sig (Elt F) := StableHlo.after hostOps3_1 (U7 m I0 I1 I2 c)
abbrev U9 (c : Dev nD) : Valuation τ sig (Elt F) := StableHlo.after hostOps3_2 (U8 m I0 I1 I2 c)
abbrev U10 (c : Dev nD) : Valuation τ sig (Elt F) := StableHlo.after hostOps3_3 (U9 m I0 I1 I2 c)
abbrev U11 (c : Dev nD) : Valuation τ sig (Elt F) := StableHlo.after hostOps3_4 (U10 m I0 I1 I2 c)
/-- What region 3 leaves in its output array. -/
def x3 (c : Dev nD) : Buf (Elt F) ((c : Thread nD τ).loc main_v31) := (I3.dat (fun c b => U11 m I0 I1 I2 c b) c).arrAt 5 cfg3.N
abbrev U12 (c : Dev nD) : Valuation τ sig (Elt F) := Function.update (U11 m I0 I1 I2 c) main_v31 (x3 m I0 I1 I2 I3 c)
abbrev U13 (c : Dev nD) : Valuation τ sig (Elt F) := StableHlo.after hostOps4 (U12 m I0 I1 I2 I3 c)
abbrev U14 (c : Dev nD) : Valuation τ sig (Elt F) := StableHlo.after hostOps4_1 (U13 m I0 I1 I2 I3 c)

/-- The contents the regions leave, as the family the host side is stated over: each region's output array at what
    its write-backs leave, any other buffer (never read) at its launch contents. -/
def outs : Outs (F := F) := fun _ r c =>
  if h : r = main_v3 then h ▸ x0 m I0 c
  else if h : r = main_v17 then h ▸ x1 m I0 I1 c
  else if h : r = main_v23 then h ▸ x2 m I0 I1 I2 c
  else if h : r = main_v31 then h ▸ x3 m I0 I1 I2 I3 c
  else m ((c : Thread nD τ).loc r)

theorem outs_v3 (J : ℕ) (c : Dev nD) : outs m I0 I1 I2 I3 J main_v3 c = x0 m I0 c := dif_pos rfl
theorem outs_v17 (J : ℕ) (c : Dev nD) : outs m I0 I1 I2 I3 J main_v17 c = x1 m I0 I1 c :=
  (dif_neg (by decide)).trans (dif_pos rfl)
theorem outs_v23 (J : ℕ) (c : Dev nD) : outs m I0 I1 I2 I3 J main_v23 c = x2 m I0 I1 I2 c :=
  (dif_neg (by decide)).trans ((dif_neg (by decide)).trans (dif_pos rfl))
theorem outs_v31 (J : ℕ) (c : Dev nD) : outs m I0 I1 I2 I3 J main_v31 c = x3 m I0 I1 I2 I3 c :=
  (dif_neg (by decide)).trans ((dif_neg (by decide)).trans ((dif_neg (by decide)).trans (dif_pos rfl)))

/-! The host side's contents at that family are the contents above. -/
theorem V2_eq (c : Dev nD) : V2 m (outs m I0 I1 I2 I3) c = U2 m I0 c := by
  show Function.update (V1 m c) _ (outs m I0 I1 I2 I3 2 main_v3 c) = Function.update (V1 m c) _ (x0 m I0 c)
  rw [outs_v3]
theorem V3_eq (c : Dev nD) : V3 m (outs m I0 I1 I2 I3) c = U3 m I0 c := by
  show StableHlo.after hostOps1 (V2 m (outs m I0 I1 I2 I3) c) = _
  rw [V2_eq]
theorem V4_eq (c : Dev nD) : V4 m (outs m I0 I1 I2 I3) c = U4 m I0 I1 c := by
  show Function.update (V3 m (outs m I0 I1 I2 I3) c) _ (outs m I0 I1 I2 I3 4 main_v17 c) = _
  rw [outs_v17, V3_eq]
theorem V5_eq (c : Dev nD) : V5 m (outs m I0 I1 I2 I3) c = U5 m I0 I1 c := by
  show StableHlo.after hostOps2 (V4 m (outs m I0 I1 I2 I3) c) = _
  rw [V4_eq]
theorem V6_eq (c : Dev nD) : V6 m (outs m I0 I1 I2 I3) c = U6 m I0 I1 I2 c := by
  show Function.update (V5 m (outs m I0 I1 I2 I3) c) _ (outs m I0 I1 I2 I3 6 main_v23 c) = _
  rw [outs_v23, V5_eq]
theorem V11_eq (c : Dev nD) : V11 m (outs m I0 I1 I2 I3) c = U11 m I0 I1 I2 c := by
  show StableHlo.after hostOps3_4 (StableHlo.after hostOps3_3 (StableHlo.after hostOps3_2 (StableHlo.after hostOps3_1 (StableHlo.after hostOps3 (V6 m (outs m I0 I1 I2 I3) c))))) = _
  rw [V6_eq]
theorem V12_eq (c : Dev nD) : V12 m (outs m I0 I1 I2 I3) c = U12 m I0 I1 I2 I3 c := by
  show Function.update (V11 m (outs m I0 I1 I2 I3) c) _ (outs m I0 I1 I2 I3 12 main_v31 c) = _
  rw [outs_v31, V11_eq]
theorem V14_eq (c : Dev nD) : V14 m (outs m I0 I1 I2 I3) c = U14 m I0 I1 I2 I3 c := by
  show StableHlo.after hostOps4_1 (StableHlo.after hostOps4 (V12 m (outs m I0 I1 I2 I3) c)) = _
  rw [V12_eq]

/-! ## The proof data family and what rides beside the buffers -/

/-- Every pipeline's proof data, each at the contents its region is entered from. -/
def pdats : (p : Fin 4) → (c : Dev nD) → Dat τ (Elt F) Unit ℕ (UR sig nD τ) ℕ (cfgs p) c
  | ⟨0, _⟩ => fun c => I0.dat (fun c b => U1 m c b) c
  | ⟨1, _⟩ => fun c => I1.dat (fun c b => U3 m I0 c b) c
  | ⟨2, _⟩ => fun c => I2.dat (fun c b => U5 m I0 I1 c b) c
  | ⟨3, _⟩ => fun c => I3.dat (fun c b => U11 m I0 I1 I2 c b) c

/-- No core owes another anything: no level is assigned. -/
abbrev L : GSem nD τ sig → Finset Unit := fun _ => ∅
abbrev lv : GSem nD τ sig → Unit → ℕ := fun _ _ => 0
/-- Beside the buffers, through every item: the core's generator register at some state, and the core owing nothing. -/
abbrev R (c : Dev nD) : sProp 𝕄 := iprop((∃ r, prngReg c r) ∗ ∃ W, owes (c : Thread nD τ) (0 : CellTallies nD τ sig Unit) W)

/-- Each region's proof data have their arrays at the contents the region is entered from. -/
theorem hA0 (c : Dev nD) (w : Fin cfg0.W) : (pdats m I0 I1 I2 I3 0 c).A w = (fun b => V1 m c b) (Pipeline.arrRef spec0 w) := I0.A_eq _ c w
theorem hA1 (c : Dev nD) (w : Fin cfg1.W) : (pdats m I0 I1 I2 I3 1 c).A w = (fun b => V3 m (outs m I0 I1 I2 I3) c b) (Pipeline.arrRef spec1 w) := by
  rw [V3_eq]; exact I1.A_eq _ c w
theorem hA2 (c : Dev nD) (w : Fin cfg2.W) : (pdats m I0 I1 I2 I3 2 c).A w = (fun b => V5 m (outs m I0 I1 I2 I3) c b) (Pipeline.arrRef spec2 w) := by
  rw [V5_eq]; exact I2.A_eq _ c w
theorem hA3 (c : Dev nD) (w : Fin cfg3.W) : (pdats m I0 I1 I2 I3 3 c).A w = (fun b => V11 m (outs m I0 I1 I2 I3) c b) (Pipeline.arrRef spec3 w) := by
  rw [V11_eq]; exact I3.A_eq _ c w

/-! ## Region 0 -/

set_option maxHeartbeats 1000000 in
/-- At region 0's exit each of its arrays holds what the pipeline leaves: an input as entered, the output its folded write-backs. -/
theorem hF0 (c : Dev nD) (w : Fin cfg0.W) :
    (pdats m I0 I1 I2 I3 0 c).arrAt w cfg0.N = (fun b => V2 m (outs m I0 I1 I2 I3) c b) (Pipeline.arrRef spec0 w) := by
  match w with
  | ⟨0, _⟩ => exact ((pdats m I0 I1 I2 I3 0 c).arrAt_in 0 rfl _).trans ((hA0 m I0 I1 I2 I3 c 0).trans (V2_of m _ c main_v0 (by decide)).symm)
  | ⟨1, _⟩ => exact ((pdats m I0 I1 I2 I3 0 c).arrAt_in 1 rfl _).trans ((hA0 m I0 I1 I2 I3 c 1).trans (V2_of m _ c main_v1 (by decide)).symm)
  | ⟨2, _⟩ => exact ((pdats m I0 I1 I2 I3 0 c).arrAt_in 2 rfl _).trans ((hA0 m I0 I1 I2 I3 c 2).trans (V2_of m _ c main_v2 (by decide)).symm)
  | ⟨3, _⟩ =>
    have e : V2 m (outs m I0 I1 I2 I3) c (Proc.devRef .tc main_v3) = x0 m I0 c := by
      show Function.update (V1 m c) (Proc.devRef .tc main_v3) (outs m I0 I1 I2 I3 2 main_v3 c) (Proc.devRef .tc main_v3) = _
      rw [Function.update_self, outs_v3]
    exact e.symm
/-- Every other buffer holds what it held at entry. -/
theorem hrest0 (c : Dev nD) : ∀ b, b ∉ Finset.univ.image (Pipeline.arrRef spec0) →
    (fun b => V2 m (outs m I0 I1 I2 I3) c b) b = (fun b => V1 m c b) b :=
  fun b hb => V2_of m _ c b fun hmem => hb (Finset.mem_image.mpr ⟨3, Finset.mem_univ _, (List.mem_singleton.mp hmem).symm⟩)

/-- The region's invariant before its first point, from the generator register and the scoped buffers no window stages. -/
theorem hin0 (c : Dev nD) : (iprop((∃ r, prngReg c r) ∗ Pipeline.prefHeld (pcfgs (F := F) 0).pre c (fun _ => fullShare) (adm (F := F) 0).1
      ∗ Pipeline.scopedRest (Ix := Unit) (Name := ℕ) (U := UR sig nD τ) (Lvl := ℕ) (Val := Elt F) spec0 c) : sProp 𝕄) ⊢ (pdats m I0 I1 I2 I3 0 c).Φ 0 := by
  have h : (iprop((∃ r, prngReg c r) ∗ Pipeline.prefHeld (pcfgs (F := F) 0).pre c (fun _ => fullShare) (adm (F := F) 0).1
      ∗ Pipeline.scopedRest (Ix := Unit) (Name := ℕ) (U := UR sig nD τ) (Lvl := ℕ) (Val := Elt F) spec0 c) : sProp 𝕄) ⊢ (Pipeline.ΦA spec0 c : sProp 𝕄) := by
    unfold Pipeline.ΦA
    iintro ⟨Hp, -, Hr⟩
    isplitl [Hr]; · iexact Hr
    iexact Hp
  exact h.trans (I0.hin _ c)
/-- After its last point the invariant gives them back. -/
theorem hout0 (c : Dev nD) : (pdats m I0 I1 I2 I3 0 c).Φ (Fin.last cfg0.N) ⊢ (iprop((∃ r, prngReg c r) ∗ BI.emp
      ∗ Pipeline.scopedRest (Ix := Unit) (Name := ℕ) (U := UR sig nD τ) (Lvl := ℕ) (Val := Elt F) spec0 c) : sProp 𝕄) := by
  have h : (Pipeline.ΦA spec0 c : sProp 𝕄) ⊢ (iprop((∃ r, prngReg c r) ∗ BI.emp
      ∗ Pipeline.scopedRest (Ix := Unit) (Name := ℕ) (U := UR sig nD τ) (Lvl := ℕ) (Val := Elt F) spec0 c) : sProp 𝕄) := by
    unfold Pipeline.ΦA
    iintro ⟨Hr, Hp⟩
    isplitl [Hp]; · iexact Hp
    isplitr; · iempintro
    iexact Hr
  exact (I0.hout _ c).trans h

set_option backward.isDefEq.respectTransparency.types false in
/-- REGION 0 over the thread state "every unscoped buffer at the contents before it, the generator register at some
    state, nothing owed": its arrays split out of the unscoped buffers at entry and put back at the exit contents, the
    generator register and the scoped buffers no window stages into the region's invariant and out of it, no semaphore
    of the kernel's own. -/
def reg0 : Pipeline.RegionSeg (pcfgs (F := F)) adm (pdats m I0 I1 I2 I3) () defs₀ Variants.none L lv 0 where
  win := launch0.win.to₀
  block_pos := launch0.block_pos
  stage_whole := launch0.stage_whole
  K := PEmpty
  osem k := k.elim
  ho := Pipeline.OwnSemFacts.none _
  hbody c := (I0.body _ c).loose
  hwaits := Pipeline.hwaits_of_owed_zero _ _ _ _ L lv 0 fun c t => I0.owed_eq _ c t
  pre c := iprop(StableHlo.held (c : Thread nD τ) (Pipeline.ucRefs τ sig) (V1 m c) ∗ R c)
  post c := iprop(StableHlo.held (c : Thread nD τ) (Pipeline.ucRefs τ sig) (V2 m (outs m I0 I1 I2 I3) c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m I0 I1 I2 I3) launch0.win launch0.arr_whole c
      ((pdats m I0 I1 I2 I3 0 c).share_full fun w => I0.q_eq _ c w) (fun b => V1 m c b) (hA0 m I0 I1 I2 I3 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m I0 I1 I2 I3 0 c).owed 0 = 0 from I0.owed_eq _ c 0]
      icases HO with ⟨%W, HO⟩; iexists W; isplitr
      · ipureintro; exact fun x _ => Or.inl (by rw [show (pdats m I0 I1 I2 I3 0 c).recorded 0 = Set.univ from I0.rec_eq _ c 0]; trivial)
      iexact HO
    isplitl [Hp]; · iexact Hp
    iexact Hrest
  hin c := hin0 m I0 I1 I2 I3 c
  hout c := by rw [Pipeline.ownSems0_none]; exact hout0 m I0 I1 I2 I3 c
  hexit c := by
    have hjoin := Pipeline.unscopedBufs_of_arrays (p := 0) (pcfgs (F := F)) adm (Ix := Unit) (Name := ℕ) (U := UR sig nD τ) (Lvl := ℕ)
      launch0.win launch0.arr_whole c (pdats m I0 I1 I2 I3) ((pdats m I0 I1 I2 I3 0 c).share_full fun w => I0.q_eq _ c w)
      (fun b => V1 m c b) (fun b => V2 m (outs m I0 I1 I2 I3) c b) ((pdats m I0 I1 I2 I3 0 c).arrAt · cfg0.N) (hF0 m I0 I1 I2 I3 c) (hrest0 m I0 I1 I2 I3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    have ho : ∀ t, (pdats m I0 I1 I2 I3 0 c).owed t = 0 := fun t => I0.owed_eq _ c t
    rw [ho]
    icases HO with ⟨%W, -, HO⟩; iexists W; iexact HO

/-! ## Region 1 -/

set_option maxHeartbeats 1000000 in
/-- At region 1's exit each of its arrays holds what the pipeline leaves: an input as entered, the output its folded write-backs. -/
theorem hF1 (c : Dev nD) (w : Fin cfg1.W) :
    (pdats m I0 I1 I2 I3 1 c).arrAt w cfg1.N = (fun b => V4 m (outs m I0 I1 I2 I3) c b) (Pipeline.arrRef spec1 w) := by
  match w with
  | ⟨0, _⟩ => exact ((pdats m I0 I1 I2 I3 1 c).arrAt_in 0 rfl _).trans ((hA1 m I0 I1 I2 I3 c 0).trans (V4_of m _ c main_v3 (by decide)).symm)
  | ⟨1, _⟩ => exact ((pdats m I0 I1 I2 I3 1 c).arrAt_in 1 rfl _).trans ((hA1 m I0 I1 I2 I3 c 1).trans (V4_of m _ c main_v16 (by decide)).symm)
  | ⟨2, _⟩ => exact ((pdats m I0 I1 I2 I3 1 c).arrAt_in 2 rfl _).trans ((hA1 m I0 I1 I2 I3 c 2).trans (V4_of m _ c main_v12 (by decide)).symm)
  | ⟨3, _⟩ => exact ((pdats m I0 I1 I2 I3 1 c).arrAt_in 3 rfl _).trans ((hA1 m I0 I1 I2 I3 c 3).trans (V4_of m _ c main_v11 (by decide)).symm)
  | ⟨4, _⟩ => exact ((pdats m I0 I1 I2 I3 1 c).arrAt_in 4 rfl _).trans ((hA1 m I0 I1 I2 I3 c 4).trans (V4_of m _ c main_v13 (by decide)).symm)
  | ⟨5, _⟩ =>
    have e : V4 m (outs m I0 I1 I2 I3) c (Proc.devRef .tc main_v17) = x1 m I0 I1 c := by
      show Function.update (V3 m (outs m I0 I1 I2 I3) c) (Proc.devRef .tc main_v17) (outs m I0 I1 I2 I3 4 main_v17 c) (Proc.devRef .tc main_v17) = _
      rw [Function.update_self, outs_v17]
    exact e.symm
/-- Every other buffer holds what it held at entry. -/
theorem hrest1 (c : Dev nD) : ∀ b, b ∉ Finset.univ.image (Pipeline.arrRef spec1) →
    (fun b => V4 m (outs m I0 I1 I2 I3) c b) b = (fun b => V3 m (outs m I0 I1 I2 I3) c b) b :=
  fun b hb => V4_of m _ c b fun hmem => hb (Finset.mem_image.mpr ⟨5, Finset.mem_univ _, (List.mem_singleton.mp hmem).symm⟩)

/-- The region's invariant before its first point, from the generator register and the scoped buffers no window stages. -/
theorem hin1 (c : Dev nD) : (iprop((∃ r, prngReg c r) ∗ Pipeline.prefHeld (pcfgs (F := F) 1).pre c (fun _ => fullShare) (adm (F := F) 1).1
      ∗ Pipeline.scopedRest (Ix := Unit) (Name := ℕ) (U := UR sig nD τ) (Lvl := ℕ) (Val := Elt F) spec1 c) : sProp 𝕄) ⊢ (pdats m I0 I1 I2 I3 1 c).Φ 0 := by
  have h : (iprop((∃ r, prngReg c r) ∗ Pipeline.prefHeld (pcfgs (F := F) 1).pre c (fun _ => fullShare) (adm (F := F) 1).1
      ∗ Pipeline.scopedRest (Ix := Unit) (Name := ℕ) (U := UR sig nD τ) (Lvl := ℕ) (Val := Elt F) spec1 c) : sProp 𝕄) ⊢ (Pipeline.ΦA spec1 c : sProp 𝕄) := by
    unfold Pipeline.ΦA
    iintro ⟨Hp, -, Hr⟩
    isplitl [Hr]; · iexact Hr
    iexact Hp
  exact h.trans (I1.hin _ c)
/-- After its last point the invariant gives them back. -/
theorem hout1 (c : Dev nD) : (pdats m I0 I1 I2 I3 1 c).Φ (Fin.last cfg1.N) ⊢ (iprop((∃ r, prngReg c r) ∗ BI.emp
      ∗ Pipeline.scopedRest (Ix := Unit) (Name := ℕ) (U := UR sig nD τ) (Lvl := ℕ) (Val := Elt F) spec1 c) : sProp 𝕄) := by
  have h : (Pipeline.ΦA spec1 c : sProp 𝕄) ⊢ (iprop((∃ r, prngReg c r) ∗ BI.emp
      ∗ Pipeline.scopedRest (Ix := Unit) (Name := ℕ) (U := UR sig nD τ) (Lvl := ℕ) (Val := Elt F) spec1 c) : sProp 𝕄) := by
    unfold Pipeline.ΦA
    iintro ⟨Hr, Hp⟩
    isplitl [Hp]; · iexact Hp
    isplitr; · iempintro
    iexact Hr
  exact (I1.hout _ c).trans h

set_option backward.isDefEq.respectTransparency.types false in
/-- REGION 1 over the thread state "every unscoped buffer at the contents before it, the generator register at some
    state, nothing owed": its arrays split out of the unscoped buffers at entry and put back at the exit contents, the
    generator register and the scoped buffers no window stages into the region's invariant and out of it, no semaphore
    of the kernel's own. -/
def reg1 : Pipeline.RegionSeg (pcfgs (F := F)) adm (pdats m I0 I1 I2 I3) () defs₀ Variants.none L lv 1 where
  win := launch1.win.to₀
  block_pos := launch1.block_pos
  stage_whole := launch1.stage_whole
  K := PEmpty
  osem k := k.elim
  ho := Pipeline.OwnSemFacts.none _
  hbody c := (I1.body _ c).loose
  hwaits := Pipeline.hwaits_of_owed_zero _ _ _ _ L lv 1 fun c t => I1.owed_eq _ c t
  pre c := iprop(StableHlo.held (c : Thread nD τ) (Pipeline.ucRefs τ sig) (V3 m (outs m I0 I1 I2 I3) c) ∗ R c)
  post c := iprop(StableHlo.held (c : Thread nD τ) (Pipeline.ucRefs τ sig) (V4 m (outs m I0 I1 I2 I3) c) ∗ R c)
  X c := iprop(∃ r, prngReg c r)
  Y c := iprop(∃ r, prngReg c r)
  Z c := Pipeline.unscopedRest (Ix := Unit) (Name := ℕ) (U := UR sig nD τ) (Lvl := ℕ) spec1 c (fun b => V3 m (outs m I0 I1 I2 I3) c b)
  hentry c := by
    rw [Pipeline.ownSems0_none]
    have hsplit := Pipeline.arrays_of_unscopedBufs (p := 1) (pcfgs (F := F)) adm (pdats m I0 I1 I2 I3) launch1.win launch1.arr_whole c
      ((pdats m I0 I1 I2 I3 1 c).share_full fun w => I1.q_eq _ c w) (fun b => V3 m (outs m I0 I1 I2 I3) c b) (hA1 m I0 I1 I2 I3 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m I0 I1 I2 I3 1 c).owed 0 = 0 from I1.owed_eq _ c 0]
      icases HO with ⟨%W, HO⟩; iexists W; isplitr
      · ipureintro; exact fun x _ => Or.inl (by rw [show (pdats m I0 I1 I2 I3 1 c).recorded 0 = Set.univ from I1.rec_eq _ c 0]; trivial)
      iexact HO
    isplitl [Hp]; · iexact Hp
    iexact Hrest
  hin c := hin1 m I0 I1 I2 I3 c
  hout c := by rw [Pipeline.ownSems0_none]; exact hout1 m I0 I1 I2 I3 c
  hexit c := by
    have hjoin := Pipeline.unscopedBufs_of_arrays (p := 1) (pcfgs (F := F)) adm (Ix := Unit) (Name := ℕ) (U := UR sig nD τ) (Lvl := ℕ)
      launch1.win launch1.arr_whole c (pdats m I0 I1 I2 I3) ((pdats m I0 I1 I2 I3 1 c).share_full fun w => I1.q_eq _ c w)
      (fun b => V3 m (outs m I0 I1 I2 I3) c b) (fun b => V4 m (outs m I0 I1 I2 I3) c b) ((pdats m I0 I1 I2 I3 1 c).arrAt · cfg1.N) (hF1 m I0 I1 I2 I3 c) (hrest1 m I0 I1 I2 I3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    have ho : ∀ t, (pdats m I0 I1 I2 I3 1 c).owed t = 0 := fun t => I1.owed_eq _ c t
    rw [ho]
    icases HO with ⟨%W, -, HO⟩; iexists W; iexact HO

/-! ## Region 2 -/

set_option maxHeartbeats 1000000 in
/-- At region 2's exit each of its arrays holds what the pipeline leaves: an input as entered, the output its folded write-backs. -/
theorem hF2 (c : Dev nD) (w : Fin cfg2.W) :
    (pdats m I0 I1 I2 I3 2 c).arrAt w cfg2.N = (fun b => V6 m (outs m I0 I1 I2 I3) c b) (Pipeline.arrRef spec2 w) := by
  match w with
  | ⟨0, _⟩ => exact ((pdats m I0 I1 I2 I3 2 c).arrAt_in 0 rfl _).trans ((hA2 m I0 I1 I2 I3 c 0).trans (V6_of m _ c main_v3 (by decide)).symm)
  | ⟨1, _⟩ => exact ((pdats m I0 I1 I2 I3 2 c).arrAt_in 1 rfl _).trans ((hA2 m I0 I1 I2 I3 c 1).trans (V6_of m _ c main_v22 (by decide)).symm)
  | ⟨2, _⟩ => exact ((pdats m I0 I1 I2 I3 2 c).arrAt_in 2 rfl _).trans ((hA2 m I0 I1 I2 I3 c 2).trans (V6_of m _ c main_v18 (by decide)).symm)
  | ⟨3, _⟩ => exact ((pdats m I0 I1 I2 I3 2 c).arrAt_in 3 rfl _).trans ((hA2 m I0 I1 I2 I3 c 3).trans (V6_of m _ c main_v11 (by decide)).symm)
  | ⟨4, _⟩ => exact ((pdats m I0 I1 I2 I3 2 c).arrAt_in 4 rfl _).trans ((hA2 m I0 I1 I2 I3 c 4).trans (V6_of m _ c main_v19 (by decide)).symm)
  | ⟨5, _⟩ =>
    have e : V6 m (outs m I0 I1 I2 I3) c (Proc.devRef .tc main_v23) = x2 m I0 I1 I2 c := by
      show Function.update (V5 m (outs m I0 I1 I2 I3) c) (Proc.devRef .tc main_v23) (outs m I0 I1 I2 I3 6 main_v23 c) (Proc.devRef .tc main_v23) = _
      rw [Function.update_self, outs_v23]
    exact e.symm
/-- Every other buffer holds what it held at entry. -/
theorem hrest2 (c : Dev nD) : ∀ b, b ∉ Finset.univ.image (Pipeline.arrRef spec2) →
    (fun b => V6 m (outs m I0 I1 I2 I3) c b) b = (fun b => V5 m (outs m I0 I1 I2 I3) c b) b :=
  fun b hb => V6_of m _ c b fun hmem => hb (Finset.mem_image.mpr ⟨5, Finset.mem_univ _, (List.mem_singleton.mp hmem).symm⟩)

/-- The region's invariant before its first point, from the generator register and the scoped buffers no window stages. -/
theorem hin2 (c : Dev nD) : (iprop((∃ r, prngReg c r) ∗ Pipeline.prefHeld (pcfgs (F := F) 2).pre c (fun _ => fullShare) (adm (F := F) 2).1
      ∗ Pipeline.scopedRest (Ix := Unit) (Name := ℕ) (U := UR sig nD τ) (Lvl := ℕ) (Val := Elt F) spec2 c) : sProp 𝕄) ⊢ (pdats m I0 I1 I2 I3 2 c).Φ 0 := by
  have h : (iprop((∃ r, prngReg c r) ∗ Pipeline.prefHeld (pcfgs (F := F) 2).pre c (fun _ => fullShare) (adm (F := F) 2).1
      ∗ Pipeline.scopedRest (Ix := Unit) (Name := ℕ) (U := UR sig nD τ) (Lvl := ℕ) (Val := Elt F) spec2 c) : sProp 𝕄) ⊢ (Pipeline.ΦA spec2 c : sProp 𝕄) := by
    unfold Pipeline.ΦA
    iintro ⟨Hp, -, Hr⟩
    isplitl [Hr]; · iexact Hr
    iexact Hp
  exact h.trans (I2.hin _ c)
/-- After its last point the invariant gives them back. -/
theorem hout2 (c : Dev nD) : (pdats m I0 I1 I2 I3 2 c).Φ (Fin.last cfg2.N) ⊢ (iprop((∃ r, prngReg c r) ∗ BI.emp
      ∗ Pipeline.scopedRest (Ix := Unit) (Name := ℕ) (U := UR sig nD τ) (Lvl := ℕ) (Val := Elt F) spec2 c) : sProp 𝕄) := by
  have h : (Pipeline.ΦA spec2 c : sProp 𝕄) ⊢ (iprop((∃ r, prngReg c r) ∗ BI.emp
      ∗ Pipeline.scopedRest (Ix := Unit) (Name := ℕ) (U := UR sig nD τ) (Lvl := ℕ) (Val := Elt F) spec2 c) : sProp 𝕄) := by
    unfold Pipeline.ΦA
    iintro ⟨Hr, Hp⟩
    isplitl [Hp]; · iexact Hp
    isplitr; · iempintro
    iexact Hr
  exact (I2.hout _ c).trans h

set_option backward.isDefEq.respectTransparency.types false in
/-- REGION 2 over the thread state "every unscoped buffer at the contents before it, the generator register at some
    state, nothing owed": its arrays split out of the unscoped buffers at entry and put back at the exit contents, the
    generator register and the scoped buffers no window stages into the region's invariant and out of it, no semaphore
    of the kernel's own. -/
def reg2 : Pipeline.RegionSeg (pcfgs (F := F)) adm (pdats m I0 I1 I2 I3) () defs₀ Variants.none L lv 2 where
  win := launch2.win.to₀
  block_pos := launch2.block_pos
  stage_whole := launch2.stage_whole
  K := PEmpty
  osem k := k.elim
  ho := Pipeline.OwnSemFacts.none _
  hbody c := (I2.body _ c).loose
  hwaits := Pipeline.hwaits_of_owed_zero _ _ _ _ L lv 2 fun c t => I2.owed_eq _ c t
  pre c := iprop(StableHlo.held (c : Thread nD τ) (Pipeline.ucRefs τ sig) (V5 m (outs m I0 I1 I2 I3) c) ∗ R c)
  post c := iprop(StableHlo.held (c : Thread nD τ) (Pipeline.ucRefs τ sig) (V6 m (outs m I0 I1 I2 I3) c) ∗ R c)
  X c := iprop(∃ r, prngReg c r)
  Y c := iprop(∃ r, prngReg c r)
  Z c := Pipeline.unscopedRest (Ix := Unit) (Name := ℕ) (U := UR sig nD τ) (Lvl := ℕ) spec2 c (fun b => V5 m (outs m I0 I1 I2 I3) c b)
  hentry c := by
    rw [Pipeline.ownSems0_none]
    have hsplit := Pipeline.arrays_of_unscopedBufs (p := 2) (pcfgs (F := F)) adm (pdats m I0 I1 I2 I3) launch2.win launch2.arr_whole c
      ((pdats m I0 I1 I2 I3 2 c).share_full fun w => I2.q_eq _ c w) (fun b => V5 m (outs m I0 I1 I2 I3) c b) (hA2 m I0 I1 I2 I3 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m I0 I1 I2 I3 2 c).owed 0 = 0 from I2.owed_eq _ c 0]
      icases HO with ⟨%W, HO⟩; iexists W; isplitr
      · ipureintro; exact fun x _ => Or.inl (by rw [show (pdats m I0 I1 I2 I3 2 c).recorded 0 = Set.univ from I2.rec_eq _ c 0]; trivial)
      iexact HO
    isplitl [Hp]; · iexact Hp
    iexact Hrest
  hin c := hin2 m I0 I1 I2 I3 c
  hout c := by rw [Pipeline.ownSems0_none]; exact hout2 m I0 I1 I2 I3 c
  hexit c := by
    have hjoin := Pipeline.unscopedBufs_of_arrays (p := 2) (pcfgs (F := F)) adm (Ix := Unit) (Name := ℕ) (U := UR sig nD τ) (Lvl := ℕ)
      launch2.win launch2.arr_whole c (pdats m I0 I1 I2 I3) ((pdats m I0 I1 I2 I3 2 c).share_full fun w => I2.q_eq _ c w)
      (fun b => V5 m (outs m I0 I1 I2 I3) c b) (fun b => V6 m (outs m I0 I1 I2 I3) c b) ((pdats m I0 I1 I2 I3 2 c).arrAt · cfg2.N) (hF2 m I0 I1 I2 I3 c) (hrest2 m I0 I1 I2 I3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    have ho : ∀ t, (pdats m I0 I1 I2 I3 2 c).owed t = 0 := fun t => I2.owed_eq _ c t
    rw [ho]
    icases HO with ⟨%W, -, HO⟩; iexists W; iexact HO

/-! ## Region 3 -/

set_option maxHeartbeats 1000000 in
/-- At region 3's exit each of its arrays holds what the pipeline leaves: an input as entered, the output its folded write-backs. -/
theorem hF3 (c : Dev nD) (w : Fin cfg3.W) :
    (pdats m I0 I1 I2 I3 3 c).arrAt w cfg3.N = (fun b => V12 m (outs m I0 I1 I2 I3) c b) (Pipeline.arrRef spec3 w) := by
  match w with
  | ⟨0, _⟩ => exact ((pdats m I0 I1 I2 I3 3 c).arrAt_in 0 rfl _).trans ((hA3 m I0 I1 I2 I3 c 0).trans (V12_of m _ c main_v3 (by decide)).symm)
  | ⟨1, _⟩ => exact ((pdats m I0 I1 I2 I3 3 c).arrAt_in 1 rfl _).trans ((hA3 m I0 I1 I2 I3 c 1).trans (V12_of m _ c main_v30 (by decide)).symm)
  | ⟨2, _⟩ => exact ((pdats m I0 I1 I2 I3 3 c).arrAt_in 2 rfl _).trans ((hA3 m I0 I1 I2 I3 c 2).trans (V12_of m _ c main_v25 (by decide)).symm)
  | ⟨3, _⟩ => exact ((pdats m I0 I1 I2 I3 3 c).arrAt_in 3 rfl _).trans ((hA3 m I0 I1 I2 I3 c 3).trans (V12_of m _ c main_v11 (by decide)).symm)
  | ⟨4, _⟩ => exact ((pdats m I0 I1 I2 I3 3 c).arrAt_in 4 rfl _).trans ((hA3 m I0 I1 I2 I3 c 4).trans (V12_of m _ c main_v27 (by decide)).symm)
  | ⟨5, _⟩ =>
    have e : V12 m (outs m I0 I1 I2 I3) c (Proc.devRef .tc main_v31) = x3 m I0 I1 I2 I3 c := by
      show Function.update (V11 m (outs m I0 I1 I2 I3) c) (Proc.devRef .tc main_v31) (outs m I0 I1 I2 I3 12 main_v31 c) (Proc.devRef .tc main_v31) = _
      rw [Function.update_self, outs_v31]
    exact e.symm
/-- Every other buffer holds what it held at entry. -/
theorem hrest3 (c : Dev nD) : ∀ b, b ∉ Finset.univ.image (Pipeline.arrRef spec3) →
    (fun b => V12 m (outs m I0 I1 I2 I3) c b) b = (fun b => V11 m (outs m I0 I1 I2 I3) c b) b :=
  fun b hb => V12_of m _ c b fun hmem => hb (Finset.mem_image.mpr ⟨5, Finset.mem_univ _, (List.mem_singleton.mp hmem).symm⟩)

/-- The region's invariant before its first point, from the generator register and the scoped buffers no window stages. -/
theorem hin3 (c : Dev nD) : (iprop((∃ r, prngReg c r) ∗ Pipeline.prefHeld (pcfgs (F := F) 3).pre c (fun _ => fullShare) (adm (F := F) 3).1
      ∗ Pipeline.scopedRest (Ix := Unit) (Name := ℕ) (U := UR sig nD τ) (Lvl := ℕ) (Val := Elt F) spec3 c) : sProp 𝕄) ⊢ (pdats m I0 I1 I2 I3 3 c).Φ 0 := by
  have h : (iprop((∃ r, prngReg c r) ∗ Pipeline.prefHeld (pcfgs (F := F) 3).pre c (fun _ => fullShare) (adm (F := F) 3).1
      ∗ Pipeline.scopedRest (Ix := Unit) (Name := ℕ) (U := UR sig nD τ) (Lvl := ℕ) (Val := Elt F) spec3 c) : sProp 𝕄) ⊢ (Pipeline.ΦA spec3 c : sProp 𝕄) := by
    unfold Pipeline.ΦA
    iintro ⟨Hp, -, Hr⟩
    isplitl [Hr]; · iexact Hr
    iexact Hp
  exact h.trans (I3.hin _ c)
/-- After its last point the invariant gives them back. -/
theorem hout3 (c : Dev nD) : (pdats m I0 I1 I2 I3 3 c).Φ (Fin.last cfg3.N) ⊢ (iprop((∃ r, prngReg c r) ∗ BI.emp
      ∗ Pipeline.scopedRest (Ix := Unit) (Name := ℕ) (U := UR sig nD τ) (Lvl := ℕ) (Val := Elt F) spec3 c) : sProp 𝕄) := by
  have h : (Pipeline.ΦA spec3 c : sProp 𝕄) ⊢ (iprop((∃ r, prngReg c r) ∗ BI.emp
      ∗ Pipeline.scopedRest (Ix := Unit) (Name := ℕ) (U := UR sig nD τ) (Lvl := ℕ) (Val := Elt F) spec3 c) : sProp 𝕄) := by
    unfold Pipeline.ΦA
    iintro ⟨Hr, Hp⟩
    isplitl [Hp]; · iexact Hp
    isplitr; · iempintro
    iexact Hr
  exact (I3.hout _ c).trans h

set_option backward.isDefEq.respectTransparency.types false in
/-- REGION 3 over the thread state "every unscoped buffer at the contents before it, the generator register at some
    state, nothing owed": its arrays split out of the unscoped buffers at entry and put back at the exit contents, the
    generator register and the scoped buffers no window stages into the region's invariant and out of it, no semaphore
    of the kernel's own. -/
def reg3 : Pipeline.RegionSeg (pcfgs (F := F)) adm (pdats m I0 I1 I2 I3) () defs₀ Variants.none L lv 3 where
  win := launch3.win.to₀
  block_pos := launch3.block_pos
  stage_whole := launch3.stage_whole
  K := PEmpty
  osem k := k.elim
  ho := Pipeline.OwnSemFacts.none _
  hbody c := (I3.body _ c).loose
  hwaits := Pipeline.hwaits_of_owed_zero _ _ _ _ L lv 3 fun c t => I3.owed_eq _ c t
  pre c := iprop(StableHlo.held (c : Thread nD τ) (Pipeline.ucRefs τ sig) (V11 m (outs m I0 I1 I2 I3) c) ∗ R c)
  post c := iprop(StableHlo.held (c : Thread nD τ) (Pipeline.ucRefs τ sig) (V12 m (outs m I0 I1 I2 I3) c) ∗ R c)
  X c := iprop(∃ r, prngReg c r)
  Y c := iprop(∃ r, prngReg c r)
  Z c := Pipeline.unscopedRest (Ix := Unit) (Name := ℕ) (U := UR sig nD τ) (Lvl := ℕ) spec3 c (fun b => V11 m (outs m I0 I1 I2 I3) c b)
  hentry c := by
    rw [Pipeline.ownSems0_none]
    have hsplit := Pipeline.arrays_of_unscopedBufs (p := 3) (pcfgs (F := F)) adm (pdats m I0 I1 I2 I3) launch3.win launch3.arr_whole c
      ((pdats m I0 I1 I2 I3 3 c).share_full fun w => I3.q_eq _ c w) (fun b => V11 m (outs m I0 I1 I2 I3) c b) (hA3 m I0 I1 I2 I3 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m I0 I1 I2 I3 3 c).owed 0 = 0 from I3.owed_eq _ c 0]
      icases HO with ⟨%W, HO⟩; iexists W; isplitr
      · ipureintro; exact fun x _ => Or.inl (by rw [show (pdats m I0 I1 I2 I3 3 c).recorded 0 = Set.univ from I3.rec_eq _ c 0]; trivial)
      iexact HO
    isplitl [Hp]; · iexact Hp
    iexact Hrest
  hin c := hin3 m I0 I1 I2 I3 c
  hout c := by rw [Pipeline.ownSems0_none]; exact hout3 m I0 I1 I2 I3 c
  hexit c := by
    have hjoin := Pipeline.unscopedBufs_of_arrays (p := 3) (pcfgs (F := F)) adm (Ix := Unit) (Name := ℕ) (U := UR sig nD τ) (Lvl := ℕ)
      launch3.win launch3.arr_whole c (pdats m I0 I1 I2 I3) ((pdats m I0 I1 I2 I3 3 c).share_full fun w => I3.q_eq _ c w)
      (fun b => V11 m (outs m I0 I1 I2 I3) c b) (fun b => V12 m (outs m I0 I1 I2 I3) c b) ((pdats m I0 I1 I2 I3 3 c).arrAt · cfg3.N) (hF3 m I0 I1 I2 I3 c) (hrest3 m I0 I1 I2 I3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    have ho : ∀ t, (pdats m I0 I1 I2 I3 3 c).owed t = 0 := fun t => I3.owed_eq _ c t
    rw [ho]
    icases HO with ⟨%W, -, HO⟩; iexists W; iexact HO

/-! ## The run -/

/-- @main's items as segments: a host segment per stretch of host operations, the four regions' records. -/
abbrev theSegs (c : Dev nD) : List (Pipeline.Seg (pcfgs (F := F)) adm (pdats m I0 I1 I2 I3) () defs₀ Variants.none L lv) :=
  segs m (outs m I0 I1 I2 I3) Variants.none L lv (fun _ c => R c) () (pdats m I0 I1 I2 I3) (reg0 m I0 I1 I2 I3) (reg1 m I0 I1 I2 I3) (reg2 m I0 I1 I2 I3) (reg3 m I0 I1 I2 I3) c

-- the launch theorem's implicit arguments are found by unifying its conclusion with this one, which takes unfolding
-- plain definitions in a metavariable's type
set_option backward.isDefEq.respectTransparency.types false in
/-- THE RUN. From any memory with zero counters every weakly fair execution of @main terminates, nothing faulting, and
    every final memory holds the result buffer at the last contents of the chain above and each argument as launched:
    the launch theorem for a list of segments over the four regions' records, the last thread state read against the
    final memory, an argument's buffer walked back to the launch (no item writes one). -/
theorem run_main (ρ : Dev nD → PrngReg) :
    θ_run defs (onTc (τ := τ) (main (F := F))) ⟨m, fun _ => 0, ρ⟩ (fun r => ∀ c : Dev nD,
      r.2.mem ((c.tc : Thread nD τ).loc main_v33) = U14 m I0 I1 I2 I3 c main_v33
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm (pdats m I0 I1 I2 I3) () cellOf_inj emb₁ defs₀ Variants.none L lv m ρ main
    (theSegs m I0 I1 I2 I3)
    (fun c Q => by
      rewrite [main_chain c, Pipeline.Seg.run_eq_chain,
        show (theSegs m I0 I1 I2 I3 c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()),
          StableHlo.seq hostOps4,
          StableHlo.seq hostOps4_1 ] from rfl]
      exact .rfl)
    (fun c => by simp only [theSegs, segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V14 m (outs m I0 I1 I2 I3) c))
    (hch := fun c => ⟨.rfl, .rfl, .rfl, .rfl, .rfl, .rfl, .rfl, .rfl, .rfl, .rfl, .rfl, .rfl, .rfl, .rfl,
      (show (iprop(StableHlo.held (c : Thread nD τ) (Pipeline.ucRefs τ sig) (V14 m (outs m I0 I1 I2 I3) c) ∗ R c) : sProp 𝕄)
          ⊢ iprop(StableHlo.held (c : Thread nD τ) (Pipeline.ucRefs τ sig) (V14 m (outs m I0 I1 I2 I3) c) ∗ ∃ W, owes (c : Thread nD τ) (0 : CellTallies nD τ sig Unit) W) from by
        iintro ⟨Hh, -, HO⟩
        isplitl [Hh]; · iexact Hh
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V14 m (outs m I0 I1 I2 I3) c b)
    (hfin := fun c s' => by
      iintro ⟨Hh, HSI⟩
      unfold StableHlo.held
      imodintro
      iapply (pointsTo_read_all (Pipeline.ucRefs τ sig) (fun b => (((c : Thread nD τ)).1, b)) (V14 m (outs m I0 I1 I2 I3) c) s')
      isplitl [Hh] <;> iassumption)
    (hQ := fun s h c => ?_)
  have hmem : ∀ b : Ref sig .tc, ¬ (Proc.devRef .tc b : DevRef τ sig).isScoped → Proc.devRef .tc b ∈ Pipeline.ucRefs τ sig :=
    fun b hb => Finset.mem_filter.mpr ⟨StableHlo.devRef_mem_tcRefs b, hb⟩
  exact ⟨(h c _ (hmem main_v33 (by decide))).trans (congrFun (V14_eq m I0 I1 I2 I3 c) _),
    (h c _ (hmem main_arg0 (by decide))).trans (V14_main_arg0 m (outs m I0 I1 I2 I3) c),
    (h c _ (hmem main_arg1 (by decide))).trans (V14_main_arg1 m (outs m I0 I1 I2 I3) c),
    (h c _ (hmem main_arg2 (by decide))).trans (V14_main_arg2 m (outs m I0 I1 I2 I3) c),
    (h c _ (hmem main_arg3 (by decide))).trans (V14_main_arg3 m (outs m I0 I1 I2 I3) c),
    (h c _ (hmem main_arg4 (by decide))).trans (V14_main_arg4 m (outs m I0 I1 I2 I3) c),
    (h c _ (hmem main_arg5 (by decide))).trans (V14_main_arg5 m (outs m I0 I1 I2 I3) c),
    (h c _ (hmem main_arg6 (by decide))).trans (V14_main_arg6 m (outs m I0 I1 I2 I3) c),
    (h c _ (hmem main_arg7 (by decide))).trans (V14_main_arg7 m (outs m I0 I1 I2 I3) c),
    (h c _ (hmem main_arg8 (by decide))).trans (V14_main_arg8 m (outs m I0 I1 I2 I3) c),
    (h c _ (hmem main_arg9 (by decide))).trans (V14_main_arg9 m (outs m I0 I1 I2 I3) c)⟩

include I0 I1 I2 I3 in
/-- THE FRAME: the run with the result dropped. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_main m I0 I1 I2 I3 ρ)

end Cert.KernelIdeal.Asm

end
-- ==== Proof.KI.R0.Base.lean ====
import proofs.«102678_j21827023798522_2_alg».proof.Proof.Gen.KernelIdeal.Launch
import proofs.«102678_j21827023798522_2_alg».proof.Proof.Gen.KernelIdeal.Skeleton
import proofs.«102678_j21827023798522_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: the tiled matrix product with bias and rectifier

The grid is (i, j, k) with k fastest; the accumulator scratch is zeroed at k = 0, a block product is added at
every k, and at the last k the bias is added, the rectifier taken and the result rounded into the output block. -/

/-! ## The body's two conditionals over the grid -/

/-- The first conditional's guard (k = 0), from the grid coordinates. -/
abbrev condZ (i : grid0.Coords) : Prop :=
  (Scalar.cmpi .ne (Scalar.extui (Scalar.cmpi .eq (BitVec.ofNat 32 (i 2).val) 0#32)) 0#32) = 1#1

/-- It holds at the even points. -/
theorem hcondZ : ∀ t : Fin cfg0.N, condZ (grid0.coords t) ↔ t.val % 2 = 0 :=
  (by decide +kernel : ∀ t : Fin grid0.N, condZ (grid0.coords t) ↔ t.val % 2 = 0)

/-- The second conditional's guard (k is the last). -/
abbrev condL (i : grid0.Coords) : Prop := k0_cond2 i = 1#1

/-- It holds at the odd points. -/
theorem hcondL : ∀ t : Fin cfg0.N, condL (grid0.coords t) ↔ t.val % 2 = 1 :=
  (by decide +kernel : ∀ t : Fin grid0.N, condL (grid0.coords t) ↔ t.val % 2 = 1)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- At the even points the output window is idle, -/
theorem idle3_even : ∀ t : Fin cfg0.N, t.val % 2 = 0 → cfg0.idle 3 (grid0.coords t) = true := by decide +kernel
/-- and is not written back; -/
theorem noFlush3_even : ∀ t : Fin cfg0.N, t.val % 2 = 0 → (cfg0.win 3).flush t = false := by decide +kernel
/-- at the odd points it is live. -/
theorem live3_odd : ∀ t : Fin cfg0.N, t.val % 2 = 1 → cfg0.idle 3 (grid0.coords t) = false := by decide +kernel

/-! ## The staging memrefs and the scratch -/

abbrev ms0 (t : Fin cfg0.N) : Memref sig .tc .vmem S1024x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .bf16 := win0_3.stage (cfg0.slots t 3)
abbrev hs3 (t : Fin cfg0.N) : (ms3 t).IsWhole := hstage0_3 ((cfg0.slots t 3).cast nbuf0_3)
/-- The accumulator: a whole scoped buffer of the kernel's own. -/
abbrev acc : Memref sig .tc .vmem S1024x1024 .f32 := Memref.whole cc0_scratch0

/-- The class invariant with the accumulator as a memref owned at some contents, the other scoped buffers unopened. -/
theorem PhiA_eq (c : Dev nD) :
    (Pipeline.ΦA spec0 c : sProp 𝕄)
      = iprop(iprop((∃ d, owns (c : Thread nD τ) acc fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [acc, owns_whole]; rfl

end Cert.KernelIdeal.R0

end
-- ==== Proof.KI.R0.Data.lean ====
import proofs.«102678_j21827023798522_2_alg».proof.Proof.KI.R0.Base

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is the region-entry contents and whose body leaves the block in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the accumulator and the output buffer hold after each point -/

/-- The point before (the first point's is itself). -/
def prev (t : Fin cfg0.N) : Fin cfg0.N := ⟨t.val - 1, Nat.lt_of_le_of_lt (Nat.sub_le _ _) t.isLt⟩

/-- The first partial product: the zero block plus the product of the point's two input blocks. -/
def acc0 (c : Dev nD) (t : Fin cfg0.N) : Vec F S1024x1024 .f32 :=
  k0_pay2 (k0_pay1 (F := F)) (iblk V c 0 t) (iblk V c 1 t)

/-- The accumulator after the body at point t: at an even point (k = 0) the first partial product; at an odd point
    (k = 1) the point's product added to what the even point before left. -/
def accAt (c : Dev nD) (t : Fin cfg0.N) : Vec F S1024x1024 .f32 :=
  if t.val % 2 = 0 then acc0 V c t else k0_pay2 (acc0 V c (prev t)) (iblk V c 0 t) (iblk V c 1 t)

theorem accAt_even (c : Dev nD) (t : Fin cfg0.N) (h : t.val % 2 = 0) : accAt V c t = acc0 V c t := if_pos h
theorem accAt_odd (c : Dev nD) (t : Fin cfg0.N) (h : ¬t.val % 2 = 0) :
    accAt V c t = k0_pay2 (acc0 V c (prev t)) (iblk V c 0 t) (iblk V c 1 t) := if_neg h

/-- The output buffer after the body at an odd point: the epilogue of the accumulator and the bias block. -/
def outAt (c : Dev nD) (t : Fin cfg0.N) : Vec F S1024x1024 .bf16 := k0_pay3 (accAt V c t) (iblk V c 2 t)

/-- The region invariant before position n: before the first point the class's; afterwards the accumulator at what
    the point before left, the other scoped buffers unopened, the generator register at some state. -/
def Phi (c : Dev nD) : (n : ℕ) → n ≤ cfg0.N → sProp 𝕄
  | 0, _ => Pipeline.ΦA spec0 c
  | n + 1, hn => iprop(iprop(owns (c : Thread nD τ) acc fullShare (accAt V c ⟨n, hn⟩)
      ∗ Pipeline.scopedRestBut (Ix := Unit) (Name := ℕ) (U := UR sig nD τ) (Lvl := ℕ) (Val := Elt F) spec0 c [cc0_scratch0])
      ∗ (∃ r, prngReg c r))

theorem Phi_zero (c : Dev nD) (n : ℕ) (h : n ≤ cfg0.N) (hz : n = 0) : Phi V c n h = Pipeline.ΦA spec0 c := by
  subst hz; rfl

theorem Phi_succ (c : Dev nD) (n : ℕ) (hn : n < cfg0.N) :
    Phi V c (n + 1) hn = iprop(iprop(owns (c : Thread nD τ) acc fullShare (accAt V c ⟨n, hn⟩)
      ∗ Pipeline.scopedRestBut (Ix := Unit) (Name := ℕ) (U := UR sig nD τ) (Lvl := ℕ) (Val := Elt F) spec0 c [cc0_scratch0])
      ∗ (∃ r, prngReg c r)) := rfl

theorem Phi_pos (c : Dev nD) (n : ℕ) (h : n ≤ cfg0.N) (hz : n ≠ 0) :
    Phi V c n h = iprop(iprop(owns (c : Thread nD τ) acc fullShare (accAt V c ⟨n - 1, by omega⟩)
      ∗ Pipeline.scopedRestBut (Ix := Unit) (Name := ℕ) (U := UR sig nD τ) (Lvl := ℕ) (Val := Elt F) spec0 c [cc0_scratch0])
      ∗ (∃ r, prngReg c r)) := by
  cases n with
  | zero => exact absurd rfl hz
  | succ n => rfl

/-- After point t (before the next): the accumulator at that point's contents. -/
theorem Phi_after (c : Dev nD) (t : Fin cfg0.N) :
    Phi V c (t.val + 1) t.isLt = iprop(iprop(owns (c : Thread nD τ) acc fullShare (accAt V c t)
      ∗ Pipeline.scopedRestBut (Ix := Unit) (Name := ℕ) (U := UR sig nD τ) (Lvl := ℕ) (Val := Elt F) spec0 c [cc0_scratch0])
      ∗ (∃ r, prngReg c r)) := rfl

/-- Before a point that is not the first: the accumulator at what the point before left. -/
theorem Phi_before (c : Dev nD) (t : Fin cfg0.N) (hz : t.val ≠ 0) :
    Phi V c t.val (Nat.le_of_lt t.isLt) = iprop(iprop(owns (c : Thread nD τ) acc fullShare (accAt V c (prev t))
      ∗ Pipeline.scopedRestBut (Ix := Unit) (Name := ℕ) (U := UR sig nD τ) (Lvl := ℕ) (Val := Elt F) spec0 c [cc0_scratch0])
      ∗ (∃ r, prngReg c r)) := by
  obtain ⟨n, hn⟩ := t
  cases n with
  | zero => exact absurd rfl hz
  | succ n => rfl

/-! ## The pipeline's proof data -/

/-- The proof data of region 0 on core c: the arrays as the region finds them; after the body each input's buffer at
    its block, the output's at the epilogue block; the invariant carrying the accumulator; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outAt V c t
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = Phi V c t.val (Nat.le_of_lt t.isLt) := by
  dsimp only [dat]; simp only [Fin.coe_castSucc]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = outAt V c t := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d

end Cert.KernelIdeal.R0

end
-- ==== Proof.KI.R0.RunZ.lean ====
import proofs.«102678_j21827023798522_2_alg».proof.Proof.KI.R0.Base
import Idealize.ShloMosaic.Lib.Pipeline.Value

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body at a first point of the reduction (k = 0) -/

/-- The zero offsets of a whole-block access, however spelt. -/
theorem hz2 : (![0, 0] : Fin 2 → Nat) = fun _ => 0 := funext fun a => by fin_cases a <;> rfl

/-- After a last store through the whole-shape rectangle a buffer reads that store's payload, whatever was stored
    before and whatever it held. -/
theorem read_writes_whole {sig : RefSig} {κ : Kind} {sp : Space} {S : Shape} {e : EltTy} {Val : EltTy → Type}
    [∀ e, Nonempty (Val e)] (v : View sig κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- A load through the whole-shape rectangle of a whole memref held at the contents that read X reads X. -/
theorem readAt_whole {sig : RefSig} {κ : Kind} {sp : Space} {S : Shape} {e : EltTy} {Val : EltTy → Type}
    (m : Memref sig κ sp S e) (hm : m.IsWhole) {off : Fin S.rank → Nat} (h : off = fun _ => 0)
    (inb : ∀ a, off a + S.size a ≤ S.size a) (X : S.Idx → Val e) :
    m.view.readAt Val (Rect.unit off S.size inb).toLoadRect (hm.unread X) = X := by
  rw [View.readAt_eq_ld, hm.read_unread, View.ld_unit_zero h]

set_option maxHeartbeats 1000000 in
/-- At k = 0 the body zeroes the accumulator and adds the block product: on whole memrefs, the inputs at their
    contents, the output buffer at contents handed back untouched, the accumulator at anything, it runs to the
    continuation holding the accumulator at the first partial product. -/
theorem runZ (c : Dev nD) (i : grid0.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : condZ i) (hc1 : ¬condL i)
    (x0 : Vec F S1024x4096 .bf16) (x1 : Vec F S4096x1024 .bf16) (x2 : Vec F S1x1024 .f32) (xi3 : Vec F S1024x1024 .bf16)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare (k0_pay2 (k0_pay1 (F := F)) x0 x1)) -∗ K ⟨⟩))
      ⊢ wp frame (wpE (defs₀ (F := F)) Variants.none c none) E (cc0_kernel i arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact hf3
    iexact H3
  iexists _; isplitr
  swap; · iexact HS
  ipureintro
  rw [read_writes_whole _ _ hz2]
  unfold runZ.sl.v3 runZ.sl.HS_1
  rw [View.readCov_unit_zero _ hz2, readAt_whole _ harg3 hz2, readAt_whole _ harg4 hz2]

end Cert.KernelIdeal.R0

end
-- ==== Proof.KI.R0.RunL.lean ====
import proofs.«102678_j21827023798522_2_alg».proof.Proof.KI.R0.RunZ

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body at the last point of the reduction (k = 1) -/

set_option maxHeartbeats 1000000 in
/-- At the last k the body adds the block product to the accumulator, then adds the bias, takes the rectifier and
    rounds the result into the output buffer: on whole memrefs, the inputs at their contents, the output buffer at
    anything, the accumulator at what the point before left, it runs to the continuation holding the accumulator at
    the full product and the output buffer at the epilogue of it. -/
theorem runL (c : Dev nD) (i : grid0.Coords) (arg3 : Memref sig .tc .vmem S1024x4096 .bf16) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬condZ i) (hc1 : condL i)
    (x0 : Vec F S1024x4096 .bf16) (x1 : Vec F S4096x1024 .bf16) (x2 : Vec F S1x1024 .f32) (xs : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (k0_pay2 xs x0 x1) x2) ∗ owns (c : Thread nD τ) arg7 fullShare (k0_pay2 xs x0 x1)) -∗ K ⟨⟩))
      ⊢ wp frame (wpE (defs₀ (F := F)) Variants.none c none) E (cc0_kernel i arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2
  obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [read_writes_whole _ _ hz2]
    unfold runL.sl.v16 runL.sl.HS_1
    rw [View.readCov_unit_zero _ hz2, readAt_whole _ harg7 hz2, readAt_whole _ harg3 hz2, readAt_whole _ harg4 hz2,
      readAt_whole _ harg5 hz2]
  iexists _; isplitr
  swap; · iexact HS
  ipureintro
  unfold runL.sl.HS_1
  rw [read_writes_whole _ _ hz2, readAt_whole _ harg7 hz2, readAt_whole _ harg3 hz2, readAt_whole _ harg4 hz2]

end Cert.KernelIdeal.R0

end
-- ==== Proof.KI.R0.Oblig.lean ====
import proofs.«102678_j21827023798522_2_alg».proof.Proof.KI.R0.Data
import proofs.«102678_j21827023798522_2_alg».proof.Proof.KI.R0.RunL

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation, at a generic point -/

/-- What the body is called with at point t, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the inputs' memrefs hold their blocks; an even point is a first point of the reduction,
    where the accumulator may hold anything and the output buffer is handed back untouched; an odd point is a last
    one, where the accumulator holds what the even point before left and the output buffer is filled. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).owesAt () t.succ = (dat V c).owesAt () t.castSucc from rfl]
  rw [show (dat V c).Φ t.succ = Phi V c (t.val + 1) t.isLt from rfl, Phi_after]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  have hN : t.val < 128 := lt_of_lt_of_eq t.isLt (show cfg0.N = 128 from N_0)
  by_cases h0 : t.val % 2 = 0
  · rw [Dat.leavesExact_idle (dat V c) 3 t (idle3_even t h0) (noFlush3_even t h0)]
    rw [accAt_even V c t h0]
    unfold acc0
    by_cases hz : t.val = 0
    · rw [Phi_castSucc V c t, Phi_zero V c _ _ hz, PhiA_eq]
      iintro ⟨⟨⟨HS, Hr⟩, Hg⟩, Ho, ⟨%d0, H0⟩, ⟨%d1, H1⟩, ⟨%d2, H2⟩, ⟨%d3, H3⟩⟩
      iapply (runZ c (grid0.coords t) _ _ _ _ _ _ _ _ _ _ ((hcondZ t).mpr h0) (fun h => by have := (hcondL t).mp h; omega)
        (iblk V c 0 t) (iblk V c 1 t) (iblk V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [Phi_castSucc V c t, Phi_before V c t hz]
      iintro ⟨⟨⟨HS, Hr⟩, Hg⟩, Ho, ⟨%d0, H0⟩, ⟨%d1, H1⟩, ⟨%d2, H2⟩, ⟨%d3, H3⟩⟩
      iapply (runZ c (grid0.coords t) _ _ _ _ _ _ _ _ _ _ ((hcondZ t).mpr h0) (fun h => by have := (hcondL t).mp h; omega)
        (iblk V c 0 t) (iblk V c 1 t) (iblk V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
  · have h1 : t.val % 2 = 1 := by omega
    have hz : t.val ≠ 0 := by omega
    rw [show (dat V c).leavesExact 3 t = owns (c : Thread nD τ) (ms3 t) fullShare ((dat V c).after 3 t) from by
      unfold Dat.leavesExact; rw [live3_odd t h1], after3]
    unfold outAt
    rw [accAt_odd V c t h0]
    rw [Phi_castSucc V c t, Phi_before V c t hz, accAt_even V c (prev t) (by show (t.val - 1) % 2 = 0; omega)]
    iintro ⟨⟨⟨HS, Hr⟩, Hg⟩, Ho, ⟨%d0, H0⟩, ⟨%d1, H1⟩, ⟨%d2, H2⟩, ⟨%d3, H3⟩⟩
    iapply (runL c (grid0.coords t) _ _ _ _ _ _ _ _ _ _ (fun h => h0 ((hcondZ t).mp h)) ((hcondL t).mpr h1)
      (iblk V c 0 t) (iblk V c 1 t) (iblk V c 2 t) (acc0 V c (prev t)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = Phi V c 0 (Nat.zero_le _) from rfl, Phi_zero V c 0 _ rfl]

/-- After the last point the invariant gives the class's back: the accumulator's named contents are forgotten. -/
theorem hout (c : Dev nD) : (dat V c).Φ (Fin.last cfg0.N) ⊢ Pipeline.ΦA spec0 c := by
  rw [show (dat V c).Φ (Fin.last cfg0.N) = Phi V c (Fin.last cfg0.N).val (Nat.le_of_lt_succ (Fin.last cfg0.N).isLt) from rfl,
    Phi_pos V c _ _ (by rw [Fin.val_last]; have : cfg0.N = 128 := N_0; omega), PhiA_eq]
  iintro ⟨⟨HS, Hr⟩, Hg⟩
  isplitl [HS Hr]
  · isplitl [HS]; · iexists _; iexact HS
    iexact Hr
  iexact Hg

end Cert.KernelIdeal.R0

end
-- ==== Proof.KI.R0.ValueG.lean ====
import proofs.«102678_j21827023798522_2_alg».proof.Proof.KI.R0.Data
import Idealize.ShloMosaic.Lib.Pipeline.Value
import Idealize.ShloMosaic.Lib.ValueIdx

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-! ## The blocks as functions of the arrays -/

/-- Block (bi, bk) of the left operand: 1024 rows from bi * 1024, 4096 columns from bk * 4096. -/
def blkA (a : S8192x8192.Idx → Elt F .bf16) (bi : Fin 8) (bk : Fin 2) : Vec F S1024x4096 .bf16 :=
  fun x => a (ix2 (n0 := 8192) (n1 := 8192)
    ⟨bi.val * 1024 + (x 0).val, by have := idx2_lt0 x; have := bi.isLt; omega⟩
    ⟨bk.val * 4096 + (x 1).val, by have := idx2_lt1 x; have := bk.isLt; omega⟩)

/-- Block (bk, bj) of the right operand: 4096 rows from bk * 4096, 1024 columns from bj * 1024. -/
def blkB (b : S8192x8192.Idx → Elt F .bf16) (bk : Fin 2) (bj : Fin 8) : Vec F S4096x1024 .bf16 :=
  fun x => b (ix2 (n0 := 8192) (n1 := 8192)
    ⟨bk.val * 4096 + (x 0).val, by have := idx2_lt0 x; have := bk.isLt; omega⟩
    ⟨bj.val * 1024 + (x 1).val, by have := idx2_lt1 x; have := bj.isLt; omega⟩)

/-- Block bj of the bias row: 1024 columns from bj * 1024. -/
def blkC (bias : S1x8192.Idx → Elt F .f32) (bj : Fin 8) : Vec F S1x1024 .f32 :=
  fun x => bias (ix2 (n0 := 1) (n1 := 8192)
    ⟨(x 0).val, idx2_lt0 x⟩
    ⟨bj.val * 1024 + (x 1).val, by have := idx2_lt1 x; have := bj.isLt; omega⟩)

/-- Window 0's block at a point whose block index is (bi, bk). -/
theorem iblk0_eq (c : Dev nD) (t : Fin cfg0.N) (bi : Fin 8) (bk : Fin 2)
    (h0 : win0_0.index t (0 : Fin 2) = bi.val) (h1 : win0_0.index t (1 : Fin 2) = bk.val) :
    iblk V c 0 t = blkA (V c main_v0) bi bk := by
  funext x
  show V c main_v0 (((cfg0.win 0).blk t).view.emb x) = _
  unfold blkA
  refine congrArg (V c main_v0) ?_
  funext a; apply Fin.ext
  match a with
  | ⟨0, _⟩ => show win0_0.index t (0 : Fin 2) * 1024 + 1 * (x 0).val = bi.val * 1024 + (x 0).val; omega
  | ⟨1, _⟩ => show win0_0.index t (1 : Fin 2) * 4096 + 1 * (x 1).val = bk.val * 4096 + (x 1).val; omega

/-- Window 1's block at a point whose block index is (bk, bj). -/
theorem iblk1_eq (c : Dev nD) (t : Fin cfg0.N) (bk : Fin 2) (bj : Fin 8)
    (h0 : win0_1.index t (0 : Fin 2) = bk.val) (h1 : win0_1.index t (1 : Fin 2) = bj.val) :
    iblk V c 1 t = blkB (V c main_v1) bk bj := by
  funext x
  show V c main_v1 (((cfg0.win 1).blk t).view.emb x) = _
  unfold blkB
  refine congrArg (V c main_v1) ?_
  funext a; apply Fin.ext
  match a with
  | ⟨0, _⟩ => show win0_1.index t (0 : Fin 2) * 4096 + 1 * (x 0).val = bk.val * 4096 + (x 0).val; omega
  | ⟨1, _⟩ => show win0_1.index t (1 : Fin 2) * 1024 + 1 * (x 1).val = bj.val * 1024 + (x 1).val; omega

/-- Window 2's block at a point whose block index is (0, bj). -/
theorem iblk2_eq (c : Dev nD) (t : Fin cfg0.N) (bj : Fin 8)
    (h0 : win0_2.index t (0 : Fin 2) = 0) (h1 : win0_2.index t (1 : Fin 2) = bj.val) :
    iblk V c 2 t = blkC (V c main_v2) bj := by
  funext x
  show V c main_v2 (((cfg0.win 2).blk t).view.emb x) = _
  unfold blkC
  refine congrArg (V c main_v2) ?_
  funext a; apply Fin.ext
  match a with
  | ⟨0, _⟩ => show win0_2.index t (0 : Fin 2) * 1 + 1 * (x 0).val = (x 0).val; omega
  | ⟨1, _⟩ => show win0_2.index t (1 : Fin 2) * 1024 + 1 * (x 1).val = bj.val * 1024 + (x 1).val; omega

/-! ## The block indices over the grid -/

/-- At an odd point (k = 1) with output block (I, J): the left operand's block is (I, 1), the right operand's (1, J),
    the bias's (0, J); at the point before (k = 0) they are (I, 0) and (0, J). Decided over the grid. -/
theorem idx_facts : ∀ t : Fin cfg0.N, t.val % 2 = 1 →
      win0_0.index t (0 : Fin 2) = win0_3.index t (0 : Fin 2) ∧ win0_0.index t (1 : Fin 2) = 1
    ∧ win0_1.index t (0 : Fin 2) = 1 ∧ win0_1.index t (1 : Fin 2) = win0_3.index t (1 : Fin 2)
    ∧ win0_2.index t (0 : Fin 2) = 0 ∧ win0_2.index t (1 : Fin 2) = win0_3.index t (1 : Fin 2)
    ∧ win0_0.index (prev t) (0 : Fin 2) = win0_3.index t (0 : Fin 2) ∧ win0_0.index (prev t) (1 : Fin 2) = 0
    ∧ win0_1.index (prev t) (0 : Fin 2) = 0 ∧ win0_1.index (prev t) (1 : Fin 2) = win0_3.index t (1 : Fin 2)
    ∧ win0_3.index t (0 : Fin 2) < 8 ∧ win0_3.index t (1 : Fin 2) < 8 :=
  (by decide +kernel : ∀ t : Fin grid0.N, t.val % 2 = 1 →
      win0_0.index t (0 : Fin 2) = win0_3.index t (0 : Fin 2) ∧ win0_0.index t (1 : Fin 2) = 1
    ∧ win0_1.index t (0 : Fin 2) = 1 ∧ win0_1.index t (1 : Fin 2) = win0_3.index t (1 : Fin 2)
    ∧ win0_2.index t (0 : Fin 2) = 0 ∧ win0_2.index t (1 : Fin 2) = win0_3.index t (1 : Fin 2)
    ∧ win0_0.index (prev t) (0 : Fin 2) = win0_3.index t (0 : Fin 2) ∧ win0_0.index (prev t) (1 : Fin 2) = 0
    ∧ win0_1.index (prev t) (0 : Fin 2) = 0 ∧ win0_1.index (prev t) (1 : Fin 2) = win0_3.index t (1 : Fin 2)
    ∧ win0_3.index t (0 : Fin 2) < 8 ∧ win0_3.index t (1 : Fin 2) < 8)

/-- Every output block is some odd point's. -/
theorem idx_onto : ∀ (q0 q1 : Fin 8), ∃ t : Fin cfg0.N, t.val % 2 = 1 ∧ win0_3.index t = ![q0.val, q1.val] :=
  (by decide +kernel : ∀ (q0 q1 : Fin 8), ∃ t : Fin grid0.N, t.val % 2 = 1 ∧ win0_3.index t = ![q0.val, q1.val])

/-! ## The value -/

/-- Output block (bi, bj): the epilogue (bias, rectifier, rounding) of the two block products added into the zero block. -/
def Gblk (a : S8192x8192.Idx → Elt F .bf16) (b : S8192x8192.Idx → Elt F .bf16) (bias : S1x8192.Idx → Elt F .f32)
    (bi bj : Fin 8) : Vec F S1024x1024 .bf16 :=
  k0_pay3 (k0_pay2 (k0_pay2 (k0_pay1 (F := F)) (blkA a bi 0) (blkB b 0 bj)) (blkA a bi 1) (blkB b 1 bj)) (blkC bias bj)

/-- The whole output array: entry (r, q) is entry (r % 1024, q % 1024) of block (r / 1024, q / 1024). -/
def G (a : S8192x8192.Idx → Elt F .bf16) (b : S8192x8192.Idx → Elt F .bf16) (bias : S1x8192.Idx → Elt F .f32) :
    S8192x8192.Idx → Elt F .bf16 := fun p =>
  Gblk a b bias ⟨(p 0).val / 1024, by have := idx2_lt0 p; omega⟩ ⟨(p 1).val / 1024, by have := idx2_lt1 p; omega⟩
    (ix2 (n0 := 1024) (n1 := 1024) ⟨(p 0).val % 1024, Nat.mod_lt _ (by decide)⟩ ⟨(p 1).val % 1024, Nat.mod_lt _ (by decide)⟩)

/-- The array at the entry that sits at y in block (bi, bj). -/
theorem G_at (a : S8192x8192.Idx → Elt F .bf16) (b : S8192x8192.Idx → Elt F .bf16) (bias : S1x8192.Idx → Elt F .f32)
    (bi bj : Fin 8) (y : S1024x1024.Idx) (p : S8192x8192.Idx)
    (h0 : (p 0).val = bi.val * 1024 + (y 0).val) (h1 : (p 1).val = bj.val * 1024 + (y 1).val) :
    G a b bias p = Gblk a b bias bi bj y := by
  have hy0 := idx2_lt0 y
  have hy1 := idx2_lt1 y
  have e1 : (⟨(p 0).val / 1024, by have := idx2_lt0 p; omega⟩ : Fin 8) = bi := Fin.ext (by show (p 0).val / 1024 = bi.val; omega)
  have e2 : (⟨(p 1).val / 1024, by have := idx2_lt1 p; omega⟩ : Fin 8) = bj := Fin.ext (by show (p 1).val / 1024 = bj.val; omega)
  have e3 : ix2 (n0 := 1024) (n1 := 1024) ⟨(p 0).val % 1024, Nat.mod_lt _ (by decide)⟩ ⟨(p 1).val % 1024, Nat.mod_lt _ (by decide)⟩ = y := by
    funext d; apply Fin.ext
    match d with
    | ⟨0, _⟩ => show (p 0).val % 1024 = (y 0).val; omega
    | ⟨1, _⟩ => show (p 1).val % 1024 = (y 1).val; omega
  exact congr (congr (congrArg (Gblk a b bias) e1) e2) e3

/-- What the output buffer holds after an odd point is that point's block of the value. -/
theorem outAt_eq (c : Dev nD) (t : Fin cfg0.N) (hf : t.val % 2 = 1) :
    outAt V c t = Gblk (V c main_v0) (V c main_v1) (V c main_v2)
      ⟨win0_3.index t (0 : Fin 2), (idx_facts t hf).2.2.2.2.2.2.2.2.2.2.1⟩ ⟨win0_3.index t (1 : Fin 2), (idx_facts t hf).2.2.2.2.2.2.2.2.2.2.2⟩ := by
  obtain ⟨e00, e01, e10, e11, e20, e21, p00, p01, p10, p11, b0, b1⟩ := idx_facts t hf
  unfold outAt
  rw [accAt_odd V c t (by omega)]
  unfold acc0 Gblk
  rw [iblk0_eq V c t ⟨win0_3.index t (0 : Fin 2), b0⟩ 1 e00 e01, iblk1_eq V c t 1 ⟨win0_3.index t (1 : Fin 2), b1⟩ e10 e11,
    iblk2_eq V c t ⟨win0_3.index t (1 : Fin 2), b1⟩ e20 e21,
    iblk0_eq V c (prev t) ⟨win0_3.index t (0 : Fin 2), b0⟩ 0 p00 p01, iblk1_eq V c (prev t) 0 ⟨win0_3.index t (1 : Fin 2), b1⟩ p10 p11]

/-- What an odd point writes back is its block of the value. -/
theorem flushed3_eq (c : Dev nD) (t : Fin cfg0.N) (hf : t.val % 2 = 1) :
    (dat V c).flushed 3 t = ((cfg0.win 3).blk t).view.read (Elt F) (G (V c main_v0) (V c main_v1) (V c main_v2)) := by
  show (cfg0.win 3).cut (grid0.coords t) ((dat V c).after 3 t) = _
  rw [after3, outAt_eq V c t hf]
  funext y
  show _ = G (V c main_v0) (V c main_v1) (V c main_v2) (((cfg0.win 3).blk t).view.emb y)
  refine (G_at _ _ _ _ _ y _ ?_ ?_).symm
  · show win0_3.index t (0 : Fin 2) * 1024 + 1 * (y 0).val = win0_3.index t (0 : Fin 2) * 1024 + (y 0).val; omega
  · show win0_3.index t (1 : Fin 2) * 1024 + 1 * (y 1).val = win0_3.index t (1 : Fin 2) * 1024 + (y 1).val; omega

/-- An index of the output array is in point t's block iff each coordinate is in the block's range on its axis. -/
theorem mem_blk3 (t : Fin cfg0.N) (i : S8192x8192.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v3).slice (win0_3.rect t)).set ↔ _
  rw [View.set_slice_whole, Rect.mem_set_unit]
  exact Iff.rfl

/-- The odd points' blocks cover the output array. -/
theorem cover3 (i : S8192x8192.Idx) : ∃ t : Fin cfg0.N, (cfg0.win 3).flush t = true ∧ i ∈ ((cfg0.win 3).blk t).view.set := by
  have hi0 := idx2_lt0 i
  have hi1 := idx2_lt1 i
  obtain ⟨t, ht, hx⟩ := idx_onto ⟨(i 0).val / 1024, by omega⟩ ⟨(i 1).val / 1024, by omega⟩
  have q0 : win0_3.index t (0 : Fin 2) = (i 0).val / 1024 := congrFun hx 0
  have q1 : win0_3.index t (1 : Fin 2) = (i 1).val / 1024 := congrFun hx 1
  refine ⟨t, (flush0_3 t).mpr ht, ?_⟩
  rw [mem_blk3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- THE OUTPUT ARRAY after the region: the value, a function of the three input arrays as the region finds them. -/
theorem final (c : Dev nD) : (dat V c).arrAt 3 cfg0.N = G (V c main_v0) (V c main_v1) (V c main_v2) :=
  (dat V c).arrAt_eq_of_cover 3 _ (fun t hf => flushed3_eq V c t ((flush0_3 t).mp hf)) cover3

end Cert.KernelIdeal.R0

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.KI.R0.ValueIdeal.lean ====
import proofs.«102678_j21827023798522_2_alg».proof.Proof.KI.R0.ValueG
import proofs.«102678_j21827023798522_2_alg».proof.Proof.LibPlainDot
import Idealize.ShloMosaic.Lib.ValueLayout
import Idealize.ShloMosaic.PureOps.Ideal.Laws

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

/-! ## The value on the extended reals -/

/-- The zero block is zero. -/
theorem pay1_apply (y : S1024x1024.Idx) : k0_pay1 (F := Ideal) y = 0 := by
  show shapeCast S1024x1024 (broadcast S1024x1024 (Scalar.ofBits (F := Ideal) .f32 0x00000000#32)) shapeCasts_S1024x1024_S1024x1024 y = 0
  rw [shapeCast_self]
  exact Ideal.ofBits_zero_f32

/-- The accumulation step at an entry: the accumulator plus the sum over the block's contraction axis. -/
theorem pay2_apply (v3 : FVec Ideal S1024x1024 .f32) (v4 : FVec Ideal S1024x4096 .bf16) (v6 : FVec Ideal S4096x1024 .bf16)
    (p q : Fin 1024) :
    k0_pay2 (F := Ideal) v3 v4 v6 (ix2 p q) = v3 (ix2 p q) + ∑ k : Fin 4096, v4 (ix2 p k) * v6 (ix2 k q) := by
  show shapeCast S1024x1024 (addf v3 (matmul dot_S1024x4096_S4096x1024_S1024x1024_1_0_0_1_n_n none
      (shapeCast S1024x4096 v4 shapeCasts_S1024x4096_S1024x4096) (shapeCast S4096x1024 v6 shapeCasts_S4096x1024_S4096x1024)
      (constant S1024x1024 .f32 0x00000000#32))) shapeCasts_S1024x1024_S1024x1024 (ix2 p q) = _
  rw [shapeCast_self, shapeCast_self, shapeCast_self]
  show v3 (ix2 p q) + FloatOps.matmul (DotDims.plain 1024 4096 1024) none v4 v6
      (constant (F := Ideal) ⟨2, ![1024, 1024]⟩ .f32 0x00000000#32) (ix2 p q) = _
  rw [Cert.LibPlainDot.matmul_zero_apply]

/-- The epilogue at an entry: the rectifier of the accumulator plus the bias of the entry's column (the rounding to
    the output format is the identity on the extended reals). -/
theorem pay3_apply (v16 : FVec Ideal S1024x1024 .f32) (v17 : FVec Ideal S1x1024 .f32) (p q : Fin 1024) :
    k0_pay3 (F := Ideal) v16 v17 (ix2 p q) = max (v16 (ix2 p q) + v17 (ix2 (0 : Fin 1) q)) 0 := by
  show max (v16 (ix2 p q) + broadcastTo S1024x1024 (shapeCast S1x1024 v17 shapeCasts_S1x1024_S1x1024) broadcasts_S1x1024_S1024x1024 (ix2 p q))
      (Ideal.ofBits .f32 0x00000000#32) = _
  rw [shapeCast_self, broadcastTo_1b_ab_apply, Ideal.ofBits_zero_f32]

/-- An output block at an entry. -/
theorem Gblk_apply_ideal (a : S8192x8192.Idx → Elt Ideal .bf16) (b : S8192x8192.Idx → Elt Ideal .bf16) (bias : S1x8192.Idx → Elt Ideal .f32)
    (bi bj : Fin 8) (p q : Fin 1024) :
    Gblk (F := Ideal) a b bias bi bj (ix2 p q)
      = max (((0 + ∑ k : Fin 4096, blkA a bi 0 (ix2 p k) * blkB b 0 bj (ix2 k q))
          + ∑ k : Fin 4096, blkA a bi 1 (ix2 p k) * blkB b 1 bj (ix2 k q)) + blkC bias bj (ix2 (0 : Fin 1) q)) 0 := by
  unfold Gblk
  rw [pay3_apply, pay2_apply, pay2_apply, pay1_apply]

/-- A sum over 8192 is the sum over its two halves. -/
theorem sum_halves (f : Fin 8192 → EReal) :
    ∑ k : Fin 8192, f k = (∑ k : Fin 4096, f ⟨k.val, by omega⟩) + ∑ k : Fin 4096, f ⟨4096 + k.val, by omega⟩ :=
  Fin.sum_univ_add (M := EReal) (a := 4096) (b := 4096) f

theorem ix2_ext {n0 n1 : Nat} {x x' : Fin n0} {y y' : Fin n1} (hx : x.val = x'.val) (hy : y.val = y'.val) :
    ix2 x y = ix2 x' y' := by
  rw [Fin.ext hx, Fin.ext hy]

/-- THE VALUE AT AN ENTRY, on the extended reals: the rectifier of the whole row-by-column sum plus the bias. -/
theorem G_apply_ideal (a : S8192x8192.Idx → Elt Ideal .bf16) (b : S8192x8192.Idx → Elt Ideal .bf16) (bias : S1x8192.Idx → Elt Ideal .f32)
    (r q : Fin 8192) :
    G (F := Ideal) a b bias (ix2 r q) = max ((∑ k : Fin 8192, a (ix2 r k) * b (ix2 k q)) + bias (ix2 (0 : Fin 1) q)) 0 := by
  have hr := r.isLt
  have hq := q.isLt
  show Gblk (F := Ideal) a b bias ⟨r.val / 1024, by omega⟩ ⟨q.val / 1024, by omega⟩
      (ix2 (n0 := 1024) (n1 := 1024) ⟨r.val % 1024, Nat.mod_lt _ (by decide)⟩ ⟨q.val % 1024, Nat.mod_lt _ (by decide)⟩) = _
  rw [Gblk_apply_ideal, zero_add, sum_halves]
  refine congrArg (fun z => max z 0) (congrArg₂ (· + ·) (congrArg₂ (· + ·) ?_ ?_) ?_)
  · refine Finset.sum_congr rfl fun k _ => congrArg₂ (· * ·) (congrArg a (ix2_ext ?_ ?_)) (congrArg b (ix2_ext ?_ ?_))
    · show r.val / 1024 * 1024 + r.val % 1024 = r.val; omega
    · show 0 * 4096 + k.val = k.val; omega
    · show 0 * 4096 + k.val = k.val; omega
    · show q.val / 1024 * 1024 + q.val % 1024 = q.val; omega
  · refine Finset.sum_congr rfl fun k _ => congrArg₂ (· * ·) (congrArg a (ix2_ext ?_ ?_)) (congrArg b (ix2_ext ?_ ?_))
    · show r.val / 1024 * 1024 + r.val % 1024 = r.val; omega
    · show 1 * 4096 + k.val = 4096 + k.val; omega
    · show 1 * 4096 + k.val = 4096 + k.val; omega
    · show q.val / 1024 * 1024 + q.val % 1024 = q.val; omega
  · refine congrArg bias (ix2_ext ?_ ?_)
    · rfl
    · show q.val / 1024 * 1024 + q.val % 1024 = q.val; omega

end Cert.KernelIdeal.R0

end
-- ==== Proof.KI.R0.lean ====
import proofs.«102678_j21827023798522_2_alg».proof.Proof.KI.R0.Oblig
import proofs.«102678_j21827023798522_2_alg».proof.Proof.KI.R0.ValueG
import proofs.«102678_j21827023798522_2_alg».proof.Proof.KI.R0.ValueIdeal

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Region 0, assembled: the proof data, its arrays, the body obligation and the invariant's two ends (module Oblig);
    the output array after the region as one function of the input arrays (module ValueG, at any float instance);
    that function at an entry on the extended reals (module ValueIdeal). -/

end Cert.KernelIdeal.R0

end
-- ==== Proof.KI.R1Runs.lean ====
import proofs.«102678_j21827023798522_2_alg».proof.Proof.Gen.KernelIdeal.Launch
import proofs.«102678_j21827023798522_2_alg».proof.Proof.Gen.KernelIdeal.Skeleton
import proofs.«102678_j21827023798522_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: what the three control cases of the body share

The body has two conditionals on the inner grid coordinate `k`: "first `k`" (the accumulator is zeroed) and
"last `k`" (the epilogue is stored into the output window). -/

/-- The body's first conditional, from the grid coordinates: `k = 0`. -/
abbrev condFirst (i : grid1.Coords) : Prop :=
  (Scalar.cmpi .ne (Scalar.extui (Scalar.cmpi .eq (BitVec.ofNat 32 (i 1).val) 0#32)) 0#32) = 1#1
/-- It holds at the points ≡ 0 (mod 4). -/
theorem condFirst_iff : ∀ t : Fin cfg1.N, condFirst (grid1.coords t) ↔ t.val % 4 = 0 :=
  (by decide +kernel : ∀ t : Fin grid1.N, condFirst (grid1.coords t) ↔ t.val % 4 = 0)

/-- The body's second conditional: `k = 3`, the last. -/
abbrev condLast (i : grid1.Coords) : Prop := k1_cond2 i = 1#1
/-- It holds at the points ≡ 3 (mod 4). -/
theorem condLast_iff : ∀ t : Fin cfg1.N, condLast (grid1.coords t) ↔ t.val % 4 = 3 :=
  (by decide +kernel : ∀ t : Fin grid1.N, condLast (grid1.coords t) ↔ t.val % 4 = 3)

/-! ## Where the windows are idle -/

/-- The input windows are never idle. -/
theorem live_in : ∀ (w : Fin cfg1.W), w.val < 5 → ∀ t : Fin cfg1.N, cfg1.idle w (grid1.coords t) = false := by decide +kernel
/-- Off the last `k` the output window is idle: nothing is stored into it, -/
theorem idle_out : ∀ t : Fin cfg1.N, ¬condLast (grid1.coords t) → cfg1.idle 5 (grid1.coords t) = true := by decide +kernel
/-- and it is not written back there. -/
theorem noFlush_out : ∀ t : Fin cfg1.N, ¬condLast (grid1.coords t) → (cfg1.win 5).flush t = false := by decide +kernel
/-- At the last `k` the output window is live. -/
theorem live_out : ∀ t : Fin cfg1.N, condLast (grid1.coords t) → cfg1.idle 5 (grid1.coords t) = false := by decide +kernel

/-! ## The staging memrefs the body is called with -/

abbrev ms0 (t : Fin cfg1.N) : Memref sig .tc .vmem S1024x2048 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S2048x256 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x256 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x1 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x256 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1024x256 .f32 := win1_5.stage (cfg1.slots t 5)
abbrev hs5 (t : Fin cfg1.N) : (ms5 t).IsWhole := hstage1_5 ((cfg1.slots t 5).cast nbuf1_5)

/-- The accumulator: a whole scoped buffer of the kernel's own, passed beside the windows. -/
abbrev scM : Memref sig .tc .vmem S1024x256 .f32 := Memref.whole cc1_scratch0
/-- The accumulator as a view, and one staging buffer of the output window as a view: contents are stated through them. -/
abbrev VS : View sig .tc .vmem S1024x256 .f32 := scM.view
abbrev VO : View sig .tc .vmem S1024x256 .f32 := (Memref.whole cc1_stg5_0 : Memref sig .tc .vmem S1024x256 .f32).view

/-- What the launch hands the region, with the accumulator as a memref owned at some contents and the other scoped
    buffers unopened. -/
theorem PhiA_eq (c : Dev nD) :
    (Pipeline.ΦA spec1 c : sProp 𝕄)
      = iprop(iprop(iprop((∃ d, owns (c : Thread nD τ) scM fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM, owns_whole]; try rfl

end Cert.KernelIdeal.R1

end
-- ==== Proof.KI.R1RunLast.lean ====
import proofs.«102678_j21827023798522_2_alg».proof.Proof.KI.R1Runs

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at the last `k`: on whole staging memrefs, the inputs' at their contents, the output window's at anything and the
    accumulator at what the point before left, the body runs to the continuation holding the inputs' as they were, the
    output's buffer with the epilogue written and the accumulator with this point's sum written. The pieces written are the
    witness the run finds. -/
noncomputable def runLast (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : condLast i)
    (x0 : Vec F S1024x2048 .bf16) (x1 : Vec F S2048x256 .bf16) (x2 : Vec F S1024x256 .f32) (x3 : Vec F S1024x1 .f32) (x4 : Vec F S1x256 .f32) (xs : Vec F S1024x256 .f32) :
    Σ' (L5 : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.R1

end
-- ==== Proof.KI.R1RunMid.lean ====
import proofs.«102678_j21827023798522_2_alg».proof.Proof.KI.R1RunLast

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a middle `k`: on whole staging memrefs, the inputs' at their contents, the output window's (idle here) at
    contents `xi` handed back untouched and the accumulator at what the point before left, the body runs to the
    continuation holding all of them as they were but the accumulator, which has this point's sum written. The pieces
    written are the witness the run finds. -/
noncomputable def runMid (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : ¬condLast i)
    (x0 : Vec F S1024x2048 .bf16) (x1 : Vec F S2048x256 .bf16) (x2 : Vec F S1024x256 .f32) (x3 : Vec F S1024x1 .f32) (x4 : Vec F S1x256 .f32) (xs : Vec F S1024x256 .f32) :
    Σ' (L5 : List (View.Piece (Elt F) S1024x256 .f32)), { LS : List (View.Piece (Elt F) S1024x256 .f32) //
      ∀ (xi : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, fun xi E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.R1

end
-- ==== Proof.KI.R1RunFirst.lean ====
import proofs.«102678_j21827023798522_2_alg».proof.Proof.KI.R1RunMid

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at the first `k`: on whole staging memrefs, the inputs' at their contents, the output window's (idle here) at
    contents `xi` handed back untouched and the accumulator at anything, the body runs to the continuation holding all of
    them as they were but the accumulator, which has the zero block and then this point's sum written. The pieces written
    are the witness the run finds. -/
noncomputable def runFirst (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : condFirst i) (hc1 : ¬condLast i)
    (x0 : Vec F S1024x2048 .bf16) (x1 : Vec F S2048x256 .bf16) (x2 : Vec F S1024x256 .f32) (x3 : Vec F S1024x1 .f32) (x4 : Vec F S1x256 .f32) :
    Σ' (L5 : List (View.Piece (Elt F) S1024x256 .f32)), { LS : List (View.Piece (Elt F) S1024x256 .f32) //
      ∀ (xi : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, fun xi E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.R1

end
-- ==== Proof.KI.R1Dat.lean ====
import proofs.«102678_j21827023798522_2_alg».proof.Proof.KI.R1RunFirst

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 at the entry contents `V`: the proof data and the body obligation -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is `V`'s and whose body leaves the block in place. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is `V`'s and whose body leaves the block in place. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is `V`'s and whose body leaves the block in place. -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is `V`'s and whose body leaves the block in place. -/
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The pieces the first-`k` case writes into the accumulator tile it, so they cover it. -/
theorem accCoverFirst (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : condFirst i) (hc1 : ¬condLast i)
    (x0 : Vec F S1024x2048 .bf16) (x1 : Vec F S2048x256 .bf16) (x2 : Vec F S1024x256 .f32) (x3 : Vec F S1024x1 .f32) (x4 : Vec F S1x256 .f32) (y : S1024x256.Idx) :
    ∃ pc ∈ (runFirst c i arg2 harg2 arg3 harg3 arg4 harg4 arg5 harg5 arg6 harg6 arg7 harg7 arg8 harg8 hc0 hc1 x0 x1 x2 x3 x4).2.1, y ∈ pc.1.set :=
  View.cover_of_tiledL (runFirst c i arg2 harg2 arg3 harg3 arg4 harg4 arg5 harg5 arg6 harg6 arg7 harg7 arg8 harg8 hc0 hc1 x0 x1 x2 x3 x4).2.1 S1024x256.size (by sl_kernel_rfl) y

/-- What the first-`k` case leaves in the accumulator: its pieces read back over junk. -/
def accFirst (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : condFirst i) (hc1 : ¬condLast i)
    (x0 : Vec F S1024x2048 .bf16) (x1 : Vec F S2048x256 .bf16) (x2 : Vec F S1024x256 .f32) (x3 : Vec F S1024x1 .f32) (x4 : Vec F S1x256 .f32) : Vec F S1024x256 .f32 :=
  VS.read (Elt F) (VS.writes (Elt F) VS.junk (runFirst c i arg2 harg2 arg3 harg3 arg4 harg4 arg5 harg5 arg6 harg6 arg7 harg7 arg8 harg8 hc0 hc1 x0 x1 x2 x3 x4).2.1)

/-- The pieces the mid-`k` case writes into the accumulator tile it, so they cover it. -/
theorem accCoverMid (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : ¬condLast i)
    (x0 : Vec F S1024x2048 .bf16) (x1 : Vec F S2048x256 .bf16) (x2 : Vec F S1024x256 .f32) (x3 : Vec F S1024x1 .f32) (x4 : Vec F S1x256 .f32) (xs : Vec F S1024x256 .f32) (y : S1024x256.Idx) :
    ∃ pc ∈ (runMid c i arg2 harg2 arg3 harg3 arg4 harg4 arg5 harg5 arg6 harg6 arg7 harg7 arg8 harg8 hc0 hc1 x0 x1 x2 x3 x4 xs).2.1, y ∈ pc.1.set :=
  View.cover_of_tiledL (runMid c i arg2 harg2 arg3 harg3 arg4 harg4 arg5 harg5 arg6 harg6 arg7 harg7 arg8 harg8 hc0 hc1 x0 x1 x2 x3 x4 xs).2.1 S1024x256.size (by sl_kernel_rfl) y

/-- What the mid-`k` case leaves in the accumulator: its pieces read back over junk. -/
def accMid (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : ¬condLast i)
    (x0 : Vec F S1024x2048 .bf16) (x1 : Vec F S2048x256 .bf16) (x2 : Vec F S1024x256 .f32) (x3 : Vec F S1024x1 .f32) (x4 : Vec F S1x256 .f32) (xs : Vec F S1024x256 .f32) : Vec F S1024x256 .f32 :=
  VS.read (Elt F) (VS.writes (Elt F) VS.junk (runMid c i arg2 harg2 arg3 harg3 arg4 harg4 arg5 harg5 arg6 harg6 arg7 harg7 arg8 harg8 hc0 hc1 x0 x1 x2 x3 x4 xs).2.1)

/-- The pieces the last-`k` case writes into the accumulator tile it, so they cover it. -/
theorem accCoverLast (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : condLast i)
    (x0 : Vec F S1024x2048 .bf16) (x1 : Vec F S2048x256 .bf16) (x2 : Vec F S1024x256 .f32) (x3 : Vec F S1024x1 .f32) (x4 : Vec F S1x256 .f32) (xs : Vec F S1024x256 .f32) (y : S1024x256.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S1024x256.size (by sl_kernel_rfl) y

/-- What the last-`k` case leaves in the accumulator: its pieces read back over junk. -/
def accLast (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : condLast i)
    (x0 : Vec F S1024x2048 .bf16) (x1 : Vec F S2048x256 .bf16) (x2 : Vec F S1024x256 .f32) (x3 : Vec F S1024x1 .f32) (x4 : Vec F S1x256 .f32) (xs : Vec F S1024x256 .f32) : Vec F S1024x256 .f32 :=
  VS.read (Elt F) (VS.writes (Elt F) VS.junk (runLast c i arg2 harg2 arg3 harg3 arg4 harg4 arg5 harg5 arg6 harg6 arg7 harg7 arg8 harg8 hc0 hc1 x0 x1 x2 x3 x4 xs).2.1)

/-- The one store of the last-`k` case into the output window tiles its block, so it covers it. -/
theorem outCoverLast (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : condLast i)
    (x0 : Vec F S1024x2048 .bf16) (x1 : Vec F S2048x256 .bf16) (x2 : Vec F S1024x256 .f32) (x3 : Vec F S1024x1 .f32) (x4 : Vec F S1x256 .f32) (xs : Vec F S1024x256 .f32) (y : S1024x256.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S1024x256.size (by sl_kernel_rfl) y

/-- What the last-`k` case leaves in the output window's staging buffer: the epilogue, read back over junk. -/
def outLast (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : condLast i)
    (x0 : Vec F S1024x2048 .bf16) (x1 : Vec F S2048x256 .bf16) (x2 : Vec F S1024x256 .f32) (x3 : Vec F S1024x1 .f32) (x4 : Vec F S1x256 .f32) (xs : Vec F S1024x256 .f32) : Vec F S1024x256 .f32 :=
  VO.read (Elt F) (VO.writes (Elt F) VO.junk (runLast c i arg2 harg2 arg3 harg3 arg4 harg4 arg5 harg5 arg6 harg6 arg7 harg7 arg8 harg8 hc0 hc1 x0 x1 x2 x3 x4 xs).1)

/-! ## The accumulator point by point -/

/-- THE ACCUMULATION. What the accumulator holds after the body at position `n`: the case the closed forms select at `n`,
    run at the point's memrefs and input blocks, over what the point before left (at a first `k` over nothing: the
    accumulator is zeroed there). -/
def accAt (c : Dev nD) : (n : ℕ) → n < cfg1.N → Vec F S1024x256 .f32
  | 0, hn => accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) ((condFirst_iff ⟨0, hn⟩).mpr (Nat.zero_mod _)) (fun h => (fun h => by (try dsimp only at h); omega) ((condLast_iff ⟨0, hn⟩).mp h)) (iblk V c 0 ⟨0, hn⟩) (iblk V c 1 ⟨0, hn⟩) (iblk V c 2 ⟨0, hn⟩) (iblk V c 3 ⟨0, hn⟩) (iblk V c 4 ⟨0, hn⟩)
  | n + 1, hn =>
    if h0 : (n + 1) % 4 = 0 then
      if h1 : (n + 1) % 4 = 3 then
        False.elim (by omega)
      else
        accFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) ((condFirst_iff ⟨n + 1, hn⟩).mpr h0) (fun h => h1 ((condLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩)
    else
      if h1 : (n + 1) % 4 = 3 then
        accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h0 ((condFirst_iff ⟨n + 1, hn⟩).mp h)) ((condLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (accAt c n (Nat.lt_of_succ_lt hn))
      else
        accMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h0 ((condFirst_iff ⟨n + 1, hn⟩).mp h)) (fun h => h1 ((condLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (accAt c n (Nat.lt_of_succ_lt hn))

/-- `accAt` at a first `k`. -/
theorem accAt_first (c : Dev nD) (t : Fin cfg1.N) (h0 : t.val % 4 = 0) (h1 : ¬t.val % 4 = 3) :
    accAt V c t.val t.isLt = accFirst c (grid1.coords t) (ms0 t) (hs0 t) (ms1 t) (hs1 t) (ms2 t) (hs2 t) (ms3 t) (hs3 t) (ms4 t) (hs4 t) (ms5 t) (hs5 t) scM (Memref.isWhole_whole _) ((condFirst_iff t).mpr h0) (fun h => h1 ((condLast_iff t).mp h)) (iblk V c 0 t) (iblk V c 1 t) (iblk V c 2 t) (iblk V c 3 t) (iblk V c 4 t) := by
  obtain ⟨n, hn⟩ := t
  cases n with
  | zero => exact rfl
  | succ n => exact (dif_pos h0).trans ((dif_neg h1).trans rfl)

/-- `accAt` at a middle `k`: over what the point before left. -/
theorem accAt_mid (c : Dev nD) (t : Fin cfg1.N) (h0 : ¬t.val % 4 = 0) (h1 : ¬t.val % 4 = 3) :
    accAt V c t.val t.isLt = accMid c (grid1.coords t) (ms0 t) (hs0 t) (ms1 t) (hs1 t) (ms2 t) (hs2 t) (ms3 t) (hs3 t) (ms4 t) (hs4 t) (ms5 t) (hs5 t) scM (Memref.isWhole_whole _) (fun h => h0 ((condFirst_iff t).mp h)) (fun h => h1 ((condLast_iff t).mp h)) (iblk V c 0 t) (iblk V c 1 t) (iblk V c 2 t) (iblk V c 3 t) (iblk V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `accAt` at a last `k`: over what the point before left. -/
theorem accAt_last (c : Dev nD) (t : Fin cfg1.N) (h0 : ¬t.val % 4 = 0) (h1 : t.val % 4 = 3) :
    accAt V c t.val t.isLt = accLast c (grid1.coords t) (ms0 t) (hs0 t) (ms1 t) (hs1 t) (ms2 t) (hs2 t) (ms3 t) (hs3 t) (ms4 t) (hs4 t) (ms5 t) (hs5 t) scM (Memref.isWhole_whole _) (fun h => h0 ((condFirst_iff t).mp h)) ((condLast_iff t).mpr h1) (iblk V c 0 t) (iblk V c 1 t) (iblk V c 2 t) (iblk V c 3 t) (iblk V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after the body at point `t`: at a last `k` the epilogue over what the
    point before left in the accumulator; elsewhere the window is idle and nothing consults this (a placeholder). -/
def outAt (c : Dev nD) (t : Fin cfg1.N) : Vec F S1024x256 .f32 :=
  if h1 : t.val % 4 = 3 then
    outLast c (grid1.coords t) (ms0 t) (hs0 t) (ms1 t) (hs1 t) (ms2 t) (hs2 t) (ms3 t) (hs3 t) (ms4 t) (hs4 t) (ms5 t) (hs5 t) scM (Memref.isWhole_whole _) (fun h => (fun h => by omega) ((condFirst_iff t).mp h)) ((condLast_iff t).mpr h1) (iblk V c 0 t) (iblk V c 1 t) (iblk V c 2 t) (iblk V c 3 t) (iblk V c 4 t) (accAt V c (t.val - 1) (Nat.lt_of_le_of_lt (Nat.sub_le _ _) t.isLt))
  else VO.read (Elt F) VO.junk

theorem outAt_last (c : Dev nD) (t : Fin cfg1.N) (h0 : ¬t.val % 4 = 0) (h1 : t.val % 4 = 3) :
    outAt V c t = outLast c (grid1.coords t) (ms0 t) (hs0 t) (ms1 t) (hs1 t) (ms2 t) (hs2 t) (ms3 t) (hs3 t) (ms4 t) (hs4 t) (ms5 t) (hs5 t) scM (Memref.isWhole_whole _) (fun h => h0 ((condFirst_iff t).mp h)) ((condLast_iff t).mpr h1) (iblk V c 0 t) (iblk V c 1 t) (iblk V c 2 t) (iblk V c 3 t) (iblk V c 4 t) (accAt V c (t.val - 1) (Nat.lt_of_le_of_lt (Nat.sub_le _ _) t.isLt)) :=
  dif_pos h1

/-! ## The invariant -/

/-- The scoped buffers of the program that are not this call's: carried unopened. -/
abbrev restBut (c : Dev nD) : sProp 𝕄 :=
  Pipeline.scopedRestBut (Ix := Unit) (Name := ℕ) (U := UR sig nD τ) (Lvl := ℕ) (Val := Elt F) spec1 c [cc1_scratch0]

/-- The region invariant before position `n`: before the first point what the launch hands over (the accumulator at
    anything); afterwards the accumulator at what the point before left, the other scoped buffers unopened and the
    generator register at some state. -/
def PhiS (c : Dev nD) : (n : ℕ) → n ≤ cfg1.N → sProp 𝕄
  | 0, _ => Pipeline.ΦA spec1 c
  | n + 1, hn => iprop(iprop(iprop(owns (c : Thread nD τ) scM fullShare (accAt V c n hn)) ∗ restBut c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM fullShare (accAt V c n hn)) ∗ restBut c) ∗ (∃ r, prngReg c r)) := rfl

theorem PhiS_pos (c : Dev nD) (n : ℕ) (h : n ≤ cfg1.N) (hz : n ≠ 0) :
    PhiS V c n h = iprop(iprop(iprop(owns (c : Thread nD τ) scM fullShare (accAt V c (n - 1) (by omega))) ∗ restBut c) ∗ (∃ r, prngReg c r)) := by
  cases n with
  | zero => exact absurd rfl hz
  | succ n => rfl

/-! ## The proof data -/

/-- The proof data of the pipeline on core `c`: the arrays as the region finds them; after the body at point `t` each
    input's buffer at its block and the output's at `outAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t
  Φ t := PhiS V c t.val (Nat.le_of_lt_succ t.isLt)
  q _ := fullShare
  owed _ := 0

/-- The proof data's arrays are the region-entry contents. -/
theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = outAt V c t := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d

theorem live0 : ∀ t : Fin cfg1.N, cfg1.idle 0 (grid1.coords t) = false := fun _ => rfl
theorem live1 : ∀ t : Fin cfg1.N, cfg1.idle 1 (grid1.coords t) = false := fun _ => rfl
theorem live2 : ∀ t : Fin cfg1.N, cfg1.idle 2 (grid1.coords t) = false := fun _ => rfl
theorem live3 : ∀ t : Fin cfg1.N, cfg1.idle 3 (grid1.coords t) = false := fun _ => rfl
theorem live4 : ∀ t : Fin cfg1.N, cfg1.idle 4 (grid1.coords t) = false := fun _ => rfl

end Cert.KernelIdeal.R1

end
-- ==== Proof.KI.R1.lean ====
import proofs.«102678_j21827023798522_2_alg».proof.Proof.KI.R1Dat

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the body obligation at a generic point, and the invariant's ends -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the inputs' memrefs hold their blocks; the closed forms say which case the point is in; the
    invariant hands the body the accumulator at what the point before left (at anything at the first point) and takes it
    back at this point's contents; off the last `k` the output window's buffer is handed back untouched; the other scoped
    buffers, the generator register and what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg1.N = 32 from N_1)
  by_cases h0 : t.val % 4 = 0
  · by_cases h1 : t.val % 4 = 3
    · exfalso; omega
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [Dat.leavesExact_idle (dat V c) 5 t (idle_out t (fun h => h1 ((condLast_iff t).mp h))) (noFlush_out t (fun h => h1 ((condLast_iff t).mp h)))]
      rw [accAt_first V c t h0 h1]
      unfold accFirst; (try dsimp only)
      by_cases hz : t.val = 0
      · rw [PhiS_castSucc V c t, PhiS_zero V c _ _ hz, PhiA_eq]
        iintro ⟨⟨⟨HS, HR⟩, Hg⟩, Ho, ⟨%d0, H0⟩, ⟨%d1, H1⟩, ⟨%d2, H2⟩, ⟨%d3, H3⟩, ⟨%d4, H4⟩, ⟨%d5, H5⟩⟩
        iapply ((runFirst c (grid1.coords t) _ _ _ _ _ _ _ _ _ _ _ _ _ _ ((condFirst_iff t).mpr h0) (fun h => h1 ((condLast_iff t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [HS HR Hg]
        · isplitl [HS HR]
          · isplitl [HS]
            · unfold owns; iexists _; isplitr
              swap; · iexact HS
              ipureintro; exact View.read_writes_of_cover _ _ _ _ _ (accCoverFirst c _ _ _ _ _ _ _ _ _ _ _ _ _ _ _ _ _ _ _ _ _ _ )
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨HS, HR⟩, Hg⟩, Ho, ⟨%d0, H0⟩, ⟨%d1, H1⟩, ⟨%d2, H2⟩, ⟨%d3, H3⟩, ⟨%d4, H4⟩, ⟨%d5, H5⟩⟩
        iapply ((runFirst c (grid1.coords t) _ _ _ _ _ _ _ _ _ _ _ _ _ _ ((condFirst_iff t).mpr h0) (fun h => h1 ((condLast_iff t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, ⟨%es, HS⟩⟩
        isplitl [HS HR Hg]
        · isplitl [HS HR]
          · isplitl [HS]
            · unfold owns; iexists _; isplitr
              swap; · iexact HS
              ipureintro; exact View.read_writes_of_cover _ _ _ _ _ (accCoverFirst c _ _ _ _ _ _ _ _ _ _ _ _ _ _ _ _ _ _ _ _ _ _ )
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [show (dat V c).leavesExact 5 t = owns (c : Thread nD τ) (ms5 t) fullShare ((dat V c).after 5 t) from by
        unfold Dat.leavesExact; rw [live_out t ((condLast_iff t).mpr h1)], after5]
      rw [accAt_last V c t h0 h1, outAt_last V c t h0 h1]
      unfold accLast outLast; (try dsimp only)
      have hz : t.val ≠ 0 := by omega
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((runLast c (grid1.coords t) _ _ _ _ _ _ _ _ _ _ _ _ _ _ (fun h => h0 ((condFirst_iff t).mp h)) ((condLast_iff t).mpr h1) (iblk V c 0 t) (iblk V c 1 t) (iblk V c 2 t) (iblk V c 3 t) (iblk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS HR Hg]
      · isplitl [HS HR]
        · isplitl [HS]
          · unfold owns; iexists _; isplitr
            swap; · iexact HS
            ipureintro; exact View.read_writes_of_cover _ _ _ _ _ (accCoverLast c _ _ _ _ _ _ _ _ _ _ _ _ _ _ _ _ _ _ _ _ _ _ _ )
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (outCoverLast c _ _ _ _ _ _ _ _ _ _ _ _ _ _ _ _ _ _ _ _ _ _ _ )
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [Dat.leavesExact_idle (dat V c) 5 t (idle_out t (fun h => h1 ((condLast_iff t).mp h))) (noFlush_out t (fun h => h1 ((condLast_iff t).mp h)))]
      rw [accAt_mid V c t h0 h1]
      unfold accMid; (try dsimp only)
      have hz : t.val ≠ 0 := by omega
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((runMid c (grid1.coords t) _ _ _ _ _ _ _ _ _ _ _ _ _ _ (fun h => h0 ((condFirst_iff t).mp h)) (fun h => h1 ((condLast_iff t).mp h)) (iblk V c 0 t) (iblk V c 1 t) (iblk V c 2 t) (iblk V c 3 t) (iblk V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (accCoverMid c _ _ _ _ _ _ _ _ _ _ _ _ _ _ _ _ _ _ _ _ _ _ _ )
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives back what the launch handed over: the accumulator's named contents
    are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

/-- The same after the last point. -/
theorem hout (c : Dev nD) : (dat V c).Φ (Fin.last cfg1.N) ⊢ Pipeline.ΦA spec1 c :=
  Phi_out V c _ (by rw [Fin.val_last]; have : cfg1.N = 32 := N_1; omega)

end Cert.KernelIdeal.R1

end
-- ==== Proof.KI.R2Runs.lean ====
import proofs.«102678_j21827023798522_2_alg».proof.Proof.Gen.KernelIdeal.Launch
import proofs.«102678_j21827023798522_2_alg».proof.Proof.Gen.KernelIdeal.Skeleton
import proofs.«102678_j21827023798522_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 2: what the three control cases of the body share

The body has two conditionals on the inner grid coordinate `k`: "first `k`" (the accumulator is zeroed) and
"last `k`" (the epilogue is stored into the output window). -/

/-- The body's first conditional, from the grid coordinates: `k = 0`. -/
abbrev condFirst (i : grid2.Coords) : Prop :=
  (Scalar.cmpi .ne (Scalar.extui (Scalar.cmpi .eq (BitVec.ofNat 32 (i 1).val) 0#32)) 0#32) = 1#1
/-- It holds at the points ≡ 0 (mod 4). -/
theorem condFirst_iff : ∀ t : Fin cfg2.N, condFirst (grid2.coords t) ↔ t.val % 4 = 0 :=
  (by decide +kernel : ∀ t : Fin grid2.N, condFirst (grid2.coords t) ↔ t.val % 4 = 0)

/-- The body's second conditional: `k = 3`, the last. -/
abbrev condLast (i : grid2.Coords) : Prop := k2_cond2 i = 1#1
/-- It holds at the points ≡ 3 (mod 4). -/
theorem condLast_iff : ∀ t : Fin cfg2.N, condLast (grid2.coords t) ↔ t.val % 4 = 3 :=
  (by decide +kernel : ∀ t : Fin grid2.N, condLast (grid2.coords t) ↔ t.val % 4 = 3)

/-! ## Where the windows are idle -/

/-- The input windows are never idle. -/
theorem live_in : ∀ (w : Fin cfg2.W), w.val < 5 → ∀ t : Fin cfg2.N, cfg2.idle w (grid2.coords t) = false := by decide +kernel
/-- Off the last `k` the output window is idle: nothing is stored into it, -/
theorem idle_out : ∀ t : Fin cfg2.N, ¬condLast (grid2.coords t) → cfg2.idle 5 (grid2.coords t) = true := by decide +kernel
/-- and it is not written back there. -/
theorem noFlush_out : ∀ t : Fin cfg2.N, ¬condLast (grid2.coords t) → (cfg2.win 5).flush t = false := by decide +kernel
/-- At the last `k` the output window is live. -/
theorem live_out : ∀ t : Fin cfg2.N, condLast (grid2.coords t) → cfg2.idle 5 (grid2.coords t) = false := by decide +kernel

/-! ## The staging memrefs the body is called with -/

abbrev ms0 (t : Fin cfg2.N) : Memref sig .tc .vmem S1024x2048 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S2048x256 .bf16 := win2_1.stage (cfg2.slots t 1)
abbrev hs1 (t : Fin cfg2.N) : (ms1 t).IsWhole := hstage2_1 ((cfg2.slots t 1).cast nbuf2_1)
abbrev ms2 (t : Fin cfg2.N) : Memref sig .tc .vmem S1024x256 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1024x1 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1x256 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S1024x256 .f32 := win2_5.stage (cfg2.slots t 5)
abbrev hs5 (t : Fin cfg2.N) : (ms5 t).IsWhole := hstage2_5 ((cfg2.slots t 5).cast nbuf2_5)

/-- The accumulator: a whole scoped buffer of the kernel's own, passed beside the windows. -/
abbrev scM : Memref sig .tc .vmem S1024x256 .f32 := Memref.whole cc2_scratch0
/-- The accumulator as a view, and one staging buffer of the output window as a view: contents are stated through them. -/
abbrev VS : View sig .tc .vmem S1024x256 .f32 := scM.view
abbrev VO : View sig .tc .vmem S1024x256 .f32 := (Memref.whole cc2_stg5_0 : Memref sig .tc .vmem S1024x256 .f32).view

/-- What the launch hands the region, with the accumulator as a memref owned at some contents and the other scoped
    buffers unopened. -/
theorem PhiA_eq (c : Dev nD) :
    (Pipeline.ΦA spec2 c : sProp 𝕄)
      = iprop(iprop(iprop((∃ d, owns (c : Thread nD τ) scM fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM, owns_whole]; try rfl

end Cert.KernelIdeal.R2

end
-- ==== Proof.KI.R2RunLast.lean ====
import proofs.«102678_j21827023798522_2_alg».proof.Proof.KI.R2Runs

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at the last `k`: on whole staging memrefs, the inputs' at their contents, the output window's at anything and the
    accumulator at what the point before left, the body runs to the continuation holding the inputs' as they were, the
    output's buffer with the epilogue written and the accumulator with this point's sum written. The pieces written are the
    witness the run finds. -/
noncomputable def runLast (c : Dev nD) (i : grid2.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : condLast i)
    (x0 : Vec F S1024x2048 .bf16) (x1 : Vec F S2048x256 .bf16) (x2 : Vec F S1024x256 .f32) (x3 : Vec F S1024x1 .f32) (x4 : Vec F S1x256 .f32) (xs : Vec F S1024x256 .f32) :
    Σ' (L5 : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc2_kernel i arg2 harg2 arg3 harg3 arg4 harg4 arg5 harg5 arg6 harg6 arg7 harg7 arg8 harg8) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.R2

end
-- ==== Proof.KI.R2RunMid.lean ====
import proofs.«102678_j21827023798522_2_alg».proof.Proof.KI.R2RunLast

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a middle `k`: on whole staging memrefs, the inputs' at their contents, the output window's (idle here) at
    contents `xi` handed back untouched and the accumulator at what the point before left, the body runs to the
    continuation holding all of them as they were but the accumulator, which has this point's sum written. The pieces
    written are the witness the run finds. -/
noncomputable def runMid (c : Dev nD) (i : grid2.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : ¬condLast i)
    (x0 : Vec F S1024x2048 .bf16) (x1 : Vec F S2048x256 .bf16) (x2 : Vec F S1024x256 .f32) (x3 : Vec F S1024x1 .f32) (x4 : Vec F S1x256 .f32) (xs : Vec F S1024x256 .f32) :
    Σ' (L5 : List (View.Piece (Elt F) S1024x256 .f32)), { LS : List (View.Piece (Elt F) S1024x256 .f32) //
      ∀ (xi : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc2_kernel i arg2 harg2 arg3 harg3 arg4 harg4 arg5 harg5 arg6 harg6 arg7 harg7 arg8 harg8) K } := by
  refine ⟨[], ?_, fun xi E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.R2

end
-- ==== Proof.KI.R2RunFirst.lean ====
import proofs.«102678_j21827023798522_2_alg».proof.Proof.KI.R2RunMid

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at the first `k`: on whole staging memrefs, the inputs' at their contents, the output window's (idle here) at
    contents `xi` handed back untouched and the accumulator at anything, the body runs to the continuation holding all of
    them as they were but the accumulator, which has the zero block and then this point's sum written. The pieces written
    are the witness the run finds. -/
noncomputable def runFirst (c : Dev nD) (i : grid2.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : condFirst i) (hc1 : ¬condLast i)
    (x0 : Vec F S1024x2048 .bf16) (x1 : Vec F S2048x256 .bf16) (x2 : Vec F S1024x256 .f32) (x3 : Vec F S1024x1 .f32) (x4 : Vec F S1x256 .f32) :
    Σ' (L5 : List (View.Piece (Elt F) S1024x256 .f32)), { LS : List (View.Piece (Elt F) S1024x256 .f32) //
      ∀ (xi : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc2_kernel i arg2 harg2 arg3 harg3 arg4 harg4 arg5 harg5 arg6 harg6 arg7 harg7 arg8 harg8) K } := by
  refine ⟨[], ?_, fun xi E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.R2

end
-- ==== Proof.KI.R2Dat.lean ====
import proofs.«102678_j21827023798522_2_alg».proof.Proof.KI.R2RunFirst

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2 at the entry contents `V`: the proof data and the body obligation -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place. -/
theorem before0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is `V`'s and whose body leaves the block in place. -/
theorem before1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is `V`'s and whose body leaves the block in place. -/
theorem before2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is `V`'s and whose body leaves the block in place. -/
theorem before3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is `V`'s and whose body leaves the block in place. -/
theorem before4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The pieces the first-`k` case writes into the accumulator tile it, so they cover it. -/
theorem accCoverFirst (c : Dev nD) (i : grid2.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : condFirst i) (hc1 : ¬condLast i)
    (x0 : Vec F S1024x2048 .bf16) (x1 : Vec F S2048x256 .bf16) (x2 : Vec F S1024x256 .f32) (x3 : Vec F S1024x1 .f32) (x4 : Vec F S1x256 .f32) (y : S1024x256.Idx) :
    ∃ pc ∈ (runFirst c i arg2 harg2 arg3 harg3 arg4 harg4 arg5 harg5 arg6 harg6 arg7 harg7 arg8 harg8 hc0 hc1 x0 x1 x2 x3 x4).2.1, y ∈ pc.1.set :=
  View.cover_of_tiledL (runFirst c i arg2 harg2 arg3 harg3 arg4 harg4 arg5 harg5 arg6 harg6 arg7 harg7 arg8 harg8 hc0 hc1 x0 x1 x2 x3 x4).2.1 S1024x256.size (by sl_kernel_rfl) y

/-- What the first-`k` case leaves in the accumulator: its pieces read back over junk. -/
def accFirst (c : Dev nD) (i : grid2.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : condFirst i) (hc1 : ¬condLast i)
    (x0 : Vec F S1024x2048 .bf16) (x1 : Vec F S2048x256 .bf16) (x2 : Vec F S1024x256 .f32) (x3 : Vec F S1024x1 .f32) (x4 : Vec F S1x256 .f32) : Vec F S1024x256 .f32 :=
  VS.read (Elt F) (VS.writes (Elt F) VS.junk (runFirst c i arg2 harg2 arg3 harg3 arg4 harg4 arg5 harg5 arg6 harg6 arg7 harg7 arg8 harg8 hc0 hc1 x0 x1 x2 x3 x4).2.1)

/-- The pieces the mid-`k` case writes into the accumulator tile it, so they cover it. -/
theorem accCoverMid (c : Dev nD) (i : grid2.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : ¬condLast i)
    (x0 : Vec F S1024x2048 .bf16) (x1 : Vec F S2048x256 .bf16) (x2 : Vec F S1024x256 .f32) (x3 : Vec F S1024x1 .f32) (x4 : Vec F S1x256 .f32) (xs : Vec F S1024x256 .f32) (y : S1024x256.Idx) :
    ∃ pc ∈ (runMid c i arg2 harg2 arg3 harg3 arg4 harg4 arg5 harg5 arg6 harg6 arg7 harg7 arg8 harg8 hc0 hc1 x0 x1 x2 x3 x4 xs).2.1, y ∈ pc.1.set :=
  View.cover_of_tiledL (runMid c i arg2 harg2 arg3 harg3 arg4 harg4 arg5 harg5 arg6 harg6 arg7 harg7 arg8 harg8 hc0 hc1 x0 x1 x2 x3 x4 xs).2.1 S1024x256.size (by sl_kernel_rfl) y

/-- What the mid-`k` case leaves in the accumulator: its pieces read back over junk. -/
def accMid (c : Dev nD) (i : grid2.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : ¬condLast i)
    (x0 : Vec F S1024x2048 .bf16) (x1 : Vec F S2048x256 .bf16) (x2 : Vec F S1024x256 .f32) (x3 : Vec F S1024x1 .f32) (x4 : Vec F S1x256 .f32) (xs : Vec F S1024x256 .f32) : Vec F S1024x256 .f32 :=
  VS.read (Elt F) (VS.writes (Elt F) VS.junk (runMid c i arg2 harg2 arg3 harg3 arg4 harg4 arg5 harg5 arg6 harg6 arg7 harg7 arg8 harg8 hc0 hc1 x0 x1 x2 x3 x4 xs).2.1)

/-- The pieces the last-`k` case writes into the accumulator tile it, so they cover it. -/
theorem accCoverLast (c : Dev nD) (i : grid2.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : condLast i)
    (x0 : Vec F S1024x2048 .bf16) (x1 : Vec F S2048x256 .bf16) (x2 : Vec F S1024x256 .f32) (x3 : Vec F S1024x1 .f32) (x4 : Vec F S1x256 .f32) (xs : Vec F S1024x256 .f32) (y : S1024x256.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S1024x256.size (by sl_kernel_rfl) y

/-- What the last-`k` case leaves in the accumulator: its pieces read back over junk. -/
def accLast (c : Dev nD) (i : grid2.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : condLast i)
    (x0 : Vec F S1024x2048 .bf16) (x1 : Vec F S2048x256 .bf16) (x2 : Vec F S1024x256 .f32) (x3 : Vec F S1024x1 .f32) (x4 : Vec F S1x256 .f32) (xs : Vec F S1024x256 .f32) : Vec F S1024x256 .f32 :=
  VS.read (Elt F) (VS.writes (Elt F) VS.junk (runLast c i arg2 harg2 arg3 harg3 arg4 harg4 arg5 harg5 arg6 harg6 arg7 harg7 arg8 harg8 hc0 hc1 x0 x1 x2 x3 x4 xs).2.1)

/-- The one store of the last-`k` case into the output window tiles its block, so it covers it. -/
theorem outCoverLast (c : Dev nD) (i : grid2.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : condLast i)
    (x0 : Vec F S1024x2048 .bf16) (x1 : Vec F S2048x256 .bf16) (x2 : Vec F S1024x256 .f32) (x3 : Vec F S1024x1 .f32) (x4 : Vec F S1x256 .f32) (xs : Vec F S1024x256 .f32) (y : S1024x256.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S1024x256.size (by sl_kernel_rfl) y

/-- What the last-`k` case leaves in the output window's staging buffer: the epilogue, read back over junk. -/
def outLast (c : Dev nD) (i : grid2.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : condLast i)
    (x0 : Vec F S1024x2048 .bf16) (x1 : Vec F S2048x256 .bf16) (x2 : Vec F S1024x256 .f32) (x3 : Vec F S1024x1 .f32) (x4 : Vec F S1x256 .f32) (xs : Vec F S1024x256 .f32) : Vec F S1024x256 .f32 :=
  VO.read (Elt F) (VO.writes (Elt F) VO.junk (runLast c i arg2 harg2 arg3 harg3 arg4 harg4 arg5 harg5 arg6 harg6 arg7 harg7 arg8 harg8 hc0 hc1 x0 x1 x2 x3 x4 xs).1)

/-! ## The accumulator point by point -/

/-- THE ACCUMULATION. What the accumulator holds after the body at position `n`: the case the closed forms select at `n`,
    run at the point's memrefs and input blocks, over what the point before left (at a first `k` over nothing: the
    accumulator is zeroed there). -/
def accAt (c : Dev nD) : (n : ℕ) → n < cfg2.N → Vec F S1024x256 .f32
  | 0, hn => accFirst c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) ((condFirst_iff ⟨0, hn⟩).mpr (Nat.zero_mod _)) (fun h => (fun h => by (try dsimp only at h); omega) ((condLast_iff ⟨0, hn⟩).mp h)) (iblk V c 0 ⟨0, hn⟩) (iblk V c 1 ⟨0, hn⟩) (iblk V c 2 ⟨0, hn⟩) (iblk V c 3 ⟨0, hn⟩) (iblk V c 4 ⟨0, hn⟩)
  | n + 1, hn =>
    if h0 : (n + 1) % 4 = 0 then
      if h1 : (n + 1) % 4 = 3 then
        False.elim (by omega)
      else
        accFirst c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) ((condFirst_iff ⟨n + 1, hn⟩).mpr h0) (fun h => h1 ((condLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩)
    else
      if h1 : (n + 1) % 4 = 3 then
        accLast c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h0 ((condFirst_iff ⟨n + 1, hn⟩).mp h)) ((condLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (accAt c n (Nat.lt_of_succ_lt hn))
      else
        accMid c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h0 ((condFirst_iff ⟨n + 1, hn⟩).mp h)) (fun h => h1 ((condLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (accAt c n (Nat.lt_of_succ_lt hn))

/-- `accAt` at a first `k`. -/
theorem accAt_first (c : Dev nD) (t : Fin cfg2.N) (h0 : t.val % 4 = 0) (h1 : ¬t.val % 4 = 3) :
    accAt V c t.val t.isLt = accFirst c (grid2.coords t) (ms0 t) (hs0 t) (ms1 t) (hs1 t) (ms2 t) (hs2 t) (ms3 t) (hs3 t) (ms4 t) (hs4 t) (ms5 t) (hs5 t) scM (Memref.isWhole_whole _) ((condFirst_iff t).mpr h0) (fun h => h1 ((condLast_iff t).mp h)) (iblk V c 0 t) (iblk V c 1 t) (iblk V c 2 t) (iblk V c 3 t) (iblk V c 4 t) := by
  obtain ⟨n, hn⟩ := t
  cases n with
  | zero => exact rfl
  | succ n => exact (dif_pos h0).trans ((dif_neg h1).trans rfl)

/-- `accAt` at a middle `k`: over what the point before left. -/
theorem accAt_mid (c : Dev nD) (t : Fin cfg2.N) (h0 : ¬t.val % 4 = 0) (h1 : ¬t.val % 4 = 3) :
    accAt V c t.val t.isLt = accMid c (grid2.coords t) (ms0 t) (hs0 t) (ms1 t) (hs1 t) (ms2 t) (hs2 t) (ms3 t) (hs3 t) (ms4 t) (hs4 t) (ms5 t) (hs5 t) scM (Memref.isWhole_whole _) (fun h => h0 ((condFirst_iff t).mp h)) (fun h => h1 ((condLast_iff t).mp h)) (iblk V c 0 t) (iblk V c 1 t) (iblk V c 2 t) (iblk V c 3 t) (iblk V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `accAt` at a last `k`: over what the point before left. -/
theorem accAt_last (c : Dev nD) (t : Fin cfg2.N) (h0 : ¬t.val % 4 = 0) (h1 : t.val % 4 = 3) :
    accAt V c t.val t.isLt = accLast c (grid2.coords t) (ms0 t) (hs0 t) (ms1 t) (hs1 t) (ms2 t) (hs2 t) (ms3 t) (hs3 t) (ms4 t) (hs4 t) (ms5 t) (hs5 t) scM (Memref.isWhole_whole _) (fun h => h0 ((condFirst_iff t).mp h)) ((condLast_iff t).mpr h1) (iblk V c 0 t) (iblk V c 1 t) (iblk V c 2 t) (iblk V c 3 t) (iblk V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after the body at point `t`: at a last `k` the epilogue over what the
    point before left in the accumulator; elsewhere the window is idle and nothing consults this (a placeholder). -/
def outAt (c : Dev nD) (t : Fin cfg2.N) : Vec F S1024x256 .f32 :=
  if h1 : t.val % 4 = 3 then
    outLast c (grid2.coords t) (ms0 t) (hs0 t) (ms1 t) (hs1 t) (ms2 t) (hs2 t) (ms3 t) (hs3 t) (ms4 t) (hs4 t) (ms5 t) (hs5 t) scM (Memref.isWhole_whole _) (fun h => (fun h => by omega) ((condFirst_iff t).mp h)) ((condLast_iff t).mpr h1) (iblk V c 0 t) (iblk V c 1 t) (iblk V c 2 t) (iblk V c 3 t) (iblk V c 4 t) (accAt V c (t.val - 1) (Nat.lt_of_le_of_lt (Nat.sub_le _ _) t.isLt))
  else VO.read (Elt F) VO.junk

theorem outAt_last (c : Dev nD) (t : Fin cfg2.N) (h0 : ¬t.val % 4 = 0) (h1 : t.val % 4 = 3) :
    outAt V c t = outLast c (grid2.coords t) (ms0 t) (hs0 t) (ms1 t) (hs1 t) (ms2 t) (hs2 t) (ms3 t) (hs3 t) (ms4 t) (hs4 t) (ms5 t) (hs5 t) scM (Memref.isWhole_whole _) (fun h => h0 ((condFirst_iff t).mp h)) ((condLast_iff t).mpr h1) (iblk V c 0 t) (iblk V c 1 t) (iblk V c 2 t) (iblk V c 3 t) (iblk V c 4 t) (accAt V c (t.val - 1) (Nat.lt_of_le_of_lt (Nat.sub_le _ _) t.isLt)) :=
  dif_pos h1

/-! ## The invariant -/

/-- The scoped buffers of the program that are not this call's: carried unopened. -/
abbrev restBut (c : Dev nD) : sProp 𝕄 :=
  Pipeline.scopedRestBut (Ix := Unit) (Name := ℕ) (U := UR sig nD τ) (Lvl := ℕ) (Val := Elt F) spec2 c [cc2_scratch0]

/-- The region invariant before position `n`: before the first point what the launch hands over (the accumulator at
    anything); afterwards the accumulator at what the point before left, the other scoped buffers unopened and the
    generator register at some state. -/
def PhiS (c : Dev nD) : (n : ℕ) → n ≤ cfg2.N → sProp 𝕄
  | 0, _ => Pipeline.ΦA spec2 c
  | n + 1, hn => iprop(iprop(iprop(owns (c : Thread nD τ) scM fullShare (accAt V c n hn)) ∗ restBut c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(iprop(owns (c : Thread nD τ) scM fullShare (accAt V c n hn)) ∗ restBut c) ∗ (∃ r, prngReg c r)) := rfl

theorem PhiS_pos (c : Dev nD) (n : ℕ) (h : n ≤ cfg2.N) (hz : n ≠ 0) :
    PhiS V c n h = iprop(iprop(iprop(owns (c : Thread nD τ) scM fullShare (accAt V c (n - 1) (by omega))) ∗ restBut c) ∗ (∃ r, prngReg c r)) := by
  cases n with
  | zero => exact absurd rfl hz
  | succ n => rfl

/-! ## The proof data -/

/-- The proof data of the pipeline on core `c`: the arrays as the region finds them; after the body at point `t` each
    input's buffer at its block and the output's at `outAt`; the invariant `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t
  Φ t := PhiS V c t.val (Nat.le_of_lt_succ t.isLt)
  q _ := fullShare
  owed _ := 0

/-- The proof data's arrays are the region-entry contents. -/
theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = iblk V c 4 t := by dsimp only [dat]
theorem after5 (c : Dev nD) (t : Fin cfg2.N) : (dat V c).after 5 t = outAt V c t := by dsimp only [dat]

theorem before0 (c : Dev nD) (t : Fin cfg2.N) (d) : (dat V c).before 0 t d = iblk V c 0 t :=
  before0_of V (dat V c) (A_eq V c 0) (after0 V c) t d
theorem before1 (c : Dev nD) (t : Fin cfg2.N) (d) : (dat V c).before 1 t d = iblk V c 1 t :=
  before1_of V (dat V c) (A_eq V c 1) (after1 V c) t d
theorem before2 (c : Dev nD) (t : Fin cfg2.N) (d) : (dat V c).before 2 t d = iblk V c 2 t :=
  before2_of V (dat V c) (A_eq V c 2) (after2 V c) t d
theorem before3 (c : Dev nD) (t : Fin cfg2.N) (d) : (dat V c).before 3 t d = iblk V c 3 t :=
  before3_of V (dat V c) (A_eq V c 3) (after3 V c) t d
theorem before4 (c : Dev nD) (t : Fin cfg2.N) (d) : (dat V c).before 4 t d = iblk V c 4 t :=
  before4_of V (dat V c) (A_eq V c 4) (after4 V c) t d

theorem live0 : ∀ t : Fin cfg2.N, cfg2.idle 0 (grid2.coords t) = false := fun _ => rfl
theorem live1 : ∀ t : Fin cfg2.N, cfg2.idle 1 (grid2.coords t) = false := fun _ => rfl
theorem live2 : ∀ t : Fin cfg2.N, cfg2.idle 2 (grid2.coords t) = false := fun _ => rfl
theorem live3 : ∀ t : Fin cfg2.N, cfg2.idle 3 (grid2.coords t) = false := fun _ => rfl
theorem live4 : ∀ t : Fin cfg2.N, cfg2.idle 4 (grid2.coords t) = false := fun _ => rfl

end Cert.KernelIdeal.R2

end
-- ==== Proof.KI.R2.lean ====
import proofs.«102678_j21827023798522_2_alg».proof.Proof.KI.R2Dat

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the body obligation at a generic point, and the invariant's ends -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the inputs' memrefs hold their blocks; the closed forms say which case the point is in; the
    invariant hands the body the accumulator at what the point before left (at anything at the first point) and takes it
    back at this point's contents; off the last `k` the output window's buffer is handed back untouched; the other scoped
    buffers, the generator register and what the core owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3, before4]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg2.N = 32 from N_2)
  by_cases h0 : t.val % 4 = 0
  · by_cases h1 : t.val % 4 = 3
    · exfalso; omega
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [Dat.leavesExact_idle (dat V c) 5 t (idle_out t (fun h => h1 ((condLast_iff t).mp h))) (noFlush_out t (fun h => h1 ((condLast_iff t).mp h)))]
      rw [accAt_first V c t h0 h1]
      unfold accFirst; (try dsimp only)
      by_cases hz : t.val = 0
      · rw [PhiS_castSucc V c t, PhiS_zero V c _ _ hz, PhiA_eq]
        iintro ⟨⟨⟨HS, HR⟩, Hg⟩, Ho, ⟨%d0, H0⟩, ⟨%d1, H1⟩, ⟨%d2, H2⟩, ⟨%d3, H3⟩, ⟨%d4, H4⟩, ⟨%d5, H5⟩⟩
        iapply ((runFirst c (grid2.coords t) _ _ _ _ _ _ _ _ _ _ _ _ _ _ ((condFirst_iff t).mpr h0) (fun h => h1 ((condLast_iff t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [HS HR Hg]
        · isplitl [HS HR]
          · isplitl [HS]
            · unfold owns; iexists _; isplitr
              swap; · iexact HS
              ipureintro; exact View.read_writes_of_cover _ _ _ _ _ (accCoverFirst c _ _ _ _ _ _ _ _ _ _ _ _ _ _ _ _ _ _ _ _ _ _ )
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨HS, HR⟩, Hg⟩, Ho, ⟨%d0, H0⟩, ⟨%d1, H1⟩, ⟨%d2, H2⟩, ⟨%d3, H3⟩, ⟨%d4, H4⟩, ⟨%d5, H5⟩⟩
        iapply ((runFirst c (grid2.coords t) _ _ _ _ _ _ _ _ _ _ _ _ _ _ ((condFirst_iff t).mpr h0) (fun h => h1 ((condLast_iff t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, ⟨%es, HS⟩⟩
        isplitl [HS HR Hg]
        · isplitl [HS HR]
          · isplitl [HS]
            · unfold owns; iexists _; isplitr
              swap; · iexact HS
              ipureintro; exact View.read_writes_of_cover _ _ _ _ _ (accCoverFirst c _ _ _ _ _ _ _ _ _ _ _ _ _ _ _ _ _ _ _ _ _ _ )
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [show (dat V c).leavesExact 5 t = owns (c : Thread nD τ) (ms5 t) fullShare ((dat V c).after 5 t) from by
        unfold Dat.leavesExact; rw [live_out t ((condLast_iff t).mpr h1)], after5]
      rw [accAt_last V c t h0 h1, outAt_last V c t h0 h1]
      unfold accLast outLast; (try dsimp only)
      have hz : t.val ≠ 0 := by omega
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((runLast c (grid2.coords t) _ _ _ _ _ _ _ _ _ _ _ _ _ _ (fun h => h0 ((condFirst_iff t).mp h)) ((condLast_iff t).mpr h1) (iblk V c 0 t) (iblk V c 1 t) (iblk V c 2 t) (iblk V c 3 t) (iblk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS HR Hg]
      · isplitl [HS HR]
        · isplitl [HS]
          · unfold owns; iexists _; isplitr
            swap; · iexact HS
            ipureintro; exact View.read_writes_of_cover _ _ _ _ _ (accCoverLast c _ _ _ _ _ _ _ _ _ _ _ _ _ _ _ _ _ _ _ _ _ _ _ )
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (outCoverLast c _ _ _ _ _ _ _ _ _ _ _ _ _ _ _ _ _ _ _ _ _ _ _ )
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [Dat.leavesExact_idle (dat V c) 5 t (idle_out t (fun h => h1 ((condLast_iff t).mp h))) (noFlush_out t (fun h => h1 ((condLast_iff t).mp h)))]
      rw [accAt_mid V c t h0 h1]
      unfold accMid; (try dsimp only)
      have hz : t.val ≠ 0 := by omega
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((runMid c (grid2.coords t) _ _ _ _ _ _ _ _ _ _ _ _ _ _ (fun h => h0 ((condFirst_iff t).mp h)) (fun h => h1 ((condLast_iff t).mp h)) (iblk V c 0 t) (iblk V c 1 t) (iblk V c 2 t) (iblk V c 3 t) (iblk V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (accCoverMid c _ _ _ _ _ _ _ _ _ _ _ _ _ _ _ _ _ _ _ _ _ _ _ )
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives back what the launch handed over: the accumulator's named contents
    are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

/-- The same after the last point. -/
theorem hout (c : Dev nD) : (dat V c).Φ (Fin.last cfg2.N) ⊢ Pipeline.ΦA spec2 c :=
  Phi_out V c _ (by rw [Fin.val_last]; have : cfg2.N = 32 := N_2; omega)

end Cert.KernelIdeal.R2

end
-- ==== Proof.KI.R3Runs.lean ====
import proofs.«102678_j21827023798522_2_alg».proof.Proof.Gen.KernelIdeal.Launch
import proofs.«102678_j21827023798522_2_alg».proof.Proof.Gen.KernelIdeal.Skeleton
import proofs.«102678_j21827023798522_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 3: what the three control cases of the body share

The body has two conditionals on the inner grid coordinate `k`: "first `k`" (the accumulator is zeroed) and
"last `k`" (the epilogue is stored into the output window). -/

/-- The body's first conditional, from the grid coordinates: `k = 0`. -/
abbrev condFirst (i : grid3.Coords) : Prop :=
  (Scalar.cmpi .ne (Scalar.extui (Scalar.cmpi .eq (BitVec.ofNat 32 (i 1).val) 0#32)) 0#32) = 1#1
/-- It holds at the points ≡ 0 (mod 4). -/
theorem condFirst_iff : ∀ t : Fin cfg3.N, condFirst (grid3.coords t) ↔ t.val % 4 = 0 :=
  (by decide +kernel : ∀ t : Fin grid3.N, condFirst (grid3.coords t) ↔ t.val % 4 = 0)

/-- The body's second conditional: `k = 3`, the last. -/
abbrev condLast (i : grid3.Coords) : Prop := k3_cond2 i = 1#1
/-- It holds at the points ≡ 3 (mod 4). -/
theorem condLast_iff : ∀ t : Fin cfg3.N, condLast (grid3.coords t) ↔ t.val % 4 = 3 :=
  (by decide +kernel : ∀ t : Fin grid3.N, condLast (grid3.coords t) ↔ t.val % 4 = 3)

/-! ## Where the windows are idle -/

/-- The input windows are never idle. -/
theorem live_in : ∀ (w : Fin cfg3.W), w.val < 5 → ∀ t : Fin cfg3.N, cfg3.idle w (grid3.coords t) = false := by decide +kernel
/-- Off the last `k` the output window is idle: nothing is stored into it, -/
theorem idle_out : ∀ t : Fin cfg3.N, ¬condLast (grid3.coords t) → cfg3.idle 5 (grid3.coords t) = true := by decide +kernel
/-- and it is not written back there. -/
theorem noFlush_out : ∀ t : Fin cfg3.N, ¬condLast (grid3.coords t) → (cfg3.win 5).flush t = false := by decide +kernel
/-- At the last `k` the output window is live. -/
theorem live_out : ∀ t : Fin cfg3.N, condLast (grid3.coords t) → cfg3.idle 5 (grid3.coords t) = false := by decide +kernel

/-! ## The staging memrefs the body is called with -/

abbrev ms0 (t : Fin cfg3.N) : Memref sig .tc .vmem S1024x2048 .bf16 := win3_0.stage (cfg3.slots t 0)
abbrev hs0 (t : Fin cfg3.N) : (ms0 t).IsWhole := hstage3_0 ((cfg3.slots t 0).cast nbuf3_0)
abbrev ms1 (t : Fin cfg3.N) : Memref sig .tc .vmem S2048x128 .bf16 := win3_1.stage (cfg3.slots t 1)
abbrev hs1 (t : Fin cfg3.N) : (ms1 t).IsWhole := hstage3_1 ((cfg3.slots t 1).cast nbuf3_1)
abbrev ms2 (t : Fin cfg3.N) : Memref sig .tc .vmem S1024x128 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S1024x1 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S1x128 .f32 := win3_4.stage (cfg3.slots t 4)
abbrev hs4 (t : Fin cfg3.N) : (ms4 t).IsWhole := hstage3_4 ((cfg3.slots t 4).cast nbuf3_4)
abbrev ms5 (t : Fin cfg3.N) : Memref sig .tc .vmem S1024x128 .f32 := win3_5.stage (cfg3.slots t 5)
abbrev hs5 (t : Fin cfg3.N) : (ms5 t).IsWhole := hstage3_5 ((cfg3.slots t 5).cast nbuf3_5)

/-- The accumulator: a whole scoped buffer of the kernel's own, passed beside the windows. -/
abbrev scM : Memref sig .tc .vmem S1024x128 .f32 := Memref.whole cc3_scratch0
/-- The accumulator as a view, and one staging buffer of the output window as a view: contents are stated through them. -/
abbrev VS : View sig .tc .vmem S1024x128 .f32 := scM.view
abbrev VO : View sig .tc .vmem S1024x128 .f32 := (Memref.whole cc3_stg5_0 : Memref sig .tc .vmem S1024x128 .f32).view

/-- What the launch hands the region, with the accumulator as a memref owned at some contents and the other scoped
    buffers unopened. -/
theorem PhiA_eq (c : Dev nD) :
    (Pipeline.ΦA spec3 c : sProp 𝕄)
      = iprop(iprop(iprop((∃ d, owns (c : Thread nD τ) scM fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM, owns_whole]; try rfl

end Cert.KernelIdeal.R3

end
-- ==== Proof.KI.R3RunLast.lean ====
import proofs.«102678_j21827023798522_2_alg».proof.Proof.KI.R3Runs

set_option maxRecDepth 16384

noncomputable section

namespace Cert.KernelIdeal.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at the last `k`: on whole staging memrefs, the inputs' at their contents, the output window's at anything and the
    accumulator at what the point before left, the body runs to the continuation holding the inputs' as they were, the
    output's buffer with the epilogue written and the accumulator with this point's sum written. The pieces written are the
    witness the run finds. -/
noncomputable def runLast (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬condFirst i) (hc1 : condLast i)
    (x0 : Vec F S1024x2048 .bf16) (x1 : Vec F S2048x128 .bf16) (x2 : Vec F S1024x128 .f32) (x3 : Vec F S1024x1 .f32) (x4 : Vec F S1x128 .f32) (xs : Vec F S1024x128 .f32) :
    Σ' (L5 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc3_kernel i arg2 harg2 arg3 harg3 arg4 harg4 arg5 harg5 arg6 harg6 arg7 harg7 arg8 harg8) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.R3

end
-- ==== Proof.KI.R3RunMid.lean ====
import proofs.«102678_j21827023798522_2_alg».proof.Proof.KI.R3RunLast

set_option maxRecDepth 16384

noncomputable section

namespace Cert.KernelIdeal.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a middle `k`: on whole staging memrefs, the inputs' at their contents, the output window's (idle here) at
    contents `xi` handed back untouched and the accumulator at what the point before left, the body runs to the
    continuation holding all of them as they were but the accumulator, which has this point's sum written. The pieces
    written are the witness the run finds. -/
noncomputable def runMid (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬condFirst i) (hc1 : ¬condLast i)
    (x0 : Vec F S1024x2048 .bf16) (x1 : Vec F S2048x128 .bf16) (x2 : Vec F S1024x128 .f32) (x3 : Vec F S1024x1 .f32) (x4 : Vec F S1x128 .f32) (xs : Vec F S1024x128 .f32) :
    Σ' (L5 : List (View.Piece (Elt F) S1024x128 .f32)), { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc3_kernel i arg2 harg2 arg3 harg3 arg4 harg4 arg5 harg5 arg6 harg6 arg7 harg7 arg8 harg8) K } := by
  refine ⟨[], ?_, fun xi E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.R3

end
-- ==== Proof.KI.R3RunFirst.lean ====
import proofs.«102678_j21827023798522_2_alg».proof.Proof.KI.R3RunMid

set_option maxRecDepth 16384

noncomputable section

namespace Cert.KernelIdeal.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at the first `k`: on whole staging memrefs, the inputs' at their contents, the output window's (idle here) at
    contents `xi` handed back untouched and the accumulator at anything, the body runs to the continuation holding all of
    them as they were but the accumulator, which has the zero block and then this point's sum written. The pieces written
    are the witness the run finds. -/
noncomputable def runFirst (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : condFirst i) (hc1 : ¬condLast i)
    (x0 : Vec F S1024x2048 .bf16) (x1 : Vec F S2048x128 .bf16) (x2 : Vec F S1024x128 .f32) (x3 : Vec F S1024x1 .f32) (x4 : Vec F S1x128 .f32) :
    Σ' (L5 : List (View.Piece (Elt F) S1024x128 .f32)), { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc3_kernel i arg2 harg2 arg3 harg3 arg4 harg4 arg5 harg5 arg6 harg6 arg7 harg7 arg8 harg8) K } := by
  refine ⟨[], ?_, fun xi E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.R3

end
-- ==== Proof.KI.R3Dat.lean ====
import proofs.«102678_j21827023798522_2_alg».proof.Proof.KI.R3RunFirst

set_option maxRecDepth 16384

noncomputable section

namespace Cert.KernelIdeal.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3 at the entry contents `V`: the proof data and the body obligation -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is `V`'s and whose body leaves the block in place. -/
theorem before0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is `V`'s and whose body leaves the block in place. -/
theorem before1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is `V`'s and whose body leaves the block in place. -/
theorem before2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is `V`'s and whose body leaves the block in place. -/
theorem before3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof data
    whose array is `V`'s and whose body leaves the block in place. -/
theorem before4_of {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The pieces the first-`k` case writes into the accumulator tile it, so they cover it. -/
theorem accCoverFirst (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : condFirst i) (hc1 : ¬condLast i)
    (x0 : Vec F S1024x2048 .bf16) (x1 : Vec F S2048x128 .bf16) (x2 : Vec F S1024x128 .f32) (x3 : Vec F S1024x1 .f32) (x4 : Vec F S1x128 .f32) (y : S1024x128.Idx) :
    ∃ pc ∈ (runFirst c i arg2 harg2 arg3 harg3 arg4 harg4 arg5 harg5 arg6 harg6 arg7 harg7 arg8 harg8 hc0 hc1 x0 x1 x2 x3 x4).2.1, y ∈ pc.1.set :=
  View.cover_of_tiledL (runFirst c i arg2 harg2 arg3 harg3 arg4 harg4 arg5 harg5 arg6 harg6 arg7 harg7 arg8 harg8 hc0 hc1 x0 x1 x2 x3 x4).2.1 S1024x128.size (by sl_kernel_rfl) y

/-- What the first-`k` case leaves in the accumulator: its pieces read back over junk. -/
def accFirst (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : condFirst i) (hc1 : ¬condLast i)
    (x0 : Vec F S1024x2048 .bf16) (x1 : Vec F S2048x128 .bf16) (x2 : Vec F S1024x128 .f32) (x3 : Vec F S1024x1 .f32) (x4 : Vec F S1x128 .f32) : Vec F S1024x128 .f32 :=
  VS.read (Elt F) (VS.writes (Elt F) VS.junk (runFirst c i arg2 harg2 arg3 harg3 arg4 harg4 arg5 harg5 arg6 harg6 arg7 harg7 arg8 harg8 hc0 hc1 x0 x1 x2 x3 x4).2.1)

/-- The pieces the mid-`k` case writes into the accumulator tile it, so they cover it. -/
theorem accCoverMid (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬condFirst i) (hc1 : ¬condLast i)
    (x0 : Vec F S1024x2048 .bf16) (x1 : Vec F S2048x128 .bf16) (x2 : Vec F S1024x128 .f32) (x3 : Vec F S1024x1 .f32) (x4 : Vec F S1x128 .f32) (xs : Vec F S1024x128 .f32) (y : S1024x128.Idx) :
    ∃ pc ∈ (runMid c i arg2 harg2 arg3 harg3 arg4 harg4 arg5 harg5 arg6 harg6 arg7 harg7 arg8 harg8 hc0 hc1 x0 x1 x2 x3 x4 xs).2.1, y ∈ pc.1.set :=
  View.cover_of_tiledL (runMid c i arg2 harg2 arg3 harg3 arg4 harg4 arg5 harg5 arg6 harg6 arg7 harg7 arg8 harg8 hc0 hc1 x0 x1 x2 x3 x4 xs).2.1 S1024x128.size (by sl_kernel_rfl) y

/-- What the mid-`k` case leaves in the accumulator: its pieces read back over junk. -/
def accMid (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬condFirst i) (hc1 : ¬condLast i)
    (x0 : Vec F S1024x2048 .bf16) (x1 : Vec F S2048x128 .bf16) (x2 : Vec F S1024x128 .f32) (x3 : Vec F S1024x1 .f32) (x4 : Vec F S1x128 .f32) (xs : Vec F S1024x128 .f32) : Vec F S1024x128 .f32 :=
  VS.read (Elt F) (VS.writes (Elt F) VS.junk (runMid c i arg2 harg2 arg3 harg3 arg4 harg4 arg5 harg5 arg6 harg6 arg7 harg7 arg8 harg8 hc0 hc1 x0 x1 x2 x3 x4 xs).2.1)

/-- The pieces the last-`k` case writes into the accumulator tile it, so they cover it. -/
theorem accCoverLast (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬condFirst i) (hc1 : condLast i)
    (x0 : Vec F S1024x2048 .bf16) (x1 : Vec F S2048x128 .bf16) (x2 : Vec F S1024x128 .f32) (x3 : Vec F S1024x1 .f32) (x4 : Vec F S1x128 .f32) (xs : Vec F S1024x128 .f32) (y : S1024x128.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S1024x128.size (by sl_kernel_rfl) y

/-- What the last-`k` case leaves in the accumulator: its pieces read back over junk. -/
def accLast (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬condFirst i) (hc1 : condLast i)
    (x0 : Vec F S1024x2048 .bf16) (x1 : Vec F S2048x128 .bf16) (x2 : Vec F S1024x128 .f32) (x3 : Vec F S1024x1 .f32) (x4 : Vec F S1x128 .f32) (xs : Vec F S1024x128 .f32) : Vec F S1024x128 .f32 :=
  VS.read (Elt F) (VS.writes (Elt F) VS.junk (runLast c i arg2 harg2 arg3 harg3 arg4 harg4 arg5 harg5 arg6 harg6 arg7 harg7 arg8 harg8 hc0 hc1 x0 x1 x2 x3 x4 xs).2.1)

/-- The one store of the last-`k` case into the output window tiles its block, so it covers it. -/
theorem outCoverLast (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬condFirst i) (hc1 : condLast i)
    (x0 : Vec F S1024x2048 .bf16) (x1 : Vec F S2048x128 .bf16) (x2 : Vec F S1024x128 .f32) (x3 : Vec F S1024x1 .f32) (x4 : Vec F S1x128 .f32) (xs : Vec F S1024x128 .f32) (y : S1024x128.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S1024x128.size (by sl_kernel_rfl) y

/-- What the last-`k` case leaves in the output window's staging buffer: the epilogue, read back over junk. -/
def outLast (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬condFirst i) (hc1 : condLast i)
    (x0 : Vec F S1024x2048 .bf16) (x1 : Vec F S2048x128 .bf16) (x2 : Vec F S1024x128 .f32) (x3 : Vec F S1024x1 .f32) (x4 : Vec F S1x128 .f32) (xs : Vec F S1024x128 .f32) : Vec F S1024x128 .f32 :=
  VO.read (Elt F) (VO.writes (Elt F) VO.junk (runLast c i arg2 harg2 arg3 harg3 arg4 harg4 arg5 harg5 arg6 harg6 arg7 harg7 arg8 harg8 hc0 hc1 x0 x1 x2 x3 x4 xs).1)

/-! ## The accumulator point by point -/

/-- THE ACCUMULATION. What the accumulator holds after the body at position `n`: the case the closed forms select at `n`,
    run at the point's memrefs and input blocks, over what the point before left (at a first `k` over nothing: the
    accumulator is zeroed there). -/
def accAt (c : Dev nD) : (n : ℕ) → n < cfg3.N → Vec F S1024x128 .f32
  | 0, hn => accFirst c (grid3.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) ((condFirst_iff ⟨0, hn⟩).mpr (Nat.zero_mod _)) (fun h => (fun h => by (try dsimp only at h); omega) ((condLast_iff ⟨0, hn⟩).mp h)) (iblk V c 0 ⟨0, hn⟩) (iblk V c 1 ⟨0, hn⟩) (iblk V c 2 ⟨0, hn⟩) (iblk V c 3 ⟨0, hn⟩) (iblk V c 4 ⟨0, hn⟩)
  | n + 1, hn =>
    if h0 : (n + 1) % 4 = 0 then
      if h1 : (n + 1) % 4 = 3 then
        False.elim (by omega)
      else
        accFirst c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) ((condFirst_iff ⟨n + 1, hn⟩).mpr h0) (fun h => h1 ((condLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩)
    else
      if h1 : (n + 1) % 4 = 3 then
        accLast c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h0 ((condFirst_iff ⟨n + 1, hn⟩).mp h)) ((condLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (accAt c n (Nat.lt_of_succ_lt hn))
      else
        accMid c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h0 ((condFirst_iff ⟨n + 1, hn⟩).mp h)) (fun h => h1 ((condLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (accAt c n (Nat.lt_of_succ_lt hn))

/-- `accAt` at a first `k`. -/
theorem accAt_first (c : Dev nD) (t : Fin cfg3.N) (h0 : t.val % 4 = 0) (h1 : ¬t.val % 4 = 3) :
    accAt V c t.val t.isLt = accFirst c (grid3.coords t) (ms0 t) (hs0 t) (ms1 t) (hs1 t) (ms2 t) (hs2 t) (ms3 t) (hs3 t) (ms4 t) (hs4 t) (ms5 t) (hs5 t) scM (Memref.isWhole_whole _) ((condFirst_iff t).mpr h0) (fun h => h1 ((condLast_iff t).mp h)) (iblk V c 0 t) (iblk V c 1 t) (iblk V c 2 t) (iblk V c 3 t) (iblk V c 4 t) := by
  obtain ⟨n, hn⟩ := t
  cases n with
  | zero => exact rfl
  | succ n => exact (dif_pos h0).trans ((dif_neg h1).trans rfl)

/-- `accAt` at a middle `k`: over what the point before left. -/
theorem accAt_mid (c : Dev nD) (t : Fin cfg3.N) (h0 : ¬t.val % 4 = 0) (h1 : ¬t.val % 4 = 3) :
    accAt V c t.val t.isLt = accMid c (grid3.coords t) (ms0 t) (hs0 t) (ms1 t) (hs1 t) (ms2 t) (hs2 t) (ms3 t) (hs3 t) (ms4 t) (hs4 t) (ms5 t) (hs5 t) scM (Memref.isWhole_whole _) (fun h => h0 ((condFirst_iff t).mp h)) (fun h => h1 ((condLast_iff t).mp h)) (iblk V c 0 t) (iblk V c 1 t) (iblk V c 2 t) (iblk V c 3 t) (iblk V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `accAt` at a last `k`: over what the point before left. -/
theorem accAt_last (c : Dev nD) (t : Fin cfg3.N) (h0 : ¬t.val % 4 = 0) (h1 : t.val % 4 = 3) :
    accAt V c t.val t.isLt = accLast c (grid3.coords t) (ms0 t) (hs0 t) (ms1 t) (hs1 t) (ms2 t) (hs2 t) (ms3 t) (hs3 t) (ms4 t) (hs4 t) (ms5 t) (hs5 t) scM (Memref.isWhole_whole _) (fun h => h0 ((condFirst_iff t).mp h)) ((condLast_iff t).mpr h1) (iblk V c 0 t) (iblk V c 1 t) (iblk V c 2 t) (iblk V c 3 t) (iblk V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after the body at point `t`: at a last `k` the epilogue over what the
    point before left in the accumulator; elsewhere the window is idle and nothing consults this (a placeholder). -/
def outAt (c : Dev nD) (t : Fin cfg3.N) : Vec F S1024x128 .f32 :=
  if h1 : t.val % 4 = 3 then
    outLast c (grid3.coords t) (ms0 t) (hs0 t) (ms1 t) (hs1 t) (ms2 t) (hs2 t) (ms3 t) (hs3 t) (ms4 t) (hs4 t) (ms5 t) (hs5 t) scM (Memref.isWhole_whole _) (fun h => (fun h => by omega) ((condFirst_iff t).mp h)) ((condLast_iff t).mpr h1) (iblk V c 0 t) (iblk V c 1 t) (iblk V c 2 t) (iblk V c 3 t) (iblk V c 4 t) (accAt V c (t.val - 1) (Nat.lt_of_le_of_lt (Nat.sub_le _ _) t.isLt))
  else VO.read (Elt F) VO.junk

theorem outAt_last (c : Dev nD) (t : Fin cfg3.N) (h0 : ¬t.val % 4 = 0) (h1 : t.val % 4 = 3) :
    outAt V c t = outLast c (grid3.coords t) (ms0 t) (hs0 t) (ms1 t) (hs1 t) (ms2 t) (hs2 t) (ms3 t) (hs3 t) (ms4 t) (hs4 t) (ms5 t) (hs5 t) scM (Memref.isWhole_whole _) (fun h => h0 ((condFirst_iff t).mp h)) ((condLast_iff t).mpr h1) (iblk V c 0 t) (iblk V c 1 t) (iblk V c 2 t) (iblk V c 3 t) (iblk V c 4 t) (accAt V c (t.val - 1) (Nat.lt_of_le_of_lt (Nat.sub_le _ _) t.isLt)) :=
  dif_pos h1

/-! ## The invariant -/

/-- The scoped buffers of the program that are not this call's: carried unopened. -/
abbrev restBut (c : Dev nD) : sProp 𝕄 :=
  Pipeline.scopedRestBut (Ix := Unit) (Name := ℕ) (U := UR sig nD τ) (Lvl := ℕ) (Val := Elt F) spec3 c [cc3_scratch0]

/-- The region invariant before position `n`: before the first point what the launch hands over (the accumulator at
    anything); afterwards the accumulator at what the point before left, the other scoped buffers unopened and the
    generator register at some state. -/
def PhiS (c : Dev nD) : (n : ℕ) → n ≤ cfg3.N → sProp 𝕄
  | 0, _ => Pipeline.ΦA spec3 c
  | n + 1, hn => iprop(iprop(iprop(owns (c : Thread nD τ) scM fullShare (accAt V c n hn)) ∗ restBut c) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(iprop(owns (c : Thread nD τ) scM fullShare (accAt V c n hn)) ∗ restBut c) ∗ (∃ r, prngReg c r)) := rfl

theorem PhiS_pos (c : Dev nD) (n : ℕ) (h : n ≤ cfg3.N) (hz : n ≠ 0) :
    PhiS V c n h = iprop(iprop(iprop(owns (c : Thread nD τ) scM fullShare (accAt V c (n - 1) (by omega))) ∗ restBut c) ∗ (∃ r, prngReg c r)) := by
  cases n with
  | zero => exact absurd rfl hz
  | succ n => rfl

/-! ## The proof data -/

/-- The proof data of the pipeline on core `c`: the arrays as the region finds them; after the body at point `t` each
    input's buffer at its block and the output's at `outAt`; the invariant `PhiS`; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t
  Φ t := PhiS V c t.val (Nat.le_of_lt_succ t.isLt)
  q _ := fullShare
  owed _ := 0

/-- The proof data's arrays are the region-entry contents. -/
theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after0 (c : Dev nD) (t : Fin cfg3.N) : (dat V c).after 0 t = iblk V c 0 t := by dsimp only [dat]
theorem after1 (c : Dev nD) (t : Fin cfg3.N) : (dat V c).after 1 t = iblk V c 1 t := by dsimp only [dat]
theorem after2 (c : Dev nD) (t : Fin cfg3.N) : (dat V c).after 2 t = iblk V c 2 t := by dsimp only [dat]
theorem after3 (c : Dev nD) (t : Fin cfg3.N) : (dat V c).after 3 t = iblk V c 3 t := by dsimp only [dat]
theorem after4 (c : Dev nD) (t : Fin cfg3.N) : (dat V c).after 4 t = iblk V c 4 t := by dsimp only [dat]
theorem after5 (c : Dev nD) (t : Fin cfg3.N) : (dat V c).after 5 t = outAt V c t := by dsimp only [dat]

theorem before0 (c : Dev nD) (t : Fin cfg3.N) (d) : (dat V c).before 0 t d = iblk V c 0 t :=
  before0_of V (dat V c) (A_eq V c 0) (after0 V c) t d
theorem before1 (c : Dev nD) (t : Fin cfg3.N) (d) : (dat V c).before 1 t d = iblk V c 1 t :=
  before1_of V (dat V c) (A_eq V c 1) (after1 V c) t d
theorem before2 (c : Dev nD) (t : Fin cfg3.N) (d) : (dat V c).before 2 t d = iblk V c 2 t :=
  before2_of V (dat V c) (A_eq V c 2) (after2 V c) t d
theorem before3 (c : Dev nD) (t : Fin cfg3.N) (d) : (dat V c).before 3 t d = iblk V c 3 t :=
  before3_of V (dat V c) (A_eq V c 3) (after3 V c) t d
theorem before4 (c : Dev nD) (t : Fin cfg3.N) (d) : (dat V c).before 4 t d = iblk V c 4 t :=
  before4_of V (dat V c) (A_eq V c 4) (after4 V c) t d

theorem live0 : ∀ t : Fin cfg3.N, cfg3.idle 0 (grid3.coords t) = false := fun _ => rfl
theorem live1 : ∀ t : Fin cfg3.N, cfg3.idle 1 (grid3.coords t) = false := fun _ => rfl
theorem live2 : ∀ t : Fin cfg3.N, cfg3.idle 2 (grid3.coords t) = false := fun _ => rfl
theorem live3 : ∀ t : Fin cfg3.N, cfg3.idle 3 (grid3.coords t) = false := fun _ => rfl
theorem live4 : ∀ t : Fin cfg3.N, cfg3.idle 4 (grid3.coords t) = false := fun _ => rfl

end Cert.KernelIdeal.R3

end
-- ==== Proof.KI.R3.lean ====
import proofs.«102678_j21827023798522_2_alg».proof.Proof.KI.R3Dat

set_option maxRecDepth 16384

noncomputable section

namespace Cert.KernelIdeal.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the body obligation at a generic point, and the invariant's ends -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the inputs' memrefs hold their blocks; the closed forms say which case the point is in; the
    invariant hands the body the accumulator at what the point before left (at anything at the first point) and takes it
    back at this point's contents; off the last `k` the output window's buffer is handed back untouched; the other scoped
    buffers, the generator register and what the core owes pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2, before3, before4]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg3.N = 32 from N_3)
  by_cases h0 : t.val % 4 = 0
  · by_cases h1 : t.val % 4 = 3
    · exfalso; omega
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [Dat.leavesExact_idle (dat V c) 5 t (idle_out t (fun h => h1 ((condLast_iff t).mp h))) (noFlush_out t (fun h => h1 ((condLast_iff t).mp h)))]
      rw [accAt_first V c t h0 h1]
      unfold accFirst; (try dsimp only)
      by_cases hz : t.val = 0
      · rw [PhiS_castSucc V c t, PhiS_zero V c _ _ hz, PhiA_eq]
        iintro ⟨⟨⟨HS, HR⟩, Hg⟩, Ho, ⟨%d0, H0⟩, ⟨%d1, H1⟩, ⟨%d2, H2⟩, ⟨%d3, H3⟩, ⟨%d4, H4⟩, ⟨%d5, H5⟩⟩
        iapply ((runFirst c (grid3.coords t) _ _ _ _ _ _ _ _ _ _ _ _ _ _ ((condFirst_iff t).mpr h0) (fun h => h1 ((condLast_iff t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [HS HR Hg]
        · isplitl [HS HR]
          · isplitl [HS]
            · unfold owns; iexists _; isplitr
              swap; · iexact HS
              ipureintro; exact View.read_writes_of_cover _ _ _ _ _ (accCoverFirst c _ _ _ _ _ _ _ _ _ _ _ _ _ _ _ _ _ _ _ _ _ _ )
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨HS, HR⟩, Hg⟩, Ho, ⟨%d0, H0⟩, ⟨%d1, H1⟩, ⟨%d2, H2⟩, ⟨%d3, H3⟩, ⟨%d4, H4⟩, ⟨%d5, H5⟩⟩
        iapply ((runFirst c (grid3.coords t) _ _ _ _ _ _ _ _ _ _ _ _ _ _ ((condFirst_iff t).mpr h0) (fun h => h1 ((condLast_iff t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, ⟨%es, HS⟩⟩
        isplitl [HS HR Hg]
        · isplitl [HS HR]
          · isplitl [HS]
            · unfold owns; iexists _; isplitr
              swap; · iexact HS
              ipureintro; exact View.read_writes_of_cover _ _ _ _ _ (accCoverFirst c _ _ _ _ _ _ _ _ _ _ _ _ _ _ _ _ _ _ _ _ _ _ )
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [show (dat V c).leavesExact 5 t = owns (c : Thread nD τ) (ms5 t) fullShare ((dat V c).after 5 t) from by
        unfold Dat.leavesExact; rw [live_out t ((condLast_iff t).mpr h1)], after5]
      rw [accAt_last V c t h0 h1, outAt_last V c t h0 h1]
      unfold accLast outLast; (try dsimp only)
      have hz : t.val ≠ 0 := by omega
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((runLast c (grid3.coords t) _ _ _ _ _ _ _ _ _ _ _ _ _ _ (fun h => h0 ((condFirst_iff t).mp h)) ((condLast_iff t).mpr h1) (iblk V c 0 t) (iblk V c 1 t) (iblk V c 2 t) (iblk V c 3 t) (iblk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS HR Hg]
      · isplitl [HS HR]
        · isplitl [HS]
          · unfold owns; iexists _; isplitr
            swap; · iexact HS
            ipureintro; exact View.read_writes_of_cover _ _ _ _ _ (accCoverLast c _ _ _ _ _ _ _ _ _ _ _ _ _ _ _ _ _ _ _ _ _ _ _ )
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (outCoverLast c _ _ _ _ _ _ _ _ _ _ _ _ _ _ _ _ _ _ _ _ _ _ _ )
    · rw [show (dat V c).leavesExact 0 t = owns (c : Thread nD τ) (ms0 t) fullShare ((dat V c).after 0 t) from by
        unfold Dat.leavesExact; rw [live0 t], after0]
      rw [show (dat V c).leavesExact 1 t = owns (c : Thread nD τ) (ms1 t) fullShare ((dat V c).after 1 t) from by
        unfold Dat.leavesExact; rw [live1 t], after1]
      rw [show (dat V c).leavesExact 2 t = owns (c : Thread nD τ) (ms2 t) fullShare ((dat V c).after 2 t) from by
        unfold Dat.leavesExact; rw [live2 t], after2]
      rw [show (dat V c).leavesExact 3 t = owns (c : Thread nD τ) (ms3 t) fullShare ((dat V c).after 3 t) from by
        unfold Dat.leavesExact; rw [live3 t], after3]
      rw [show (dat V c).leavesExact 4 t = owns (c : Thread nD τ) (ms4 t) fullShare ((dat V c).after 4 t) from by
        unfold Dat.leavesExact; rw [live4 t], after4]
      rw [Dat.leavesExact_idle (dat V c) 5 t (idle_out t (fun h => h1 ((condLast_iff t).mp h))) (noFlush_out t (fun h => h1 ((condLast_iff t).mp h)))]
      rw [accAt_mid V c t h0 h1]
      unfold accMid; (try dsimp only)
      have hz : t.val ≠ 0 := by omega
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply ((runMid c (grid3.coords t) _ _ _ _ _ _ _ _ _ _ _ _ _ _ (fun h => h0 ((condFirst_iff t).mp h)) (fun h => h1 ((condLast_iff t).mp h)) (iblk V c 0 t) (iblk V c 1 t) (iblk V c 2 t) (iblk V c 3 t) (iblk V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS HR Hg]
      · isplitl [HS HR]
        · isplitl [HS]
          · unfold owns; iexists _; isplitr
            swap; · iexact HS
            ipureintro; exact View.read_writes_of_cover _ _ _ _ _ (accCoverMid c _ _ _ _ _ _ _ _ _ _ _ _ _ _ _ _ _ _ _ _ _ _ _ )
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After any point but the first the invariant gives back what the launch handed over: the accumulator's named contents
    are forgotten. -/
theorem Phi_out (c : Dev nD) (t : Fin (cfg3.N + 1)) (ht : t.val ≠ 0) : (dat V c).Φ t ⊢ Pipeline.ΦA spec3 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

/-- The same after the last point. -/
theorem hout (c : Dev nD) : (dat V c).Φ (Fin.last cfg3.N) ⊢ Pipeline.ΦA spec3 c :=
  Phi_out V c _ (by rw [Fin.val_last]; have : cfg3.N = 32 := N_3; omega)

end Cert.KernelIdeal.R3

end
-- ==== Proof.KI.Regs.lean ====
/-
  The four regions' contributions, packed as the records the assembled run is stated over: each region's proof
  data at any entry contents, its arrays those contents', held whole and owing nothing, its body obligation, and the
  two entailments opening and closing its invariant.
-/
import proofs.«102678_j21827023798522_2_alg».proof.Proof.KI.Asm1
import proofs.«102678_j21827023798522_2_alg».proof.Proof.KI.R0
import proofs.«102678_j21827023798522_2_alg».proof.Proof.KI.R1
import proofs.«102678_j21827023798522_2_alg».proof.Proof.KI.R2
import proofs.«102678_j21827023798522_2_alg».proof.Proof.KI.R3

noncomputable section

namespace Cert.KernelIdeal.Asm

open Idealize.ShloMosaic Idealize.ShloMosaic.TcCoe Idealize.SL.Sem
open Cert.KernelIdeal Cert.KernelIdeal.Gen

variable {F : FTy → Type} [FloatOps F]

/-- Region 0's contribution. -/
def reg0Data : RegionData (F := F) cfg0 where
  dat := fun V c => R0.dat V c
  A_eq := fun V c w => R0.A_eq V c w
  q_eq := fun _ _ _ => rfl
  owed_eq := fun _ _ _ => rfl
  rec_eq := fun _ _ _ => rfl
  body := fun V c => R0.body_obligation V c
  hin := fun V c => R0.hin V c
  hout := fun V c => R0.hout V c

/-- Region 1's contribution. -/
def reg1Data : RegionData (F := F) cfg1 where
  dat := fun V c => R1.dat V c
  A_eq := fun V c w => R1.A_eq V c w
  q_eq := fun _ _ _ => rfl
  owed_eq := fun _ _ _ => rfl
  rec_eq := fun _ _ _ => rfl
  body := fun V c => R1.body_obligation V c
  hin := fun V c => R1.hin V c
  hout := fun V c => R1.hout V c

/-- Region 2's contribution. -/
def reg2Data : RegionData (F := F) cfg2 where
  dat := fun V c => R2.dat V c
  A_eq := fun V c w => R2.A_eq V c w
  q_eq := fun _ _ _ => rfl
  owed_eq := fun _ _ _ => rfl
  rec_eq := fun _ _ _ => rfl
  body := fun V c => R2.body_obligation V c
  hin := fun V c => R2.hin V c
  hout := fun V c => R2.hout V c

/-- Region 3's contribution. -/
def reg3Data : RegionData (F := F) cfg3 where
  dat := fun V c => R3.dat V c
  A_eq := fun V c w => R3.A_eq V c w
  q_eq := fun _ _ _ => rfl
  owed_eq := fun _ _ _ => rfl
  rec_eq := fun _ _ _ => rfl
  body := fun V c => R3.body_obligation V c
  hin := fun V c => R3.hin V c
  hout := fun V c => R3.hout V c

end Cert.KernelIdeal.Asm

end
-- ==== Proof.Spec.lean ====
/-
  The mathematics of the two programs, over plain functions into the extended reals.

  A graph-convolution network of three layers. From an adjacency array adj, a weight sw and a bias one forms the
  modified adjacency  M = max (adj · sw + bias) 0  (entrywise maximum with zero). The normalised adjacency is
  A i j = d i * (M i j + [i = j]) * d j  with  d i = 1 / sqrt (∑ j, (M i j + [i = j])), and a layer is
  h ↦ A · (h · W) + b. One program forms A; the other never does, and computes a layer as
  d i * (∑ j, M i j * (d j * y j q)) + (d i * d i) * y i q + b q  with  y = h · W  and  d i = 1 / sqrt ((∑ j, M i j) + 1).

  The two d agree on all extended reals (a finite sum of sums is the sum of the sums, and ∑ j, [i = j] = 1). The two
  layers agree when d, M and y are real numbers: then both sides are the coercions of real expressions, equal by
  distributivity, which the extended reals lack at the infinities. Everything stays real when the inputs are real:
  M is a real and nonnegative, so a row sum plus one is a real at least one, its root a positive real and d a
  positive real.

  Both programs end with the same row-wise log-softmax of an [8192, 40] array, stated here once (lsm) over the
  literal shapes so that neither program is imported.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.Spec

open Idealize.ShloMosaic

/-! ### Real arrays -/

/-- Every entry of a family of extended reals is a real number. -/
def IsReal {ι : Type} (x : ι → EReal) : Prop := ∀ i, ∃ r : ℝ, x i = (r : EReal)

/-- Every entry of a two-index family of extended reals is a real number. -/
def IsReal₂ {ι κ : Type} (x : ι → κ → EReal) : Prop := ∀ i j, ∃ r : ℝ, x i j = (r : EReal)

/-! ### The network -/

section Defs
variable {n m p : ℕ}

/-- The modified adjacency: max (adj · sw + bias) 0. -/
def modAdj (adj sw : Fin n → Fin n → EReal) (bias : Fin n → EReal) (i j : Fin n) : EReal :=
  max (∑ k, adj i k * sw k j + bias j) 0

/-- The identity matrix's entry. -/
def eye (i j : Fin n) : EReal := if i = j then 1 else 0

/-- The adjacency with self loops. -/
def aRef (M : Fin n → Fin n → EReal) (i j : Fin n) : EReal := M i j + eye i j

/-- One over the root of the row sum of the adjacency with self loops. -/
def dinvRef (M : Fin n → Fin n → EReal) (i : Fin n) : EReal := Ideal.div 1 (Ideal.sqrt (∑ j, aRef M i j))

/-- The normalised adjacency, formed entry by entry. -/
def adjF (M : Fin n → Fin n → EReal) (i j : Fin n) : EReal := dinvRef M i * aRef M i j * dinvRef M j

/-- A matrix product. -/
def mm (h : Fin n → Fin m → EReal) (W : Fin m → Fin p → EReal) (i : Fin n) (q : Fin p) : EReal := ∑ k, h i k * W k q

/-- A layer from a formed adjacency: A · y + b. -/
def layerRef (A : Fin n → Fin n → EReal) (y : Fin n → Fin p → EReal) (b : Fin p → EReal) (i : Fin n) (q : Fin p) : EReal :=
  ∑ j, A i j * y j q + b q

/-- One over the root of the row sum plus one. -/
def dinvK (M : Fin n → Fin n → EReal) (i : Fin n) : EReal := Ideal.div 1 (Ideal.sqrt ((∑ j, M i j) + 1))

/-- A layer that never forms the normalised adjacency. -/
def layerK (d : Fin n → EReal) (M : Fin n → Fin n → EReal) (y : Fin n → Fin p → EReal) (b : Fin p → EReal)
    (i : Fin n) (q : Fin p) : EReal :=
  d i * (∑ j, M i j * (d j * y j q)) + (d i * d i) * y i q + b q

/-- The entrywise maximum with zero. -/
def relu (x : Fin n → Fin p → EReal) (i : Fin n) (q : Fin p) : EReal := max (x i q) 0

end Defs

/-! ### Sums of coerced reals, and reals are closed under the operations -/

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem re_add {a b : EReal} (ha : ∃ r : ℝ, a = (r : EReal)) (hb : ∃ r : ℝ, b = (r : EReal)) :
    ∃ r : ℝ, a + b = (r : EReal) := by
  obtain ⟨r, rfl⟩ := ha; obtain ⟨q, rfl⟩ := hb; exact ⟨r + q, (EReal.coe_add r q).symm⟩

theorem re_mul {a b : EReal} (ha : ∃ r : ℝ, a = (r : EReal)) (hb : ∃ r : ℝ, b = (r : EReal)) :
    ∃ r : ℝ, a * b = (r : EReal) := by
  obtain ⟨r, rfl⟩ := ha; obtain ⟨q, rfl⟩ := hb; exact ⟨r * q, (EReal.coe_mul r q).symm⟩

theorem re_max_zero {a : EReal} (ha : ∃ r : ℝ, a = (r : EReal)) : ∃ r : ℝ, max a 0 = (r : EReal) := by
  obtain ⟨r, rfl⟩ := ha
  rcases le_total r 0 with h | h
  · exact ⟨0, by rw [max_eq_right (by exact_mod_cast h)]; rfl⟩
  · exact ⟨r, max_eq_left (by exact_mod_cast h)⟩

theorem re_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact re_add (h a (Finset.mem_insert_self a s)) (ih fun i hi => h i (Finset.mem_insert_of_mem hi))

section Laws
variable {n m p : ℕ}

/-! ### The two normalisers agree, on all extended reals -/

theorem sum_eye (i : Fin n) : ∑ j, (eye i j : EReal) = 1 := by
  unfold eye; rw [Finset.sum_ite_eq]; simp

theorem dinvRef_eq_dinvK (M : Fin n → Fin n → EReal) : dinvRef M = dinvK M := by
  funext i
  unfold dinvRef dinvK aRef
  rw [Finset.sum_add_distrib, sum_eye]

/-! ### The two layers agree, on reals -/

/-- The identity matrix's entry as a real. -/
def eyeR (i j : Fin n) : ℝ := if i = j then 1 else 0

theorem coe_eyeR (i j : Fin n) : ((eyeR i j : ℝ) : EReal) = eye i j := by
  unfold eyeR eye; split_ifs <;> simp

/-- The real identity behind the layer law. -/
theorem layer_real (d : Fin n → ℝ) (M : Fin n → Fin n → ℝ) (y : Fin n → Fin p → ℝ) (i : Fin n) (q : Fin p) :
    ∑ j, d i * (M i j + eyeR i j) * d j * y j q = d i * (∑ j, M i j * (d j * y j q)) + d i * d i * y i q := by
  have h : ∀ j, d i * (M i j + eyeR i j) * d j * y j q
      = d i * (M i j * (d j * y j q)) + (if i = j then d i * d j * y j q else 0) := by
    intro j; unfold eyeR; split_ifs <;> ring
  rw [Finset.sum_congr rfl fun j _ => h j, Finset.sum_add_distrib, ← Finset.mul_sum, Finset.sum_ite_eq]
  simp

/-- A layer through the normalised adjacency d i * (M i j + [i = j]) * d j is the layer that never forms it,
    when d, M and y are real. -/
theorem layer_law {d : Fin n → EReal} {M : Fin n → Fin n → EReal} {y : Fin n → Fin p → EReal} (b : Fin p → EReal)
    (hd : IsReal d) (hM : IsReal₂ M) (hy : IsReal₂ y) :
    layerRef (fun i j => d i * (M i j + eye i j) * d j) y b = layerK d M y b := by
  choose d' hd' using hd
  choose M' hM' using hM
  choose y' hy' using hy
  funext i q
  unfold layerRef layerK
  congr 1
  have hL : ∀ j, d i * (M i j + eye i j) * d j * y j q
      = ((d' i * (M' i j + eyeR i j) * d' j * y' j q : ℝ) : EReal) := by
    intro j
    rw [hd' i, hd' j, hM' i j, hy' j q, ← coe_eyeR, ← EReal.coe_add, ← EReal.coe_mul, ← EReal.coe_mul, ← EReal.coe_mul]
  have hR : ∀ j, M i j * (d j * y j q) = ((M' i j * (d' j * y' j q) : ℝ) : EReal) := by
    intro j
    rw [hd' j, hM' i j, hy' j q, ← EReal.coe_mul, ← EReal.coe_mul]
  rw [Finset.sum_congr rfl fun j _ => hL j, Finset.sum_congr rfl fun j _ => hR j, ← coe_sum, ← coe_sum,
    hd' i, hy' i q, ← EReal.coe_mul, ← EReal.coe_mul, ← EReal.coe_mul, ← EReal.coe_add, layer_real]

end Laws

/-! ### Real inputs give real arrays throughout -/

section Reality
variable {n m p : ℕ}

theorem mm_real {h : Fin n → Fin m → EReal} {W : Fin m → Fin p → EReal} (hh : IsReal₂ h) (hW : IsReal₂ W) :
    IsReal₂ (mm h W) :=
  fun i q => re_sum _ _ fun k _ => re_mul (hh i k) (hW k q)

theorem modAdj_real {adj sw : Fin n → Fin n → EReal} {bias : Fin n → EReal} (ha : IsReal₂ adj) (hs : IsReal₂ sw)
    (hb : IsReal bias) : IsReal₂ (modAdj adj sw bias) :=
  fun i j => re_max_zero (re_add (re_sum _ _ fun k _ => re_mul (ha i k) (hs k j)) (hb j))

theorem modAdj_nonneg (adj sw : Fin n → Fin n → EReal) (bias : Fin n → EReal) (i j : Fin n) :
    0 ≤ modAdj adj sw bias i j := le_max_right _ _

theorem relu_real {x : Fin n → Fin p → EReal} (hx : IsReal₂ x) : IsReal₂ (relu x) := fun i q => re_max_zero (hx i q)

/-- For a real and nonnegative M, one over the root of a row sum plus one is a positive real. -/
theorem dinvK_pos {M : Fin n → Fin n → EReal} (hM : IsReal₂ M) (h0 : ∀ i j, 0 ≤ M i j) (i : Fin n) :
    ∃ r : ℝ, 0 < r ∧ dinvK M i = (r : EReal) := by
  choose M' hM' using hM
  have hM0 : ∀ j, 0 ≤ M' i j := fun j => by
    have := h0 i j; rw [hM' i j] at this; exact_mod_cast this
  have hs : (0 : ℝ) < (∑ j, M' i j) + 1 := by
    have := Finset.sum_nonneg (s := Finset.univ) fun j _ => hM0 j
    linarith
  have e1 : (∑ j, M i j) + 1 = (((∑ j, M' i j) + 1 : ℝ) : EReal) := by
    rw [EReal.coe_add, coe_sum, EReal.coe_one]
    exact congrArg (· + 1) (Finset.sum_congr rfl fun j _ => hM' i j)
  refine ⟨1 / Real.sqrt ((∑ j, M' i j) + 1), by positivity, ?_⟩
  unfold dinvK
  rw [e1, Ideal.sqrt_coe, if_neg (not_lt.mpr hs.le), Ideal.div_coe (Real.sqrt_ne_zero'.mpr hs), one_mul]

theorem dinvK_real {M : Fin n → Fin n → EReal} (hM : IsReal₂ M) (h0 : ∀ i j, 0 ≤ M i j) : IsReal (dinvK M) :=
  fun i => let ⟨r, _, h⟩ := dinvK_pos hM h0 i; ⟨r, h⟩

theorem layerK_real {d : Fin n → EReal} {M : Fin n → Fin n → EReal} {y : Fin n → Fin p → EReal} {b : Fin p → EReal}
    (hd : IsReal d) (hM : IsReal₂ M) (hy : IsReal₂ y) (hb : IsReal b) : IsReal₂ (layerK d M y b) :=
  fun i q => re_add (re_add (re_mul (hd i) (re_sum _ _ fun j _ => re_mul (hM i j) (re_mul (hd j) (hy j q))))
    (re_mul (re_mul (hd i) (hd i)) (hy i q))) (hb q)

/-- A layer through the normalised adjacency of a real nonnegative M is the layer that never forms it. -/
theorem layerRef_adjF {M : Fin n → Fin n → EReal} {y : Fin n → Fin p → EReal} (b : Fin p → EReal)
    (hM : IsReal₂ M) (h0 : ∀ i j, 0 ≤ M i j) (hy : IsReal₂ y) :
    layerRef (adjF M) y b = layerK (dinvK M) M y b := by
  have e : adjF M = fun i j => dinvK M i * (M i j + eye i j) * dinvK M j := by
    funext i j; unfold adjF aRef; rw [dinvRef_eq_dinvK]
  rw [e]; exact layer_law b (dinvK_real hM h0) hM hy

end Reality

/-! ### The whole network, in the two forms -/

section Net
variable {n f h c : ℕ}

/-- Three layers through the formed normalised adjacency, the first two followed by the maximum with zero. -/
def gcnRef (adj sw : Fin n → Fin n → EReal) (bias : Fin n → EReal) (x : Fin n → Fin f → EReal)
    (W0 : Fin f → Fin h → EReal) (b0 : Fin h → EReal) (W1 : Fin h → Fin h → EReal) (b1 : Fin h → EReal)
    (W2 : Fin h → Fin c → EReal) (b2 : Fin c → EReal) : Fin n → Fin c → EReal :=
  layerRef (adjF (modAdj adj sw bias))
    (mm (relu (layerRef (adjF (modAdj adj sw bias))
      (mm (relu (layerRef (adjF (modAdj adj sw bias)) (mm x W0) b0)) W1) b1)) W2) b2

/-- The same three layers, the normalised adjacency never formed. -/
def gcnK (adj sw : Fin n → Fin n → EReal) (bias : Fin n → EReal) (x : Fin n → Fin f → EReal)
    (W0 : Fin f → Fin h → EReal) (b0 : Fin h → EReal) (W1 : Fin h → Fin h → EReal) (b1 : Fin h → EReal)
    (W2 : Fin h → Fin c → EReal) (b2 : Fin c → EReal) : Fin n → Fin c → EReal :=
  layerK (dinvK (modAdj adj sw bias)) (modAdj adj sw bias)
    (mm (relu (layerK (dinvK (modAdj adj sw bias)) (modAdj adj sw bias)
      (mm (relu (layerK (dinvK (modAdj adj sw bias)) (modAdj adj sw bias) (mm x W0) b0)) W1) b1)) W2) b2

/-- On real inputs the two forms of the network are the same array. -/
theorem gcnRef_eq_gcnK {adj sw : Fin n → Fin n → EReal} {bias : Fin n → EReal} {x : Fin n → Fin f → EReal}
    {W0 : Fin f → Fin h → EReal} {b0 : Fin h → EReal} {W1 : Fin h → Fin h → EReal} {b1 : Fin h → EReal}
    {W2 : Fin h → Fin c → EReal} (b2 : Fin c → EReal)
    (hadj : IsReal₂ adj) (hsw : IsReal₂ sw) (hbias : IsReal bias) (hx : IsReal₂ x)
    (hW0 : IsReal₂ W0) (hb0 : IsReal b0) (hW1 : IsReal₂ W1) (hb1 : IsReal b1) (hW2 : IsReal₂ W2) :
    gcnRef adj sw bias x W0 b0 W1 b1 W2 b2 = gcnK adj sw bias x W0 b0 W1 b1 W2 b2 := by
  have hM := modAdj_real hadj hsw hbias
  have h0 := modAdj_nonneg adj sw bias
  have hd := dinvK_real hM h0
  have y0 := mm_real hx hW0
  have y1 := mm_real (relu_real (layerK_real hd hM y0 hb0)) hW1
  have y2 := mm_real (relu_real (layerK_real hd hM y1 hb1)) hW2
  unfold gcnRef gcnK
  rw [layerRef_adjF b0 hM h0 y0, layerRef_adjF b1 hM h0 y1, layerRef_adjF b2 hM h0 y2]

end Net

/-! ### The common tail: a row-wise log-softmax of an [8192, 40] array -/

abbrev T40 : Shape := ⟨2, ![8192, 40]⟩
abbrev T1 : Shape := ⟨2, ![8192, 1]⟩
abbrev T8192 : Shape := ⟨1, ![8192]⟩
abbrev T0 : Shape := ⟨0, ![]⟩

theorem lsm_red : T40.ReducesTo [1] T8192 := by decide
theorem lsm_pos : 0 < T0.numel := by decide
theorem lsm_b0 : T0.BroadcastsInDim T8192 (![] : Fin 0 → Fin T8192.rank) := by decide
theorem lsm_b1 : T8192.BroadcastsInDim T1 (![0] : Fin 1 → Fin T1.rank) := by decide
theorem lsm_b2 : T1.BroadcastsInDim T40 (![0, 1] : Fin 2 → Fin T40.rank) := by decide

/-- Each row minus its maximum (the maximum taken against -∞ twice, as both programs print it). -/
def lsmShift (x : FVec Ideal T40 .f32) : FVec Ideal T40 .f32 :=
  subf x (broadcastInDim T40 ![0, 1] lsm_b2 (broadcastInDim T1 ![0] lsm_b1
    (maximumf (broadcastInDim T8192 ![] lsm_b0 (constant T0 .f32 0xFF800000#32))
      (Host.reduce FloatOps.maximumf x (constant T0 .f32 0xFF800000#32) lsm_red lsm_pos))))

/-- The shifted rows minus the logarithm of the sum of their exponentials. -/
def lsm (x : FVec Ideal T40 .f32) : FVec Ideal T40 .f32 :=
  subf (lsmShift x) (broadcastInDim T40 ![0, 1] lsm_b2 (Host.log (broadcastInDim T1 ![0] lsm_b1
    (Host.reduceAdd (Host.exp (lsmShift x)) (constant T0 .f32 0x00000000#32) lsm_red lsm_pos))))

/-! ### Arrays over a shape's indices as functions of the coordinates -/

section Conv
open Idealize.ShloMosaic.ValueIdx

/-- A rank-2 array as a function of its two coordinates. -/
def mat {a b : ℕ} (x : (⟨2, ![a, b]⟩ : Shape).Idx → EReal) (i : Fin a) (j : Fin b) : EReal := x (ix2 i j)

/-- A rank-1 array as a function of its coordinate. -/
def vec {a : ℕ} (x : (⟨1, ![a]⟩ : Shape).Idx → EReal) (i : Fin a) : EReal := x (ix1 i)

/-- A function of two coordinates as a rank-2 array. -/
def arr2 {a b : ℕ} (f : Fin a → Fin b → EReal) : (⟨2, ![a, b]⟩ : Shape).Idx → EReal := fun i => f (i 0) (i 1)

theorem arr2_mat {a b : ℕ} (x : (⟨2, ![a, b]⟩ : Shape).Idx → EReal) : arr2 (mat x) = x := by
  funext i; unfold arr2 mat; exact congrArg x (eq_ix2 i).symm

theorem mat_arr2 {a b : ℕ} (f : Fin a → Fin b → EReal) : mat (arr2 f) = f := rfl

theorem isReal₂_mat {a b : ℕ} {x : (⟨2, ![a, b]⟩ : Shape).Idx → EReal} (hx : IsReal x) : IsReal₂ (mat x) :=
  fun i j => hx (ix2 i j)

theorem isReal_vec {a : ℕ} {x : (⟨1, ![a]⟩ : Shape).Idx → EReal} (hx : IsReal x) : IsReal (vec x) :=
  fun i => hx (ix1 i)

theorem isReal_arr2 {a b : ℕ} {f : Fin a → Fin b → EReal} (hf : IsReal₂ f) : IsReal (arr2 f) :=
  fun i => hf (i 0) (i 1)

/-- Two rank-2 indices with the same coordinates are the same index. -/
theorem idx2_ext {a b : ℕ} {u v : (⟨2, ![a, b]⟩ : Shape).Idx} (h0 : (u 0).val = (v 0).val) (h1 : (u 1).val = (v 1).val) :
    u = v := by
  funext d; match d with | ⟨0, _⟩ => exact Fin.ext h0 | ⟨1, _⟩ => exact Fin.ext h1

/-- Two rank-1 indices with the same coordinate are the same index. -/
theorem idx1_ext {a : ℕ} {u v : (⟨1, ![a]⟩ : Shape).Idx} (h0 : (u 0).val = (v 0).val) : u = v := by
  funext d; match d with | ⟨0, _⟩ => exact Fin.ext h0

end Conv

end Cert.Spec

end
-- ==== Proof.KI.Stages.lean ====
/-
  The kernel program's host stages between its regions, each as one function of whole arrays: the casts of the
  adjacency operands, the degree vector 1/√(row sum + 1) as a column, the feature products, the column-scaled
  operands handed to the regions, the padding of the last layer to 128 lanes and the slice back to 40, and the
  row-wise log-softmax at the end. Each is the program's own sequence of operations, read at the ideal instance.
-/
import proofs.«102678_j21827023798522_2_alg».proof.Proof.Gen.KernelIdeal
import proofs.«102678_j21827023798522_2_alg».proof.Proof.Spec

noncomputable section

namespace Cert.KernelIdeal.KerValue

open Idealize.ShloMosaic Idealize.ShloMosaic.TcCoe Idealize.SL.Sem
open Cert.KernelIdeal Cert.KernelIdeal.Facts₀ Cert.KernelIdeal.Facts

/-- An f32 matrix handed to the matrix unit as bf16. -/
def kA (a : FVec Ideal S8192x8192 .f32) : FVec Ideal S8192x8192 .bf16 := truncf .bf16 a bitsLt_bf16_f32
/-- The structural bias as a row. -/
def kBias (b : FVec Ideal S8192 .f32) : FVec Ideal S1x8192 .f32 := shapeCast S1x8192 b shapeCasts_S8192_S1x8192
/-- The degree vector as a column: one over the root of (the row sum of the modified adjacency plus one). -/
def kDv (M : FVec Ideal S8192x8192 .bf16) : FVec Ideal S8192x1 .f32 :=
  shapeCast S8192x1
    (Host.divf (broadcastInDim S8192 ![] bcast_S_S8192 (constant S_ .f32 0x3F800000#32))
      (Host.sqrt (addf
        (Host.reduceAdd (extf .f32 M bitsLt_bf16_f32) (constant S_ .f32 0x00000000#32) reducesTo_S8192x8192_S8192_d1 h_S_)
        (broadcastInDim S8192 ![] bcast_S_S8192 (constant S_ .f32 0x3F800000#32)))))
    shapeCasts_S8192_S8192x1
/-- The first layer's features times its weights. -/
def kY0 (x : FVec Ideal S8192x512 .f32) (W : FVec Ideal S512x256 .f32) : FVec Ideal S8192x256 .f32 :=
  Host.dotGeneral dot_S8192x512_S512x256_S8192x256_1_0_0_1_n_n none x W
/-- The second layer's. -/
def kY1 (h : FVec Ideal S8192x256 .f32) (W : FVec Ideal S256x256 .f32) : FVec Ideal S8192x256 .f32 :=
  Host.dotGeneral dot_S8192x256_S256x256_S8192x256_1_0_0_1_n_n none h W
/-- The third layer's, 40 wide. -/
def kY2r (h : FVec Ideal S8192x256 .f32) (W : FVec Ideal S256x40 .f32) : FVec Ideal S8192x40 .f32 :=
  Host.dotGeneral dot_S8192x256_S256x40_S8192x40_1_0_0_1_n_n none h W
/-- A layer's bias as a row. -/
def kRow256 (b : FVec Ideal S256 .f32) : FVec Ideal S1x256 .f32 := shapeCast S1x256 b shapeCasts_S256_S1x256
/-- The operand of a region's product: each row of the features scaled by its node's degree factor. -/
def kSY256 (dv : FVec Ideal S8192x1 .f32) (y : FVec Ideal S8192x256 .f32) : FVec Ideal S8192x256 .bf16 :=
  truncf .bf16 (mulf (broadcastInDim S8192x256 ![0, 1] bcast_S8192x1_S8192x256_0_1 dv) y) bitsLt_bf16_f32
/-- The same, 128 wide. -/
def kSY128 (dv : FVec Ideal S8192x1 .f32) (y : FVec Ideal S8192x128 .f32) : FVec Ideal S8192x128 .bf16 :=
  truncf .bf16 (mulf (broadcastInDim S8192x128 ![0, 1] bcast_S8192x1_S8192x128_0_1 dv) y) bitsLt_bf16_f32
/-- The padding value: the integer zero as a float. -/
def kPad0 : FVec Ideal S_ .f32 := sitofp .f32 (constantI S_ 32 0#32)
/-- The third layer's features padded from 40 to 128 lanes. -/
def kY2 (y : FVec Ideal S8192x40 .f32) : FVec Ideal S8192x128 .f32 :=
  pad S8192x128 ![0, 0] ![0, 88] ![0, 0] y kPad0 pads_S8192x40_S8192x128_000_0880 h_S_
/-- The third layer's bias padded to 128 lanes, as a row. -/
def kB2 (b : FVec Ideal S40 .f32) : FVec Ideal S1x128 .f32 :=
  shapeCast S1x128 (pad S128 ![0] ![88] ![0] b kPad0 pads_S40_S128_0880 h_S_) shapeCasts_S128_S1x128
/-- The first 40 lanes of the third layer's result. -/
def kSlice (h : FVec Ideal S8192x128 .f32) : FVec Ideal S8192x40 .f32 :=
  extractStridedSlice S8192x40 ![0, 0] h slices_S8192x128_S8192x40_0_0

/-- The program's row-wise log-softmax, operation by operation. -/
def kLsm (x : FVec Ideal S8192x40 .f32) : FVec Ideal S8192x40 .f32 :=
  let sh := subf x (broadcastInDim S8192x40 ![0, 1] bcast_S8192x1_S8192x40_0_1 (broadcastInDim S8192x1 ![0] bcast_S8192_S8192x1_0
    (maximumf (broadcastInDim S8192 ![] bcast_S_S8192 (constant S_ .f32 0xFF800000#32))
      (Host.reduce FloatOps.maximumf x (constant S_ .f32 0xFF800000#32) reducesTo_S8192x40_S8192_d1 h_S_))))
  subf sh (broadcastInDim S8192x40 ![0, 1] bcast_S8192x1_S8192x40_0_1 (Host.log (broadcastInDim S8192x1 ![0] bcast_S8192_S8192x1_0
    (Host.reduceAdd (Host.exp sh) (constant S_ .f32 0x00000000#32) reducesTo_S8192x40_S8192_d1 h_S_))))

/-- It is the specification's. -/
theorem kLsm_eq (x : FVec Ideal S8192x40 .f32) : kLsm x = Cert.Spec.lsm x := rfl

/-- One hidden layer of the kernel program: the region applied to the modified adjacency `M`, the features `y` scaled by
    the degree column `dv`, the features, the column and the bias as a row. -/
def kLayer
    (G : FVec Ideal S8192x8192 .bf16 → FVec Ideal S8192x256 .bf16 → FVec Ideal S8192x256 .f32 → FVec Ideal S8192x1 .f32
      → FVec Ideal S1x256 .f32 → FVec Ideal S8192x256 .f32)
    (M : FVec Ideal S8192x8192 .bf16) (dv : FVec Ideal S8192x1 .f32) (y : FVec Ideal S8192x256 .f32) (b : FVec Ideal S256 .f32) :
    FVec Ideal S8192x256 .f32 :=
  G M (kSY256 dv y) y dv (kRow256 b)

/-- The last layer, 128 lanes wide. -/
def kLayer3
    (G : FVec Ideal S8192x8192 .bf16 → FVec Ideal S8192x128 .bf16 → FVec Ideal S8192x128 .f32 → FVec Ideal S8192x1 .f32
      → FVec Ideal S1x128 .f32 → FVec Ideal S8192x128 .f32)
    (M : FVec Ideal S8192x8192 .bf16) (dv : FVec Ideal S8192x1 .f32) (y : FVec Ideal S8192x40 .f32) (b : FVec Ideal S40 .f32) :
    FVec Ideal S8192x128 .f32 :=
  G M (kSY128 dv (kY2 y)) (kY2 y) dv (kB2 b)

/-- The layers over a given modified adjacency `M`: three layers, the features multiplied by the weights between them,
    the first 40 lanes of the last, the row-wise log-softmax. -/
def kNet
    (G1 G2 : FVec Ideal S8192x8192 .bf16 → FVec Ideal S8192x256 .bf16 → FVec Ideal S8192x256 .f32 → FVec Ideal S8192x1 .f32
      → FVec Ideal S1x256 .f32 → FVec Ideal S8192x256 .f32)
    (G3 : FVec Ideal S8192x8192 .bf16 → FVec Ideal S8192x128 .bf16 → FVec Ideal S8192x128 .f32 → FVec Ideal S8192x1 .f32
      → FVec Ideal S1x128 .f32 → FVec Ideal S8192x128 .f32)
    (M : FVec Ideal S8192x8192 .bf16) (x : FVec Ideal S8192x512 .f32)
    (W0 : FVec Ideal S512x256 .f32) (b0 : FVec Ideal S256 .f32) (W1 : FVec Ideal S256x256 .f32) (b1 : FVec Ideal S256 .f32)
    (W2 : FVec Ideal S256x40 .f32) (b2 : FVec Ideal S40 .f32) : FVec Ideal S8192x40 .f32 :=
  kLsm (kSlice (kLayer3 G3 M (kDv M)
    (kY2r (kLayer G2 M (kDv M) (kY1 (kLayer G1 M (kDv M) (kY0 x W0) b0) W1) b1) W2) b2))

/-- The kernel program's result as one function of its arguments, over what each region computes from the arrays it is
    entered with (`G0`: the modified adjacency from the two cast operands and the bias row). -/
def kOut
    (G0 : FVec Ideal S8192x8192 .bf16 → FVec Ideal S8192x8192 .bf16 → FVec Ideal S1x8192 .f32 → FVec Ideal S8192x8192 .bf16)
    (G1 G2 : FVec Ideal S8192x8192 .bf16 → FVec Ideal S8192x256 .bf16 → FVec Ideal S8192x256 .f32 → FVec Ideal S8192x1 .f32
      → FVec Ideal S1x256 .f32 → FVec Ideal S8192x256 .f32)
    (G3 : FVec Ideal S8192x8192 .bf16 → FVec Ideal S8192x128 .bf16 → FVec Ideal S8192x128 .f32 → FVec Ideal S8192x1 .f32
      → FVec Ideal S1x128 .f32 → FVec Ideal S8192x128 .f32)
    (adj sw : FVec Ideal S8192x8192 .f32) (bias : FVec Ideal S8192 .f32) (x : FVec Ideal S8192x512 .f32)
    (W0 : FVec Ideal S512x256 .f32) (b0 : FVec Ideal S256 .f32) (W1 : FVec Ideal S256x256 .f32) (b1 : FVec Ideal S256 .f32)
    (W2 : FVec Ideal S256x40 .f32) (b2 : FVec Ideal S40 .f32) : FVec Ideal S8192x40 .f32 :=
  kNet G1 G2 G3 (G0 (kA adj) (kA sw) (kBias bias)) x W0 b0 W1 b1 W2 b2

end Cert.KernelIdeal.KerValue

end
-- ==== Proof.KI.R1Val.lean ====
import proofs.«102678_j21827023798522_2_alg».proof.Proof.KI.R1
import Idealize.ShloMosaic.Lib.Pipeline.Value

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: what each control case leaves, as values of the payloads -/

theorem hz : (![0, 0] : Fin 2 → Nat) = fun _ => 0 := funext fun a => by fin_cases a <;> rfl

/-- At a middle `k` the accumulator holding `xs` is left at `xs + A·B` of the two matrix blocks. -/
theorem accMid_eq (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : ¬condLast i)
    (x0 : Vec F S1024x2048 .bf16) (x1 : Vec F S2048x256 .bf16) (x2 : Vec F S1024x256 .f32) (x3 : Vec F S1024x1 .f32) (x4 : Vec F S1x256 .f32) (xs : Vec F S1024x256 .f32) :
    accMid c i arg2 harg2 arg3 harg3 arg4 harg4 arg5 harg5 arg6 harg6 arg7 harg7 arg8 harg8 hc0 hc1 x0 x1 x2 x3 x4 xs = k1_pay2 xs x0 x1 := by
  unfold accMid
  rw [View.read_writes_eq_canon _ _ _ (accCoverMid c i arg2 harg2 arg3 harg3 arg4 harg4 arg5 harg5 arg6 harg6 arg7 harg7 arg8 harg8 hc0 hc1 x0 x1 x2 x3 x4 xs)]
  unfold runMid
  dsimp only
  sl_unfold_words
  rw [View.canon_unit_zero hz]
  simp only [View.readAt_eq_ld, harg2.read_unread, harg3.read_unread, harg4.read_unread, harg5.read_unread, harg6.read_unread, harg8.read_unread, View.ld_unit_zero (S := S1024x2048) hz, View.ld_unit_zero (S := S2048x256) hz, View.ld_unit_zero (S := S1024x256) hz, View.ld_unit_zero (S := S1024x1) hz, View.ld_unit_zero (S := S1x256) hz]

/-- At the last `k` likewise, -/
theorem accLast_eq (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : condLast i)
    (x0 : Vec F S1024x2048 .bf16) (x1 : Vec F S2048x256 .bf16) (x2 : Vec F S1024x256 .f32) (x3 : Vec F S1024x1 .f32) (x4 : Vec F S1x256 .f32) (xs : Vec F S1024x256 .f32) :
    accLast c i arg2 harg2 arg3 harg3 arg4 harg4 arg5 harg5 arg6 harg6 arg7 harg7 arg8 harg8 hc0 hc1 x0 x1 x2 x3 x4 xs = k1_pay2 xs x0 x1 := by
  unfold accLast
  rw [View.read_writes_eq_canon _ _ _ (accCoverLast c i arg2 harg2 arg3 harg3 arg4 harg4 arg5 harg5 arg6 harg6 arg7 harg7 arg8 harg8 hc0 hc1 x0 x1 x2 x3 x4 xs)]
  unfold runLast
  dsimp only
  sl_unfold_words
  rw [View.canon_unit_zero hz]
  simp only [View.readAt_eq_ld, harg2.read_unread, harg3.read_unread, harg4.read_unread, harg5.read_unread, harg6.read_unread, harg8.read_unread, View.ld_unit_zero (S := S1024x2048) hz, View.ld_unit_zero (S := S2048x256) hz, View.ld_unit_zero (S := S1024x256) hz, View.ld_unit_zero (S := S1024x1) hz, View.ld_unit_zero (S := S1x256) hz]

/-- and the output window's buffer is left at the epilogue of that sum. -/
theorem outLast_eq (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : condLast i)
    (x0 : Vec F S1024x2048 .bf16) (x1 : Vec F S2048x256 .bf16) (x2 : Vec F S1024x256 .f32) (x3 : Vec F S1024x1 .f32) (x4 : Vec F S1x256 .f32) (xs : Vec F S1024x256 .f32) :
    outLast c i arg2 harg2 arg3 harg3 arg4 harg4 arg5 harg5 arg6 harg6 arg7 harg7 arg8 harg8 hc0 hc1 x0 x1 x2 x3 x4 xs = k1_pay3 x3 (k1_pay2 xs x0 x1) x2 x4 := by
  unfold outLast
  rw [View.read_writes_eq_canon _ _ _ (outCoverLast c i arg2 harg2 arg3 harg3 arg4 harg4 arg5 harg5 arg6 harg6 arg7 harg7 arg8 harg8 hc0 hc1 x0 x1 x2 x3 x4 xs)]
  unfold runLast
  dsimp only
  sl_unfold_words
  rw [View.canon_unit_zero hz, View.readCov_unit_zero (S := S1024x256) _ hz]
  simp only [View.readAt_eq_ld, harg2.read_unread, harg3.read_unread, harg4.read_unread, harg5.read_unread, harg6.read_unread, harg8.read_unread, View.ld_unit_zero (S := S1024x2048) hz, View.ld_unit_zero (S := S2048x256) hz, View.ld_unit_zero (S := S1024x256) hz, View.ld_unit_zero (S := S1024x1) hz, View.ld_unit_zero (S := S1x256) hz]

/-- At the first `k` the accumulator is zeroed, read back, and left at `0 + A·B`. -/
theorem accFirst_eq (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : condFirst i) (hc1 : ¬condLast i)
    (x0 : Vec F S1024x2048 .bf16) (x1 : Vec F S2048x256 .bf16) (x2 : Vec F S1024x256 .f32) (x3 : Vec F S1024x1 .f32) (x4 : Vec F S1x256 .f32) :
    accFirst c i arg2 harg2 arg3 harg3 arg4 harg4 arg5 harg5 arg6 harg6 arg7 harg7 arg8 harg8 hc0 hc1 x0 x1 x2 x3 x4 = k1_pay2 k1_pay1 x0 x1 := by
  unfold accFirst
  rw [View.read_writes_eq_canon _ _ _ (accCoverFirst c i arg2 harg2 arg3 harg3 arg4 harg4 arg5 harg5 arg6 harg6 arg7 harg7 arg8 harg8 hc0 hc1 x0 x1 x2 x3 x4)]
  unfold runFirst
  dsimp only
  sl_unfold_words
  rw [View.canon_cons_unit_zero (S := S1024x256) hz, View.readCov_unit_zero (S := S1024x256) _ hz]
  simp only [View.readAt_eq_ld, harg2.read_unread, harg3.read_unread, harg4.read_unread, harg5.read_unread, harg6.read_unread, harg8.read_unread, View.ld_unit_zero (S := S1024x2048) hz, View.ld_unit_zero (S := S2048x256) hz, View.ld_unit_zero (S := S1024x256) hz, View.ld_unit_zero (S := S1024x1) hz, View.ld_unit_zero (S := S1x256) hz]

end Cert.KernelIdeal.R1

end
-- ==== Proof.KI.R1Fin.lean ====
import proofs.«102678_j21827023798522_2_alg».proof.Proof.KI.R1Val
import Idealize.ShloMosaic.Lib.ValueIdx

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! # Region 1: the output array after the run, as ONE function of the region's five input arrays

Row block `I` (1024 rows) of the output is the epilogue of the accumulator after the four `k`-steps of that row block:
`acc₀ = 0 + M(I,0)·SY(0)`, `acc₁ = acc₀ + M(I,1)·SY(1)`, …, each `M(I,k)` a [1024,2048] block of the [8192,8192] matrix
and `SY(k)` a [2048,256] block of rows of the [8192,256] matrix. -/

/-! ## Blocks of the arrays, by index arithmetic -/

/-- Block (`I`, `k`) of the square matrix. -/
def blkM (M : S8192x8192.Idx → Elt F .bf16) (I : Fin 8) (k : Fin 4) : Vec F S1024x2048 .bf16 :=
  fun p => M (ix2 (⟨I.val * 1024 + (p 0).val, by have := I.isLt; have := idx2_lt0 p; omega⟩ : Fin 8192)
    (⟨k.val * 2048 + (p 1).val, by have := k.isLt; have := idx2_lt1 p; omega⟩ : Fin 8192))
/-- Row block `k` (2048 rows) of the tall matrix the square one multiplies. -/
def blkS (sy : S8192x256.Idx → Elt F .bf16) (k : Fin 4) : Vec F S2048x256 .bf16 :=
  fun p => sy (ix2 (⟨k.val * 2048 + (p 0).val, by have := k.isLt; have := idx2_lt0 p; omega⟩ : Fin 8192)
    (⟨(p 1).val, idx2_lt1 p⟩ : Fin 256))
/-- Row block `I` (1024 rows) of the tall f32 matrix of the diagonal term. -/
def blkY (y : S8192x256.Idx → Elt F .f32) (I : Fin 8) : Vec F S1024x256 .f32 :=
  fun p => y (ix2 (⟨I.val * 1024 + (p 0).val, by have := I.isLt; have := idx2_lt0 p; omega⟩ : Fin 8192)
    (⟨(p 1).val, idx2_lt1 p⟩ : Fin 256))
/-- Row block `I` of the column of row scales. -/
def blkD (dv : S8192x1.Idx → Elt F .f32) (I : Fin 8) : Vec F S1024x1 .f32 :=
  fun p => dv (ix2 (⟨I.val * 1024 + (p 0).val, by have := I.isLt; have := idx2_lt0 p; omega⟩ : Fin 8192)
    (⟨(p 1).val, idx2_lt1 p⟩ : Fin 1))

/-! ## The accumulator after each of the four steps, and the row block's result -/

def acc0 (M : S8192x8192.Idx → Elt F .bf16) (sy : S8192x256.Idx → Elt F .bf16) (I : Fin 8) : Vec F S1024x256 .f32 :=
  k1_pay2 k1_pay1 (blkM M I 0) (blkS sy 0)
def acc1 (M : S8192x8192.Idx → Elt F .bf16) (sy : S8192x256.Idx → Elt F .bf16) (I : Fin 8) : Vec F S1024x256 .f32 :=
  k1_pay2 (acc0 M sy I) (blkM M I 1) (blkS sy 1)
def acc2 (M : S8192x8192.Idx → Elt F .bf16) (sy : S8192x256.Idx → Elt F .bf16) (I : Fin 8) : Vec F S1024x256 .f32 :=
  k1_pay2 (acc1 M sy I) (blkM M I 2) (blkS sy 2)
def acc3 (M : S8192x8192.Idx → Elt F .bf16) (sy : S8192x256.Idx → Elt F .bf16) (I : Fin 8) : Vec F S1024x256 .f32 :=
  k1_pay2 (acc2 M sy I) (blkM M I 3) (blkS sy 3)

/-- Row block `I` of the result: the epilogue of the finished accumulator. -/
def blockVal (M : S8192x8192.Idx → Elt F .bf16) (sy : S8192x256.Idx → Elt F .bf16) (y : S8192x256.Idx → Elt F .f32) (dv : S8192x1.Idx → Elt F .f32) (bias : S1x256.Idx → Elt F .f32) (I : Fin 8) : Vec F S1024x256 .f32 :=
  k1_pay3 (blkD dv I) (acc3 M sy I) (blkY y I) bias

/-- The row block an index of the output lies in, and the index inside that block. -/
def rowBlk (i : S8192x256.Idx) : Fin 8 := ⟨(i 0).val / 1024, by have := idx2_lt0 i; omega⟩
def inBlk (i : S8192x256.Idx) : S1024x256.Idx :=
  ix2 (⟨(i 0).val % 1024, Nat.mod_lt _ (by norm_num)⟩ : Fin 1024) (⟨(i 1).val, idx2_lt1 i⟩ : Fin 256)

/-- THE RESULT ARRAY as one function of the five input arrays. -/
def G (M : S8192x8192.Idx → Elt F .bf16) (sy : S8192x256.Idx → Elt F .bf16) (y : S8192x256.Idx → Elt F .f32) (dv : S8192x1.Idx → Elt F .f32) (bias : S1x256.Idx → Elt F .f32) : S8192x256.Idx → Elt F .f32 :=
  fun i => blockVal M sy y dv bias (rowBlk i) (inBlk i)

/-! ## The windows' blocks are those blocks -/

/-- The printed index maps, decided over the grid: point `t` is row block `t / 4`, step `t % 4`. -/
theorem idxFacts : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = t.val / 4 ∧ win1_3.index t (1 : Fin 2) = 0
    ∧ win1_4.index t (0 : Fin 2) = 0 ∧ win1_4.index t (1 : Fin 2) = 0
    ∧ win1_5.index t (0 : Fin 2) = t.val / 4 ∧ win1_5.index t (1 : Fin 2) = 0 :=
  (by decide +kernel : ∀ t : Fin grid1.N, _)

variable (V : (c : Dev nD) → (b : Ref sig .tc) → Buf (Elt F) ((c : Thread nD τ).loc b))

theorem iblk0_eq (c : Dev nD) (t : Fin cfg1.N) (I : Fin 8) (k : Fin 4) (h : t.val = 4 * I.val + k.val) :
    iblk V c 0 t = blkM (V c main_v3) I k := by
  obtain ⟨e00, e01, -⟩ := idxFacts t
  have hk := k.isLt
  funext p
  show V c main_v3 (((cfg1.win 0).blk t).view.emb p) = V c main_v3 (ix2 _ _)
  refine congrArg _ (funext fun a => Fin.ext ?_)
  match a with
  | ⟨0, _⟩ => show win1_0.index t (0 : Fin 2) * 1024 + 1 * (p 0).val = I.val * 1024 + (p 0).val; omega
  | ⟨1, _⟩ => show win1_0.index t (1 : Fin 2) * 2048 + 1 * (p 1).val = k.val * 2048 + (p 1).val; omega

theorem iblk1_eq (c : Dev nD) (t : Fin cfg1.N) (I : Fin 8) (k : Fin 4) (h : t.val = 4 * I.val + k.val) :
    iblk V c 1 t = blkS (V c main_v16) k := by
  obtain ⟨-, -, e10, e11, -⟩ := idxFacts t
  have hk := k.isLt
  funext p
  show V c main_v16 (((cfg1.win 1).blk t).view.emb p) = V c main_v16 (ix2 _ _)
  refine congrArg _ (funext fun a => Fin.ext ?_)
  match a with
  | ⟨0, _⟩ => show win1_1.index t (0 : Fin 2) * 2048 + 1 * (p 0).val = k.val * 2048 + (p 0).val; omega
  | ⟨1, _⟩ => show win1_1.index t (1 : Fin 2) * 256 + 1 * (p 1).val = (p 1).val; omega

theorem iblk2_eq (c : Dev nD) (t : Fin cfg1.N) (I : Fin 8) (k : Fin 4) (h : t.val = 4 * I.val + k.val) :
    iblk V c 2 t = blkY (V c main_v12) I := by
  obtain ⟨-, -, -, -, e20, e21, -⟩ := idxFacts t
  have hk := k.isLt
  funext p
  show V c main_v12 (((cfg1.win 2).blk t).view.emb p) = V c main_v12 (ix2 _ _)
  refine congrArg _ (funext fun a => Fin.ext ?_)
  match a with
  | ⟨0, _⟩ => show win1_2.index t (0 : Fin 2) * 1024 + 1 * (p 0).val = I.val * 1024 + (p 0).val; omega
  | ⟨1, _⟩ => show win1_2.index t (1 : Fin 2) * 256 + 1 * (p 1).val = (p 1).val; omega

theorem iblk3_eq (c : Dev nD) (t : Fin cfg1.N) (I : Fin 8) (k : Fin 4) (h : t.val = 4 * I.val + k.val) :
    iblk V c 3 t = blkD (V c main_v11) I := by
  obtain ⟨-, -, -, -, -, -, e30, e31, -⟩ := idxFacts t
  have hk := k.isLt
  funext p
  show V c main_v11 (((cfg1.win 3).blk t).view.emb p) = V c main_v11 (ix2 _ _)
  refine congrArg _ (funext fun a => Fin.ext ?_)
  match a with
  | ⟨0, _⟩ => show win1_3.index t (0 : Fin 2) * 1024 + 1 * (p 0).val = I.val * 1024 + (p 0).val; omega
  | ⟨1, _⟩ => show win1_3.index t (1 : Fin 2) * 1 + 1 * (p 1).val = (p 1).val; omega

/-- The bias row's one block is the whole row. -/
theorem iblk4_eq (c : Dev nD) (t : Fin cfg1.N) : iblk V c 4 t = V c main_v13 := by
  obtain ⟨-, -, -, -, -, -, -, -, e40, e41, -⟩ := idxFacts t
  funext p
  show V c main_v13 (((cfg1.win 4).blk t).view.emb p) = V c main_v13 p
  refine congrArg _ (funext fun a => Fin.ext ?_)
  match a with
  | ⟨0, _⟩ => show win1_4.index t (0 : Fin 2) * 1 + 1 * (p 0).val = (p 0).val; omega
  | ⟨1, _⟩ => show win1_4.index t (1 : Fin 2) * 256 + 1 * (p 1).val = (p 1).val; omega

/-! ## The accumulator along a row block -/

theorem accAt_0 (c : Dev nD) (t : Fin cfg1.N) (I : Fin 8) (h : t.val = 4 * I.val + 0) :
    accAt V c t.val t.isLt = acc0 (V c main_v3) (V c main_v16) I := by
  rw [accAt_first V c t (by omega) (by omega), accFirst_eq, iblk0_eq V c t I 0 h, iblk1_eq V c t I 0 h]; rfl

theorem accAt_1 (c : Dev nD) (t : Fin cfg1.N) (I : Fin 8) (h : t.val = 4 * I.val + 1) :
    accAt V c t.val t.isLt = acc1 (V c main_v3) (V c main_v16) I := by
  rw [accAt_mid V c t (by omega) (by omega), accMid_eq, iblk0_eq V c t I 1 h, iblk1_eq V c t I 1 h,
    show accAt V c (t.val - 1) _ = _ from accAt_0 V c ⟨t.val - 1, Nat.lt_of_le_of_lt (Nat.sub_le _ _) t.isLt⟩ I (by show t.val - 1 = _; omega)]; rfl

theorem accAt_2 (c : Dev nD) (t : Fin cfg1.N) (I : Fin 8) (h : t.val = 4 * I.val + 2) :
    accAt V c t.val t.isLt = acc2 (V c main_v3) (V c main_v16) I := by
  rw [accAt_mid V c t (by omega) (by omega), accMid_eq, iblk0_eq V c t I 2 h, iblk1_eq V c t I 2 h,
    show accAt V c (t.val - 1) _ = _ from accAt_1 V c ⟨t.val - 1, Nat.lt_of_le_of_lt (Nat.sub_le _ _) t.isLt⟩ I (by show t.val - 1 = _; omega)]; rfl

/-! ## What a flushing point writes back, and the array after the run -/

/-- The output window's block at point `t`, index by index. -/
theorem mem_blk5 (t : Fin cfg1.N) (i : S8192x256.Idx) :
    i ∈ ((cfg1.win 5).blk t).view.set ↔ ∀ a : Fin 2, win1_5.index t a * S1024x256.size a ≤ (i a).val ∧ (i a).val < win1_5.index t a * S1024x256.size a + S1024x256.size a := by
  show i ∈ ((View.whole main_v17).slice (win1_5.rect t)).set ↔ _
  rw [View.set_slice_whole, Rect.mem_set_unit]
  exact Iff.rfl

/-- WHAT POINT `t` WRITES BACK (a last `k`) is block `t` of `G` of the arrays as the region finds them. -/
theorem flushed_eq (c : Dev nD) (t : Fin cfg1.N) (hf : (cfg1.win 5).flush t = true) :
    (dat V c).flushed 5 t = ((cfg1.win 5).blk t).view.read (Elt F) (G (V c main_v3) (V c main_v16) (V c main_v12) (V c main_v11) (V c main_v13)) := by
  have h3 : t.val % 4 = 3 := (flush1_5 t).mp hf
  have hN : t.val < 32 := lt_of_lt_of_eq t.isLt (show cfg1.N = 32 from N_1)
  obtain ⟨I, hI⟩ : ∃ I : Fin 8, t.val = 4 * I.val + 3 := ⟨⟨t.val / 4, by omega⟩, by show t.val = 4 * (t.val / 4) + 3; omega⟩
  obtain ⟨-, -, -, -, -, -, -, -, -, -, e50, e51⟩ := idxFacts t
  show (cfg1.win 5).cut (grid1.coords t) ((dat V c).after 5 t) = _
  rw [after5, outAt_last V c t (by omega) h3, outLast_eq, iblk0_eq V c t I 3 hI, iblk1_eq V c t I 3 hI, iblk2_eq V c t I 3 hI,
    iblk3_eq V c t I 3 hI, iblk4_eq V c t,
    show accAt V c (t.val - 1) _ = _ from accAt_2 V c ⟨t.val - 1, Nat.lt_of_le_of_lt (Nat.sub_le _ _) t.isLt⟩ I (by show t.val - 1 = _; omega)]
  funext j
  have h1 : rowBlk (((cfg1.win 5).blk t).view.emb j) = I := Fin.ext (by
    show (win1_5.index t (0 : Fin 2) * 1024 + 1 * (j 0).val) / 1024 = I.val
    have := idx2_lt0 j; omega)
  have h2 : inBlk (((cfg1.win 5).blk t).view.emb j) = j := by
    funext a; apply Fin.ext
    match a with
    | ⟨0, _⟩ => show (win1_5.index t (0 : Fin 2) * 1024 + 1 * (j 0).val) % 1024 = (j 0).val; have := idx2_lt0 j; omega
    | ⟨1, _⟩ => show win1_5.index t (1 : Fin 2) * 256 + 1 * (j 1).val = (j 1).val; omega
  show _ = blockVal (V c main_v3) (V c main_v16) (V c main_v12) (V c main_v11) (V c main_v13) (rowBlk (((cfg1.win 5).blk t).view.emb j)) (inBlk (((cfg1.win 5).blk t).view.emb j))
  rw [h1, h2]; rfl

/-- THE ARRAY AFTER THE RUN: the output window's array ends holding `G` of the five input arrays. -/
theorem final (c : Dev nD) : (dat V c).arrAt 5 cfg1.N = G (V c main_v3) (V c main_v16) (V c main_v12) (V c main_v11) (V c main_v13) :=
  (dat V c).arrAt_eq_of_cover 5 (G (V c main_v3) (V c main_v16) (V c main_v12) (V c main_v11) (V c main_v13)) (flushed_eq V c) fun i => by
    have hi0 : (i 0).val < 8192 := (i 0).isLt
    have hi1 : (i 1).val < 256 := (i 1).isLt
    refine ⟨⟨4 * ((i 0).val / 1024) + 3, by rw [show cfg1.N = 32 from N_1]; omega⟩, (flush1_5 _).mpr (by show (4 * ((i 0).val / 1024) + 3) % 4 = 3; omega), ?_⟩
    obtain ⟨-, -, -, -, -, -, -, -, -, -, e50, e51⟩ := idxFacts ⟨4 * ((i 0).val / 1024) + 3, by rw [show cfg1.N = 32 from N_1]; omega⟩
    rw [mem_blk5]
    intro a
    match a with
    | ⟨0, _⟩ => show win1_5.index _ (0 : Fin 2) * 1024 ≤ (i 0).val ∧ (i 0).val < win1_5.index _ (0 : Fin 2) * 1024 + 1024; dsimp only at e50; omega
    | ⟨1, _⟩ => show win1_5.index _ (1 : Fin 2) * 256 ≤ (i 1).val ∧ (i 1).val < win1_5.index _ (1 : Fin 2) * 256 + 256; omega

end Cert.KernelIdeal.R1

end
-- ==== Proof.LibColumn.lean ====
/-
  Three readings of array operations at one entry, general in the extents: a vector made a column, a column
  repeated along the rows, and the sum of a matrix's rows on the extended reals.

  A reduction over the last axis of a matrix that keeps its dimensions (a row's maximum subtracted from the row,
  a row divided by its sum) is spelt with these: the vector of row values [a] is cast to a column [a, 1], and
  the column is broadcast to [a, b]. The result has the row's value at every entry of the row. The row sum
  itself, an additive reduction along the second axis from the zero word, is at row n the finite sum of the
  entries (n, m).
-/
import Idealize.ShloMosaic.PureOps.Ideal.Laws
import Idealize.ShloMosaic.Lib.ValueIdx
import Idealize.ShloMosaic.Lib.Pipeline.Value

noncomputable section

open scoped BigOperators

namespace Cert.LibColumn

open Idealize.ShloMosaic Idealize.ShloMosaic.ValueIdx

/-! ## Two layout readings: a vector as a column, a column repeated along the rows -/

section Layout
variable {α : Type}

/-- A vector [a] cast to a column [a, 1] reads, at (i, u), the vector at i: in row-major order the position of
    (i, u) in [a, 1] is i · 1 + u, and u = 0 because the second axis has one coordinate, so it is the position i
    of the vector's entry. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). A broadcast keeps a coordinate on
    an axis the operand shares and puts 0 on an axis where the operand has extent one. The second axis has
    extent one, so its coordinate is 0; on the first axis the coordinate p is kept, and if a = 1 then p = 0
    anyway. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two composed: a vector v [a] made a column and the column repeated along each row gives the matrix
    whose entry (n, m) is v(n), whatever m. This is how the kernel subtracts a row's maximum from the row and
    divides a row by its sum. -/
theorem column_apply {a b : ℕ} (v : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (n : Fin a) (m : Fin b) :
    broadcastTo ⟨2, ![a, b]⟩ (shapeCast ⟨2, ![a, 1]⟩ v h₁) h₂ (ix2 n m) = v (ix1 n) :=
  (broadcastTo_a1_ab_apply _ h₂ n m).trans (shapeCast_a_a1_apply v h₁ n 0)

end Layout

/-! ## The sum of a row -/

/-- An additive reduction of a matrix [a, b] along its second axis, from the zero word, is at n the sum over
    m < b of the entries (n, m). The library reads the reduction as the sum over the reduced axis of the source
    at the result index with the reduced coordinate put back in; for a matrix reduced along its columns that
    index is (n, m), coordinate by coordinate. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (n : Fin a) :
    multiReduction (F := Ideal) .add [1] ⟨1, ![a]⟩ src 0x00000000#32 h hφ hacc (ix1 n) = ∑ m : Fin b, src (ix2 n m) :=
  (Ideal.multiReduction_add_single src 0x00000000#32 h hφ hacc (ix1 n)).trans
    (Finset.sum_congr rfl fun m _ => congrArg src (funext fun c => Fin.ext (by
      match c with
      | ⟨0, _⟩ => rfl
      | ⟨1, _⟩ => rfl)))

end Cert.LibColumn

end
-- ==== Proof.KI.R1Ideal.lean ====
import proofs.«102678_j21827023798522_2_alg».proof.Proof.KI.R1Fin
import proofs.«102678_j21827023798522_2_alg».proof.Proof.LibPlainDot
import proofs.«102678_j21827023798522_2_alg».proof.Proof.LibColumn
import Idealize.ShloMosaic.PureOps.Ideal.Laws

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

/-! # Region 1 on the extended reals: the result array, entry by entry

Entry (r, q) is `max (d·(∑ⱼ M(r,j)·S(j,q)) + (d·d)·y(r,q) + b(q)) 0` with `d` the row's scale: the four `k`-steps' partial
products add up to the whole contraction (sums on the extended reals are associative and commutative), the zero block is 0,
and the column and row broadcasts read their operand at the row resp. the column. -/

/-- A row [1, b] broadcast to [a, b] reads, at (p, q), the row at (0, q). -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The contraction over 8192 columns is the sum over the four column blocks of the sums inside each. -/
theorem sum_split (f : Fin 8192 → EReal) :
    ∑ x, f x = ∑ k : Fin 4, ∑ j : Fin 2048, f ⟨k.val * 2048 + j.val, by have := k.isLt; have := j.isLt; omega⟩ := by
  rw [← Equiv.sum_comp (finProdFinEquiv (m := 4) (n := 2048)) f, Fintype.sum_prod_type]
  refine Finset.sum_congr rfl fun k _ => Finset.sum_congr rfl fun j _ => congrArg f (Fin.ext ?_)
  show j.val + 2048 * k.val = k.val * 2048 + j.val
  omega

/-- The zero block is 0. -/
theorem pay1_apply (i : S1024x256.Idx) : (k1_pay1 (F := Ideal)) i = 0 := by
  unfold k1_pay1
  simp only [shapeCast_self]
  exact Ideal.ofBits_zero_f32

/-- One step of the accumulation at an entry: the accumulator plus the block product's entry. -/
theorem pay2_apply (acc : Vec Ideal S1024x256 .f32) (A : Vec Ideal S1024x2048 .bf16) (B : Vec Ideal S2048x256 .bf16)
    (p : Fin 1024) (q : Fin 256) :
    k1_pay2 acc A B (ix2 p q) = acc (ix2 p q) + ∑ j : Fin 2048, A (ix2 p j) * B (ix2 j q) := by
  unfold k1_pay2
  simp only [shapeCast_self]
  rw [addf_apply]
  exact congrArg (acc (ix2 p q) + ·) (Cert.LibPlainDot.matmul_zero_apply none A B p q)

/-- The epilogue at an entry. -/
theorem pay3_apply (d : Vec Ideal S1024x1 .f32) (acc : Vec Ideal S1024x256 .f32) (yb : Vec Ideal S1024x256 .f32)
    (b : Vec Ideal S1x256 .f32) (p : Fin 1024) (q : Fin 256) :
    k1_pay3 d acc yb b (ix2 p q)
      = max (d (ix2 p (0 : Fin 1)) * acc (ix2 p q) + (d (ix2 p (0 : Fin 1)) * d (ix2 p (0 : Fin 1))) * yb (ix2 p q) + b (ix2 (0 : Fin 1) q)) 0 := by
  unfold k1_pay3
  simp only [shapeCast_self]
  rw [maximumf_apply, addf_apply, addf_apply, mulf_apply, mulf_apply,
    Cert.LibColumn.broadcastTo_a1_ab_apply, Cert.LibColumn.broadcastTo_a1_ab_apply, mulf_apply, broadcastTo_1b_ab_apply]
  exact congrArg (max _) Ideal.ofBits_zero_f32

/-- The finished accumulator of row block `I` at an entry: the four blocks' products, block by block. -/
theorem acc3_apply (M : S8192x8192.Idx → Elt Ideal .bf16) (sy : S8192x256.Idx → Elt Ideal .bf16) (I : Fin 8) (p : Fin 1024) (q : Fin 256) :
    acc3 M sy I (ix2 p q)
      = ∑ k : Fin 4, ∑ j : Fin 2048,
          M (ix2 (⟨I.val * 1024 + p.val, by have := I.isLt; have := p.isLt; omega⟩ : Fin 8192) (⟨k.val * 2048 + j.val, by have := k.isLt; have := j.isLt; omega⟩ : Fin 8192))
            * sy (ix2 (⟨k.val * 2048 + j.val, by have := k.isLt; have := j.isLt; omega⟩ : Fin 8192) q) := by
  unfold acc3 acc2 acc1 acc0
  rw [pay2_apply, pay2_apply, pay2_apply, pay2_apply, pay1_apply, zero_add, Fin.sum_univ_four]
  rfl

/-- An index in row `I·1024 + p` lies in row block `I`, at row `p` of it. -/
theorem rowBlk_mk (I : Fin 8) (p : Fin 1024) (q : Fin 256) (h : I.val * 1024 + p.val < 8192) :
    rowBlk (ix2 (⟨I.val * 1024 + p.val, h⟩ : Fin 8192) q) = I :=
  Fin.ext (by show (I.val * 1024 + p.val) / 1024 = I.val; have := p.isLt; omega)
theorem inBlk_mk (I : Fin 8) (p : Fin 1024) (q : Fin 256) (h : I.val * 1024 + p.val < 8192) :
    inBlk (ix2 (⟨I.val * 1024 + p.val, h⟩ : Fin 8192) q) = ix2 p q := by
  funext a; apply Fin.ext
  match a with
  | ⟨0, _⟩ => show (I.val * 1024 + p.val) % 1024 = p.val; have := p.isLt; omega
  | ⟨1, _⟩ => rfl

/-- THE RESULT ARRAY ON THE EXTENDED REALS, entry by entry. -/
theorem G_apply_ideal (M : S8192x8192.Idx → Elt Ideal .bf16) (sy : S8192x256.Idx → Elt Ideal .bf16) (y : S8192x256.Idx → Elt Ideal .f32) (dv : S8192x1.Idx → Elt Ideal .f32) (bias : S1x256.Idx → Elt Ideal .f32) (r : Fin 8192) (q : Fin 256) :
    G (F := Ideal) M sy y dv bias (ix2 r q)
      = max (dv (ix2 r (0 : Fin 1)) * (∑ j : Fin 8192, M (ix2 r j) * sy (ix2 j q)) + (dv (ix2 r (0 : Fin 1)) * dv (ix2 r (0 : Fin 1))) * y (ix2 r q) + bias (ix2 (0 : Fin 1) q)) 0 := by
  obtain ⟨I, p, rfl⟩ : ∃ (I : Fin 8) (p : Fin 1024), r = ⟨I.val * 1024 + p.val, by have := I.isLt; have := p.isLt; omega⟩ := by
    have hr : r.val < 8192 := r.isLt
    exact ⟨⟨r.val / 1024, by omega⟩, ⟨r.val % 1024, Nat.mod_lt _ (by norm_num)⟩, Fin.ext (by show r.val = r.val / 1024 * 1024 + r.val % 1024; omega)⟩
  show blockVal M sy y dv bias (rowBlk _) (inBlk _) = _
  rw [rowBlk_mk, inBlk_mk]
  unfold blockVal
  rw [pay3_apply, acc3_apply, sum_split]
  rfl

end Cert.KernelIdeal.R1

end
-- ==== Proof.KI.R2Val.lean ====
import proofs.«102678_j21827023798522_2_alg».proof.Proof.KI.R2
import Idealize.ShloMosaic.Lib.Pipeline.Value

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 2: what each control case leaves, as values of the payloads -/

theorem hz : (![0, 0] : Fin 2 → Nat) = fun _ => 0 := funext fun a => by fin_cases a <;> rfl

/-- At a middle `k` the accumulator holding `xs` is left at `xs + A·B` of the two matrix blocks. -/
theorem accMid_eq (c : Dev nD) (i : grid2.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : ¬condLast i)
    (x0 : Vec F S1024x2048 .bf16) (x1 : Vec F S2048x256 .bf16) (x2 : Vec F S1024x256 .f32) (x3 : Vec F S1024x1 .f32) (x4 : Vec F S1x256 .f32) (xs : Vec F S1024x256 .f32) :
    accMid c i arg2 harg2 arg3 harg3 arg4 harg4 arg5 harg5 arg6 harg6 arg7 harg7 arg8 harg8 hc0 hc1 x0 x1 x2 x3 x4 xs = k2_pay2 xs x0 x1 := by
  unfold accMid
  rw [View.read_writes_eq_canon _ _ _ (accCoverMid c i arg2 harg2 arg3 harg3 arg4 harg4 arg5 harg5 arg6 harg6 arg7 harg7 arg8 harg8 hc0 hc1 x0 x1 x2 x3 x4 xs)]
  unfold runMid
  dsimp only
  sl_unfold_words
  rw [View.canon_unit_zero hz]
  simp only [View.readAt_eq_ld, harg2.read_unread, harg3.read_unread, harg4.read_unread, harg5.read_unread, harg6.read_unread, harg8.read_unread, View.ld_unit_zero (S := S1024x2048) hz, View.ld_unit_zero (S := S2048x256) hz, View.ld_unit_zero (S := S1024x256) hz, View.ld_unit_zero (S := S1024x1) hz, View.ld_unit_zero (S := S1x256) hz]

/-- At the last `k` likewise, -/
theorem accLast_eq (c : Dev nD) (i : grid2.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : condLast i)
    (x0 : Vec F S1024x2048 .bf16) (x1 : Vec F S2048x256 .bf16) (x2 : Vec F S1024x256 .f32) (x3 : Vec F S1024x1 .f32) (x4 : Vec F S1x256 .f32) (xs : Vec F S1024x256 .f32) :
    accLast c i arg2 harg2 arg3 harg3 arg4 harg4 arg5 harg5 arg6 harg6 arg7 harg7 arg8 harg8 hc0 hc1 x0 x1 x2 x3 x4 xs = k2_pay2 xs x0 x1 := by
  unfold accLast
  rw [View.read_writes_eq_canon _ _ _ (accCoverLast c i arg2 harg2 arg3 harg3 arg4 harg4 arg5 harg5 arg6 harg6 arg7 harg7 arg8 harg8 hc0 hc1 x0 x1 x2 x3 x4 xs)]
  unfold runLast
  dsimp only
  sl_unfold_words
  rw [View.canon_unit_zero hz]
  simp only [View.readAt_eq_ld, harg2.read_unread, harg3.read_unread, harg4.read_unread, harg5.read_unread, harg6.read_unread, harg8.read_unread, View.ld_unit_zero (S := S1024x2048) hz, View.ld_unit_zero (S := S2048x256) hz, View.ld_unit_zero (S := S1024x256) hz, View.ld_unit_zero (S := S1024x1) hz, View.ld_unit_zero (S := S1x256) hz]

/-- and the output window's buffer is left at the epilogue of that sum. -/
theorem outLast_eq (c : Dev nD) (i : grid2.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬condFirst i) (hc1 : condLast i)
    (x0 : Vec F S1024x2048 .bf16) (x1 : Vec F S2048x256 .bf16) (x2 : Vec F S1024x256 .f32) (x3 : Vec F S1024x1 .f32) (x4 : Vec F S1x256 .f32) (xs : Vec F S1024x256 .f32) :
    outLast c i arg2 harg2 arg3 harg3 arg4 harg4 arg5 harg5 arg6 harg6 arg7 harg7 arg8 harg8 hc0 hc1 x0 x1 x2 x3 x4 xs = k2_pay3 x3 (k2_pay2 xs x0 x1) x2 x4 := by
  unfold outLast
  rw [View.read_writes_eq_canon _ _ _ (outCoverLast c i arg2 harg2 arg3 harg3 arg4 harg4 arg5 harg5 arg6 harg6 arg7 harg7 arg8 harg8 hc0 hc1 x0 x1 x2 x3 x4 xs)]
  unfold runLast
  dsimp only
  sl_unfold_words
  rw [View.canon_unit_zero hz, View.readCov_unit_zero (S := S1024x256) _ hz]
  simp only [View.readAt_eq_ld, harg2.read_unread, harg3.read_unread, harg4.read_unread, harg5.read_unread, harg6.read_unread, harg8.read_unread, View.ld_unit_zero (S := S1024x2048) hz, View.ld_unit_zero (S := S2048x256) hz, View.ld_unit_zero (S := S1024x256) hz, View.ld_unit_zero (S := S1024x1) hz, View.ld_unit_zero (S := S1x256) hz]

/-- At the first `k` the accumulator is zeroed, read back, and left at `0 + A·B`. -/
theorem accFirst_eq (c : Dev nD) (i : grid2.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x1 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : condFirst i) (hc1 : ¬condLast i)
    (x0 : Vec F S1024x2048 .bf16) (x1 : Vec F S2048x256 .bf16) (x2 : Vec F S1024x256 .f32) (x3 : Vec F S1024x1 .f32) (x4 : Vec F S1x256 .f32) :
    accFirst c i arg2 harg2 arg3 harg3 arg4 harg4 arg5 harg5 arg6 harg6 arg7 harg7 arg8 harg8 hc0 hc1 x0 x1 x2 x3 x4 = k2_pay2 k2_pay1 x0 x1 := by
  unfold accFirst
  rw [View.read_writes_eq_canon _ _ _ (accCoverFirst c i arg2 harg2 arg3 harg3 arg4 harg4 arg5 harg5 arg6 harg6 arg7 harg7 arg8 harg8 hc0 hc1 x0 x1 x2 x3 x4)]
  unfold runFirst
  dsimp only
  sl_unfold_words
  rw [View.canon_cons_unit_zero (S := S1024x256) hz, View.readCov_unit_zero (S := S1024x256) _ hz]
  simp only [View.readAt_eq_ld, harg2.read_unread, harg3.read_unread, harg4.read_unread, harg5.read_unread, harg6.read_unread, harg8.read_unread, View.ld_unit_zero (S := S1024x2048) hz, View.ld_unit_zero (S := S2048x256) hz, View.ld_unit_zero (S := S1024x256) hz, View.ld_unit_zero (S := S1024x1) hz, View.ld_unit_zero (S := S1x256) hz]

end Cert.KernelIdeal.R2

end
-- ==== Proof.KI.R2Fin.lean ====
import proofs.«102678_j21827023798522_2_alg».proof.Proof.KI.R2Val
import Idealize.ShloMosaic.Lib.ValueIdx

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! # Region 2: the output array after the run, as ONE function of the region's five input arrays

Row block `I` (1024 rows) of the output is the epilogue of the accumulator after the four `k`-steps of that row block:
`acc₀ = 0 + M(I,0)·SY(0)`, `acc₁ = acc₀ + M(I,1)·SY(1)`, …, each `M(I,k)` a [1024,2048] block of the [8192,8192] matrix
and `SY(k)` a [2048,256] block of rows of the [8192,256] matrix. -/

/-! ## Blocks of the arrays, by index arithmetic -/

/-- Block (`I`, `k`) of the square matrix. -/
def blkM (M : S8192x8192.Idx → Elt F .bf16) (I : Fin 8) (k : Fin 4) : Vec F S1024x2048 .bf16 :=
  fun p => M (ix2 (⟨I.val * 1024 + (p 0).val, by have := I.isLt; have := idx2_lt0 p; omega⟩ : Fin 8192)
    (⟨k.val * 2048 + (p 1).val, by have := k.isLt; have := idx2_lt1 p; omega⟩ : Fin 8192))
/-- Row block `k` (2048 rows) of the tall matrix the square one multiplies. -/
def blkS (sy : S8192x256.Idx → Elt F .bf16) (k : Fin 4) : Vec F S2048x256 .bf16 :=
  fun p => sy (ix2 (⟨k.val * 2048 + (p 0).val, by have := k.isLt; have := idx2_lt0 p; omega⟩ : Fin 8192)
    (⟨(p 1).val, idx2_lt1 p⟩ : Fin 256))
/-- Row block `I` (1024 rows) of the tall f32 matrix of the diagonal term. -/
def blkY (y : S8192x256.Idx → Elt F .f32) (I : Fin 8) : Vec F S1024x256 .f32 :=
  fun p => y (ix2 (⟨I.val * 1024 + (p 0).val, by have := I.isLt; have := idx2_lt0 p; omega⟩ : Fin 8192)
    (⟨(p 1).val, idx2_lt1 p⟩ : Fin 256))
/-- Row block `I` of the column of row scales. -/
def blkD (dv : S8192x1.Idx → Elt F .f32) (I : Fin 8) : Vec F S1024x1 .f32 :=
  fun p => dv (ix2 (⟨I.val * 1024 + (p 0).val, by have := I.isLt; have := idx2_lt0 p; omega⟩ : Fin 8192)
    (⟨(p 1).val, idx2_lt1 p⟩ : Fin 1))

/-! ## The accumulator after each of the four steps, and the row block's result -/

def acc0 (M : S8192x8192.Idx → Elt F .bf16) (sy : S8192x256.Idx → Elt F .bf16) (I : Fin 8) : Vec F S1024x256 .f32 :=
  k2_pay2 k2_pay1 (blkM M I 0) (blkS sy 0)
def acc1 (M : S8192x8192.Idx → Elt F .bf16) (sy : S8192x256.Idx → Elt F .bf16) (I : Fin 8) : Vec F S1024x256 .f32 :=
  k2_pay2 (acc0 M sy I) (blkM M I 1) (blkS sy 1)
def acc2 (M : S8192x8192.Idx → Elt F .bf16) (sy : S8192x256.Idx → Elt F .bf16) (I : Fin 8) : Vec F S1024x256 .f32 :=
  k2_pay2 (acc1 M sy I) (blkM M I 2) (blkS sy 2)
def acc3 (M : S8192x8192.Idx → Elt F .bf16) (sy : S8192x256.Idx → Elt F .bf16) (I : Fin 8) : Vec F S1024x256 .f32 :=
  k2_pay2 (acc2 M sy I) (blkM M I 3) (blkS sy 3)

/-- Row block `I` of the result: the epilogue of the finished accumulator. -/
def blockVal (M : S8192x8192.Idx → Elt F .bf16) (sy : S8192x256.Idx → Elt F .bf16) (y : S8192x256.Idx → Elt F .f32) (dv : S8192x1.Idx → Elt F .f32) (bias : S1x256.Idx → Elt F .f32) (I : Fin 8) : Vec F S1024x256 .f32 :=
  k2_pay3 (blkD dv I) (acc3 M sy I) (blkY y I) bias

/-- The row block an index of the output lies in, and the index inside that block. -/
def rowBlk (i : S8192x256.Idx) : Fin 8 := ⟨(i 0).val / 1024, by have := idx2_lt0 i; omega⟩
def inBlk (i : S8192x256.Idx) : S1024x256.Idx :=
  ix2 (⟨(i 0).val % 1024, Nat.mod_lt _ (by norm_num)⟩ : Fin 1024) (⟨(i 1).val, idx2_lt1 i⟩ : Fin 256)

/-- THE RESULT ARRAY as one function of the five input arrays. -/
def G (M : S8192x8192.Idx → Elt F .bf16) (sy : S8192x256.Idx → Elt F .bf16) (y : S8192x256.Idx → Elt F .f32) (dv : S8192x1.Idx → Elt F .f32) (bias : S1x256.Idx → Elt F .f32) : S8192x256.Idx → Elt F .f32 :=
  fun i => blockVal M sy y dv bias (rowBlk i) (inBlk i)

/-! ## The windows' blocks are those blocks -/

/-- The printed index maps, decided over the grid: point `t` is row block `t / 4`, step `t % 4`. -/
theorem idxFacts : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0
    ∧ win2_3.index t (0 : Fin 2) = t.val / 4 ∧ win2_3.index t (1 : Fin 2) = 0
    ∧ win2_4.index t (0 : Fin 2) = 0 ∧ win2_4.index t (1 : Fin 2) = 0
    ∧ win2_5.index t (0 : Fin 2) = t.val / 4 ∧ win2_5.index t (1 : Fin 2) = 0 :=
  (by decide +kernel : ∀ t : Fin grid2.N, _)

variable (V : (c : Dev nD) → (b : Ref sig .tc) → Buf (Elt F) ((c : Thread nD τ).loc b))

theorem iblk0_eq (c : Dev nD) (t : Fin cfg2.N) (I : Fin 8) (k : Fin 4) (h : t.val = 4 * I.val + k.val) :
    iblk V c 0 t = blkM (V c main_v3) I k := by
  obtain ⟨e00, e01, -⟩ := idxFacts t
  have hk := k.isLt
  funext p
  show V c main_v3 (((cfg2.win 0).blk t).view.emb p) = V c main_v3 (ix2 _ _)
  refine congrArg _ (funext fun a => Fin.ext ?_)
  match a with
  | ⟨0, _⟩ => show win2_0.index t (0 : Fin 2) * 1024 + 1 * (p 0).val = I.val * 1024 + (p 0).val; omega
  | ⟨1, _⟩ => show win2_0.index t (1 : Fin 2) * 2048 + 1 * (p 1).val = k.val * 2048 + (p 1).val; omega

theorem iblk1_eq (c : Dev nD) (t : Fin cfg2.N) (I : Fin 8) (k : Fin 4) (h : t.val = 4 * I.val + k.val) :
    iblk V c 1 t = blkS (V c main_v22) k := by
  obtain ⟨-, -, e10, e11, -⟩ := idxFacts t
  have hk := k.isLt
  funext p
  show V c main_v22 (((cfg2.win 1).blk t).view.emb p) = V c main_v22 (ix2 _ _)
  refine congrArg _ (funext fun a => Fin.ext ?_)
  match a with
  | ⟨0, _⟩ => show win2_1.index t (0 : Fin 2) * 2048 + 1 * (p 0).val = k.val * 2048 + (p 0).val; omega
  | ⟨1, _⟩ => show win2_1.index t (1 : Fin 2) * 256 + 1 * (p 1).val = (p 1).val; omega

theorem iblk2_eq (c : Dev nD) (t : Fin cfg2.N) (I : Fin 8) (k : Fin 4) (h : t.val = 4 * I.val + k.val) :
    iblk V c 2 t = blkY (V c main_v18) I := by
  obtain ⟨-, -, -, -, e20, e21, -⟩ := idxFacts t
  have hk := k.isLt
  funext p
  show V c main_v18 (((cfg2.win 2).blk t).view.emb p) = V c main_v18 (ix2 _ _)
  refine congrArg _ (funext fun a => Fin.ext ?_)
  match a with
  | ⟨0, _⟩ => show win2_2.index t (0 : Fin 2) * 1024 + 1 * (p 0).val = I.val * 1024 + (p 0).val; omega
  | ⟨1, _⟩ => show win2_2.index t (1 : Fin 2) * 256 + 1 * (p 1).val = (p 1).val; omega

theorem iblk3_eq (c : Dev nD) (t : Fin cfg2.N) (I : Fin 8) (k : Fin 4) (h : t.val = 4 * I.val + k.val) :
    iblk V c 3 t = blkD (V c main_v11) I := by
  obtain ⟨-, -, -, -, -, -, e30, e31, -⟩ := idxFacts t
  have hk := k.isLt
  funext p
  show V c main_v11 (((cfg2.win 3).blk t).view.emb p) = V c main_v11 (ix2 _ _)
  refine congrArg _ (funext fun a => Fin.ext ?_)
  match a with
  | ⟨0, _⟩ => show win2_3.index t (0 : Fin 2) * 1024 + 1 * (p 0).val = I.val * 1024 + (p 0).val; omega
  | ⟨1, _⟩ => show win2_3.index t (1 : Fin 2) * 1 + 1 * (p 1).val = (p 1).val; omega

/-- The bias row's one block is the whole row. -/
theorem iblk4_eq (c : Dev nD) (t : Fin cfg2.N) : iblk V c 4 t = V c main_v19 := by
  obtain ⟨-, -, -, -, -, -, -, -, e40, e41, -⟩ := idxFacts t
  funext p
  show V c main_v19 (((cfg2.win 4).blk t).view.emb p) = V c main_v19 p
  refine congrArg _ (funext fun a => Fin.ext ?_)
  match a with
  | ⟨0, _⟩ => show win2_4.index t (0 : Fin 2) * 1 + 1 * (p 0).val = (p 0).val; omega
  | ⟨1, _⟩ => show win2_4.index t (1 : Fin 2) * 256 + 1 * (p 1).val = (p 1).val; omega

/-! ## The accumulator along a row block -/

theorem accAt_0 (c : Dev nD) (t : Fin cfg2.N) (I : Fin 8) (h : t.val = 4 * I.val + 0) :
    accAt V c t.val t.isLt = acc0 (V c main_v3) (V c main_v22) I := by
  rw [accAt_first V c t (by omega) (by omega), accFirst_eq, iblk0_eq V c t I 0 h, iblk1_eq V c t I 0 h]; rfl

theorem accAt_1 (c : Dev nD) (t : Fin cfg2.N) (I : Fin 8) (h : t.val = 4 * I.val + 1) :
    accAt V c t.val t.isLt = acc1 (V c main_v3) (V c main_v22) I := by
  rw [accAt_mid V c t (by omega) (by omega), accMid_eq, iblk0_eq V c t I 1 h, iblk1_eq V c t I 1 h,
    show accAt V c (t.val - 1) _ = _ from accAt_0 V c ⟨t.val - 1, Nat.lt_of_le_of_lt (Nat.sub_le _ _) t.isLt⟩ I (by show t.val - 1 = _; omega)]; rfl

theorem accAt_2 (c : Dev nD) (t : Fin cfg2.N) (I : Fin 8) (h : t.val = 4 * I.val + 2) :
    accAt V c t.val t.isLt = acc2 (V c main_v3) (V c main_v22) I := by
  rw [accAt_mid V c t (by omega) (by omega), accMid_eq, iblk0_eq V c t I 2 h, iblk1_eq V c t I 2 h,
    show accAt V c (t.val - 1) _ = _ from accAt_1 V c ⟨t.val - 1, Nat.lt_of_le_of_lt (Nat.sub_le _ _) t.isLt⟩ I (by show t.val - 1 = _; omega)]; rfl

/-! ## What a flushing point writes back, and the array after the run -/

/-- The output window's block at point `t`, index by index. -/
theorem mem_blk5 (t : Fin cfg2.N) (i : S8192x256.Idx) :
    i ∈ ((cfg2.win 5).blk t).view.set ↔ ∀ a : Fin 2, win2_5.index t a * S1024x256.size a ≤ (i a).val ∧ (i a).val < win2_5.index t a * S1024x256.size a + S1024x256.size a := by
  show i ∈ ((View.whole main_v23).slice (win2_5.rect t)).set ↔ _
  rw [View.set_slice_whole, Rect.mem_set_unit]
  exact Iff.rfl

/-- WHAT POINT `t` WRITES BACK (a last `k`) is block `t` of `G` of the arrays as the region finds them. -/
theorem flushed_eq (c : Dev nD) (t : Fin cfg2.N) (hf : (cfg2.win 5).flush t = true) :
    (dat V c).flushed 5 t = ((cfg2.win 5).blk t).view.read (Elt F) (G (V c main_v3) (V c main_v22) (V c main_v18) (V c main_v11) (V c main_v19)) := by
  have h3 : t.val % 4 = 3 := (flush2_5 t).mp hf
  have hN : t.val < 32 := lt_of_lt_of_eq t.isLt (show cfg2.N = 32 from N_2)
  obtain ⟨I, hI⟩ : ∃ I : Fin 8, t.val = 4 * I.val + 3 := ⟨⟨t.val / 4, by omega⟩, by show t.val = 4 * (t.val / 4) + 3; omega⟩
  obtain ⟨-, -, -, -, -, -, -, -, -, -, e50, e51⟩ := idxFacts t
  show (cfg2.win 5).cut (grid2.coords t) ((dat V c).after 5 t) = _
  rw [after5, outAt_last V c t (by omega) h3, outLast_eq, iblk0_eq V c t I 3 hI, iblk1_eq V c t I 3 hI, iblk2_eq V c t I 3 hI,
    iblk3_eq V c t I 3 hI, iblk4_eq V c t,
    show accAt V c (t.val - 1) _ = _ from accAt_2 V c ⟨t.val - 1, Nat.lt_of_le_of_lt (Nat.sub_le _ _) t.isLt⟩ I (by show t.val - 1 = _; omega)]
  funext j
  have h1 : rowBlk (((cfg2.win 5).blk t).view.emb j) = I := Fin.ext (by
    show (win2_5.index t (0 : Fin 2) * 1024 + 1 * (j 0).val) / 1024 = I.val
    have := idx2_lt0 j; omega)
  have h2 : inBlk (((cfg2.win 5).blk t).view.emb j) = j := by
    funext a; apply Fin.ext
    match a with
    | ⟨0, _⟩ => show (win2_5.index t (0 : Fin 2) * 1024 + 1 * (j 0).val) % 1024 = (j 0).val; have := idx2_lt0 j; omega
    | ⟨1, _⟩ => show win2_5.index t (1 : Fin 2) * 256 + 1 * (j 1).val = (j 1).val; omega
  show _ = blockVal (V c main_v3) (V c main_v22) (V c main_v18) (V c main_v11) (V c main_v19) (rowBlk (((cfg2.win 5).blk t).view.emb j)) (inBlk (((cfg2.win 5).blk t).view.emb j))
  rw [h1, h2]; rfl

/-- THE ARRAY AFTER THE RUN: the output window's array ends holding `G` of the five input arrays. -/
theorem final (c : Dev nD) : (dat V c).arrAt 5 cfg2.N = G (V c main_v3) (V c main_v22) (V c main_v18) (V c main_v11) (V c main_v19) :=
  (dat V c).arrAt_eq_of_cover 5 (G (V c main_v3) (V c main_v22) (V c main_v18) (V c main_v11) (V c main_v19)) (flushed_eq V c) fun i => by
    have hi0 : (i 0).val < 8192 := (i 0).isLt
    have hi1 : (i 1).val < 256 := (i 1).isLt
    refine ⟨⟨4 * ((i 0).val / 1024) + 3, by rw [show cfg2.N = 32 from N_2]; omega⟩, (flush2_5 _).mpr (by show (4 * ((i 0).val / 1024) + 3) % 4 = 3; omega), ?_⟩
    obtain ⟨-, -, -, -, -, -, -, -, -, -, e50, e51⟩ := idxFacts ⟨4 * ((i 0).val / 1024) + 3, by rw [show cfg2.N = 32 from N_2]; omega⟩
    rw [mem_blk5]
    intro a
    match a with
    | ⟨0, _⟩ => show win2_5.index _ (0 : Fin 2) * 1024 ≤ (i 0).val ∧ (i 0).val < win2_5.index _ (0 : Fin 2) * 1024 + 1024; dsimp only at e50; omega
    | ⟨1, _⟩ => show win2_5.index _ (1 : Fin 2) * 256 ≤ (i 1).val ∧ (i 1).val < win2_5.index _ (1 : Fin 2) * 256 + 256; omega

end Cert.KernelIdeal.R2

end
-- ==== Proof.KI.R2Ideal.lean ====
import proofs.«102678_j21827023798522_2_alg».proof.Proof.KI.R2Fin
import proofs.«102678_j21827023798522_2_alg».proof.Proof.LibPlainDot
import proofs.«102678_j21827023798522_2_alg».proof.Proof.LibColumn
import Idealize.ShloMosaic.PureOps.Ideal.Laws

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

/-! # Region 2 on the extended reals: the result array, entry by entry

Entry (r, q) is `max (d·(∑ⱼ M(r,j)·S(j,q)) + (d·d)·y(r,q) + b(q)) 0` with `d` the row's scale: the four `k`-steps' partial
products add up to the whole contraction (sums on the extended reals are associative and commutative), the zero block is 0,
and the column and row broadcasts read their operand at the row resp. the column. -/

/-- A row [1, b] broadcast to [a, b] reads, at (p, q), the row at (0, q). -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The contraction over 8192 columns is the sum over the four column blocks of the sums inside each. -/
theorem sum_split (f : Fin 8192 → EReal) :
    ∑ x, f x = ∑ k : Fin 4, ∑ j : Fin 2048, f ⟨k.val * 2048 + j.val, by have := k.isLt; have := j.isLt; omega⟩ := by
  rw [← Equiv.sum_comp (finProdFinEquiv (m := 4) (n := 2048)) f, Fintype.sum_prod_type]
  refine Finset.sum_congr rfl fun k _ => Finset.sum_congr rfl fun j _ => congrArg f (Fin.ext ?_)
  show j.val + 2048 * k.val = k.val * 2048 + j.val
  omega

/-- The zero block is 0. -/
theorem pay1_apply (i : S1024x256.Idx) : (k2_pay1 (F := Ideal)) i = 0 := by
  unfold k2_pay1
  simp only [shapeCast_self]
  exact Ideal.ofBits_zero_f32

/-- One step of the accumulation at an entry: the accumulator plus the block product's entry. -/
theorem pay2_apply (acc : Vec Ideal S1024x256 .f32) (A : Vec Ideal S1024x2048 .bf16) (B : Vec Ideal S2048x256 .bf16)
    (p : Fin 1024) (q : Fin 256) :
    k2_pay2 acc A B (ix2 p q) = acc (ix2 p q) + ∑ j : Fin 2048, A (ix2 p j) * B (ix2 j q) := by
  unfold k2_pay2
  simp only [shapeCast_self]
  rw [addf_apply]
  exact congrArg (acc (ix2 p q) + ·) (Cert.LibPlainDot.matmul_zero_apply none A B p q)

/-- The epilogue at an entry. -/
theorem pay3_apply (d : Vec Ideal S1024x1 .f32) (acc : Vec Ideal S1024x256 .f32) (yb : Vec Ideal S1024x256 .f32)
    (b : Vec Ideal S1x256 .f32) (p : Fin 1024) (q : Fin 256) :
    k2_pay3 d acc yb b (ix2 p q)
      = max (d (ix2 p (0 : Fin 1)) * acc (ix2 p q) + (d (ix2 p (0 : Fin 1)) * d (ix2 p (0 : Fin 1))) * yb (ix2 p q) + b (ix2 (0 : Fin 1) q)) 0 := by
  unfold k2_pay3
  simp only [shapeCast_self]
  rw [maximumf_apply, addf_apply, addf_apply, mulf_apply, mulf_apply,
    Cert.LibColumn.broadcastTo_a1_ab_apply, Cert.LibColumn.broadcastTo_a1_ab_apply, mulf_apply, broadcastTo_1b_ab_apply]
  exact congrArg (max _) Ideal.ofBits_zero_f32

/-- The finished accumulator of row block `I` at an entry: the four blocks' products, block by block. -/
theorem acc3_apply (M : S8192x8192.Idx → Elt Ideal .bf16) (sy : S8192x256.Idx → Elt Ideal .bf16) (I : Fin 8) (p : Fin 1024) (q : Fin 256) :
    acc3 M sy I (ix2 p q)
      = ∑ k : Fin 4, ∑ j : Fin 2048,
          M (ix2 (⟨I.val * 1024 + p.val, by have := I.isLt; have := p.isLt; omega⟩ : Fin 8192) (⟨k.val * 2048 + j.val, by have := k.isLt; have := j.isLt; omega⟩ : Fin 8192))
            * sy (ix2 (⟨k.val * 2048 + j.val, by have := k.isLt; have := j.isLt; omega⟩ : Fin 8192) q) := by
  unfold acc3 acc2 acc1 acc0
  rw [pay2_apply, pay2_apply, pay2_apply, pay2_apply, pay1_apply, zero_add, Fin.sum_univ_four]
  rfl

/-- An index in row `I·1024 + p` lies in row block `I`, at row `p` of it. -/
theorem rowBlk_mk (I : Fin 8) (p : Fin 1024) (q : Fin 256) (h : I.val * 1024 + p.val < 8192) :
    rowBlk (ix2 (⟨I.val * 1024 + p.val, h⟩ : Fin 8192) q) = I :=
  Fin.ext (by show (I.val * 1024 + p.val) / 1024 = I.val; have := p.isLt; omega)
theorem inBlk_mk (I : Fin 8) (p : Fin 1024) (q : Fin 256) (h : I.val * 1024 + p.val < 8192) :
    inBlk (ix2 (⟨I.val * 1024 + p.val, h⟩ : Fin 8192) q) = ix2 p q := by
  funext a; apply Fin.ext
  match a with
  | ⟨0, _⟩ => show (I.val * 1024 + p.val) % 1024 = p.val; have := p.isLt; omega
  | ⟨1, _⟩ => rfl

/-- THE RESULT ARRAY ON THE EXTENDED REALS, entry by entry. -/
theorem G_apply_ideal (M : S8192x8192.Idx → Elt Ideal .bf16) (sy : S8192x256.Idx → Elt Ideal .bf16) (y : S8192x256.Idx → Elt Ideal .f32) (dv : S8192x1.Idx → Elt Ideal .f32) (bias : S1x256.Idx → Elt Ideal .f32) (r : Fin 8192) (q : Fin 256) :
    G (F := Ideal) M sy y dv bias (ix2 r q)
      = max (dv (ix2 r (0 : Fin 1)) * (∑ j : Fin 8192, M (ix2 r j) * sy (ix2 j q)) + (dv (ix2 r (0 : Fin 1)) * dv (ix2 r (0 : Fin 1))) * y (ix2 r q) + bias (ix2 (0 : Fin 1) q)) 0 := by
  obtain ⟨I, p, rfl⟩ : ∃ (I : Fin 8) (p : Fin 1024), r = ⟨I.val * 1024 + p.val, by have := I.isLt; have := p.isLt; omega⟩ := by
    have hr : r.val < 8192 := r.isLt
    exact ⟨⟨r.val / 1024, by omega⟩, ⟨r.val % 1024, Nat.mod_lt _ (by norm_num)⟩, Fin.ext (by show r.val = r.val / 1024 * 1024 + r.val % 1024; omega)⟩
  show blockVal M sy y dv bias (rowBlk _) (inBlk _) = _
  rw [rowBlk_mk, inBlk_mk]
  unfold blockVal
  rw [pay3_apply, acc3_apply, sum_split]
  rfl

end Cert.KernelIdeal.R2

end
-- ==== Proof.KI.R3Val.lean ====
import proofs.«102678_j21827023798522_2_alg».proof.Proof.KI.R3
import Idealize.ShloMosaic.Lib.Pipeline.Value

set_option maxRecDepth 16384

noncomputable section

namespace Cert.KernelIdeal.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 3: what each control case leaves, as values of the payloads -/

theorem hz : (![0, 0] : Fin 2 → Nat) = fun _ => 0 := funext fun a => by fin_cases a <;> rfl

/-- At a middle `k` the accumulator holding `xs` is left at `xs + A·B` of the two matrix blocks. -/
theorem accMid_eq (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬condFirst i) (hc1 : ¬condLast i)
    (x0 : Vec F S1024x2048 .bf16) (x1 : Vec F S2048x128 .bf16) (x2 : Vec F S1024x128 .f32) (x3 : Vec F S1024x1 .f32) (x4 : Vec F S1x128 .f32) (xs : Vec F S1024x128 .f32) :
    accMid c i arg2 harg2 arg3 harg3 arg4 harg4 arg5 harg5 arg6 harg6 arg7 harg7 arg8 harg8 hc0 hc1 x0 x1 x2 x3 x4 xs = k3_pay2 xs x0 x1 := by
  unfold accMid
  rw [View.read_writes_eq_canon _ _ _ (accCoverMid c i arg2 harg2 arg3 harg3 arg4 harg4 arg5 harg5 arg6 harg6 arg7 harg7 arg8 harg8 hc0 hc1 x0 x1 x2 x3 x4 xs)]
  unfold runMid
  dsimp only
  sl_unfold_words
  rw [View.canon_unit_zero hz]
  simp only [View.readAt_eq_ld, harg2.read_unread, harg3.read_unread, harg4.read_unread, harg5.read_unread, harg6.read_unread, harg8.read_unread, View.ld_unit_zero (S := S1024x2048) hz, View.ld_unit_zero (S := S2048x128) hz, View.ld_unit_zero (S := S1024x128) hz, View.ld_unit_zero (S := S1024x1) hz, View.ld_unit_zero (S := S1x128) hz]

/-- At the last `k` likewise, -/
theorem accLast_eq (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬condFirst i) (hc1 : condLast i)
    (x0 : Vec F S1024x2048 .bf16) (x1 : Vec F S2048x128 .bf16) (x2 : Vec F S1024x128 .f32) (x3 : Vec F S1024x1 .f32) (x4 : Vec F S1x128 .f32) (xs : Vec F S1024x128 .f32) :
    accLast c i arg2 harg2 arg3 harg3 arg4 harg4 arg5 harg5 arg6 harg6 arg7 harg7 arg8 harg8 hc0 hc1 x0 x1 x2 x3 x4 xs = k3_pay2 xs x0 x1 := by
  unfold accLast
  rw [View.read_writes_eq_canon _ _ _ (accCoverLast c i arg2 harg2 arg3 harg3 arg4 harg4 arg5 harg5 arg6 harg6 arg7 harg7 arg8 harg8 hc0 hc1 x0 x1 x2 x3 x4 xs)]
  unfold runLast
  dsimp only
  sl_unfold_words
  rw [View.canon_unit_zero hz]
  simp only [View.readAt_eq_ld, harg2.read_unread, harg3.read_unread, harg4.read_unread, harg5.read_unread, harg6.read_unread, harg8.read_unread, View.ld_unit_zero (S := S1024x2048) hz, View.ld_unit_zero (S := S2048x128) hz, View.ld_unit_zero (S := S1024x128) hz, View.ld_unit_zero (S := S1024x1) hz, View.ld_unit_zero (S := S1x128) hz]

/-- and the output window's buffer is left at the epilogue of that sum. -/
theorem outLast_eq (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : ¬condFirst i) (hc1 : condLast i)
    (x0 : Vec F S1024x2048 .bf16) (x1 : Vec F S2048x128 .bf16) (x2 : Vec F S1024x128 .f32) (x3 : Vec F S1024x1 .f32) (x4 : Vec F S1x128 .f32) (xs : Vec F S1024x128 .f32) :
    outLast c i arg2 harg2 arg3 harg3 arg4 harg4 arg5 harg5 arg6 harg6 arg7 harg7 arg8 harg8 hc0 hc1 x0 x1 x2 x3 x4 xs = k3_pay3 x3 (k3_pay2 xs x0 x1) x2 x4 := by
  unfold outLast
  rw [View.read_writes_eq_canon _ _ _ (outCoverLast c i arg2 harg2 arg3 harg3 arg4 harg4 arg5 harg5 arg6 harg6 arg7 harg7 arg8 harg8 hc0 hc1 x0 x1 x2 x3 x4 xs)]
  unfold runLast
  dsimp only
  sl_unfold_words
  rw [View.canon_unit_zero hz, View.readCov_unit_zero (S := S1024x128) _ hz]
  simp only [View.readAt_eq_ld, harg2.read_unread, harg3.read_unread, harg4.read_unread, harg5.read_unread, harg6.read_unread, harg8.read_unread, View.ld_unit_zero (S := S1024x2048) hz, View.ld_unit_zero (S := S2048x128) hz, View.ld_unit_zero (S := S1024x128) hz, View.ld_unit_zero (S := S1024x1) hz, View.ld_unit_zero (S := S1x128) hz]

/-- At the first `k` the accumulator is zeroed, read back, and left at `0 + A·B`. -/
theorem accFirst_eq (c : Dev nD) (i : grid3.Coords) (arg2 : Memref sig .tc .vmem S1024x2048 .bf16) (harg2 : arg2.IsWhole) (arg3 : Memref sig .tc .vmem S2048x128 .bf16) (harg3 : arg3.IsWhole) (arg4 : Memref sig .tc .vmem S1024x128 .f32) (harg4 : arg4.IsWhole) (arg5 : Memref sig .tc .vmem S1024x1 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hc0 : condFirst i) (hc1 : ¬condLast i)
    (x0 : Vec F S1024x2048 .bf16) (x1 : Vec F S2048x128 .bf16) (x2 : Vec F S1024x128 .f32) (x3 : Vec F S1024x1 .f32) (x4 : Vec F S1x128 .f32) :
    accFirst c i arg2 harg2 arg3 harg3 arg4 harg4 arg5 harg5 arg6 harg6 arg7 harg7 arg8 harg8 hc0 hc1 x0 x1 x2 x3 x4 = k3_pay2 k3_pay1 x0 x1 := by
  unfold accFirst
  rw [View.read_writes_eq_canon _ _ _ (accCoverFirst c i arg2 harg2 arg3 harg3 arg4 harg4 arg5 harg5 arg6 harg6 arg7 harg7 arg8 harg8 hc0 hc1 x0 x1 x2 x3 x4)]
  unfold runFirst
  dsimp only
  sl_unfold_words
  rw [View.canon_cons_unit_zero (S := S1024x128) hz, View.readCov_unit_zero (S := S1024x128) _ hz]
  simp only [View.readAt_eq_ld, harg2.read_unread, harg3.read_unread, harg4.read_unread, harg5.read_unread, harg6.read_unread, harg8.read_unread, View.ld_unit_zero (S := S1024x2048) hz, View.ld_unit_zero (S := S2048x128) hz, View.ld_unit_zero (S := S1024x128) hz, View.ld_unit_zero (S := S1024x1) hz, View.ld_unit_zero (S := S1x128) hz]

end Cert.KernelIdeal.R3

end
-- ==== Proof.KI.R3Fin.lean ====
import proofs.«102678_j21827023798522_2_alg».proof.Proof.KI.R3Val
import Idealize.ShloMosaic.Lib.ValueIdx

set_option maxRecDepth 16384

noncomputable section

namespace Cert.KernelIdeal.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! # Region 3: the output array after the run, as ONE function of the region's five input arrays

Row block `I` (1024 rows) of the output is the epilogue of the accumulator after the four `k`-steps of that row block:
`acc₀ = 0 + M(I,0)·SY(0)`, `acc₁ = acc₀ + M(I,1)·SY(1)`, …, each `M(I,k)` a [1024,2048] block of the [8192,8192] matrix
and `SY(k)` a [2048,128] block of rows of the [8192,128] matrix. -/

/-! ## Blocks of the arrays, by index arithmetic -/

/-- Block (`I`, `k`) of the square matrix. -/
def blkM (M : S8192x8192.Idx → Elt F .bf16) (I : Fin 8) (k : Fin 4) : Vec F S1024x2048 .bf16 :=
  fun p => M (ix2 (⟨I.val * 1024 + (p 0).val, by have := I.isLt; have := idx2_lt0 p; omega⟩ : Fin 8192)
    (⟨k.val * 2048 + (p 1).val, by have := k.isLt; have := idx2_lt1 p; omega⟩ : Fin 8192))
/-- Row block `k` (2048 rows) of the tall matrix the square one multiplies. -/
def blkS (sy : S8192x128.Idx → Elt F .bf16) (k : Fin 4) : Vec F S2048x128 .bf16 :=
  fun p => sy (ix2 (⟨k.val * 2048 + (p 0).val, by have := k.isLt; have := idx2_lt0 p; omega⟩ : Fin 8192)
    (⟨(p 1).val, idx2_lt1 p⟩ : Fin 128))
/-- Row block `I` (1024 rows) of the tall f32 matrix of the diagonal term. -/
def blkY (y : S8192x128.Idx → Elt F .f32) (I : Fin 8) : Vec F S1024x128 .f32 :=
  fun p => y (ix2 (⟨I.val * 1024 + (p 0).val, by have := I.isLt; have := idx2_lt0 p; omega⟩ : Fin 8192)
    (⟨(p 1).val, idx2_lt1 p⟩ : Fin 128))
/-- Row block `I` of the column of row scales. -/
def blkD (dv : S8192x1.Idx → Elt F .f32) (I : Fin 8) : Vec F S1024x1 .f32 :=
  fun p => dv (ix2 (⟨I.val * 1024 + (p 0).val, by have := I.isLt; have := idx2_lt0 p; omega⟩ : Fin 8192)
    (⟨(p 1).val, idx2_lt1 p⟩ : Fin 1))

/-! ## The accumulator after each of the four steps, and the row block's result -/

def acc0 (M : S8192x8192.Idx → Elt F .bf16) (sy : S8192x128.Idx → Elt F .bf16) (I : Fin 8) : Vec F S1024x128 .f32 :=
  k3_pay2 k3_pay1 (blkM M I 0) (blkS sy 0)
def acc1 (M : S8192x8192.Idx → Elt F .bf16) (sy : S8192x128.Idx → Elt F .bf16) (I : Fin 8) : Vec F S1024x128 .f32 :=
  k3_pay2 (acc0 M sy I) (blkM M I 1) (blkS sy 1)
def acc2 (M : S8192x8192.Idx → Elt F .bf16) (sy : S8192x128.Idx → Elt F .bf16) (I : Fin 8) : Vec F S1024x128 .f32 :=
  k3_pay2 (acc1 M sy I) (blkM M I 2) (blkS sy 2)
def acc3 (M : S8192x8192.Idx → Elt F .bf16) (sy : S8192x128.Idx → Elt F .bf16) (I : Fin 8) : Vec F S1024x128 .f32 :=
  k3_pay2 (acc2 M sy I) (blkM M I 3) (blkS sy 3)

/-- Row block `I` of the result: the epilogue of the finished accumulator. -/
def blockVal (M : S8192x8192.Idx → Elt F .bf16) (sy : S8192x128.Idx → Elt F .bf16) (y : S8192x128.Idx → Elt F .f32) (dv : S8192x1.Idx → Elt F .f32) (bias : S1x128.Idx → Elt F .f32) (I : Fin 8) : Vec F S1024x128 .f32 :=
  k3_pay3 (blkD dv I) (acc3 M sy I) (blkY y I) bias

/-- The row block an index of the output lies in, and the index inside that block. -/
def rowBlk (i : S8192x128.Idx) : Fin 8 := ⟨(i 0).val / 1024, by have := idx2_lt0 i; omega⟩
def inBlk (i : S8192x128.Idx) : S1024x128.Idx :=
  ix2 (⟨(i 0).val % 1024, Nat.mod_lt _ (by norm_num)⟩ : Fin 1024) (⟨(i 1).val, idx2_lt1 i⟩ : Fin 128)

/-- THE RESULT ARRAY as one function of the five input arrays. -/
def G (M : S8192x8192.Idx → Elt F .bf16) (sy : S8192x128.Idx → Elt F .bf16) (y : S8192x128.Idx → Elt F .f32) (dv : S8192x1.Idx → Elt F .f32) (bias : S1x128.Idx → Elt F .f32) : S8192x128.Idx → Elt F .f32 :=
  fun i => blockVal M sy y dv bias (rowBlk i) (inBlk i)

/-! ## The windows' blocks are those blocks -/

/-- The printed index maps, decided over the grid: point `t` is row block `t / 4`, step `t % 4`. -/
theorem idxFacts : ∀ t : Fin cfg3.N,
    win3_0.index t (0 : Fin 2) = t.val / 4 ∧ win3_0.index t (1 : Fin 2) = t.val % 4
    ∧ win3_1.index t (0 : Fin 2) = t.val % 4 ∧ win3_1.index t (1 : Fin 2) = 0
    ∧ win3_2.index t (0 : Fin 2) = t.val / 4 ∧ win3_2.index t (1 : Fin 2) = 0
    ∧ win3_3.index t (0 : Fin 2) = t.val / 4 ∧ win3_3.index t (1 : Fin 2) = 0
    ∧ win3_4.index t (0 : Fin 2) = 0 ∧ win3_4.index t (1 : Fin 2) = 0
    ∧ win3_5.index t (0 : Fin 2) = t.val / 4 ∧ win3_5.index t (1 : Fin 2) = 0 :=
  (by decide +kernel : ∀ t : Fin grid3.N, _)

variable (V : (c : Dev nD) → (b : Ref sig .tc) → Buf (Elt F) ((c : Thread nD τ).loc b))

theorem iblk0_eq (c : Dev nD) (t : Fin cfg3.N) (I : Fin 8) (k : Fin 4) (h : t.val = 4 * I.val + k.val) :
    iblk V c 0 t = blkM (V c main_v3) I k := by
  obtain ⟨e00, e01, -⟩ := idxFacts t
  have hk := k.isLt
  funext p
  show V c main_v3 (((cfg3.win 0).blk t).view.emb p) = V c main_v3 (ix2 _ _)
  refine congrArg _ (funext fun a => Fin.ext ?_)
  match a with
  | ⟨0, _⟩ => show win3_0.index t (0 : Fin 2) * 1024 + 1 * (p 0).val = I.val * 1024 + (p 0).val; omega
  | ⟨1, _⟩ => show win3_0.index t (1 : Fin 2) * 2048 + 1 * (p 1).val = k.val * 2048 + (p 1).val; omega

theorem iblk1_eq (c : Dev nD) (t : Fin cfg3.N) (I : Fin 8) (k : Fin 4) (h : t.val = 4 * I.val + k.val) :
    iblk V c 1 t = blkS (V c main_v30) k := by
  obtain ⟨-, -, e10, e11, -⟩ := idxFacts t
  have hk := k.isLt
  funext p
  show V c main_v30 (((cfg3.win 1).blk t).view.emb p) = V c main_v30 (ix2 _ _)
  refine congrArg _ (funext fun a => Fin.ext ?_)
  match a with
  | ⟨0, _⟩ => show win3_1.index t (0 : Fin 2) * 2048 + 1 * (p 0).val = k.val * 2048 + (p 0).val; omega
  | ⟨1, _⟩ => show win3_1.index t (1 : Fin 2) * 128 + 1 * (p 1).val = (p 1).val; omega

theorem iblk2_eq (c : Dev nD) (t : Fin cfg3.N) (I : Fin 8) (k : Fin 4) (h : t.val = 4 * I.val + k.val) :
    iblk V c 2 t = blkY (V c main_v25) I := by
  obtain ⟨-, -, -, -, e20, e21, -⟩ := idxFacts t
  have hk := k.isLt
  funext p
  show V c main_v25 (((cfg3.win 2).blk t).view.emb p) = V c main_v25 (ix2 _ _)
  refine congrArg _ (funext fun a => Fin.ext ?_)
  match a with
  | ⟨0, _⟩ => show win3_2.index t (0 : Fin 2) * 1024 + 1 * (p 0).val = I.val * 1024 + (p 0).val; omega
  | ⟨1, _⟩ => show win3_2.index t (1 : Fin 2) * 128 + 1 * (p 1).val = (p 1).val; omega

theorem iblk3_eq (c : Dev nD) (t : Fin cfg3.N) (I : Fin 8) (k : Fin 4) (h : t.val = 4 * I.val + k.val) :
    iblk V c 3 t = blkD (V c main_v11) I := by
  obtain ⟨-, -, -, -, -, -, e30, e31, -⟩ := idxFacts t
  have hk := k.isLt
  funext p
  show V c main_v11 (((cfg3.win 3).blk t).view.emb p) = V c main_v11 (ix2 _ _)
  refine congrArg _ (funext fun a => Fin.ext ?_)
  match a with
  | ⟨0, _⟩ => show win3_3.index t (0 : Fin 2) * 1024 + 1 * (p 0).val = I.val * 1024 + (p 0).val; omega
  | ⟨1, _⟩ => show win3_3.index t (1 : Fin 2) * 1 + 1 * (p 1).val = (p 1).val; omega

/-- The bias row's one block is the whole row. -/
theorem iblk4_eq (c : Dev nD) (t : Fin cfg3.N) : iblk V c 4 t = V c main_v27 := by
  obtain ⟨-, -, -, -, -, -, -, -, e40, e41, -⟩ := idxFacts t
  funext p
  show V c main_v27 (((cfg3.win 4).blk t).view.emb p) = V c main_v27 p
  refine congrArg _ (funext fun a => Fin.ext ?_)
  match a with
  | ⟨0, _⟩ => show win3_4.index t (0 : Fin 2) * 1 + 1 * (p 0).val = (p 0).val; omega
  | ⟨1, _⟩ => show win3_4.index t (1 : Fin 2) * 128 + 1 * (p 1).val = (p 1).val; omega

/-! ## The accumulator along a row block -/

theorem accAt_0 (c : Dev nD) (t : Fin cfg3.N) (I : Fin 8) (h : t.val = 4 * I.val + 0) :
    accAt V c t.val t.isLt = acc0 (V c main_v3) (V c main_v30) I := by
  rw [accAt_first V c t (by omega) (by omega), accFirst_eq, iblk0_eq V c t I 0 h, iblk1_eq V c t I 0 h]; rfl

theorem accAt_1 (c : Dev nD) (t : Fin cfg3.N) (I : Fin 8) (h : t.val = 4 * I.val + 1) :
    accAt V c t.val t.isLt = acc1 (V c main_v3) (V c main_v30) I := by
  rw [accAt_mid V c t (by omega) (by omega), accMid_eq, iblk0_eq V c t I 1 h, iblk1_eq V c t I 1 h,
    show accAt V c (t.val - 1) _ = _ from accAt_0 V c ⟨t.val - 1, Nat.lt_of_le_of_lt (Nat.sub_le _ _) t.isLt⟩ I (by show t.val - 1 = _; omega)]; rfl

theorem accAt_2 (c : Dev nD) (t : Fin cfg3.N) (I : Fin 8) (h : t.val = 4 * I.val + 2) :
    accAt V c t.val t.isLt = acc2 (V c main_v3) (V c main_v30) I := by
  rw [accAt_mid V c t (by omega) (by omega), accMid_eq, iblk0_eq V c t I 2 h, iblk1_eq V c t I 2 h,
    show accAt V c (t.val - 1) _ = _ from accAt_1 V c ⟨t.val - 1, Nat.lt_of_le_of_lt (Nat.sub_le _ _) t.isLt⟩ I (by show t.val - 1 = _; omega)]; rfl

/-! ## What a flushing point writes back, and the array after the run -/

/-- The output window's block at point `t`, index by index. -/
theorem mem_blk5 (t : Fin cfg3.N) (i : S8192x128.Idx) :
    i ∈ ((cfg3.win 5).blk t).view.set ↔ ∀ a : Fin 2, win3_5.index t a * S1024x128.size a ≤ (i a).val ∧ (i a).val < win3_5.index t a * S1024x128.size a + S1024x128.size a := by
  show i ∈ ((View.whole main_v31).slice (win3_5.rect t)).set ↔ _
  rw [View.set_slice_whole, Rect.mem_set_unit]
  exact Iff.rfl

/-- WHAT POINT `t` WRITES BACK (a last `k`) is block `t` of `G` of the arrays as the region finds them. -/
theorem flushed_eq (c : Dev nD) (t : Fin cfg3.N) (hf : (cfg3.win 5).flush t = true) :
    (dat V c).flushed 5 t = ((cfg3.win 5).blk t).view.read (Elt F) (G (V c main_v3) (V c main_v30) (V c main_v25) (V c main_v11) (V c main_v27)) := by
  have h3 : t.val % 4 = 3 := (flush3_5 t).mp hf
  have hN : t.val < 32 := lt_of_lt_of_eq t.isLt (show cfg3.N = 32 from N_3)
  obtain ⟨I, hI⟩ : ∃ I : Fin 8, t.val = 4 * I.val + 3 := ⟨⟨t.val / 4, by omega⟩, by show t.val = 4 * (t.val / 4) + 3; omega⟩
  obtain ⟨-, -, -, -, -, -, -, -, -, -, e50, e51⟩ := idxFacts t
  show (cfg3.win 5).cut (grid3.coords t) ((dat V c).after 5 t) = _
  rw [after5, outAt_last V c t (by omega) h3, outLast_eq, iblk0_eq V c t I 3 hI, iblk1_eq V c t I 3 hI, iblk2_eq V c t I 3 hI,
    iblk3_eq V c t I 3 hI, iblk4_eq V c t,
    show accAt V c (t.val - 1) _ = _ from accAt_2 V c ⟨t.val - 1, Nat.lt_of_le_of_lt (Nat.sub_le _ _) t.isLt⟩ I (by show t.val - 1 = _; omega)]
  funext j
  have h1 : rowBlk (((cfg3.win 5).blk t).view.emb j) = I := Fin.ext (by
    show (win3_5.index t (0 : Fin 2) * 1024 + 1 * (j 0).val) / 1024 = I.val
    have := idx2_lt0 j; omega)
  have h2 : inBlk (((cfg3.win 5).blk t).view.emb j) = j := by
    funext a; apply Fin.ext
    match a with
    | ⟨0, _⟩ => show (win3_5.index t (0 : Fin 2) * 1024 + 1 * (j 0).val) % 1024 = (j 0).val; have := idx2_lt0 j; omega
    | ⟨1, _⟩ => show win3_5.index t (1 : Fin 2) * 128 + 1 * (j 1).val = (j 1).val; omega
  show _ = blockVal (V c main_v3) (V c main_v30) (V c main_v25) (V c main_v11) (V c main_v27) (rowBlk (((cfg3.win 5).blk t).view.emb j)) (inBlk (((cfg3.win 5).blk t).view.emb j))
  rw [h1, h2]; rfl

/-- THE ARRAY AFTER THE RUN: the output window's array ends holding `G` of the five input arrays. -/
theorem final (c : Dev nD) : (dat V c).arrAt 5 cfg3.N = G (V c main_v3) (V c main_v30) (V c main_v25) (V c main_v11) (V c main_v27) :=
  (dat V c).arrAt_eq_of_cover 5 (G (V c main_v3) (V c main_v30) (V c main_v25) (V c main_v11) (V c main_v27)) (flushed_eq V c) fun i => by
    have hi0 : (i 0).val < 8192 := (i 0).isLt
    have hi1 : (i 1).val < 128 := (i 1).isLt
    refine ⟨⟨4 * ((i 0).val / 1024) + 3, by rw [show cfg3.N = 32 from N_3]; omega⟩, (flush3_5 _).mpr (by show (4 * ((i 0).val / 1024) + 3) % 4 = 3; omega), ?_⟩
    obtain ⟨-, -, -, -, -, -, -, -, -, -, e50, e51⟩ := idxFacts ⟨4 * ((i 0).val / 1024) + 3, by rw [show cfg3.N = 32 from N_3]; omega⟩
    rw [mem_blk5]
    intro a
    match a with
    | ⟨0, _⟩ => show win3_5.index _ (0 : Fin 2) * 1024 ≤ (i 0).val ∧ (i 0).val < win3_5.index _ (0 : Fin 2) * 1024 + 1024; dsimp only at e50; omega
    | ⟨1, _⟩ => show win3_5.index _ (1 : Fin 2) * 128 ≤ (i 1).val ∧ (i 1).val < win3_5.index _ (1 : Fin 2) * 128 + 128; omega

end Cert.KernelIdeal.R3

end
-- ==== Proof.KI.R3Ideal.lean ====
import proofs.«102678_j21827023798522_2_alg».proof.Proof.KI.R3Fin
import proofs.«102678_j21827023798522_2_alg».proof.Proof.LibPlainDot
import proofs.«102678_j21827023798522_2_alg».proof.Proof.LibColumn
import Idealize.ShloMosaic.PureOps.Ideal.Laws

set_option maxRecDepth 16384

noncomputable section

namespace Cert.KernelIdeal.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open scoped BigOperators

/-! # Region 3 on the extended reals: the result array, entry by entry

Entry (r, q) is `d·(∑ⱼ M(r,j)·S(j,q)) + (d·d)·y(r,q) + b(q)` with `d` the row's scale: the four `k`-steps' partial
products add up to the whole contraction (sums on the extended reals are associative and commutative), the zero block is 0,
and the column and row broadcasts read their operand at the row resp. the column. -/

/-- A row [1, b] broadcast to [a, b] reads, at (p, q), the row at (0, q). -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The contraction over 8192 columns is the sum over the four column blocks of the sums inside each. -/
theorem sum_split (f : Fin 8192 → EReal) :
    ∑ x, f x = ∑ k : Fin 4, ∑ j : Fin 2048, f ⟨k.val * 2048 + j.val, by have := k.isLt; have := j.isLt; omega⟩ := by
  rw [← Equiv.sum_comp (finProdFinEquiv (m := 4) (n := 2048)) f, Fintype.sum_prod_type]
  refine Finset.sum_congr rfl fun k _ => Finset.sum_congr rfl fun j _ => congrArg f (Fin.ext ?_)
  show j.val + 2048 * k.val = k.val * 2048 + j.val
  omega

/-- The zero block is 0. -/
theorem pay1_apply (i : S1024x128.Idx) : (k3_pay1 (F := Ideal)) i = 0 := by
  unfold k3_pay1
  simp only [shapeCast_self]
  exact Ideal.ofBits_zero_f32

/-- One step of the accumulation at an entry: the accumulator plus the block product's entry. -/
theorem pay2_apply (acc : Vec Ideal S1024x128 .f32) (A : Vec Ideal S1024x2048 .bf16) (B : Vec Ideal S2048x128 .bf16)
    (p : Fin 1024) (q : Fin 128) :
    k3_pay2 acc A B (ix2 p q) = acc (ix2 p q) + ∑ j : Fin 2048, A (ix2 p j) * B (ix2 j q) := by
  unfold k3_pay2
  simp only [shapeCast_self]
  rw [addf_apply]
  exact congrArg (acc (ix2 p q) + ·) (Cert.LibPlainDot.matmul_zero_apply none A B p q)

/-- The epilogue at an entry. -/
theorem pay3_apply (d : Vec Ideal S1024x1 .f32) (acc : Vec Ideal S1024x128 .f32) (yb : Vec Ideal S1024x128 .f32)
    (b : Vec Ideal S1x128 .f32) (p : Fin 1024) (q : Fin 128) :
    k3_pay3 d acc yb b (ix2 p q)
      = d (ix2 p (0 : Fin 1)) * acc (ix2 p q) + (d (ix2 p (0 : Fin 1)) * d (ix2 p (0 : Fin 1))) * yb (ix2 p q) + b (ix2 (0 : Fin 1) q) := by
  unfold k3_pay3
  simp only [shapeCast_self]
  rw [addf_apply, addf_apply, mulf_apply, mulf_apply,
    Cert.LibColumn.broadcastTo_a1_ab_apply, Cert.LibColumn.broadcastTo_a1_ab_apply, mulf_apply, broadcastTo_1b_ab_apply]

/-- The finished accumulator of row block `I` at an entry: the four blocks' products, block by block. -/
theorem acc3_apply (M : S8192x8192.Idx → Elt Ideal .bf16) (sy : S8192x128.Idx → Elt Ideal .bf16) (I : Fin 8) (p : Fin 1024) (q : Fin 128) :
    acc3 M sy I (ix2 p q)
      = ∑ k : Fin 4, ∑ j : Fin 2048,
          M (ix2 (⟨I.val * 1024 + p.val, by have := I.isLt; have := p.isLt; omega⟩ : Fin 8192) (⟨k.val * 2048 + j.val, by have := k.isLt; have := j.isLt; omega⟩ : Fin 8192))
            * sy (ix2 (⟨k.val * 2048 + j.val, by have := k.isLt; have := j.isLt; omega⟩ : Fin 8192) q) := by
  unfold acc3 acc2 acc1 acc0
  rw [pay2_apply, pay2_apply, pay2_apply, pay2_apply, pay1_apply, zero_add, Fin.sum_univ_four]
  rfl

/-- An index in row `I·1024 + p` lies in row block `I`, at row `p` of it. -/
theorem rowBlk_mk (I : Fin 8) (p : Fin 1024) (q : Fin 128) (h : I.val * 1024 + p.val < 8192) :
    rowBlk (ix2 (⟨I.val * 1024 + p.val, h⟩ : Fin 8192) q) = I :=
  Fin.ext (by show (I.val * 1024 + p.val) / 1024 = I.val; have := p.isLt; omega)
theorem inBlk_mk (I : Fin 8) (p : Fin 1024) (q : Fin 128) (h : I.val * 1024 + p.val < 8192) :
    inBlk (ix2 (⟨I.val * 1024 + p.val, h⟩ : Fin 8192) q) = ix2 p q := by
  funext a; apply Fin.ext
  match a with
  | ⟨0, _⟩ => show (I.val * 1024 + p.val) % 1024 = p.val; have := p.isLt; omega
  | ⟨1, _⟩ => rfl

/-- THE RESULT ARRAY ON THE EXTENDED REALS, entry by entry. -/
theorem G_apply_ideal (M : S8192x8192.Idx → Elt Ideal .bf16) (sy : S8192x128.Idx → Elt Ideal .bf16) (y : S8192x128.Idx → Elt Ideal .f32) (dv : S8192x1.Idx → Elt Ideal .f32) (bias : S1x128.Idx → Elt Ideal .f32) (r : Fin 8192) (q : Fin 128) :
    G (F := Ideal) M sy y dv bias (ix2 r q)
      = dv (ix2 r (0 : Fin 1)) * (∑ j : Fin 8192, M (ix2 r j) * sy (ix2 j q)) + (dv (ix2 r (0 : Fin 1)) * dv (ix2 r (0 : Fin 1))) * y (ix2 r q) + bias (ix2 (0 : Fin 1) q) := by
  obtain ⟨I, p, rfl⟩ : ∃ (I : Fin 8) (p : Fin 1024), r = ⟨I.val * 1024 + p.val, by have := I.isLt; have := p.isLt; omega⟩ := by
    have hr : r.val < 8192 := r.isLt
    exact ⟨⟨r.val / 1024, by omega⟩, ⟨r.val % 1024, Nat.mod_lt _ (by norm_num)⟩, Fin.ext (by show r.val = r.val / 1024 * 1024 + r.val % 1024; omega)⟩
  show blockVal M sy y dv bias (rowBlk _) (inBlk _) = _
  rw [rowBlk_mk, inBlk_mk]
  unfold blockVal
  rw [pay3_apply, acc3_apply, sum_split]
  rfl

end Cert.KernelIdeal.R3

end
-- ==== Proof.KI.Chain.lean ====
/-
  The kernel program's result, followed through the program: the contents of each buffer a region is entered with, as
  the host stages of the argument arrays and of the earlier regions' outputs, and so the result buffer at the end as
  the composition of the four regions' array functions with the host stages between them.
-/
import proofs.«102678_j21827023798522_2_alg».proof.Proof.KI.Regs
import proofs.«102678_j21827023798522_2_alg».proof.Proof.KI.Stages
import proofs.«102678_j21827023798522_2_alg».proof.Proof.KI.R0
import proofs.«102678_j21827023798522_2_alg».proof.Proof.KI.R1Ideal
import proofs.«102678_j21827023798522_2_alg».proof.Proof.KI.R2Ideal
import proofs.«102678_j21827023798522_2_alg».proof.Proof.KI.R3Ideal
import Idealize.ShloMosaic.Lib.StableHlo.Run

set_option maxRecDepth 16384

noncomputable section

namespace Cert.KernelIdeal.KerValue

open Idealize.ShloMosaic Idealize.ShloMosaic.TcCoe Idealize.SL.Sem Idealize.ShloMosaic.StableHlo
open Cert.KernelIdeal Cert.KernelIdeal.Gen Cert.KernelIdeal.Asm Cert.KernelIdeal.Facts₀ Cert.KernelIdeal.Facts

variable (m : (ℓ : Loc nD τ sig) → Buf (Elt Ideal) ℓ) (c : Dev nD)

local notation "I0" => (reg0Data (F := Ideal))
local notation "I1" => (reg1Data (F := Ideal))
local notation "I2" => (reg2Data (F := Ideal))
local notation "I3" => (reg3Data (F := Ideal))

/-- The argument arrays. -/
abbrev aX : FVec Ideal S8192x512 .f32 := m ((c.tc : Thread nD τ).loc main_arg0)
abbrev aAdj : FVec Ideal S8192x8192 .f32 := m ((c.tc : Thread nD τ).loc main_arg1)
abbrev aSw : FVec Ideal S8192x8192 .f32 := m ((c.tc : Thread nD τ).loc main_arg2)
abbrev aBias : FVec Ideal S8192 .f32 := m ((c.tc : Thread nD τ).loc main_arg3)
abbrev aW0 : FVec Ideal S512x256 .f32 := m ((c.tc : Thread nD τ).loc main_arg4)
abbrev aB0 : FVec Ideal S256 .f32 := m ((c.tc : Thread nD τ).loc main_arg5)
abbrev aW1 : FVec Ideal S256x256 .f32 := m ((c.tc : Thread nD τ).loc main_arg6)
abbrev aB1 : FVec Ideal S256 .f32 := m ((c.tc : Thread nD τ).loc main_arg7)
abbrev aW2 : FVec Ideal S256x40 .f32 := m ((c.tc : Thread nD τ).loc main_arg8)
abbrev aB2 : FVec Ideal S40 .f32 := m ((c.tc : Thread nD τ).loc main_arg9)

/-- The modified adjacency the first region leaves. -/
abbrev kM : FVec Ideal S8192x8192 .bf16 := R0.G (F := Ideal) (kA (aAdj m c)) (kA (aSw m c)) (kBias (aBias m c))

/-! ## Before and after region 0 -/

theorem u1_v0 : U1 m c main_v0 = kA (aAdj m c) := by
  show StableHlo.after hostOps0 (fun b => m (c, b)) (Proc.devRef .tc main_v0) = _
  after_results
  rfl
theorem u1_v1 : U1 m c main_v1 = kA (aSw m c) := by
  show StableHlo.after hostOps0 (fun b => m (c, b)) (Proc.devRef .tc main_v1) = _
  after_results
  rfl
theorem u1_v2 : U1 m c main_v2 = kBias (aBias m c) := by
  show StableHlo.after hostOps0 (fun b => m (c, b)) (Proc.devRef .tc main_v2) = _
  after_results
  rfl

/-- Region 0 leaves the modified adjacency of the cast operands and the bias row. -/
theorem x0_eq : x0 m I0 c = kM m c := by
  unfold x0
  refine (R0.final (fun c b => U1 m c b) c).trans ?_
  show R0.G (F := Ideal) (U1 m c main_v0) (U1 m c main_v1) (U1 m c main_v2) = _
  rw [u1_v0, u1_v1, u1_v2]

/-- An argument array is as launched wherever it is read. -/
theorem arg_of {r : Ref sig .tc} (h0 : r ∉ (hostOps0_W : List (Ref sig .tc))) : V1 m c r = m ((c.tc : Thread nD τ).loc r) :=
  V1_of m c r h0

theorem u2_v3 : U2 m I0 c main_v3 = kM m c := by
  show Function.update (U1 m c) (Proc.devRef .tc main_v3) (x0 m I0 c) (Proc.devRef .tc main_v3) = _
  rw [Function.update_self, x0_eq]
theorem u2_of {r : Ref sig .tc} (h : r ∉ ([main_v3] : List (Ref sig .tc))) : U2 m I0 c r = V1 m c r := by
  show Function.update (U1 m c) (Proc.devRef .tc main_v3) (x0 m I0 c) (Proc.devRef .tc r) = _
  rw [Function.update_of_ne (StableHlo.devRef_ne_of_ne (List.ne_of_not_mem_cons h))]

/-! ## The first host stretch after region 0 -/

theorem u3_v11 : U3 m I0 c main_v11 = kDv (kM m c) := by
  show StableHlo.after hostOps1 (U2 m I0 c) (Proc.devRef .tc main_v11) = _
  after_results
  rw [u2_v3]
  rfl
theorem u3_v12 : U3 m I0 c main_v12 = kY0 (aX m c) (aW0 m c) := by
  show StableHlo.after hostOps1 (U2 m I0 c) (Proc.devRef .tc main_v12) = _
  after_results
  rw [u2_of m c (r := main_arg0) (by decide), u2_of m c (r := main_arg4) (by decide), arg_of m c (by decide), arg_of m c (by decide)]
  rfl
theorem u3_v13 : U3 m I0 c main_v13 = kRow256 (aB0 m c) := by
  show StableHlo.after hostOps1 (U2 m I0 c) (Proc.devRef .tc main_v13) = _
  after_results
  rw [u2_of m c (r := main_arg5) (by decide), arg_of m c (by decide)]
  rfl
theorem u3_v16 : U3 m I0 c main_v16 = kSY256 (kDv (kM m c)) (kY0 (aX m c) (aW0 m c)) := by
  show StableHlo.after hostOps1 (U2 m I0 c) (Proc.devRef .tc main_v16) = _
  after_results
  rw [u2_v3, u2_of m c (r := main_arg0) (by decide), u2_of m c (r := main_arg4) (by decide), arg_of m c (by decide), arg_of m c (by decide)]
  rfl
theorem u3_of {r : Ref sig .tc} (h : r ∉ (hostOps1_W : List (Ref sig .tc))) : U3 m I0 c r = U2 m I0 c r :=
  StableHlo.after_of_writes_sub hostOps1 _ hostOps1_writes h

/-- Region 1 leaves the first layer. -/
theorem x1_eq : x1 m I0 I1 c = kLayer (R1.G (F := Ideal)) (kM m c) (kDv (kM m c)) (kY0 (aX m c) (aW0 m c)) (aB0 m c) := by
  unfold x1
  refine (R1.final (fun c b => U3 m I0 c b) c).trans ?_
  show R1.G (F := Ideal) (U3 m I0 c main_v3) (U3 m I0 c main_v16) (U3 m I0 c main_v12) (U3 m I0 c main_v11) (U3 m I0 c main_v13) = _
  rw [u3_of m c (r := main_v3) (by decide), u2_v3, u3_v16, u3_v12, u3_v11, u3_v13]
  rfl

/-! ## After region 1: the second layer -/

theorem u4_v17 : U4 m I0 I1 c main_v17 = x1 m I0 I1 c := by
  show Function.update (U3 m I0 c) (Proc.devRef .tc main_v17) (x1 m I0 I1 c) (Proc.devRef .tc main_v17) = _
  rw [Function.update_self]
theorem u4_of {r : Ref sig .tc} (h : r ∉ ([main_v17] : List (Ref sig .tc))) : U4 m I0 I1 c r = U3 m I0 c r := by
  show Function.update (U3 m I0 c) (Proc.devRef .tc main_v17) (x1 m I0 I1 c) (Proc.devRef .tc r) = _
  rw [Function.update_of_ne (StableHlo.devRef_ne_of_ne (List.ne_of_not_mem_cons h))]
/-- An argument array read after region 1. -/
theorem u4_arg {r : Ref sig .tc} (h4 : r ∉ ([main_v17] : List (Ref sig .tc))) (h3 : r ∉ (hostOps1_W : List (Ref sig .tc)))
    (h2 : r ∉ ([main_v3] : List (Ref sig .tc))) (h0 : r ∉ (hostOps0_W : List (Ref sig .tc))) :
    U4 m I0 I1 c r = m ((c.tc : Thread nD τ).loc r) :=
  (u4_of m c h4).trans ((u3_of m c h3).trans ((u2_of m c h2).trans (arg_of m c h0)))

/-- The first layer, as the second layer's input. -/
abbrev kH0 : FVec Ideal S8192x256 .f32 := kLayer (R1.G (F := Ideal)) (kM m c) (kDv (kM m c)) (kY0 (aX m c) (aW0 m c)) (aB0 m c)

theorem u5_v18 : U5 m I0 I1 c main_v18 = kY1 (kH0 m c) (aW1 m c) := by
  show StableHlo.after hostOps2 (U4 m I0 I1 c) (Proc.devRef .tc main_v18) = _
  after_results
  rw [u4_v17, x1_eq, u4_arg m c (r := main_arg6) (by decide) (by decide) (by decide) (by decide)]
  rfl
theorem u5_v19 : U5 m I0 I1 c main_v19 = kRow256 (aB1 m c) := by
  show StableHlo.after hostOps2 (U4 m I0 I1 c) (Proc.devRef .tc main_v19) = _
  after_results
  rw [u4_arg m c (r := main_arg7) (by decide) (by decide) (by decide) (by decide)]
  rfl
theorem u5_v22 : U5 m I0 I1 c main_v22 = kSY256 (kDv (kM m c)) (kY1 (kH0 m c) (aW1 m c)) := by
  show StableHlo.after hostOps2 (U4 m I0 I1 c) (Proc.devRef .tc main_v22) = _
  after_results
  rw [u4_v17, x1_eq, u4_arg m c (r := main_arg6) (by decide) (by decide) (by decide) (by decide),
    u4_of m c (r := main_v11) (by decide), u3_v11]
  rfl
theorem u5_of {r : Ref sig .tc} (h : r ∉ (hostOps2_W : List (Ref sig .tc))) : U5 m I0 I1 c r = U4 m I0 I1 c r :=
  StableHlo.after_of_writes_sub hostOps2 _ hostOps2_writes h

/-- Region 2 leaves the second layer. -/
theorem x2_eq : x2 m I0 I1 I2 c = kLayer (R2.G (F := Ideal)) (kM m c) (kDv (kM m c)) (kY1 (kH0 m c) (aW1 m c)) (aB1 m c) := by
  unfold x2
  refine (R2.final (fun c b => U5 m I0 I1 c b) c).trans ?_
  show R2.G (F := Ideal) (U5 m I0 I1 c main_v3) (U5 m I0 I1 c main_v22) (U5 m I0 I1 c main_v18) (U5 m I0 I1 c main_v11) (U5 m I0 I1 c main_v19) = _
  rw [u5_of m c (r := main_v3) (by decide), u4_of m c (r := main_v3) (by decide), u3_of m c (r := main_v3) (by decide), u2_v3,
    u5_v22, u5_v18, u5_of m c (r := main_v11) (by decide), u4_of m c (r := main_v11) (by decide), u3_v11, u5_v19]
  rfl

/-! ## After region 2: the third layer, padded to 128 lanes -/

/-- The second layer, as the third layer's input. -/
abbrev kH1 : FVec Ideal S8192x256 .f32 := kLayer (R2.G (F := Ideal)) (kM m c) (kDv (kM m c)) (kY1 (kH0 m c) (aW1 m c)) (aB1 m c)

theorem u6_v23 : U6 m I0 I1 I2 c main_v23 = x2 m I0 I1 I2 c := by
  show Function.update (U5 m I0 I1 c) (Proc.devRef .tc main_v23) (x2 m I0 I1 I2 c) (Proc.devRef .tc main_v23) = _
  rw [Function.update_self]
theorem u6_of {r : Ref sig .tc} (h : r ∉ ([main_v23] : List (Ref sig .tc))) : U6 m I0 I1 I2 c r = U5 m I0 I1 c r := by
  show Function.update (U5 m I0 I1 c) (Proc.devRef .tc main_v23) (x2 m I0 I1 I2 c) (Proc.devRef .tc r) = _
  rw [Function.update_of_ne (StableHlo.devRef_ne_of_ne (List.ne_of_not_mem_cons h))]
/-- An argument array read after region 2. -/
theorem u6_arg {r : Ref sig .tc} (h6 : r ∉ ([main_v23] : List (Ref sig .tc))) (h5 : r ∉ (hostOps2_W : List (Ref sig .tc)))
    (h4 : r ∉ ([main_v17] : List (Ref sig .tc))) (h3 : r ∉ (hostOps1_W : List (Ref sig .tc)))
    (h2 : r ∉ ([main_v3] : List (Ref sig .tc))) (h0 : r ∉ (hostOps0_W : List (Ref sig .tc))) :
    U6 m I0 I1 I2 c r = m ((c.tc : Thread nD τ).loc r) :=
  (u6_of m c h6).trans ((u5_of m c h5).trans (u4_arg m c h4 h3 h2 h0))
/-- The modified adjacency and the degree column are still where the earlier items left them. -/
theorem u6_v3 : U6 m I0 I1 I2 c main_v3 = kM m c :=
  (u6_of m c (by decide)).trans ((u5_of m c (by decide)).trans ((u4_of m c (by decide)).trans ((u3_of m c (by decide)).trans (u2_v3 m c))))
theorem u6_v11 : U6 m I0 I1 I2 c main_v11 = kDv (kM m c) :=
  (u6_of m c (by decide)).trans ((u5_of m c (by decide)).trans ((u4_of m c (by decide)).trans (u3_v11 m c)))

/-- The third layer's features, 40 wide. -/
abbrev kY2raw : FVec Ideal S8192x40 .f32 := kY2r (kH1 m c) (aW2 m c)

theorem u11_v25 : U11 m I0 I1 I2 c main_v25 = kY2 (kY2raw m c) := by
  show StableHlo.after hostOps3_4 (StableHlo.after hostOps3_3 (StableHlo.after hostOps3_2 (StableHlo.after hostOps3_1
    (StableHlo.after hostOps3 (U6 m I0 I1 I2 c))))) (Proc.devRef .tc main_v25) = _
  after_results
  rw [u6_v23, x2_eq, u6_arg m c (r := main_arg8) (by decide) (by decide) (by decide) (by decide) (by decide) (by decide)]
  rfl
theorem u11_v27 : U11 m I0 I1 I2 c main_v27 = kB2 (aB2 m c) := by
  show StableHlo.after hostOps3_4 (StableHlo.after hostOps3_3 (StableHlo.after hostOps3_2 (StableHlo.after hostOps3_1
    (StableHlo.after hostOps3 (U6 m I0 I1 I2 c))))) (Proc.devRef .tc main_v27) = _
  after_results
  rw [u6_arg m c (r := main_arg9) (by decide) (by decide) (by decide) (by decide) (by decide) (by decide)]
  rfl
theorem u11_v30 : U11 m I0 I1 I2 c main_v30 = kSY128 (kDv (kM m c)) (kY2 (kY2raw m c)) := by
  show StableHlo.after hostOps3_4 (StableHlo.after hostOps3_3 (StableHlo.after hostOps3_2 (StableHlo.after hostOps3_1
    (StableHlo.after hostOps3 (U6 m I0 I1 I2 c))))) (Proc.devRef .tc main_v30) = _
  after_results
  rw [u6_v23, x2_eq, u6_arg m c (r := main_arg8) (by decide) (by decide) (by decide) (by decide) (by decide) (by decide), u6_v11]
  rfl
theorem u11_v3 : U11 m I0 I1 I2 c main_v3 = kM m c := by
  show StableHlo.after hostOps3_4 (StableHlo.after hostOps3_3 (StableHlo.after hostOps3_2 (StableHlo.after hostOps3_1
    (StableHlo.after hostOps3 (U6 m I0 I1 I2 c))))) (Proc.devRef .tc main_v3) = _
  after_results
  exact u6_v3 m c
theorem u11_v11 : U11 m I0 I1 I2 c main_v11 = kDv (kM m c) := by
  show StableHlo.after hostOps3_4 (StableHlo.after hostOps3_3 (StableHlo.after hostOps3_2 (StableHlo.after hostOps3_1
    (StableHlo.after hostOps3 (U6 m I0 I1 I2 c))))) (Proc.devRef .tc main_v11) = _
  after_results
  exact u6_v11 m c

/-- Region 3 leaves the third layer, 128 lanes wide. -/
theorem x3_eq : x3 m I0 I1 I2 I3 c = kLayer3 (R3.G (F := Ideal)) (kM m c) (kDv (kM m c)) (kY2raw m c) (aB2 m c) := by
  unfold x3
  refine (R3.final (fun c b => U11 m I0 I1 I2 c b) c).trans ?_
  show R3.G (F := Ideal) (U11 m I0 I1 I2 c main_v3) (U11 m I0 I1 I2 c main_v30) (U11 m I0 I1 I2 c main_v25) (U11 m I0 I1 I2 c main_v11) (U11 m I0 I1 I2 c main_v27) = _
  rw [u11_v3, u11_v30, u11_v25, u11_v11, u11_v27]
  rfl

/-! ## The end -/

/-- THE KERNEL PROGRAM'S RESULT: the four regions' array functions composed with the host stages between them, on the
    argument arrays. -/
theorem result_eq : U14 m I0 I1 I2 I3 c main_v33
    = kOut (R0.G (F := Ideal)) (R1.G (F := Ideal)) (R2.G (F := Ideal)) (R3.G (F := Ideal))
        (aAdj m c) (aSw m c) (aBias m c) (aX m c) (aW0 m c) (aB0 m c) (aW1 m c) (aB1 m c) (aW2 m c) (aB2 m c) := by
  have e : U14 m I0 I1 I2 I3 c main_v33 = kLsm (kSlice (U12 m I0 I1 I2 I3 c main_v31)) := by
    show StableHlo.after hostOps4_1 (StableHlo.after hostOps4 (U12 m I0 I1 I2 I3 c)) (Proc.devRef .tc main_v33) = _
    after_results
    simp only [TRef.ofBuf, TRef.toBuf, cast_eq]
    rfl
  rw [e, show U12 m I0 I1 I2 I3 c (Proc.devRef .tc main_v31) = x3 m I0 I1 I2 I3 c from Function.update_self _ _ _, x3_eq]
  unfold kOut kNet
  rfl

end Cert.KernelIdeal.KerValue

end
-- ==== Proof.LibVecColumn.lean ====
/-
  A vector as a column, two spellings, and a vector as a row. A vector v of length a becomes the column [a, 1] either by a reshape (a cast
  that keeps the row-major order) or by a broadcast that sends the vector's axis to the first axis of the column.
  Both read v(p) at the entry (p, 0), so they are the same array. This is the step between a per-row count reshaped to
  a column and the same count indexed with a new trailing axis. A vector of length b reshaped to the row [1, b] reads
  v(j) at (0, j): this is how a bias vector is handed to a kernel that adds it to every row of a block.
-/
import proofs.«102678_j21827023798522_2_alg».proof.Proof.LibColumn

noncomputable section

namespace Cert.LibVecColumn

open Idealize.ShloMosaic Idealize.ShloMosaic.ValueIdx

/-- The broadcast of a vector [a] along a new trailing unit axis reads, at (p, u), the vector at p: the vector's
    one axis is sent to the column's first axis, whose coordinate is p (and if a = 1 then p = 0 anyway). -/
theorem broadcastInDim_a_a1_apply {α : Type} {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The reshape of a vector to a column and its broadcast along a new trailing axis are the same array. -/
theorem shapeCast_eq_broadcastInDim {α : Type} {a : ℕ} (x : (⟨1, ![a]⟩ : Shape).Idx → α)
    (h₁ : (⟨1, ![a]⟩ : Shape).ShapeCasts ⟨2, ![a, 1]⟩)
    (h₂ : (⟨1, ![a]⟩ : Shape).BroadcastsInDim ⟨2, ![a, 1]⟩ ![0]) :
    shapeCast ⟨2, ![a, 1]⟩ x h₁ = broadcastInDim ⟨2, ![a, 1]⟩ ![0] h₂ x := by
  funext i
  obtain ⟨p, u, rfl⟩ : ∃ (p : Fin a) (u : Fin 1), i = ix2 p u := ⟨i 0, i 1, eq_ix2 i⟩
  rw [Cert.LibColumn.shapeCast_a_a1_apply, broadcastInDim_a_a1_apply]

/-- A vector [b] cast to a row [1, b] reads, at (u, j), the vector at j: the row-major position of (u, j) in [1, b]
    is u · b + j with u = 0, the position j of the vector's entry. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibVecColumn

end
-- ==== Proof.LibMatrixBroadcast.lean ====
/-
  A COLUMN, A ROW AND A SCALAR REPEATED OVER A MATRIX, READ AT ONE ENTRY.

  A broadcast that names, for each axis of its operand, the axis of the result it goes to, reads the operand at
  the result's coordinate on a shared axis and at 0 on an axis where the operand has extent one. Three cases,
  general in the extents and in the element type:

    a column [a, 1] over [a, b] (axes to themselves):   entry (p, q) is the column at (p, 0);
    a row    [1, b] over [a, b] (axes to themselves):   entry (p, q) is the row at (0, q);
    a scalar over any shape:                            every entry is the scalar.

  The first is how a per-row scale multiplies every entry of its row, the second how a bias row is added to every
  row, the third a constant array.
-/
import Idealize.ShloMosaic.Lib.ValueIdx
import Idealize.ShloMosaic.Lib.Pipeline.Value

noncomputable section

namespace Cert.LibMatrixBroadcast

open Idealize.ShloMosaic Idealize.ShloMosaic.ValueIdx

/-- A column [a, 1] broadcast to [a, b], each axis to itself, reads at (p, q) the column at (p, 0): the first
    axis's coordinate p is kept (and if a = 1 then p = 0 anyway); the second axis of the column has extent one,
    so its coordinate is 0. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ => rfl

/-- A row [1, b] broadcast to [a, b], each axis to itself, reads at (p, q) the row at (0, q): the first axis of
    the row has extent one, so its coordinate is 0; the second axis's coordinate q is kept (and if b = 1 then
    q = 0 anyway). -/
theorem broadcastInDim_1b_ab_apply {α : Type} {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ => rfl
  | ⟨1, _⟩ =>
    show q.val = if b = 1 then 0 else q.val
    split
    · have := q.isLt; omega
    · rfl

/-- A scalar broadcast to any shape reads the scalar at every entry: the scalar has no axis, so it has a single
    index and nothing to compare. -/
theorem broadcastInDim_scalar_apply {α : Type} {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun ax => ax.elim0

end Cert.LibMatrixBroadcast

end
-- ==== Proof.KI.StagesApply.lean ====
/-
  The kernel program's host stages read at an index. A change of format is the identity at the extended reals; a
  vector reshaped to a row reads the vector; a product of two matrices reads the sum over the contracted coordinate;
  a column broadcast along the rows and multiplied entrywise scales each row; padding on the high side of the last
  axis leaves the first 40 lanes as they were, and the slice of the first 40 lanes reads them back.
-/
import proofs.«102678_j21827023798522_2_alg».proof.Proof.KI.Stages
import proofs.«102678_j21827023798522_2_alg».proof.Proof.LibPlainDot
import proofs.«102678_j21827023798522_2_alg».proof.Proof.LibVecColumn
import proofs.«102678_j21827023798522_2_alg».proof.Proof.LibMatrixBroadcast
import Idealize.ShloMosaic.Lib.KernelVsHost
import Idealize.ShloMosaic.Lib.Pipeline.Value

noncomputable section

open scoped BigOperators

namespace Cert.KernelIdeal.KerValue

open Idealize.ShloMosaic Idealize.ShloMosaic.ValueIdx
open Cert.KernelIdeal Cert.KernelIdeal.Facts₀ Cert.KernelIdeal.Facts Cert.Spec

/-! ### Casts and rows -/

theorem kA_apply (a : FVec Ideal S8192x8192 .f32) (i : S8192x8192.Idx) : kA a i = a i := rfl

theorem kBias_apply (b : FVec Ideal S8192 .f32) (q : Fin 8192) : kBias b (ix2 (0 : Fin 1) q) = b (ix1 q) :=
  Cert.LibVecColumn.shapeCast_b_1b_apply b shapeCasts_S8192_S1x8192 0 q

theorem kRow256_apply (b : FVec Ideal S256 .f32) (q : Fin 256) : kRow256 b (ix2 (0 : Fin 1) q) = b (ix1 q) :=
  Cert.LibVecColumn.shapeCast_b_1b_apply b shapeCasts_S256_S1x256 0 q

/-! ### The products of the features with the weights -/

theorem kY0_apply (x : FVec Ideal S8192x512 .f32) (W : FVec Ideal S512x256 .f32) (r : Fin 8192) (q : Fin 256) :
    kY0 x W (ix2 r q) = ∑ k : Fin 512, x (ix2 r k) * W (ix2 k q) :=
  Cert.LibPlainDot.dotGeneral_apply (M := 8192) (K := 512) (N := 256) none .single x W r q

theorem kY1_apply (h : FVec Ideal S8192x256 .f32) (W : FVec Ideal S256x256 .f32) (r : Fin 8192) (q : Fin 256) :
    kY1 h W (ix2 r q) = ∑ k : Fin 256, h (ix2 r k) * W (ix2 k q) :=
  Cert.LibPlainDot.dotGeneral_apply (M := 8192) (K := 256) (N := 256) none .single h W r q

theorem kY2r_apply (h : FVec Ideal S8192x256 .f32) (W : FVec Ideal S256x40 .f32) (r : Fin 8192) (q : Fin 40) :
    kY2r h W (ix2 r q) = ∑ k : Fin 256, h (ix2 r k) * W (ix2 k q) :=
  Cert.LibPlainDot.dotGeneral_apply (M := 8192) (K := 256) (N := 40) none .single h W r q

/-! ### The features scaled row by row -/

theorem kSY256_apply (dv : FVec Ideal S8192x1 .f32) (y : FVec Ideal S8192x256 .f32) (r : Fin 8192) (q : Fin 256) :
    kSY256 dv y (ix2 r q) = dv (ix2 r (0 : Fin 1)) * y (ix2 r q) := by
  show broadcastInDim S8192x256 ![0, 1] bcast_S8192x1_S8192x256_0_1 dv (ix2 r q) * y (ix2 r q) = _
  rw [Cert.LibMatrixBroadcast.broadcastInDim_a1_ab_apply dv bcast_S8192x1_S8192x256_0_1 r q]

theorem kSY128_apply (dv : FVec Ideal S8192x1 .f32) (y : FVec Ideal S8192x128 .f32) (r : Fin 8192) (q : Fin 128) :
    kSY128 dv y (ix2 r q) = dv (ix2 r (0 : Fin 1)) * y (ix2 r q) := by
  show broadcastInDim S8192x128 ![0, 1] bcast_S8192x1_S8192x128_0_1 dv (ix2 r q) * y (ix2 r q) = _
  rw [Cert.LibMatrixBroadcast.broadcastInDim_a1_ab_apply dv bcast_S8192x1_S8192x128_0_1 r q]

/-! ### Padding to 128 lanes and the slice back to 40 -/

theorem kY2_apply (y : FVec Ideal S8192x40 .f32) (r : Fin 8192) (q : Fin 40) :
    kY2 y (ix2 r (Fin.castLE (by decide : 40 ≤ 128) q)) = y (ix2 r q) := by
  unfold kY2
  refine pad_apply_of_inside _ _ _ y kPad0 pads_S8192x40_S8192x128_000_0880 h_S_ _ (ix2 r q) fun a => ?_
  match a with
  | ⟨0, _⟩ => show r.val = 0 + r.val * (0 + 1); omega
  | ⟨1, _⟩ => show q.val = 0 + q.val * (0 + 1); omega

theorem kB2_apply (b : FVec Ideal S40 .f32) (q : Fin 40) :
    kB2 b (ix2 (0 : Fin 1) (Fin.castLE (by decide : 40 ≤ 128) q)) = b (ix1 q) := by
  unfold kB2
  rw [Cert.LibVecColumn.shapeCast_b_1b_apply _ shapeCasts_S128_S1x128 0 (Fin.castLE (by decide : 40 ≤ 128) q)]
  refine pad_apply_of_inside _ _ _ b kPad0 pads_S40_S128_0880 h_S_ _ (ix1 q) fun a => ?_
  match a with
  | ⟨0, _⟩ => show q.val = 0 + q.val * (0 + 1); omega

theorem kSlice_apply (h : FVec Ideal S8192x128 .f32) (r : Fin 8192) (q : Fin 40) :
    kSlice h (ix2 r q) = h (ix2 r (Fin.castLE (by decide : 40 ≤ 128) q)) := by
  unfold kSlice
  refine extractStridedSlice_apply _ h slices_S8192x128_S8192x40_0_0 _ _ fun a => ?_
  match a with
  | ⟨0, _⟩ => show r.val = 0 + r.val; omega
  | ⟨1, _⟩ => show q.val = 0 + q.val; omega

end Cert.KernelIdeal.KerValue

end
-- ==== Proof.LibColumnVec.lean ====
/-
  Two readings at one entry, general in the extents: a column made a vector, and the square root of an array of
  extended reals.

  A per-row quantity is often kept as a column [a, 1] (one value per row, the second axis of extent one) and handed on
  as a plain vector [a]. The cast changes no value: entry i of the vector is entry (i, 0) of the column. And the array
  square root of a host program takes the square root of each entry.
-/
import Idealize.ShloMosaic.PureOps.Ideal
import Idealize.ShloMosaic.Lib.ValueIdx
import Idealize.ShloMosaic.Lib.Pipeline.Value

noncomputable section

namespace Cert.LibColumnVec

open Idealize.ShloMosaic Idealize.ShloMosaic.ValueIdx

/-- A column [a, 1] cast to a vector [a] reads, at i, the column at (i, 0). A cast keeps the row-major position: the
    position of (i, 0) in [a, 1] is i · 1 + 0 = i, which is the position of i in [a]. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i 0) :=
  shapeCast_apply x h _ _ (by
    rw [Shape.rowMajor_val_two, Shape.rowMajor_val_one]
    show i.val * 1 + 0 = i.val
    rw [Nat.mul_one, Nat.add_zero])

/-- The host program's square root of an array of extended reals is, at each index, the square root of the entry
    there. -/
theorem hostSqrt_apply {s : Shape} (x : FVec Ideal s .f32) (i : s.Idx) : Host.sqrt x i = Ideal.sqrt (x i) := by
  unfold Host.sqrt
  exact Ideal.hostUnary_sqrt_def (x i)

end Cert.LibColumnVec

end
-- ==== Proof.LibReal.lean ====
/-
  "Every entry is a real number" is preserved by the pointwise operations and the constants of the two
  programs, read at the extended reals. A float is an extended real; an array is real when none of its
  entries is an infinity. Sums, differences, products and maxima of two reals are real; a finite sum of
  reals is real; the bit patterns of 0, 1, 0.5, 300000, 50000 and 2^-17 * 1.3107... (about 1e-5) denote
  reals, the last four positive.
-/
import proofs.«102678_j21827023798522_2_alg».proof.Proof.Spec
import Idealize.ShloMosaic.PureOps.Ideal.Laws

noncomputable section

namespace Cert.LibReal

open Idealize.ShloMosaic Cert.Spec

/-! ### Extended reals: sums, differences, products, maxima and finite sums of reals are real -/

/-- The sum of two reals is a real. -/
theorem real_add {a b : EReal} (ha : ∃ r : ℝ, a = (r : EReal)) (hb : ∃ r : ℝ, b = (r : EReal)) :
    ∃ r : ℝ, a + b = (r : EReal) := by
  obtain ⟨r, rfl⟩ := ha; obtain ⟨q, rfl⟩ := hb; exact ⟨r + q, (EReal.coe_add r q).symm⟩

/-- The difference of two reals is a real. -/
theorem real_sub {a b : EReal} (ha : ∃ r : ℝ, a = (r : EReal)) (hb : ∃ r : ℝ, b = (r : EReal)) :
    ∃ r : ℝ, a - b = (r : EReal) := by
  obtain ⟨r, rfl⟩ := ha; obtain ⟨q, rfl⟩ := hb; exact ⟨r - q, (EReal.coe_sub r q).symm⟩

/-- The product of two reals is a real. -/
theorem real_mul {a b : EReal} (ha : ∃ r : ℝ, a = (r : EReal)) (hb : ∃ r : ℝ, b = (r : EReal)) :
    ∃ r : ℝ, a * b = (r : EReal) := by
  obtain ⟨r, rfl⟩ := ha; obtain ⟨q, rfl⟩ := hb; exact ⟨r * q, (EReal.coe_mul r q).symm⟩

/-- The maximum of two reals is a real. -/
theorem real_max {a b : EReal} (ha : ∃ r : ℝ, a = (r : EReal)) (hb : ∃ r : ℝ, b = (r : EReal)) :
    ∃ r : ℝ, max a b = (r : EReal) := by
  obtain ⟨r, rfl⟩ := ha; obtain ⟨q, rfl⟩ := hb
  rcases le_total r q with h | h
  · exact ⟨q, max_eq_right (EReal.coe_le_coe_iff.2 h)⟩
  · exact ⟨r, max_eq_left (EReal.coe_le_coe_iff.2 h)⟩

/-- Zero is a real. -/
theorem real_zero : ∃ r : ℝ, (0 : EReal) = (r : EReal) := ⟨0, EReal.coe_zero.symm⟩

/-- The coercion of a finite sum of reals is the sum of the coercions. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem real_finset_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

/-- A finite sum of nonnegative extended reals is nonnegative. -/
theorem nonneg_finset_sum {ι : Type} (s : Finset ι) (f : ι → EReal) (h : ∀ i ∈ s, 0 ≤ f i) :
    0 ≤ ∑ i ∈ s, f i := Finset.sum_nonneg h

/-! ### Pointwise operations -/

section Pointwise
variable {s : Shape}

/-- The entrywise sum of two real arrays is real. -/
theorem isReal_addf {x y : FVec Ideal s .f32} (hx : IsReal x) (hy : IsReal y) : IsReal (addf x y) :=
  fun i => real_add (hx i) (hy i)

/-- The entrywise difference of two real arrays is real. -/
theorem isReal_subf {x y : FVec Ideal s .f32} (hx : IsReal x) (hy : IsReal y) : IsReal (subf x y) :=
  fun i => real_sub (hx i) (hy i)

/-- The entrywise product of two real arrays is real. -/
theorem isReal_mulf {x y : FVec Ideal s .f32} (hx : IsReal x) (hy : IsReal y) : IsReal (mulf x y) :=
  fun i => real_mul (hx i) (hy i)

/-- The entrywise maximum of two real arrays is real. -/
theorem isReal_maximumf {x y : FVec Ideal s .f32} (hx : IsReal x) (hy : IsReal y) : IsReal (maximumf x y) :=
  fun i => real_max (hx i) (hy i)

/-- The entrywise product of a real array with itself is nonnegative. -/
theorem nonneg_mulf_self {x : FVec Ideal s .f32} (hx : IsReal x) (i : s.Idx) : 0 ≤ mulf x x i := by
  obtain ⟨r, hr⟩ := hx i
  show 0 ≤ x i * x i
  rw [hr, ← EReal.coe_mul]
  exact_mod_cast mul_self_nonneg r

/-- The entrywise maximum with a nonnegative array is nonnegative. -/
theorem nonneg_maximumf_right {x y : FVec Ideal s .f32} (hy : ∀ i, 0 ≤ y i) (i : s.Idx) : 0 ≤ maximumf x y i :=
  le_max_of_le_right (hy i)

end Pointwise

/-! ### Constants -/

/-- The splat of a bit pattern that denotes a real is a real array. -/
theorem isReal_constant (s : Shape) (w : BitVec 32) (h : ∃ r : ℝ, Ideal.ofBits .f32 w = (r : EReal)) :
    IsReal (constant (F := Ideal) s .f32 w) := fun _ => h

/-- The pattern of `+0.0` denotes `0`. -/
theorem ofBits_zero : Ideal.ofBits .f32 0x00000000#32 = ((0 : ℝ) : EReal) := by
  simp [Ideal.ofBits, Ideal.ieee]

/-- The pattern of `1.0` denotes `1`. -/
theorem ofBits_one : Ideal.ofBits .f32 0x3F800000#32 = ((1 : ℝ) : EReal) := by
  simp [Ideal.ofBits, Ideal.ieee, -EReal.coe_mul]; norm_num

/-- The pattern of `0.5` denotes `1/2`. -/
theorem ofBits_half : Ideal.ofBits .f32 0x3F000000#32 = ((1 / 2 : ℝ) : EReal) := by
  simp [Ideal.ofBits, Ideal.ieee, -EReal.coe_mul]; norm_num

/-- The pattern of `300000.0` denotes `300000`. -/
theorem ofBits_300000 : Ideal.ofBits .f32 0x48927C00#32 = ((300000 : ℝ) : EReal) := by
  simp [Ideal.ofBits, Ideal.ieee, -EReal.coe_mul]; norm_num

/-- The pattern of `50000.0` denotes `50000`. -/
theorem ofBits_50000 : Ideal.ofBits .f32 0x47435000#32 = ((50000 : ℝ) : EReal) := by
  simp [Ideal.ofBits, Ideal.ieee, -EReal.coe_mul]; norm_num

/-- The pattern `0x3727C5AC` (the float nearest `1e-5`) denotes `10995116 / 2^40`. -/
theorem ofBits_eps : Ideal.ofBits .f32 0x3727C5AC#32 = ((10995116 / 1099511627776 : ℝ) : EReal) := by
  simp [Ideal.ofBits, Ideal.ieee, -EReal.coe_mul]; norm_num

/-- The six patterns denote reals; the last four denote positive reals. -/
theorem real_ofBits_zero : ∃ r : ℝ, Ideal.ofBits .f32 0x00000000#32 = (r : EReal) := ⟨_, ofBits_zero⟩
theorem real_ofBits_one : ∃ r : ℝ, Ideal.ofBits .f32 0x3F800000#32 = (r : EReal) := ⟨_, ofBits_one⟩
theorem real_ofBits_half : ∃ r : ℝ, Ideal.ofBits .f32 0x3F000000#32 = (r : EReal) := ⟨_, ofBits_half⟩
theorem real_ofBits_300000 : ∃ r : ℝ, Ideal.ofBits .f32 0x48927C00#32 = (r : EReal) := ⟨_, ofBits_300000⟩
theorem real_ofBits_50000 : ∃ r : ℝ, Ideal.ofBits .f32 0x47435000#32 = (r : EReal) := ⟨_, ofBits_50000⟩
theorem real_ofBits_eps : ∃ r : ℝ, Ideal.ofBits .f32 0x3727C5AC#32 = (r : EReal) := ⟨_, ofBits_eps⟩
theorem pos_ofBits_half : ∃ r : ℝ, 0 < r ∧ Ideal.ofBits .f32 0x3F000000#32 = (r : EReal) :=
  ⟨_, by norm_num, ofBits_half⟩
theorem pos_ofBits_300000 : ∃ r : ℝ, 0 < r ∧ Ideal.ofBits .f32 0x48927C00#32 = (r : EReal) :=
  ⟨_, by norm_num, ofBits_300000⟩
theorem pos_ofBits_50000 : ∃ r : ℝ, 0 < r ∧ Ideal.ofBits .f32 0x47435000#32 = (r : EReal) :=
  ⟨_, by norm_num, ofBits_50000⟩
theorem pos_ofBits_eps : ∃ r : ℝ, 0 < r ∧ Ideal.ofBits .f32 0x3727C5AC#32 = (r : EReal) :=
  ⟨_, by norm_num, ofBits_eps⟩

end Cert.LibReal

end
-- ==== Proof.KI.StagesDv.lean ====
/-
  The degree column and the modified adjacency of the kernel program, read at an entry on the extended reals.

  The degree column at row r is one over the root of (the sum of row r of the modified adjacency, plus one): the
  program sums the row from the zero word, adds the splat of the word of 1, takes the root and divides the splat of 1
  by it, then casts the vector to a column. The modified adjacency is the first region's value at the two operands
  cast to the matrix unit's format (the identity on the extended reals) and the bias cast to a row.
-/
import proofs.«102678_j21827023798522_2_alg».proof.Proof.KI.Stages
import proofs.«102678_j21827023798522_2_alg».proof.Proof.LibColumn
import proofs.«102678_j21827023798522_2_alg».proof.Proof.LibColumnVec
import proofs.«102678_j21827023798522_2_alg».proof.Proof.LibVecColumn
import proofs.«102678_j21827023798522_2_alg».proof.Proof.LibMatrixBroadcast
import proofs.«102678_j21827023798522_2_alg».proof.Proof.LibReal
import Idealize.ShloMosaic.PureOps.Ideal.Laws
import Idealize.ShloMosaic.Lib.ValueIdx

noncomputable section

open scoped BigOperators

namespace Cert.KernelIdeal.KerValue

open Idealize.ShloMosaic Idealize.ShloMosaic.ValueIdx
open Cert.KernelIdeal Cert.KernelIdeal.Facts₀ Cert.KernelIdeal.Facts Cert.Spec

/-- The host's sum of a matrix's rows from the zero word: at row r the sum over the columns of the entries (r, j). -/
theorem rowSum_read (x : FVec Ideal S8192x8192 .f32) (r : Fin 8192) :
    Host.reduceAdd x (constant S_ .f32 0x00000000#32) reducesTo_S8192x8192_S8192_d1 h_S_ (ix1 r)
      = ∑ j : Fin 8192, x (ix2 r j) := by
  simp only [Host.reduceAdd, Ideal.hostReduceAdd_def]
  rw [Ideal.hostReduceAdd_single reducesTo_S8192x8192_S8192_d1 (by decide)]
  show Ideal.ofBits .f32 0x00000000#32 + _ = _
  rw [Ideal.ofBits_zero_f32, zero_add]
  exact Finset.sum_congr rfl fun k _ => congrArg x (funext fun a => Fin.ext (by
    match a with
    | ⟨0, _⟩ => rfl
    | ⟨1, _⟩ => rfl))

/-- The splat of the word of 1 is 1 at every entry. -/
theorem ones_read (i : S8192.Idx) :
    broadcastInDim S8192 ![] bcast_S_S8192 (constant (F := Ideal) S_ .f32 0x3F800000#32) i = 1 := by
  rw [Cert.LibMatrixBroadcast.broadcastInDim_scalar_apply]
  show Ideal.ofBits .f32 0x3F800000#32 = 1
  rw [Cert.LibReal.ofBits_one]
  exact EReal.coe_one

/-- THE DEGREE COLUMN at row r: one over the root of the row sum plus one. -/
theorem kDv_apply (M : FVec Ideal S8192x8192 .bf16) (r : Fin 8192) :
    kDv M (ix2 r (0 : Fin 1)) = Cert.Spec.dinvK (Cert.Spec.mat M) r := by
  unfold kDv
  rw [Cert.LibColumn.shapeCast_a_a1_apply]
  unfold Host.divf
  simp only [Ideal.hostDivf_def]
  rw [ones_read, Cert.LibColumnVec.hostSqrt_apply, addf_apply, ones_read, rowSum_read]
  rfl

/-- THE MODIFIED ADJACENCY: the first region's value at the cast operands and the bias row is the entrywise maximum with
    zero of the product plus the bias. -/
theorem kM_eq (G0 : FVec Ideal S8192x8192 .bf16 → FVec Ideal S8192x8192 .bf16 → FVec Ideal S1x8192 .f32 → FVec Ideal S8192x8192 .bf16)
    (hG0 : ∀ a b bias (r q : Fin 8192), G0 a b bias (ix2 r q)
      = max ((∑ k : Fin 8192, a (ix2 r k) * b (ix2 k q)) + bias (ix2 (0 : Fin 1) q)) 0)
    (adj sw : FVec Ideal S8192x8192 .f32) (bias : FVec Ideal S8192 .f32) :
    G0 (kA adj) (kA sw) (kBias bias)
      = Cert.Spec.arr2 (Cert.Spec.modAdj (Cert.Spec.mat adj) (Cert.Spec.mat sw) (Cert.Spec.vec bias)) := by
  funext p
  obtain ⟨r, q, rfl⟩ : ∃ (r q : Fin 8192), p = ix2 r q := ⟨p 0, p 1, eq_ix2 p⟩
  rw [hG0]
  unfold kBias
  rw [Cert.LibVecColumn.shapeCast_b_1b_apply]
  rfl

end Cert.KernelIdeal.KerValue

end
-- ==== Proof.KI.Compose.lean ====
import proofs.«102678_j21827023798522_2_alg».proof.Proof.KI.StagesApply
import proofs.«102678_j21827023798522_2_alg».proof.Proof.KI.StagesDv

noncomputable section

open scoped BigOperators

namespace Cert.KernelIdeal.KerValue

open Idealize.ShloMosaic Idealize.ShloMosaic.ValueIdx
open Cert.KernelIdeal Cert.KernelIdeal.Facts₀ Cert.KernelIdeal.Facts Cert.Spec

/-! # The kernel program's result is the specification's network

Each region computes, entry by entry, a row scale times a matrix product plus the scaled features plus a bias; the host
stages between the regions are products, scalings, paddings and a slice. Read at an index, layer by layer, the composition
is the three-layer network that never forms the normalised adjacency, followed by the row-wise log-softmax. Nothing here
needs finiteness: every step is a reading at an index or a definition unfolded. -/

/-- A feature product as a function of the coordinates is the product of the two matrices. -/
theorem mat_kY0 (x : FVec Ideal S8192x512 .f32) (W : FVec Ideal S512x256 .f32) : mat (kY0 x W) = mm (mat x) (mat W) :=
  funext fun r => funext fun q => kY0_apply x W r q
theorem mat_kY1 (h : FVec Ideal S8192x256 .f32) (W : FVec Ideal S256x256 .f32) : mat (kY1 h W) = mm (mat h) (mat W) :=
  funext fun r => funext fun q => kY1_apply h W r q
theorem mat_kY2r (h : FVec Ideal S8192x256 .f32) (W : FVec Ideal S256x40 .f32) : mat (kY2r h W) = mm (mat h) (mat W) :=
  funext fun r => funext fun q => kY2r_apply h W r q

/-- The degree column read down its rows is the specification's degree vector. -/
theorem kDv_col (M : FVec Ideal S8192x8192 .bf16) : (fun i : Fin 8192 => kDv M (ix2 i (0 : Fin 1))) = dinvK (mat M) :=
  funext fun r => kDv_apply M r

/-- A HIDDEN LAYER: the region on the scaled features is the layer that never forms the normalised adjacency, followed
    by the maximum with zero. -/
theorem kLayer_eq (G : FVec Ideal S8192x8192 .bf16 → FVec Ideal S8192x256 .bf16 → FVec Ideal S8192x256 .f32 → FVec Ideal S8192x1 .f32 → FVec Ideal S1x256 .f32 → FVec Ideal S8192x256 .f32)
    (hG : ∀ M sy y dv bias (r : Fin 8192) (q : Fin 256), G M sy y dv bias (ix2 r q) = max (dv (ix2 r (0 : Fin 1)) * (∑ j : Fin 8192, M (ix2 r j) * sy (ix2 j q)) + (dv (ix2 r (0 : Fin 1)) * dv (ix2 r (0 : Fin 1))) * y (ix2 r q) + bias (ix2 (0 : Fin 1) q)) 0)
    (M : FVec Ideal S8192x8192 .bf16) (dv : FVec Ideal S8192x1 .f32) (y : FVec Ideal S8192x256 .f32) (b : FVec Ideal S256 .f32) :
    kLayer G M dv y b = arr2 (relu (layerK (fun i => dv (ix2 i (0 : Fin 1))) (mat M) (mat y) (vec b))) := by
  funext i
  obtain ⟨r, q, rfl⟩ : ∃ (r : Fin 8192) (q : Fin 256), i = ix2 r q := ⟨i 0, i 1, eq_ix2 i⟩
  unfold kLayer
  rw [hG]
  simp only [kSY256_apply, kRow256_apply]
  rfl

/-- THE LAST LAYER, its first 40 lanes: the padded lanes are never read. -/
theorem kLayer3_slice_eq (G3 : FVec Ideal S8192x8192 .bf16 → FVec Ideal S8192x128 .bf16 → FVec Ideal S8192x128 .f32 → FVec Ideal S8192x1 .f32 → FVec Ideal S1x128 .f32 → FVec Ideal S8192x128 .f32)
    (hG3 : ∀ M sy y dv bias (r : Fin 8192) (q : Fin 128), G3 M sy y dv bias (ix2 r q) = dv (ix2 r (0 : Fin 1)) * (∑ j : Fin 8192, M (ix2 r j) * sy (ix2 j q)) + (dv (ix2 r (0 : Fin 1)) * dv (ix2 r (0 : Fin 1))) * y (ix2 r q) + bias (ix2 (0 : Fin 1) q))
    (M : FVec Ideal S8192x8192 .bf16) (dv : FVec Ideal S8192x1 .f32) (y : FVec Ideal S8192x40 .f32) (b : FVec Ideal S40 .f32) :
    kSlice (kLayer3 G3 M dv y b) = arr2 (layerK (fun i => dv (ix2 i (0 : Fin 1))) (mat M) (mat y) (vec b)) := by
  funext i
  obtain ⟨r, q, rfl⟩ : ∃ (r : Fin 8192) (q : Fin 40), i = ix2 r q := ⟨i 0, i 1, eq_ix2 i⟩
  rw [kSlice_apply]
  unfold kLayer3
  rw [hG3]
  simp only [kSY128_apply, kY2_apply, kB2_apply]
  rfl

/-- THE WHOLE PROGRAM: over regions that compute what their entry-by-entry readings say, the kernel program's result is
    the log-softmax of the three-layer network on the modified adjacency. -/
theorem kOut_eq (G0 : FVec Ideal S8192x8192 .bf16 → FVec Ideal S8192x8192 .bf16 → FVec Ideal S1x8192 .f32 → FVec Ideal S8192x8192 .bf16)
    (G1 G2 : FVec Ideal S8192x8192 .bf16 → FVec Ideal S8192x256 .bf16 → FVec Ideal S8192x256 .f32 → FVec Ideal S8192x1 .f32 → FVec Ideal S1x256 .f32 → FVec Ideal S8192x256 .f32)
    (G3 : FVec Ideal S8192x8192 .bf16 → FVec Ideal S8192x128 .bf16 → FVec Ideal S8192x128 .f32 → FVec Ideal S8192x1 .f32 → FVec Ideal S1x128 .f32 → FVec Ideal S8192x128 .f32)
    (hG0 : ∀ a b bias (r q : Fin 8192), G0 a b bias (ix2 r q) = max ((∑ k : Fin 8192, a (ix2 r k) * b (ix2 k q)) + bias (ix2 (0 : Fin 1) q)) 0)
    (hG1 : ∀ M sy y dv bias (r : Fin 8192) (q : Fin 256), G1 M sy y dv bias (ix2 r q) = max (dv (ix2 r (0 : Fin 1)) * (∑ j : Fin 8192, M (ix2 r j) * sy (ix2 j q)) + (dv (ix2 r (0 : Fin 1)) * dv (ix2 r (0 : Fin 1))) * y (ix2 r q) + bias (ix2 (0 : Fin 1) q)) 0)
    (hG2 : ∀ M sy y dv bias (r : Fin 8192) (q : Fin 256), G2 M sy y dv bias (ix2 r q) = max (dv (ix2 r (0 : Fin 1)) * (∑ j : Fin 8192, M (ix2 r j) * sy (ix2 j q)) + (dv (ix2 r (0 : Fin 1)) * dv (ix2 r (0 : Fin 1))) * y (ix2 r q) + bias (ix2 (0 : Fin 1) q)) 0)
    (hG3 : ∀ M sy y dv bias (r : Fin 8192) (q : Fin 128), G3 M sy y dv bias (ix2 r q) = dv (ix2 r (0 : Fin 1)) * (∑ j : Fin 8192, M (ix2 r j) * sy (ix2 j q)) + (dv (ix2 r (0 : Fin 1)) * dv (ix2 r (0 : Fin 1))) * y (ix2 r q) + bias (ix2 (0 : Fin 1) q))
    (adj sw : FVec Ideal S8192x8192 .f32) (bias : FVec Ideal S8192 .f32) (x : FVec Ideal S8192x512 .f32)
    (W0 : FVec Ideal S512x256 .f32) (b0 : FVec Ideal S256 .f32) (W1 : FVec Ideal S256x256 .f32) (b1 : FVec Ideal S256 .f32)
    (W2 : FVec Ideal S256x40 .f32) (b2 : FVec Ideal S40 .f32) :
    kOut G0 G1 G2 G3 adj sw bias x W0 b0 W1 b1 W2 b2
      = lsm (arr2 (gcnK (mat adj) (mat sw) (vec bias) (mat x) (mat W0) (vec b0) (mat W1) (vec b1) (mat W2) (vec b2))) := by
  unfold kOut kNet
  rw [kLsm_eq, kM_eq G0 hG0 adj sw bias]
  rw [kLayer3_slice_eq G3 hG3, kLayer_eq G2 hG2, kLayer_eq G1 hG1]
  simp only [kDv_col, mat_arr2, mat_kY0, mat_kY1, mat_kY2r]
  rfl

end Cert.KernelIdeal.KerValue

end
-- ==== Proof.RefClaims.lean ====
/-
  The reference program's frame claim: it runs and leaves its arguments unchanged. This is the run of the program
  with the statement about the result dropped; the precondition is not needed.
-/
import proofs.«102678_j21827023798522_2_alg».proof.Defs
import proofs.«102678_j21827023798522_2_alg».proof.Proof.Gen.Pre_finite_inputs
import proofs.«102678_j21827023798522_2_alg».proof.Proof.RefRunP

noncomputable section

namespace Cert.ReferenceIdeal.RefValue

open Idealize.ShloMosaic Idealize.SL.Sem

theorem frame_ref :
    Cert.frame_ReferenceIdeal (hReferenceIdeal := Cert.ReferenceIdeal.Gen.facts)
      (hPre_finite_inputs := Cert.Pre_finite_inputs.Gen.facts) :=
  fun m g _ => (θ_run _ _ _).mono (fun _ h c => (h c).2) (Cert.ReferenceIdeal.ValueP.run (F := Ideal) m g)

end Cert.ReferenceIdeal.RefValue

end
-- ==== Proof.RefIsSpec.lean ====
/-
  The reference program's result, read index by index, is the specification's network in the form that forms the
  normalised adjacency, followed by the row-wise log-softmax.

  Stage by stage: the modified adjacency M (a product of the two square arguments plus the broadcast bias, maximum
  with zero); the self loops (the comparison of the two iotas, converted, is the identity matrix's entry); the row
  sums, their roots and reciprocals d; the normalised adjacency d i * (M i j + [i = j]) * d j; then three times a
  product with the weights, a product with the normalised adjacency and the broadcast bias, the first two followed
  by the maximum with zero. The remaining operations are the log-softmax, which is the specification's lsm as
  printed.
-/
import proofs.«102678_j21827023798522_2_alg».proof.Proof.RefReadP
import proofs.«102678_j21827023798522_2_alg».proof.Proof.Spec

noncomputable section

open scoped BigOperators

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx Cert.Spec

/-! ### The self loops -/

/-- The comparison of a row number with a column number, both below 2^32, converted to a float, is the identity
    matrix's entry. -/
theorem eye_word (a b : Fin 8192) :
    FloatOps.uitofp (F := Ideal) .f32 (IntOp.cmpi .eq (IntOp.addi (BitVec.ofNat 32 a.val) (0#32)) (BitVec.ofNat 32 b.val))
      = eye a b := by
  show (((BitVec.ofBool (BitVec.ofNat 32 a.val + 0#32 == BitVec.ofNat 32 b.val)).toNat : ℝ) : EReal) = eye a b
  unfold eye
  by_cases h : a = b
  · subst h; simp
  · have hne : ¬ (BitVec.ofNat 32 a.val = BitVec.ofNat 32 b.val) := by
      intro e
      have e' := congrArg BitVec.toNat e
      simp only [BitVec.toNat_ofNat] at e'
      rw [Nat.mod_eq_of_lt (by omega), Nat.mod_eq_of_lt (by omega)] at e'
      exact h (Fin.ext e')
    simp [h, hne]

section Stages
variable (x0 : (⟨S8192x512, .f32⟩ : BufTy).Contents (Elt Ideal)) (x1 x2 : (⟨S8192x8192, .f32⟩ : BufTy).Contents (Elt Ideal))
  (x3 : (⟨S8192, .f32⟩ : BufTy).Contents (Elt Ideal)) (x4 : (⟨S512x256, .f32⟩ : BufTy).Contents (Elt Ideal))
  (x5 : (⟨S256, .f32⟩ : BufTy).Contents (Elt Ideal)) (x6 : (⟨S256x256, .f32⟩ : BufTy).Contents (Elt Ideal))
  (x7 : (⟨S256, .f32⟩ : BufTy).Contents (Elt Ideal)) (x8 : (⟨S256x40, .f32⟩ : BufTy).Contents (Elt Ideal))
  (x9 : (⟨S40, .f32⟩ : BufTy).Contents (Elt Ideal))

/-! ### The modified adjacency and the adjacency with self loops -/

theorem v4_apply (i : S8192x8192.Idx) :
    val_main_v4 (F := Ideal) x1 x2 x3 i = modAdj (mat x1) (mat x2) (vec x3) (i 0) (i 1) := by
  rw [val_main_v4_apply, val_main_v3_apply, val_main_v0_apply, val_main_v2_apply, val_main_v1_apply,
    val_main_call0_v0_apply, val_main_call0_cst_apply]
  simp only [Ideal.maximumf_def, Ideal.addf_def, Ideal.ofBits_def, Ideal.ofBits_zero_f32]
  unfold modAdj mat vec
  have e1 : ∀ k, lidx_main_v0 i k = ix2 (i 0) k := fun k => idx2_ext rfl rfl
  have e2 : ∀ k, ridx_main_v0 i k = ix2 k (i 1) := fun k => idx2_ext rfl rfl
  have e3 : idx_main_v1 (idx_main_v2 i) = ix1 (i 1) := idx1_ext rfl
  rw [e3, Finset.sum_congr rfl fun k _ => by rw [e1 k, e2 k]]
  rfl

theorem v10_apply (i : S8192x8192.Idx) : val_main_v10 (F := Ideal) i = eye (i 0) (i 1) := by
  rw [val_main_v10_apply, val_main_v9_apply, val_main_v8_apply, val_main_v5_apply, val_main_v7_apply, val_main_c_apply,
    val_main_v6_apply]
  exact eye_word (i 0) (i 1)

theorem v11_apply (i : S8192x8192.Idx) :
    val_main_v11 (F := Ideal) x1 x2 x3 i = aRef (modAdj (mat x1) (mat x2) (vec x3)) (i 0) (i 1) := by
  rw [val_main_v11_apply, v4_apply, v10_apply]; rfl

/-! ### One over the root of the row sum, and the normalised adjacency -/

theorem v15_apply (i : S8192.Idx) :
    val_main_v15 (F := Ideal) x1 x2 x3 i = dinvRef (modAdj (mat x1) (mat x2) (vec x3)) (i 0) := by
  rw [val_main_v15_apply, val_main_v14_apply, val_main_cst_0_apply, val_main_v13_apply, val_main_v12_apply,
    val_main_cst_apply]
  simp only [Ideal.hostDivf_def, Ideal.hostUnary_sqrt_def, Ideal.ofBits_def, Ideal.ofBits_zero_f32, Ideal.ofBits_one_f32,
    zero_add, v11_apply]
  rfl

theorem v21_apply (i : S8192x8192.Idx) :
    val_main_v21 (F := Ideal) x1 x2 x3 i = adjF (modAdj (mat x1) (mat x2) (vec x3)) (i 0) (i 1) := by
  rw [val_main_v21_apply, val_main_v18_apply, val_main_v17_apply, val_main_v16_apply, val_main_v20_apply,
    val_main_v19_apply]
  simp only [v15_apply, v11_apply]
  rfl

/-! ### The first layer -/

theorem v22_apply (i : S8192x256.Idx) : val_main_v22 (F := Ideal) x0 x4 i = (mm (mat x0) (mat x4)) (i 0) (i 1) := by
  rw [val_main_v22_apply]
  unfold mm mat
  have e1 : ∀ k, lidx_main_v22 i k = ix2 (i 0) k := fun k => idx2_ext rfl rfl
  have e2 : ∀ k, ridx_main_v22 i k = ix2 k (i 1) := fun k => idx2_ext rfl rfl
  rw [Finset.sum_congr rfl fun k _ => by rw [e1 k, e2 k]]
  rfl

theorem v26_apply (i : S8192x256.Idx) :
    val_main_v26 (F := Ideal) x0 x1 x2 x3 x4 x5 i = (layerRef (adjF (modAdj (mat x1) (mat x2) (vec x3))) (mm (mat x0) (mat x4)) (vec x5)) (i 0) (i 1) := by
  rw [val_main_v26_apply, val_main_v23_apply, val_main_v25_apply, val_main_v24_apply]
  simp only [v21_apply, v22_apply, Ideal.addf_def]
  have e3 : idx_main_v24 (idx_main_v25 i) = ix1 (i 1) := idx1_ext rfl
  rw [e3]
  rfl

theorem v27_apply (i : S8192x256.Idx) :
    val_main_v27 (F := Ideal) x0 x1 x2 x3 x4 x5 i = relu (layerRef (adjF (modAdj (mat x1) (mat x2) (vec x3))) (mm (mat x0) (mat x4)) (vec x5)) (i 0) (i 1) := by
  rw [val_main_v27_apply, v26_apply, val_main_call1_v0_apply, val_main_call1_cst_apply]
  simp only [Ideal.maximumf_def, Ideal.ofBits_def, Ideal.ofBits_zero_f32]
  rfl

/-! ### The second layer -/

theorem v28_apply (i : S8192x256.Idx) :
    val_main_v28 (F := Ideal) x0 x1 x2 x3 x4 x5 x6 i = (mm (relu (layerRef (adjF (modAdj (mat x1) (mat x2) (vec x3))) (mm (mat x0) (mat x4)) (vec x5))) (mat x6)) (i 0) (i 1) := by
  rw [val_main_v28_apply]
  simp only [v27_apply]
  unfold mm mat
  have e2 : ∀ k, ridx_main_v28 i k = ix2 k (i 1) := fun k => idx2_ext rfl rfl
  rw [Finset.sum_congr rfl fun k _ => by rw [e2 k]]
  rfl

theorem v32_apply (i : S8192x256.Idx) :
    val_main_v32 (F := Ideal) x0 x1 x2 x3 x4 x5 x6 x7 i = (layerRef (adjF (modAdj (mat x1) (mat x2) (vec x3))) (mm (relu (layerRef (adjF (modAdj (mat x1) (mat x2) (vec x3))) (mm (mat x0) (mat x4)) (vec x5))) (mat x6)) (vec x7)) (i 0) (i 1) := by
  rw [val_main_v32_apply, val_main_v29_apply, val_main_v31_apply, val_main_v30_apply]
  simp only [v21_apply, v28_apply, Ideal.addf_def]
  have e3 : idx_main_v30 (idx_main_v31 i) = ix1 (i 1) := idx1_ext rfl
  rw [e3]
  rfl

theorem v33_apply (i : S8192x256.Idx) :
    val_main_v33 (F := Ideal) x0 x1 x2 x3 x4 x5 x6 x7 i = relu (layerRef (adjF (modAdj (mat x1) (mat x2) (vec x3))) (mm (relu (layerRef (adjF (modAdj (mat x1) (mat x2) (vec x3))) (mm (mat x0) (mat x4)) (vec x5))) (mat x6)) (vec x7)) (i 0) (i 1) := by
  rw [val_main_v33_apply, v32_apply, val_main_call2_v0_apply, val_main_call2_cst_apply]
  simp only [Ideal.maximumf_def, Ideal.ofBits_def, Ideal.ofBits_zero_f32]
  rfl

/-! ### The third layer -/

theorem v34_apply (i : S8192x40.Idx) :
    val_main_v34 (F := Ideal) x0 x1 x2 x3 x4 x5 x6 x7 x8 i = (mm (relu (layerRef (adjF (modAdj (mat x1) (mat x2) (vec x3))) (mm (relu (layerRef (adjF (modAdj (mat x1) (mat x2) (vec x3))) (mm (mat x0) (mat x4)) (vec x5))) (mat x6)) (vec x7))) (mat x8)) (i 0) (i 1) := by
  rw [val_main_v34_apply]
  simp only [v33_apply]
  unfold mm mat
  have e2 : ∀ k, ridx_main_v34 i k = ix2 k (i 1) := fun k => idx2_ext rfl rfl
  rw [Finset.sum_congr rfl fun k _ => by rw [e2 k]]
  rfl

theorem v38_apply (i : S8192x40.Idx) :
    val_main_v38 (F := Ideal) x0 x1 x2 x3 x4 x5 x6 x7 x8 x9 i = (layerRef (adjF (modAdj (mat x1) (mat x2) (vec x3))) (mm (relu (layerRef (adjF (modAdj (mat x1) (mat x2) (vec x3))) (mm (relu (layerRef (adjF (modAdj (mat x1) (mat x2) (vec x3))) (mm (mat x0) (mat x4)) (vec x5))) (mat x6)) (vec x7))) (mat x8)) (vec x9)) (i 0) (i 1) := by
  rw [val_main_v38_apply, val_main_v35_apply, val_main_v37_apply, val_main_v36_apply]
  simp only [v21_apply, v34_apply, Ideal.addf_def]
  have e3 : idx_main_v36 (idx_main_v37 i) = ix1 (i 1) := idx1_ext rfl
  rw [e3]
  rfl

/-- The third layer's result is the specification's network, in the form that forms the normalised adjacency. -/
theorem v38_eq :
    val_main_v38 (F := Ideal) x0 x1 x2 x3 x4 x5 x6 x7 x8 x9
      = arr2 (gcnRef (mat x1) (mat x2) (vec x3) (mat x0) (mat x4) (vec x5) (mat x6) (vec x7) (mat x8) (vec x9)) := by
  funext i; rw [v38_apply]; rfl

/-! ### The log-softmax tail -/

/-- The remaining operations are the specification's log-softmax of the third layer's result, as printed. -/
theorem v39_eq_lsm :
    val_main_v39 (F := Ideal) x0 x1 x2 x3 x4 x5 x6 x7 x8 x9 = lsm (val_main_v38 (F := Ideal) x0 x1 x2 x3 x4 x5 x6 x7 x8 x9) := rfl

end Stages

/-- The reference run's result is the log-softmax of the specification's network (in the form that forms the
    normalised adjacency) of the ten arguments. -/
theorem ref_result (m : (ℓ : Loc nD τ sig) → Buf (Elt Ideal) ℓ) (c : Dev nD) :
    Cert.ReferenceIdeal.ValueP.res_main_v39 (F := Ideal) m c
      = lsm (arr2 (gcnRef (mat (m ((c.tc : Thread nD τ).loc main_arg1))) (mat (m ((c.tc : Thread nD τ).loc main_arg2)))
          (vec (m ((c.tc : Thread nD τ).loc main_arg3))) (mat (m ((c.tc : Thread nD τ).loc main_arg0)))
          (mat (m ((c.tc : Thread nD τ).loc main_arg4))) (vec (m ((c.tc : Thread nD τ).loc main_arg5)))
          (mat (m ((c.tc : Thread nD τ).loc main_arg6))) (vec (m ((c.tc : Thread nD τ).loc main_arg7)))
          (mat (m ((c.tc : Thread nD τ).loc main_arg8))) (vec (m ((c.tc : Thread nD τ).loc main_arg9))))) := by
  rw [val_main_v39_eq, v39_eq_lsm, v38_eq]

/-- The reference program's run, its result read as the specification: every weakly fair execution terminates with the
    result the log-softmax of the specification's network of the arguments, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v39)
        = lsm (arr2 (gcnRef (mat (m ((c.tc : Thread nD τ).loc main_arg1))) (mat (m ((c.tc : Thread nD τ).loc main_arg2)))
          (vec (m ((c.tc : Thread nD τ).loc main_arg3))) (mat (m ((c.tc : Thread nD τ).loc main_arg0)))
          (mat (m ((c.tc : Thread nD τ).loc main_arg4))) (vec (m ((c.tc : Thread nD τ).loc main_arg5)))
          (mat (m ((c.tc : Thread nD τ).loc main_arg6))) (vec (m ((c.tc : Thread nD τ).loc main_arg7)))
          (mat (m ((c.tc : Thread nD τ).loc main_arg8))) (vec (m ((c.tc : Thread nD τ).loc main_arg9)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (ref_result m c), (h c).2⟩)
    (Cert.ReferenceIdeal.ValueP.run (F := Ideal) m ρ)

end Cert.ReferenceIdeal.RefValue

end
-- ==== Proof.PreReal.lean ====
/-
  The precondition of the two programs: the function finite_inputs of the ten argument arrays is all ones. It is the
  conjunction, argument by argument, of "every |x| is less than +∞" (an and-reduction over the whole array of the
  comparison of the absolute value with the pattern of +∞). At the extended reals |x| = max x (-x) < ⊤ says that x
  is neither infinity, that is, a real number. So under the precondition every entry of every argument is real.
-/
import proofs.«102678_j21827023798522_2_alg».proof.Pre_finite_inputs
import proofs.«102678_j21827023798522_2_alg».proof.Proof.Spec
import Idealize.ShloMosaic.Lib.ReduceAll

noncomputable section

namespace Cert.PreReal

open Idealize.ShloMosaic Idealize.ShloMosaic.ValueIdx Cert.Spec Cert.Pre_finite_inputs

/-- An extended real whose absolute value is less than +∞ is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The comparison "|x| < the pattern of +∞" answering one says that x is real. -/
theorem real_of_flag (x : EReal)
    (h : FloatOps.cmpf (F := Ideal) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  change BitVec.ofBool (decide (max x (-x) < Ideal.ofBits .f32 0x7F800000#32)) = 1#1 at h
  rw [htop] at h
  apply real_of_abs_lt_top
  by_contra hn
  rw [decide_eq_false hn] at h
  exact absurd h (by decide)

instance : Subsingleton S_.Idx := ⟨fun a b => funext fun d => d.elim0⟩

/-- An array whose flags "|x| < +∞", reduced by and over all axes from one, give one is real. -/
theorem isReal_of_all {s : Shape} {axes : List (Fin s.rank)} (x : FVec Ideal s .f32)
    (hb : S_.BroadcastsInDim s (![] : Fin 0 → Fin s.rank)) (hr : s.ReducesTo axes S_) (hpos : 0 < S_.numel) (j : S_.Idx)
    (e : Host.reduce IntOp.andi (cmpf .olt (Host.absf x) (broadcastInDim s ![] hb (constant S_ .f32 0x7F800000#32)))
      (constantI S_ 1 1#1) hr hpos j = 1#1) : IsReal x := by
  intro i
  exact real_of_flag (x i) (Host.reduce_andi_all _ _ hr hpos j e i)

variable [Facts]

/-- Under the precondition every entry of each of the ten arguments is a real number. -/
theorem isReal_of_pre (x0 : FVec Ideal S8192x512 .f32) (x1 x2 : FVec Ideal S8192x8192 .f32) (x3 : FVec Ideal S8192 .f32)
    (x4 : FVec Ideal S512x256 .f32) (x5 : FVec Ideal S256 .f32) (x6 : FVec Ideal S256x256 .f32) (x7 : FVec Ideal S256 .f32)
    (x8 : FVec Ideal S256x40 .f32) (x9 : FVec Ideal S40 .f32)
    (h : fn (F := Ideal) x0 x1 x2 x3 x4 x5 x6 x7 x8 x9 = fun _ => 1#1) :
    IsReal x0 ∧ IsReal x1 ∧ IsReal x2 ∧ IsReal x3 ∧ IsReal x4 ∧ IsReal x5 ∧ IsReal x6 ∧ IsReal x7 ∧ IsReal x8
      ∧ IsReal x9 := by
  have e := congrFun h ix0
  dsimp only [fn, fn_part1, fn_part2] at e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨isReal_of_all x0 _ _ _ _ e0, isReal_of_all x1 _ _ _ _ e1, isReal_of_all x2 _ _ _ _ e2,
    isReal_of_all x3 _ _ _ _ e3, isReal_of_all x4 _ _ _ _ e4, isReal_of_all x5 _ _ _ _ e5, isReal_of_all x6 _ _ _ _ e6,
    isReal_of_all x7 _ _ _ _ e7, isReal_of_all x8 _ _ _ _ e8, isReal_of_all x9 _ _ _ _ e9⟩

end Cert.PreReal

end
-- ==== Proof.RefHalf.lean ====
/-
  The reference program's half of the value claim. From a memory that agrees with the kernel's on the ten arguments,
  the kernel's satisfying the precondition (every argument entry finite, hence real), the reference runs, leaves its
  arguments unchanged, and ends with the log-softmax of the specification's network in the form that never forms the
  normalised adjacency, of the KERNEL's argument arrays: the run gives the form that forms it, of the reference's own
  arguments; these are the kernel's; and on real arguments the two forms are the same array.
-/
import proofs.«102678_j21827023798522_2_alg».proof.Defs
import proofs.«102678_j21827023798522_2_alg».proof.Proof.Gen.Pre_finite_inputs
import proofs.«102678_j21827023798522_2_alg».proof.Proof.RefIsSpec
import proofs.«102678_j21827023798522_2_alg».proof.Proof.PreReal

noncomputable section

namespace Cert.ReferenceIdeal.RefValue

open Idealize.ShloMosaic Idealize.SL.Sem Cert.Spec

/-- The array both programs end with, of the kernel's argument arrays on device c. -/
def vK (m : (ℓ : Loc Cert.KernelIdeal.nD Cert.KernelIdeal.τ Cert.KernelIdeal.sig) → Buf (Elt Ideal) ℓ)
    (c : Dev Cert.KernelIdeal.nD) : FVec Ideal T40 .f32 :=
  lsm (arr2 (gcnK (mat (m ((c.tc : Thread Cert.KernelIdeal.nD Cert.KernelIdeal.τ).loc Cert.KernelIdeal.main_arg1))) (mat (m ((c.tc : Thread Cert.KernelIdeal.nD Cert.KernelIdeal.τ).loc Cert.KernelIdeal.main_arg2)))
            (vec (m ((c.tc : Thread Cert.KernelIdeal.nD Cert.KernelIdeal.τ).loc Cert.KernelIdeal.main_arg3))) (mat (m ((c.tc : Thread Cert.KernelIdeal.nD Cert.KernelIdeal.τ).loc Cert.KernelIdeal.main_arg0)))
            (mat (m ((c.tc : Thread Cert.KernelIdeal.nD Cert.KernelIdeal.τ).loc Cert.KernelIdeal.main_arg4))) (vec (m ((c.tc : Thread Cert.KernelIdeal.nD Cert.KernelIdeal.τ).loc Cert.KernelIdeal.main_arg5)))
            (mat (m ((c.tc : Thread Cert.KernelIdeal.nD Cert.KernelIdeal.τ).loc Cert.KernelIdeal.main_arg6))) (vec (m ((c.tc : Thread Cert.KernelIdeal.nD Cert.KernelIdeal.τ).loc Cert.KernelIdeal.main_arg7)))
            (mat (m ((c.tc : Thread Cert.KernelIdeal.nD Cert.KernelIdeal.τ).loc Cert.KernelIdeal.main_arg8))) (vec (m ((c.tc : Thread Cert.KernelIdeal.nD Cert.KernelIdeal.τ).loc Cert.KernelIdeal.main_arg9)))))

theorem ref_half [hPre : Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg) (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v39) = vK m c
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)) := by
  refine (θ_run _ _ _).mono (fun r h c => ⟨(h c).1.trans ?_, (h c).2⟩) (run_spec m' g')
  obtain ⟨a0, a1, a2, a3, a4, a5, a6, a7, a8, a9⟩ := hagree c
  obtain ⟨r0, r1, r2, r3, r4, r5, r6, r7, r8, r9⟩ := Cert.PreReal.isReal_of_pre _ _ _ _ _ _ _ _ _ _ (hpre c)
  rw [a0, a1, a2, a3, a4, a5, a6, a7, a8, a9]
  unfold vK
  exact congrArg (fun f => lsm (arr2 f))
    (gcnRef_eq_gcnK _ (isReal₂_mat r1) (isReal₂_mat r2) (isReal_vec r3) (isReal₂_mat r0) (isReal₂_mat r4) (isReal_vec r5)
      (isReal₂_mat r6) (isReal_vec r7) (isReal₂_mat r8))

end Cert.ReferenceIdeal.RefValue

end
-- ==== Proof.lean ====
/-
  A three-layer graph convolution, its normalised adjacency never formed, against the same network through the formed
  adjacency.

  Both programs start from mod_adj = max (adj · sw + bias) 0. The reference adds the identity, takes
  dinv = 1/√(row sum), forms adj_final(i,j) = dinv(i) · (mod_adj(i,j) + δ(i,j)) · dinv(j), and applies three layers
  adj_final · (h · W) + b, the first two followed by the maximum with zero, then a row-wise log-softmax. The kernel
  program computes mod_adj in one tiled matrix product (its k-blocks accumulated in a scratch block, bias and maximum
  applied at the last k-block), takes dinv = 1/√(row sum of mod_adj + 1), and computes each layer in a tiled product as
  dinv(i) · Σ_j mod_adj(i,j) · (dinv(j) · y(j,q)) + dinv(i)² · y(i,q) + b(q); the last layer is padded from 40 to 128 lanes
  and cut back before the same log-softmax.

  The two are the same function of real inputs: the row sum of mod_adj + identity is the row sum of mod_adj plus one;
  mod_adj is real and nonnegative, so that sum is at least one, its root a positive real and dinv a real; and over the
  reals Σ_j dinv(i) · (M(i,j) + δ(i,j)) · dinv(j) · y(j,q) = dinv(i) · Σ_j M(i,j) · dinv(j) · y(j,q) + dinv(i)² · y(i,q)
  by distributing the product over the sum and reading the identity's one nonzero term. Every layer's output is again
  real, so the law applies three times. Finiteness of the inputs is what makes every entry a real number; the padded lanes
  never reach the result, since the slice reads only the first 40.

  Each program's run is read off its own text: the reference's host operations composed (its generated run, repaired in a
  copy), the kernel program's four regions each run grid point by grid point with the accumulator carried in the
  region's invariant, their outputs the folded write-backs, composed with the host stages between them.
-/
import proofs.«102678_j21827023798522_2_alg».proof.Defs
import proofs.«102678_j21827023798522_2_alg».proof.Proof.Gen.Kernel
import proofs.«102678_j21827023798522_2_alg».proof.Proof.Gen.Kernel.Skeleton
import proofs.«102678_j21827023798522_2_alg».proof.Proof.Gen.Kernel.Launch
import proofs.«102678_j21827023798522_2_alg».proof.Proof.Gen.Kernel.Regions
import proofs.«102678_j21827023798522_2_alg».proof.Proof.Gen.Kernel.Points
import proofs.«102678_j21827023798522_2_alg».proof.Proof.Gen.KernelIdeal
import proofs.«102678_j21827023798522_2_alg».proof.Proof.Gen.KernelIdeal.Skeleton
import proofs.«102678_j21827023798522_2_alg».proof.Proof.Gen.KernelIdeal.Launch
import proofs.«102678_j21827023798522_2_alg».proof.Proof.Gen.KernelIdeal.Regions
import proofs.«102678_j21827023798522_2_alg».proof.Proof.Gen.KernelIdeal.Points
import proofs.«102678_j21827023798522_2_alg».proof.Proof.Gen.ReferenceIdeal
import proofs.«102678_j21827023798522_2_alg».proof.Proof.Gen.Pre_finite_inputs
import proofs.«102678_j21827023798522_2_alg».proof.Proof.K.Regs
import proofs.«102678_j21827023798522_2_alg».proof.Proof.KI.Chain
import proofs.«102678_j21827023798522_2_alg».proof.Proof.KI.Compose
import proofs.«102678_j21827023798522_2_alg».proof.Proof.RefClaims
import proofs.«102678_j21827023798522_2_alg».proof.Proof.RefHalf
import Idealize.ShloMosaic.Adequacy
import Idealize.ShloMosaic.Init

noncomputable section

namespace Cert.Proof

open Idealize.ShloMosaic Idealize.ShloMosaic.TcCoe Idealize.SL.Sem

/-- The word-level program runs to the end, faults nowhere and leaves its arguments as launched: its four regions'
    records under the launch theorem for a list of segments. -/
theorem frame_k : Cert.frame_Kernel (hKernel := Cert.Kernel.Gen.facts) (hPre_finite_inputs := Cert.Pre_finite_inputs.Gen.facts) :=
  fun m ρ _ => Cert.Kernel.Asm.frame m Cert.Kernel.Asm.reg0Data Cert.Kernel.Asm.reg1Data Cert.Kernel.Asm.reg2Data Cert.Kernel.Asm.reg3Data ρ

/-- The same of the idealized program. -/
theorem frame_ki : Cert.frame_KernelIdeal (hKernelIdeal := Cert.KernelIdeal.Gen.facts) (hPre_finite_inputs := Cert.Pre_finite_inputs.Gen.facts) :=
  fun m ρ _ => Cert.KernelIdeal.Asm.frame m Cert.KernelIdeal.Asm.reg0Data Cert.KernelIdeal.Asm.reg1Data Cert.KernelIdeal.Asm.reg2Data Cert.KernelIdeal.Asm.reg3Data ρ

/-- The idealized kernel program's result buffer ends at the network in the form that never forms the normalised
    adjacency, on the argument arrays: the regions and host stages composed (`result_eq`), each read at an index
    (`kOut_eq`). -/
theorem ker_value (m : (ℓ : Loc Cert.KernelIdeal.nD Cert.KernelIdeal.τ Cert.KernelIdeal.sig) → Buf (Elt Ideal) ℓ) (c : Dev Cert.KernelIdeal.nD) :
    Cert.KernelIdeal.Asm.U14 m Cert.KernelIdeal.Asm.reg0Data Cert.KernelIdeal.Asm.reg1Data Cert.KernelIdeal.Asm.reg2Data Cert.KernelIdeal.Asm.reg3Data c Cert.KernelIdeal.main_v33 = Cert.ReferenceIdeal.RefValue.vK m c :=
  (Cert.KernelIdeal.KerValue.result_eq m c).trans
    (Cert.KernelIdeal.KerValue.kOut_eq _ _ _ _
      (fun a b bias r q => Cert.KernelIdeal.R0.G_apply_ideal a b bias r q)
      (fun M sy y dv bias r q => Cert.KernelIdeal.R1.G_apply_ideal M sy y dv bias r q)
      (fun M sy y dv bias r q => Cert.KernelIdeal.R2.G_apply_ideal M sy y dv bias r q)
      (fun M sy y dv bias r q => Cert.KernelIdeal.R3.G_apply_ideal M sy y dv bias r q)
      _ _ _ _ _ _ _ _ _ _)

/-- From memories agreeing on the arguments both idealized programs run, and both result buffers end at the network on
    the kernel program's argument arrays: the kernel program's by its run and `ker_value`, the reference's by its run,
    the agreement, and the law between the two forms on real inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  fun m ρ m' ρ' hpre hagree => ⟨fun c => Cert.ReferenceIdeal.RefValue.vK m c,
    (θ_run Cert.KernelIdeal.defs _ _).mono (fun _ h c => ⟨(h c).1.trans (ker_value m c), (h c).2⟩)
      (Cert.KernelIdeal.Asm.run_main m Cert.KernelIdeal.Asm.reg0Data Cert.KernelIdeal.Asm.reg1Data Cert.KernelIdeal.Asm.reg2Data Cert.KernelIdeal.Asm.reg3Data ρ),
    Cert.ReferenceIdeal.RefValue.ref_half m m' ρ' hpre hagree⟩

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ref, trivial, algebraic⟩

end Cert.Proof

end
